-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S8192 : Shape := ⟨1, ![8192]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : IVec S8192 32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  main_v3
-- ==== Kernel.lean ====
abbrev S8192x3 : Shape := ⟨2, ![8192, 3]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x3 : Shape := ⟨2, ![128, 3]⟩
abbrev S128x1 : Shape := ⟨2, ![128, 1]⟩
abbrev S128x8192 : Shape := ⟨2, ![128, 8192]⟩
abbrev S67108864 : Shape := ⟨1, ![67108864]⟩
abbrev S_ : Shape := ⟨0, ![]⟩
abbrev S524288 : Shape := ⟨1, ![524288]⟩
abbrev S67108864x1 : Shape := ⟨2, ![67108864, 1]⟩
abbrev S524288x1 : Shape := ⟨2, ![524288, 1]⟩
abbrev S524288x3 : Shape := ⟨2, ![524288, 3]⟩
abbrev S1x524288 : Shape := ⟨2, ![1, 524288]⟩
abbrev S2x524288 : Shape := ⟨2, ![2, 524288]⟩

abbrev nBuf : Space → Nat
  | .hbm => 178
  | .vmem => 8
  | .smem => 0
  | _ => 0

abbrev hbmTy0_0 (i : Nat) : BufTy := match i % 128 with
  | 0 => ⟨S8192x3, .f32⟩
  | 1 => ⟨S8192, .i32⟩
  | 2 => ⟨S8192x1, .i32⟩
  | 3 => ⟨S1x8192, .i32⟩
  | 4 => ⟨S8192x8192, .i32⟩
  | 5 => ⟨S67108864, .i32⟩
  | 6 => ⟨S_, .i32⟩
  | 7 => ⟨S67108864, .i32⟩
  | 8 => ⟨S67108864, .i1⟩
  | 9 => ⟨S67108864, .i32⟩
  | 10 => ⟨S_, .i32⟩
  | 11 => ⟨S_, .i32⟩
  | 12 => ⟨S67108864, .i32⟩
  | 13 => ⟨S_, .i32⟩
  | 14 => ⟨S_, .i32⟩
  | 15 => ⟨S67108864, .i32⟩
  | 16 => ⟨S_, .i32⟩
  | 17 => ⟨S524288, .i32⟩
  | 18 => ⟨S_, .i32⟩
  | 19 => ⟨S_, .i32⟩
  | 20 => ⟨S67108864, .i32⟩
  | 21 => ⟨S67108864, .i32⟩
  | 22 => ⟨S_, .i32⟩
  | 23 => ⟨S67108864, .i32⟩
  | 24 => ⟨S67108864, .i1⟩
  | 25 => ⟨S_, .i32⟩
  | 26 => ⟨S67108864, .i32⟩
  | 27 => ⟨S67108864, .i32⟩
  | 28 => ⟨S67108864, .i32⟩
  | 29 => ⟨S67108864x1, .i32⟩
  | 30 => ⟨S_, .i32⟩
  | 31 => ⟨S67108864, .i32⟩
  | 32 => ⟨S524288, .i32⟩
  | 33 => ⟨S_, .i32⟩
  | 34 => ⟨S_, .i32⟩
  | 35 => ⟨S524288, .i32⟩
  | 36 => ⟨S_, .i32⟩
  | 37 => ⟨S524288, .i32⟩
  | 38 => ⟨S524288, .i32⟩
  | 39 => ⟨S524288, .i32⟩
  | 40 => ⟨S_, .i32⟩
  | 41 => ⟨S524288, .i32⟩
  | 42 => ⟨S524288, .i1⟩
  | 43 => ⟨S524288, .i32⟩
  | 44 => ⟨S524288, .i32⟩
  | 45 => ⟨S_, .i32⟩
  | 46 => ⟨S524288, .i32⟩
  | 47 => ⟨S524288, .i1⟩
  | 48 => ⟨S524288, .i1⟩
  | 49 => ⟨S_, .i32⟩
  | 50 => ⟨S524288, .i32⟩
  | 51 => ⟨S524288, .i32⟩
  | 52 => ⟨S524288, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S524288, .i32⟩
  | 60 => ⟨S524288, .i32⟩
  | 61 => ⟨S_, .i32⟩
  | 62 => ⟨S524288, .i32⟩
  | 63 => ⟨S524288, .i1⟩
  | 64 => ⟨S_, .i32⟩
  | 65 => ⟨S524288, .i32⟩
  | 66 => ⟨S524288, .i1⟩
  | 67 => ⟨S_, .i32⟩
  | 68 => ⟨S_, .i1⟩
  | 69 => ⟨S524288, .i1⟩
  | 70 => ⟨S524288, .i1⟩
  | 71 => ⟨S524288, .i1⟩
  | 72 => ⟨S524288, .i32⟩
  | 73 => ⟨S524288, .i32⟩
  | 74 => ⟨S524288, .i32⟩
  | 75 => ⟨S524288, .i32⟩
  | 76 => ⟨S67108864, .i32⟩
  | 77 => ⟨S_, .i32⟩
  | 78 => ⟨S_, .i32⟩
  | 79 => ⟨S524288, .i32⟩
  | 80 => ⟨S524288, .i1⟩
  | 81 => ⟨S_, .i32⟩
  | 82 => ⟨S_, .i32⟩
  | 83 => ⟨S524288, .i32⟩
  | 84 => ⟨S524288, .i32⟩
  | 85 => ⟨S524288, .i32⟩
  | 86 => ⟨S_, .i32⟩
  | 87 => ⟨S_, .i32⟩
  | 88 => ⟨S524288, .i32⟩
  | 89 => ⟨S524288, .i1⟩
  | 90 => ⟨S_, .i32⟩
  | 91 => ⟨S_, .i32⟩
  | 92 => ⟨S524288, .i32⟩
  | 93 => ⟨S524288, .i32⟩
  | 94 => ⟨S524288, .i32⟩
  | 95 => ⟨S_, .i32⟩
  | 96 => ⟨S524288, .i32⟩
  | 97 => ⟨S524288, .i1⟩
  | 98 => ⟨S524288, .i32⟩
  | 99 => ⟨S524288, .i32⟩
  | 100 => ⟨S_, .i32⟩
  | 101 => ⟨S524288, .i32⟩
  | 102 => ⟨S524288, .i1⟩
  | 103 => ⟨S524288, .i1⟩
  | 104 => ⟨S_, .i32⟩
  | 105 => ⟨S524288, .i32⟩
  | 106 => ⟨S524288, .i32⟩
  | 107 => ⟨S524288, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S524288, .i32⟩
  | 115 => ⟨S524288, .i32⟩
  | 116 => ⟨S_, .i32⟩
  | 117 => ⟨S524288, .i32⟩
  | 118 => ⟨S524288, .i1⟩
  | 119 => ⟨S_, .i32⟩
  | 120 => ⟨S524288, .i32⟩
  | 121 => ⟨S524288, .i1⟩
  | 122 => ⟨S_, .i32⟩
  | 123 => ⟨S_, .i1⟩
  | 124 => ⟨S524288, .i1⟩
  | 125 => ⟨S524288, .i1⟩
  | 126 => ⟨S524288, .i1⟩
  | 127 => ⟨S524288, .i32⟩
  | _ => ⟨S8192x3, .f32⟩

abbrev hbmTy0_1 (i : Nat) : BufTy := match i % 128 with
  | 0 => ⟨S524288, .i32⟩
  | 1 => ⟨S524288, .i32⟩
  | 2 => ⟨S_, .i32⟩
  | 3 => ⟨S524288, .i32⟩
  | 4 => ⟨S524288, .i1⟩
  | 5 => ⟨S_, .i32⟩
  | 6 => ⟨S524288, .i32⟩
  | 7 => ⟨S524288, .i32⟩
  | 8 => ⟨S524288, .i32⟩
  | 9 => ⟨S524288x1, .i32⟩
  | 10 => ⟨S524288x3, .f32⟩
  | 11 => ⟨S_, .i32⟩
  | 12 => ⟨S524288, .i32⟩
  | 13 => ⟨S524288, .i1⟩
  | 14 => ⟨S_, .i32⟩
  | 15 => ⟨S524288, .i32⟩
  | 16 => ⟨S524288, .i32⟩
  | 17 => ⟨S524288, .i32⟩
  | 18 => ⟨S524288x1, .i32⟩
  | 19 => ⟨S524288x3, .f32⟩
  | 20 => ⟨S524288x3, .f32⟩
  | 21 => ⟨S524288x3, .f32⟩
  | 22 => ⟨S_, .f32⟩
  | 23 => ⟨S524288, .f32⟩
  | 24 => ⟨S524288x1, .i1⟩
  | 25 => ⟨S_, .f32⟩
  | 26 => ⟨S_, .f32⟩
  | 27 => ⟨S524288x3, .i1⟩
  | 28 => ⟨S524288x3, .f32⟩
  | 29 => ⟨S524288x3, .f32⟩
  | 30 => ⟨S_, .f32⟩
  | 31 => ⟨S_, .f32⟩
  | 32 => ⟨S524288, .f32⟩
  | 33 => ⟨S524288, .f32⟩
  | 34 => ⟨S524288, .f32⟩
  | 35 => ⟨S_, .f32⟩
  | 36 => ⟨S_, .f32⟩
  | 37 => ⟨S524288, .f32⟩
  | 38 => ⟨S524288, .f32⟩
  | 39 => ⟨S_, .i32⟩
  | 40 => ⟨S_, .i32⟩
  | 41 => ⟨S524288, .i32⟩
  | 42 => ⟨S524288, .i32⟩
  | 43 => ⟨S_, .i32⟩
  | 44 => ⟨S_, .i32⟩
  | 45 => ⟨S524288, .i32⟩
  | 46 => ⟨S524288, .i32⟩
  | 47 => ⟨S1x524288, .i32⟩
  | 48 => ⟨S1x524288, .i32⟩
  | 49 => ⟨S2x524288, .i32⟩
  | _ => ⟨S8192x3, .f32⟩

abbrev hbmTy (i : Nat) : BufTy := match i / 128 with
  | 0 => hbmTy0_0 i
  | 1 => hbmTy0_1 i
  | _ => ⟨S8192x3, .f32⟩

abbrev bufTy : (tb : Table) → Fin (tcTables nBuf tb) → BufTy
  | .hbm, ⟨i, _⟩ => hbmTy i
  | .local _ .vmem, ⟨0, _⟩ => ⟨S128x3, .f32⟩
  | .local _ .vmem, ⟨1, _⟩ => ⟨S128x3, .f32⟩
  | .local _ .vmem, ⟨2, _⟩ => ⟨S8192x3, .f32⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x8192, .i32⟩
  | .local _ .vmem, ⟨7, _⟩ => ⟨S128x8192, .i32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_call0_v0 : Ref sig .tc := ⟨.hbm, 12, rfl⟩
abbrev main_call0_call0_c : Ref sig .tc := ⟨.hbm, 13, rfl⟩
abbrev main_call0_call0_v0 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_call2_call0_c : Ref sig .tc := ⟨.hbm, 33, rfl⟩
abbrev main_call2_call0_v0 : Ref sig .tc := ⟨.hbm, 34, rfl⟩
abbrev main_v19 : Ref sig .tc := ⟨.hbm, 35, rfl⟩
abbrev main_c_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_v6 : Ref sig .tc := ⟨.hbm, 43, rfl⟩
abbrev main_call3_v7 : Ref sig .tc := ⟨.hbm, 44, rfl⟩
abbrev main_call3_c : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_c_0 : Ref sig .tc := ⟨.hbm, 49, rfl⟩
abbrev main_call3_v11 : Ref sig .tc := ⟨.hbm, 50, rfl⟩
abbrev main_call3_v12 : Ref sig .tc := ⟨.hbm, 51, rfl⟩
abbrev main_v20 : Ref sig .tc := ⟨.hbm, 52, rfl⟩
abbrev main_c_7 : Ref sig .tc := ⟨.hbm, 53, rfl⟩
abbrev main_call4_v0 : Ref sig .tc := ⟨.hbm, 54, rfl⟩
abbrev main_call4_c : Ref sig .tc := ⟨.hbm, 55, rfl⟩
abbrev main_call4_v1 : Ref sig .tc := ⟨.hbm, 56, rfl⟩
abbrev main_call4_c_0 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_c_1 : Ref sig .tc := ⟨.hbm, 61, rfl⟩
abbrev main_call4_v5 : Ref sig .tc := ⟨.hbm, 62, rfl⟩
abbrev main_call4_v6 : Ref sig .tc := ⟨.hbm, 63, rfl⟩
abbrev main_call4_c_2 : Ref sig .tc := ⟨.hbm, 64, rfl⟩
abbrev main_call4_v7 : Ref sig .tc := ⟨.hbm, 65, rfl⟩
abbrev main_call4_v8 : Ref sig .tc := ⟨.hbm, 66, rfl⟩
abbrev main_call4_c_3 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_v12 : Ref sig .tc := ⟨.hbm, 71, rfl⟩
abbrev main_call4_v13 : Ref sig .tc := ⟨.hbm, 72, rfl⟩
abbrev main_call4_v14 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_c_8 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_c_9 : Ref sig .tc := ⟨.hbm, 81, rfl⟩
abbrev main_call5_v0 : Ref sig .tc := ⟨.hbm, 82, rfl⟩
abbrev main_call5_v1 : Ref sig .tc := ⟨.hbm, 83, rfl⟩
abbrev main_v27 : Ref sig .tc := ⟨.hbm, 84, rfl⟩
abbrev main_v28 : Ref sig .tc := ⟨.hbm, 85, rfl⟩
abbrev main_c_10 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_c_11 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_v5 : Ref sig .tc := ⟨.hbm, 96, rfl⟩
abbrev main_call6_v6 : Ref sig .tc := ⟨.hbm, 97, rfl⟩
abbrev main_call6_v7 : Ref sig .tc := ⟨.hbm, 98, rfl⟩
abbrev main_call6_v8 : Ref sig .tc := ⟨.hbm, 99, rfl⟩
abbrev main_call6_c : Ref sig .tc := ⟨.hbm, 100, rfl⟩
abbrev main_call6_v9 : Ref sig .tc := ⟨.hbm, 101, rfl⟩
abbrev main_call6_v10 : Ref sig .tc := ⟨.hbm, 102, rfl⟩
abbrev main_call6_v11 : Ref sig .tc := ⟨.hbm, 103, rfl⟩
abbrev main_call6_c_0 : Ref sig .tc := ⟨.hbm, 104, rfl⟩
abbrev main_call6_v12 : Ref sig .tc := ⟨.hbm, 105, rfl⟩
abbrev main_call6_v13 : Ref sig .tc := ⟨.hbm, 106, rfl⟩
abbrev main_v32 : Ref sig .tc := ⟨.hbm, 107, rfl⟩
abbrev main_c_12 : Ref sig .tc := ⟨.hbm, 108, rfl⟩
abbrev main_call7_v0 : Ref sig .tc := ⟨.hbm, 109, rfl⟩
abbrev main_call7_c : Ref sig .tc := ⟨.hbm, 110, rfl⟩
abbrev main_call7_v1 : Ref sig .tc := ⟨.hbm, 111, rfl⟩
abbrev main_call7_c_0 : Ref sig .tc := ⟨.hbm, 112, rfl⟩
abbrev main_call7_v2 : Ref sig .tc := ⟨.hbm, 113, rfl⟩
abbrev main_call7_v3 : Ref sig .tc := ⟨.hbm, 114, rfl⟩
abbrev main_call7_v4 : Ref sig .tc := ⟨.hbm, 115, rfl⟩
abbrev main_call7_c_1 : Ref sig .tc := ⟨.hbm, 116, rfl⟩
abbrev main_call7_v5 : Ref sig .tc := ⟨.hbm, 117, rfl⟩
abbrev main_call7_v6 : Ref sig .tc := ⟨.hbm, 118, rfl⟩
abbrev main_call7_c_2 : Ref sig .tc := ⟨.hbm, 119, rfl⟩
abbrev main_call7_v7 : Ref sig .tc := ⟨.hbm, 120, rfl⟩
abbrev main_call7_v8 : Ref sig .tc := ⟨.hbm, 121, rfl⟩
abbrev main_call7_c_3 : Ref sig .tc := ⟨.hbm, 122, rfl⟩
abbrev main_call7_v9 : Ref sig .tc := ⟨.hbm, 123, rfl⟩
abbrev main_call7_v10 : Ref sig .tc := ⟨.hbm, 124, rfl⟩
abbrev main_call7_v11 : Ref sig .tc := ⟨.hbm, 125, rfl⟩
abbrev main_call7_v12 : Ref sig .tc := ⟨.hbm, 126, rfl⟩
abbrev main_call7_v13 : Ref sig .tc := ⟨.hbm, 127, rfl⟩
abbrev main_call7_v14 : Ref sig .tc := ⟨.hbm, 128, rfl⟩
abbrev main_v33 : Ref sig .tc := ⟨.hbm, 129, rfl⟩
abbrev main_c_13 : Ref sig .tc := ⟨.hbm, 130, rfl⟩
abbrev main_v34 : Ref sig .tc := ⟨.hbm, 131, rfl⟩
abbrev main_v35 : Ref sig .tc := ⟨.hbm, 132, rfl⟩
abbrev main_c_14 : Ref sig .tc := ⟨.hbm, 133, rfl⟩
abbrev main_v36 : Ref sig .tc := ⟨.hbm, 134, rfl⟩
abbrev main_v37 : Ref sig .tc := ⟨.hbm, 135, rfl⟩
abbrev main_v38 : Ref sig .tc := ⟨.hbm, 136, rfl⟩
abbrev main_v39 : Ref sig .tc := ⟨.hbm, 137, rfl⟩
abbrev main_v40 : Ref sig .tc := ⟨.hbm, 138, rfl⟩
abbrev main_c_15 : Ref sig .tc := ⟨.hbm, 139, rfl⟩
abbrev main_v41 : Ref sig .tc := ⟨.hbm, 140, rfl⟩
abbrev main_v42 : Ref sig .tc := ⟨.hbm, 141, rfl⟩
abbrev main_c_16 : Ref sig .tc := ⟨.hbm, 142, rfl⟩
abbrev main_v43 : Ref sig .tc := ⟨.hbm, 143, rfl⟩
abbrev main_v44 : Ref sig .tc := ⟨.hbm, 144, rfl⟩
abbrev main_v45 : Ref sig .tc := ⟨.hbm, 145, rfl⟩
abbrev main_v46 : Ref sig .tc := ⟨.hbm, 146, rfl⟩
abbrev main_v47 : Ref sig .tc := ⟨.hbm, 147, rfl⟩
abbrev main_v48 : Ref sig .tc := ⟨.hbm, 148, rfl⟩
abbrev main_v49 : Ref sig .tc := ⟨.hbm, 149, rfl⟩
abbrev main_cst : Ref sig .tc := ⟨.hbm, 150, rfl⟩
abbrev main_v50 : Ref sig .tc := ⟨.hbm, 151, rfl⟩
abbrev main_v51 : Ref sig .tc := ⟨.hbm, 152, rfl⟩
abbrev main_cst_17 : Ref sig .tc := ⟨.hbm, 153, rfl⟩
abbrev main_call8_v0 : Ref sig .tc := ⟨.hbm, 154, rfl⟩
abbrev main_call8_v1 : Ref sig .tc := ⟨.hbm, 155, rfl⟩
abbrev main_call8_v2 : Ref sig .tc := ⟨.hbm, 156, rfl⟩
abbrev main_v52 : Ref sig .tc := ⟨.hbm, 157, rfl⟩
abbrev main_cst_18 : Ref sig .tc := ⟨.hbm, 158, rfl⟩
abbrev main_call9_v0 : Ref sig .tc := ⟨.hbm, 159, rfl⟩
abbrev main_call9_v1 : Ref sig .tc := ⟨.hbm, 160, rfl⟩
abbrev main_v53 : Ref sig .tc := ⟨.hbm, 161, rfl⟩
abbrev main_v54 : Ref sig .tc := ⟨.hbm, 162, rfl⟩
abbrev main_cst_19 : Ref sig .tc := ⟨.hbm, 163, rfl⟩
abbrev main_call10_v0 : Ref sig .tc := ⟨.hbm, 164, rfl⟩
abbrev main_call10_v1 : Ref sig .tc := ⟨.hbm, 165, rfl⟩
abbrev main_v55 : Ref sig .tc := ⟨.hbm, 166, rfl⟩
abbrev main_c_20 : Ref sig .tc := ⟨.hbm, 167, rfl⟩
abbrev main_call11_v0 : Ref sig .tc := ⟨.hbm, 168, rfl⟩
abbrev main_call11_v1 : Ref sig .tc := ⟨.hbm, 169, rfl⟩
abbrev main_v56 : Ref sig .tc := ⟨.hbm, 170, rfl⟩
abbrev main_c_21 : Ref sig .tc := ⟨.hbm, 171, rfl⟩
abbrev main_call12_v0 : Ref sig .tc := ⟨.hbm, 172, rfl⟩
abbrev main_call12_v1 : Ref sig .tc := ⟨.hbm, 173, rfl⟩
abbrev main_v57 : Ref sig .tc := ⟨.hbm, 174, rfl⟩
abbrev main_v58 : Ref sig .tc := ⟨.hbm, 175, rfl⟩
abbrev main_v59 : Ref sig .tc := ⟨.hbm, 176, rfl⟩
abbrev main_v60 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x8192 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S8192x1 : S8192.ShapeCasts S8192x1
  shapeCasts_S8192_S1x8192 : S8192.ShapeCasts S1x8192
  inb_S128x3_S128x3_0_0 : ∀ a, (![0, 0] : Fin 2 → Nat) a + S128x3.size a ≤ S128x3.size a
  h_S128x3 : 0 < S128x3.numel
  inb_S8192x3_S8192x3_0_0 : ∀ a, (![0, 0] : Fin 2 → Nat) a + S8192x3.size a ≤ S8192x3.size a
  h_S8192x3 : 0 < S8192x3.numel
  slices_S128x3_o0_0_S128x1 : S128x3.Slices ![0, 0] S128x1
  slices_S128x3_o0_1_S128x1 : S128x3.Slices ![0, 1] S128x1
  slices_S128x3_o0_2_S128x1 : S128x3.Slices ![0, 2] S128x1
  slices_S8192x3_o0_0_S8192x1 : S8192x3.Slices ![0, 0] S8192x1
  shapeCasts_S8192x1_S8192 : S8192x1.ShapeCasts S8192
  slices_S8192x3_o0_1_S8192x1 : S8192x3.Slices ![0, 1] S8192x1
  slices_S8192x3_o0_2_S8192x1 : S8192x3.Slices ![0, 2] S8192x1
  broadcasts_S128x1_S128x8192 : S128x1.Broadcasts S128x8192
  broadcasts_S1x8192_S128x8192 : S1x8192.Broadcasts S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S128x1_d0_w32 : S128x1.Iotas .tc 32 [0]
  iota_S1x8192_d1_w32 : S1x8192.Iotas .tc 32 [1]
  natLt_1_32 : 1 < 32
  inb_S128x8192_S128x8192_0_0 : ∀ a, (![0, 0] : Fin 2 → Nat) a + S128x8192.size a ≤ S128x8192.size a
  h_S128x8192 : 0 < S128x8192.numel
  shapeCasts_S8192x8192_S67108864 : S8192x8192.ShapeCasts S67108864
  bcast_S_S67108864 : S_.BroadcastsInDim S67108864 (![] : Fin 0 → Fin S67108864.rank)
  reducesTo_S67108864_S_d0 : S67108864.ReducesTo [0] S_
  h_S_ : 0 < S_.numel
  bcast_S_S_ : S_.BroadcastsInDim S_ (![] : Fin 0 → Fin S_.rank)
  reduceWindows_S67108864_S67108864_w67108864s1p67108863_0 : S67108864.ReduceWindows (![67108864] : Fin 1 → Nat) ![1] ![67108863] ![0] S67108864
  bcast_S_S524288 : S_.BroadcastsInDim S524288 (![] : Fin 0 → Fin S524288.rank)
  bcast_S67108864_S67108864x1_0 : S67108864.BroadcastsInDim S67108864x1 (![0] : Fin 1 → Fin S67108864x1.rank)
  reduceWindows_S524288_S524288_w524288s1p524287_0 : S524288.ReduceWindows (![524288] : Fin 1 → Nat) ![1] ![524287] ![0] S524288
  bcast_S524288_S524288x1_0 : S524288.BroadcastsInDim S524288x1 (![0] : Fin 1 → Fin S524288x1.rank)
  reducesTo_S524288x3_S524288_d1 : S524288x3.ReducesTo [1] S524288
  bcast_S524288x1_S524288x3_0_1 : S524288x1.BroadcastsInDim S524288x3 (![0, 1] : Fin 2 → Fin S524288x3.rank)
  bcast_S_S524288x3 : S_.BroadcastsInDim S524288x3 (![] : Fin 0 → Fin S524288x3.rank)
  bcast_S524288_S1x524288_1 : S524288.BroadcastsInDim S1x524288 (![1] : Fin 1 → Fin S1x524288.rank)
  concatenates_S1x524288_S1x524288_S2x524288_d0 : Shape.Concatenates [S1x524288, S1x524288] S2x524288 0
  scatter_S524288_S67108864x1_S67108864_n_0_0_1_wf : ScatterDims.WF S524288 S67108864x1 S67108864 [] [0] [0] 1
  gather_S8192x3_S524288x1_S524288x3_1_0_n_n_0_1_13_wf : GatherDims.WF S8192x3 S524288x1 S524288x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x3.size a ≤ S8192x3.size a
  hwx0_0 : ∀ i : grid0.Coords, EltTy.bits .f32 = 32 ∨ (Rect.block (s := S8192x3) S128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x3.size a ≤ S8192x3.size a
  hwx0_1 : ∀ i : grid0.Coords, EltTy.bits .f32 = 32 ∨ (Rect.block (s := S8192x3) S8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x8192.size a ≤ S8192x8192.size a
  hwx0_4 : ∀ i : grid0.Coords, EltTy.bits .i32 = 32 ∨ (Rect.block (s := S8192x8192) S128x8192.size (cc0_transform_4 i) (hinb0_4 i)).WholeWords (EltTy.packing .i32)

variable [Facts₀]

def scatter_S524288_S67108864x1_S67108864_n_0_0_1 : ScatterDims S524288 S67108864x1 S67108864 where
  updateWindowDims := []
  insertedWindowDims := [0]
  scatterDimsToOperandDims := [0]
  indexVectorDim := 1
  wf := scatter_S524288_S67108864x1_S67108864_n_0_0_1_wf
def gather_S8192x3_S524288x1_S524288x3_1_0_n_n_0_1_13 : GatherDims S8192x3 S524288x1 S524288x3 where
  offsetDims := [1]
  collapsedSliceDims := [0]
  operandBatchingDims := []
  startIndicesBatchingDims := []
  startIndexMap := [0]
  indexVectorDim := 1
  sliceSizes := ![1, 3]
  wf := gather_S8192x3_S524288x1_S524288x3_1_0_n_n_0_1_13_wf

abbrev win0_0 : Pipeline.Window sig grid0 :=
  Pipeline.Window.ofSpec (Memref.whole main_arg0) S128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x3 : Shape := ⟨2, ![8192, 3]⟩
abbrev S8192 : Shape := ⟨1, ![8192]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩
abbrev S8192x1 : Shape := ⟨2, ![8192, 1]⟩
abbrev S1x8192 : Shape := ⟨2, ![1, 8192]⟩
abbrev S67108864 : Shape := ⟨1, ![67108864]⟩
abbrev S524288 : Shape := ⟨1, ![524288]⟩
abbrev S67108864x1 : Shape := ⟨2, ![67108864, 1]⟩
abbrev S524288x1 : Shape := ⟨2, ![524288, 1]⟩
abbrev S67108864x3 : Shape := ⟨2, ![67108864, 3]⟩
abbrev S524288x3 : Shape := ⟨2, ![524288, 3]⟩
abbrev S1x524288 : Shape := ⟨2, ![1, 524288]⟩
abbrev S2x524288 : Shape := ⟨2, ![2, 524288]⟩

abbrev nBuf : Space → Nat
  | .hbm => 199
  | .vmem => 0
  | .smem => 0
  | _ => 0

abbrev hbmTy0_0 (i : Nat) : BufTy := match i % 128 with
  | 0 => ⟨S8192x3, .f32⟩
  | 1 => ⟨S8192, .i32⟩
  | 2 => ⟨S8192x1x3, .f32⟩
  | 3 => ⟨S1x8192x3, .f32⟩
  | 4 => ⟨S8192x8192x3, .f32⟩
  | 5 => ⟨S8192x8192x3, .f32⟩
  | 6 => ⟨S8192x8192x3, .f32⟩
  | 7 => ⟨S8192x8192x3, .f32⟩
  | 8 => ⟨S_, .f32⟩
  | 9 => ⟨S8192x8192, .f32⟩
  | 10 => ⟨S8192x1, .i32⟩
  | 11 => ⟨S1x8192, .i32⟩
  | 12 => ⟨S8192x8192, .i32⟩
  | 13 => ⟨S8192x8192, .i32⟩
  | 14 => ⟨S8192x8192, .i1⟩
  | 15 => ⟨S8192x8192, .i32⟩
  | 16 => ⟨S8192x8192, .i32⟩
  | 17 => ⟨S_, .i32⟩
  | 18 => ⟨S8192x8192, .i32⟩
  | 19 => ⟨S8192x8192, .i32⟩
  | 20 => ⟨S8192x8192, .i1⟩
  | 21 => ⟨S8192x8192, .i1⟩
  | 22 => ⟨S8192x8192, .i1⟩
  | 23 => ⟨S_, .f32⟩
  | 24 => ⟨S8192x8192, .f32⟩
  | 25 => ⟨S8192x8192, .i1⟩
  | 26 => ⟨S8192x8192, .i1⟩
  | 27 => ⟨S_, .f32⟩
  | 28 => ⟨S8192x8192, .f32⟩
  | 29 => ⟨S8192x8192, .i1⟩
  | 30 => ⟨S8192x8192, .i1⟩
  | 31 => ⟨S67108864, .i1⟩
  | 32 => ⟨S67108864, .i32⟩
  | 33 => ⟨S_, .i32⟩
  | 34 => ⟨S_, .i32⟩
  | 35 => ⟨S67108864, .i32⟩
  | 36 => ⟨S_, .i32⟩
  | 37 => ⟨S_, .i32⟩
  | 38 => ⟨S67108864, .i32⟩
  | 39 => ⟨S_, .i32⟩
  | 40 => ⟨S524288, .i32⟩
  | 41 => ⟨S_, .i32⟩
  | 42 => ⟨S_, .i32⟩
  | 43 => ⟨S67108864, .i32⟩
  | 44 => ⟨S67108864, .i32⟩
  | 45 => ⟨S_, .i32⟩
  | 46 => ⟨S67108864, .i32⟩
  | 47 => ⟨S67108864, .i1⟩
  | 48 => ⟨S_, .i32⟩
  | 49 => ⟨S67108864, .i32⟩
  | 50 => ⟨S67108864, .i32⟩
  | 51 => ⟨S67108864, .i32⟩
  | 52 => ⟨S67108864x1, .i32⟩
  | 53 => ⟨S_, .i32⟩
  | 54 => ⟨S67108864, .i32⟩
  | 55 => ⟨S524288, .i32⟩
  | 56 => ⟨S_, .i32⟩
  | 57 => ⟨S_, .i32⟩
  | 58 => ⟨S524288, .i32⟩
  | 59 => ⟨S_, .i32⟩
  | 60 => ⟨S524288, .i32⟩
  | 61 => ⟨S524288, .i32⟩
  | 62 => ⟨S524288, .i32⟩
  | 63 => ⟨S_, .i32⟩
  | 64 => ⟨S524288, .i32⟩
  | 65 => ⟨S524288, .i1⟩
  | 66 => ⟨S524288, .i32⟩
  | 67 => ⟨S524288, .i32⟩
  | 68 => ⟨S_, .i32⟩
  | 69 => ⟨S524288, .i32⟩
  | 70 => ⟨S524288, .i1⟩
  | 71 => ⟨S524288, .i1⟩
  | 72 => ⟨S_, .i32⟩
  | 73 => ⟨S524288, .i32⟩
  | 74 => ⟨S524288, .i32⟩
  | 75 => ⟨S524288, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S524288, .i32⟩
  | 83 => ⟨S524288, .i32⟩
  | 84 => ⟨S_, .i32⟩
  | 85 => ⟨S524288, .i32⟩
  | 86 => ⟨S524288, .i1⟩
  | 87 => ⟨S_, .i32⟩
  | 88 => ⟨S524288, .i32⟩
  | 89 => ⟨S524288, .i1⟩
  | 90 => ⟨S_, .i32⟩
  | 91 => ⟨S_, .i1⟩
  | 92 => ⟨S524288, .i1⟩
  | 93 => ⟨S524288, .i1⟩
  | 94 => ⟨S524288, .i1⟩
  | 95 => ⟨S524288, .i32⟩
  | 96 => ⟨S524288, .i32⟩
  | 97 => ⟨S524288, .i32⟩
  | 98 => ⟨S524288, .i32⟩
  | 99 => ⟨S67108864, .i32⟩
  | 100 => ⟨S_, .i32⟩
  | 101 => ⟨S_, .i32⟩
  | 102 => ⟨S524288, .i32⟩
  | 103 => ⟨S524288, .i1⟩
  | 104 => ⟨S_, .i32⟩
  | 105 => ⟨S_, .i32⟩
  | 106 => ⟨S524288, .i32⟩
  | 107 => ⟨S524288, .i32⟩
  | 108 => ⟨S524288, .i32⟩
  | 109 => ⟨S_, .i32⟩
  | 110 => ⟨S_, .i32⟩
  | 111 => ⟨S524288, .i32⟩
  | 112 => ⟨S524288, .i1⟩
  | 113 => ⟨S_, .i32⟩
  | 114 => ⟨S_, .i32⟩
  | 115 => ⟨S524288, .i32⟩
  | 116 => ⟨S524288, .i32⟩
  | 117 => ⟨S524288, .i32⟩
  | 118 => ⟨S_, .i32⟩
  | 119 => ⟨S524288, .i32⟩
  | 120 => ⟨S524288, .i1⟩
  | 121 => ⟨S524288, .i32⟩
  | 122 => ⟨S524288, .i32⟩
  | 123 => ⟨S_, .i32⟩
  | 124 => ⟨S524288, .i32⟩
  | 125 => ⟨S524288, .i1⟩
  | 126 => ⟨S524288, .i1⟩
  | 127 => ⟨S_, .i32⟩
  | _ => ⟨S8192x3, .f32⟩

abbrev hbmTy0_1 (i : Nat) : BufTy := match i % 128 with
  | 0 => ⟨S524288, .i32⟩
  | 1 => ⟨S524288, .i32⟩
  | 2 => ⟨S524288, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S524288, .i32⟩
  | 10 => ⟨S524288, .i32⟩
  | 11 => ⟨S_, .i32⟩
  | 12 => ⟨S524288, .i32⟩
  | 13 => ⟨S524288, .i1⟩
  | 14 => ⟨S_, .i32⟩
  | 15 => ⟨S524288, .i32⟩
  | 16 => ⟨S524288, .i1⟩
  | 17 => ⟨S_, .i32⟩
  | 18 => ⟨S_, .i1⟩
  | 19 => ⟨S524288, .i1⟩
  | 20 => ⟨S524288, .i1⟩
  | 21 => ⟨S524288, .i1⟩
  | 22 => ⟨S524288, .i32⟩
  | 23 => ⟨S524288, .i32⟩
  | 24 => ⟨S524288, .i32⟩
  | 25 => ⟨S524288x1, .i1⟩
  | 26 => ⟨S67108864x3, .f32⟩
  | 27 => ⟨S_, .i32⟩
  | 28 => ⟨S524288, .i32⟩
  | 29 => ⟨S524288, .i1⟩
  | 30 => ⟨S_, .i32⟩
  | 31 => ⟨S524288, .i32⟩
  | 32 => ⟨S524288, .i32⟩
  | 33 => ⟨S524288, .i32⟩
  | 34 => ⟨S524288x1, .i32⟩
  | 35 => ⟨S524288x3, .f32⟩
  | 36 => ⟨S_, .f32⟩
  | 37 => ⟨S_, .f32⟩
  | 38 => ⟨S524288x3, .i1⟩
  | 39 => ⟨S524288x3, .f32⟩
  | 40 => ⟨S524288x3, .f32⟩
  | 41 => ⟨S67108864, .f32⟩
  | 42 => ⟨S_, .i32⟩
  | 43 => ⟨S524288, .i32⟩
  | 44 => ⟨S524288, .i1⟩
  | 45 => ⟨S_, .i32⟩
  | 46 => ⟨S524288, .i32⟩
  | 47 => ⟨S524288, .i32⟩
  | 48 => ⟨S524288, .i32⟩
  | 49 => ⟨S524288x1, .i32⟩
  | 50 => ⟨S524288, .f32⟩
  | 51 => ⟨S_, .f32⟩
  | 52 => ⟨S_, .f32⟩
  | 53 => ⟨S524288, .f32⟩
  | 54 => ⟨S524288, .f32⟩
  | 55 => ⟨S524288, .f32⟩
  | 56 => ⟨S_, .f32⟩
  | 57 => ⟨S_, .f32⟩
  | 58 => ⟨S524288, .f32⟩
  | 59 => ⟨S524288, .f32⟩
  | 60 => ⟨S_, .i32⟩
  | 61 => ⟨S_, .i32⟩
  | 62 => ⟨S524288, .i32⟩
  | 63 => ⟨S524288, .i32⟩
  | 64 => ⟨S_, .i32⟩
  | 65 => ⟨S_, .i32⟩
  | 66 => ⟨S524288, .i32⟩
  | 67 => ⟨S524288, .i32⟩
  | 68 => ⟨S1x524288, .i32⟩
  | 69 => ⟨S1x524288, .i32⟩
  | 70 => ⟨S2x524288, .i32⟩
  | _ => ⟨S8192x3, .f32⟩

abbrev hbmTy (i : Nat) : BufTy := match i / 128 with
  | 0 => hbmTy0_0 i
  | 1 => hbmTy0_1 i
  | _ => ⟨S8192x3, .f32⟩

abbrev bufTy : (tb : Table) → Fin (tcTables nBuf tb) → BufTy
  | .hbm, ⟨i, _⟩ => hbmTy i
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_2 : Ref sig .tc := ⟨.hbm, 33, rfl⟩
abbrev main_v27 : Ref sig .tc := ⟨.hbm, 34, rfl⟩
abbrev main_call0_v0 : Ref sig .tc := ⟨.hbm, 35, rfl⟩
abbrev main_call0_call0_c : Ref sig .tc := ⟨.hbm, 36, rfl⟩
abbrev main_call0_call0_v0 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_call2_call0_c : Ref sig .tc := ⟨.hbm, 56, rfl⟩
abbrev main_call2_call0_v0 : Ref sig .tc := ⟨.hbm, 57, rfl⟩
abbrev main_v39 : Ref sig .tc := ⟨.hbm, 58, rfl⟩
abbrev main_c_8 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_v6 : Ref sig .tc := ⟨.hbm, 66, rfl⟩
abbrev main_call3_v7 : Ref sig .tc := ⟨.hbm, 67, rfl⟩
abbrev main_call3_c : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_c_0 : Ref sig .tc := ⟨.hbm, 72, rfl⟩
abbrev main_call3_v11 : Ref sig .tc := ⟨.hbm, 73, rfl⟩
abbrev main_call3_v12 : Ref sig .tc := ⟨.hbm, 74, rfl⟩
abbrev main_v40 : Ref sig .tc := ⟨.hbm, 75, rfl⟩
abbrev main_c_9 : Ref sig .tc := ⟨.hbm, 76, rfl⟩
abbrev main_call4_v0 : Ref sig .tc := ⟨.hbm, 77, rfl⟩
abbrev main_call4_c : Ref sig .tc := ⟨.hbm, 78, rfl⟩
abbrev main_call4_v1 : Ref sig .tc := ⟨.hbm, 79, rfl⟩
abbrev main_call4_c_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_c_1 : Ref sig .tc := ⟨.hbm, 84, rfl⟩
abbrev main_call4_v5 : Ref sig .tc := ⟨.hbm, 85, rfl⟩
abbrev main_call4_v6 : Ref sig .tc := ⟨.hbm, 86, rfl⟩
abbrev main_call4_c_2 : Ref sig .tc := ⟨.hbm, 87, rfl⟩
abbrev main_call4_v7 : Ref sig .tc := ⟨.hbm, 88, rfl⟩
abbrev main_call4_v8 : Ref sig .tc := ⟨.hbm, 89, rfl⟩
abbrev main_call4_c_3 : Ref sig .tc := ⟨.hbm, 90, rfl⟩
abbrev main_call4_v9 : Ref sig .tc := ⟨.hbm, 91, rfl⟩
abbrev main_call4_v10 : Ref sig .tc := ⟨.hbm, 92, rfl⟩
abbrev main_call4_v11 : Ref sig .tc := ⟨.hbm, 93, rfl⟩
abbrev main_call4_v12 : Ref sig .tc := ⟨.hbm, 94, rfl⟩
abbrev main_call4_v13 : Ref sig .tc := ⟨.hbm, 95, rfl⟩
abbrev main_call4_v14 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_c_10 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_c_11 : Ref sig .tc := ⟨.hbm, 104, rfl⟩
abbrev main_call5_v0 : Ref sig .tc := ⟨.hbm, 105, rfl⟩
abbrev main_call5_v1 : Ref sig .tc := ⟨.hbm, 106, rfl⟩
abbrev main_v47 : Ref sig .tc := ⟨.hbm, 107, rfl⟩
abbrev main_v48 : Ref sig .tc := ⟨.hbm, 108, rfl⟩
abbrev main_c_12 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_c_13 : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_call6_v3 : Ref sig .tc := ⟨.hbm, 117, rfl⟩
abbrev main_call6_v4 : Ref sig .tc := ⟨.hbm, 118, rfl⟩
abbrev main_call6_v5 : Ref sig .tc := ⟨.hbm, 119, rfl⟩
abbrev main_call6_v6 : Ref sig .tc := ⟨.hbm, 120, rfl⟩
abbrev main_call6_v7 : Ref sig .tc := ⟨.hbm, 121, rfl⟩
abbrev main_call6_v8 : Ref sig .tc := ⟨.hbm, 122, rfl⟩
abbrev main_call6_c : Ref sig .tc := ⟨.hbm, 123, rfl⟩
abbrev main_call6_v9 : Ref sig .tc := ⟨.hbm, 124, rfl⟩
abbrev main_call6_v10 : Ref sig .tc := ⟨.hbm, 125, rfl⟩
abbrev main_call6_v11 : Ref sig .tc := ⟨.hbm, 126, rfl⟩
abbrev main_call6_c_0 : Ref sig .tc := ⟨.hbm, 127, rfl⟩
abbrev main_call6_v12 : Ref sig .tc := ⟨.hbm, 128, rfl⟩
abbrev main_call6_v13 : Ref sig .tc := ⟨.hbm, 129, rfl⟩
abbrev main_v52 : Ref sig .tc := ⟨.hbm, 130, rfl⟩
abbrev main_c_14 : Ref sig .tc := ⟨.hbm, 131, rfl⟩
abbrev main_call7_v0 : Ref sig .tc := ⟨.hbm, 132, rfl⟩
abbrev main_call7_c : Ref sig .tc := ⟨.hbm, 133, rfl⟩
abbrev main_call7_v1 : Ref sig .tc := ⟨.hbm, 134, rfl⟩
abbrev main_call7_c_0 : Ref sig .tc := ⟨.hbm, 135, rfl⟩
abbrev main_call7_v2 : Ref sig .tc := ⟨.hbm, 136, rfl⟩
abbrev main_call7_v3 : Ref sig .tc := ⟨.hbm, 137, rfl⟩
abbrev main_call7_v4 : Ref sig .tc := ⟨.hbm, 138, rfl⟩
abbrev main_call7_c_1 : Ref sig .tc := ⟨.hbm, 139, rfl⟩
abbrev main_call7_v5 : Ref sig .tc := ⟨.hbm, 140, rfl⟩
abbrev main_call7_v6 : Ref sig .tc := ⟨.hbm, 141, rfl⟩
abbrev main_call7_c_2 : Ref sig .tc := ⟨.hbm, 142, rfl⟩
abbrev main_call7_v7 : Ref sig .tc := ⟨.hbm, 143, rfl⟩
abbrev main_call7_v8 : Ref sig .tc := ⟨.hbm, 144, rfl⟩
abbrev main_call7_c_3 : Ref sig .tc := ⟨.hbm, 145, rfl⟩
abbrev main_call7_v9 : Ref sig .tc := ⟨.hbm, 146, rfl⟩
abbrev main_call7_v10 : Ref sig .tc := ⟨.hbm, 147, rfl⟩
abbrev main_call7_v11 : Ref sig .tc := ⟨.hbm, 148, rfl⟩
abbrev main_call7_v12 : Ref sig .tc := ⟨.hbm, 149, rfl⟩
abbrev main_call7_v13 : Ref sig .tc := ⟨.hbm, 150, rfl⟩
abbrev main_call7_v14 : Ref sig .tc := ⟨.hbm, 151, rfl⟩
abbrev main_v53 : Ref sig .tc := ⟨.hbm, 152, rfl⟩
abbrev main_v54 : Ref sig .tc := ⟨.hbm, 153, rfl⟩
abbrev main_v55 : Ref sig .tc := ⟨.hbm, 154, rfl⟩
abbrev main_c_15 : Ref sig .tc := ⟨.hbm, 155, rfl⟩
abbrev main_v56 : Ref sig .tc := ⟨.hbm, 156, rfl⟩
abbrev main_v57 : Ref sig .tc := ⟨.hbm, 157, rfl⟩
abbrev main_c_16 : Ref sig .tc := ⟨.hbm, 158, rfl⟩
abbrev main_v58 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_cst_17 : Ref sig .tc := ⟨.hbm, 164, rfl⟩
abbrev main_call8_v0 : Ref sig .tc := ⟨.hbm, 165, rfl⟩
abbrev main_call8_v1 : Ref sig .tc := ⟨.hbm, 166, rfl⟩
abbrev main_call8_v2 : Ref sig .tc := ⟨.hbm, 167, rfl⟩
abbrev main_v63 : Ref sig .tc := ⟨.hbm, 168, rfl⟩
abbrev main_v64 : Ref sig .tc := ⟨.hbm, 169, rfl⟩
abbrev main_c_18 : Ref sig .tc := ⟨.hbm, 170, rfl⟩
abbrev main_v65 : Ref sig .tc := ⟨.hbm, 171, rfl⟩
abbrev main_v66 : Ref sig .tc := ⟨.hbm, 172, rfl⟩
abbrev main_c_19 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_cst_20 : Ref sig .tc := ⟨.hbm, 179, rfl⟩
abbrev main_call9_v0 : Ref sig .tc := ⟨.hbm, 180, rfl⟩
abbrev main_call9_v1 : Ref sig .tc := ⟨.hbm, 181, rfl⟩
abbrev main_v72 : Ref sig .tc := ⟨.hbm, 182, rfl⟩
abbrev main_v73 : Ref sig .tc := ⟨.hbm, 183, rfl⟩
abbrev main_cst_21 : Ref sig .tc := ⟨.hbm, 184, rfl⟩
abbrev main_call10_v0 : Ref sig .tc := ⟨.hbm, 185, rfl⟩
abbrev main_call10_v1 : Ref sig .tc := ⟨.hbm, 186, rfl⟩
abbrev main_v74 : Ref sig .tc := ⟨.hbm, 187, rfl⟩
abbrev main_c_22 : Ref sig .tc := ⟨.hbm, 188, rfl⟩
abbrev main_call11_v0 : Ref sig .tc := ⟨.hbm, 189, rfl⟩
abbrev main_call11_v1 : Ref sig .tc := ⟨.hbm, 190, rfl⟩
abbrev main_v75 : Ref sig .tc := ⟨.hbm, 191, rfl⟩
abbrev main_c_23 : Ref sig .tc := ⟨.hbm, 192, rfl⟩
abbrev main_call12_v0 : Ref sig .tc := ⟨.hbm, 193, rfl⟩
abbrev main_call12_v1 : Ref sig .tc := ⟨.hbm, 194, rfl⟩
abbrev main_v76 : Ref sig .tc := ⟨.hbm, 195, rfl⟩
abbrev main_v77 : Ref sig .tc := ⟨.hbm, 196, rfl⟩
abbrev main_v78 : Ref sig .tc := ⟨.hbm, 197, rfl⟩
abbrev main_v79 : Ref sig .tc := ⟨.hbm, 198, rfl⟩

abbrev nD : Nat := 1
abbrev τ : Topo := Topo.v7x

variable {F : FTy → Type} [FloatOps F]

class Facts₀ : Prop where
  bcast_S8192x3_S8192x1x3_0_2 : S8192x3.BroadcastsInDim S8192x1x3 (![0, 2] : Fin 2 → Fin S8192x1x3.rank)
  bcast_S8192x3_S1x8192x3_1_2 : S8192x3.BroadcastsInDim S1x8192x3 (![1, 2] : Fin 2 → Fin S1x8192x3.rank)
  bcast_S8192x1x3_S8192x8192x3_0_1_2 : S8192x1x3.BroadcastsInDim S8192x8192x3 (![0, 1, 2] : Fin 3 → Fin S8192x8192x3.rank)
  bcast_S1x8192x3_S8192x8192x3_0_1_2 : S1x8192x3.BroadcastsInDim S8192x8192x3 (![0, 1, 2] : Fin 3 → Fin S8192x8192x3.rank)
  reducesTo_S8192x8192x3_S8192x8192_d2 : S8192x8192x3.ReducesTo [2] S8192x8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  shapeCasts_S8192x8192_S67108864 : S8192x8192.ShapeCasts S67108864
  natLt_1_32 : 1 < 32
  reducesTo_S67108864_S_d0 : S67108864.ReducesTo [0] S_
  bcast_S_S_ : S_.BroadcastsInDim S_ (![] : Fin 0 → Fin S_.rank)
  reduceWindows_S67108864_S67108864_w67108864s1p67108863_0 : S67108864.ReduceWindows (![67108864] : Fin 1 → Nat) ![1] ![67108863] ![0] S67108864
  bcast_S_S524288 : S_.BroadcastsInDim S524288 (![] : Fin 0 → Fin S524288.rank)
  bcast_S_S67108864 : S_.BroadcastsInDim S67108864 (![] : Fin 0 → Fin S67108864.rank)
  bcast_S67108864_S67108864x1_0 : S67108864.BroadcastsInDim S67108864x1 (![0] : Fin 1 → Fin S67108864x1.rank)
  reduceWindows_S524288_S524288_w524288s1p524287_0 : S524288.ReduceWindows (![524288] : Fin 1 → Nat) ![1] ![524287] ![0] S524288
  bcast_S524288_S524288x1_0 : S524288.BroadcastsInDim S524288x1 (![0] : Fin 1 → Fin S524288x1.rank)
  shapeCasts_S8192x8192x3_S67108864x3 : S8192x8192x3.ShapeCasts S67108864x3
  bcast_S524288x1_S524288x3_0_1 : S524288x1.BroadcastsInDim S524288x3 (![0, 1] : Fin 2 → Fin S524288x3.rank)
  bcast_S_S524288x3 : S_.BroadcastsInDim S524288x3 (![] : Fin 0 → Fin S524288x3.rank)
  bcast_S524288_S1x524288_1 : S524288.BroadcastsInDim S1x524288 (![1] : Fin 1 → Fin S1x524288.rank)
  concatenates_S1x524288_S1x524288_S2x524288_d0 : Shape.Concatenates [S1x524288, S1x524288] S2x524288 0
  scatter_S524288_S67108864x1_S67108864_n_0_0_1_wf : ScatterDims.WF S524288 S67108864x1 S67108864 [] [0] [0] 1
  gather_S67108864x3_S524288x1_S524288x3_1_0_n_n_0_1_13_wf : GatherDims.WF S67108864x3 S524288x1 S524288x3 [1] [0] [] [0] [] 1 ![1, 3]
  gather_S67108864_S524288x1_S524288_n_0_n_n_0_1_1_wf : GatherDims.WF S67108864 S524288x1 S524288 [] [0] [] [0] [] 1 ![1]

variable [Facts₀]

def scatter_S524288_S67108864x1_S67108864_n_0_0_1 : ScatterDims S524288 S67108864x1 S67108864 where
  updateWindowDims := []
  insertedWindowDims := [0]
  scatterDimsToOperandDims := [0]
  indexVectorDim := 1
  wf := scatter_S524288_S67108864x1_S67108864_n_0_0_1_wf
def gather_S67108864x3_S524288x1_S524288x3_1_0_n_n_0_1_13 : GatherDims S67108864x3 S524288x1 S524288x3 where
  offsetDims := [1]
  collapsedSliceDims := [0]
  operandBatchingDims := []
  startIndicesBatchingDims := []
  startIndexMap := [0]
  indexVectorDim := 1
  sliceSizes := ![1, 3]
  wf := gather_S67108864x3_S524288x1_S524288x3_1_0_n_n_0_1_13_wf
def gather_S67108864_S524288x1_S524288_n_0_n_n_0_1_1 : GatherDims S67108864 S524288x1 S524288 where
  offsetDims := []
  collapsedSliceDims := [0]
  operandBatchingDims := []
  startIndicesBatchingDims := []
  startIndexMap := [0]
  indexVectorDim := 1
  sliceSizes := ![1]
  wf := gather_S67108864_S524288x1_S524288_n_0_n_n_0_1_1_wf

class Facts : Prop extends Facts₀ where

variable [Facts]
-- ==== Proof.KData.lean ====
/-
  The data of the mask kernel's pipeline, stated once for the modules that prove things about it.

  The kernel is launched on a grid of 64 points. At point `t` it is handed rows `128 t … 128 t + 127` of the positions
  (window 0), all 8192 positions (window 1, the same array again), the same 128 rows of the batch labels as a column
  (window 2) and all labels as a row (window 3), and writes a block of 128 × 8192 words (window 4): word `(r, j)` is 1
  when row `128 t + r` and column `j` carry the same label, are different points, and lie at a squared distance in
  `[0, 25)`, else 0. `iblk0` is a window's block of its array as the region finds it, `out0_4` the output block as a
  function of the four input blocks and the point, and `dat0` the pipeline's proof data over them: each input's
  staging buffer keeps its block, the output's holds `out0_4`. The shares `q` at which the input arrays are held are a
  parameter: the two windows on the positions hold one array between them.
-/
import proofs.«120686_j44890998178156_1_alg».proof.Proof.Gen.Kernel.Skeleton
import proofs.«120686_j44890998178156_1_alg».proof.Proof.Gen.Kernel.Points
import proofs.«120686_j44890998178156_1_alg».proof.Proof.KLaunch
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each staging buffer: the body loads and stores nothing smaller. -/
abbrev rP : Rect S128x3 := Rect.unit (s := S128x3) ![0, 0] S128x3.size inb_S128x3_S128x3_0_0
abbrev rQ : Rect S8192x3 := Rect.unit (s := S8192x3) ![0, 0] S8192x3.size inb_S8192x3_S8192x3_0_0
abbrev rB : Rect S128x1 := Rect.unit (s := S128x1) ![0, 0] S128x1.size inb_S128x1_S128x1_0_0
abbrev rC : Rect S1x8192 := Rect.unit (s := S1x8192) ![0, 0] S1x8192.size inb_S1x8192_S1x8192_0_0
abbrev rO : Rect S128x8192 := Rect.unit (s := S128x8192) ![0, 0] S128x8192.size inb_S128x8192_S128x8192_0_0

/-- The output block after the body at grid coordinates `i`, from the four input blocks: its one store, of the
    conjunction of the three tests widened to a word. -/
def out0_4 (i : grid0.Coords) (x0 : Vec F S128x3 .f32) (x1 : Vec F S8192x3 .f32) (x2 : Vec F S128x1 .i32) (x3 : Vec F S1x8192 .i32) :
    Vec F S128x8192 .i32 :=
  View.canon [⟨rO, k0_pay1 (k0_pay2 (View.ld x2 rB) (View.ld x3 rC)) (k0_pay3 i) (k0_pay4 (View.ld x0 rP) (View.ld x1 rQ))⟩]

/-- The pipeline's proof data on core `c`: the arrays as the region finds them; after the body at point `t` each
    input's buffer at its block and the output's at `out0_4` of the input blocks; the invariant the scoped rest and
    the generator register, untouched; nothing owed; the input arrays held at the shares `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 1 t) (iblk0 V c 2 t) (iblk0 V c 3 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) :
    (dat0 V q c).after 4 t = out0_4 (grid0.coords t) (iblk0 V c 0 t) (iblk0 V c 1 t) (iblk0 V c 2 t) (iblk0 V c 3 t) := by
  dsimp only [dat0]

end Cert.Kernel.Hand

end
-- ==== Proof.KBody.lean ====
/-
  The mask kernel's body obligation.

  At a grid point the body is handed five staging buffers: rows of the positions (128 × 3), all positions (8192 × 3),
  the same rows of the labels as a column (128 × 1), all labels as a row (1 × 8192), and the output block
  (128 × 8192). It loads the four inputs whole, loads the output whole (the value read is not used), and stores one
  whole block of words: the conjunction of the three tests (same label, different point, squared distance in
  [0, 25)) widened to a word. So each input buffer is left as it was found, and the output buffer is left at
  "out0_4" of what the four inputs read — a single store covering the whole block, whatever the block held before.

  Each input buffer holds its window's block at every point, fetched there or not: a window fetched at the first
  point only has a block index that never moves, so the block it was given at the first point is the block of every
  later point. With that, the library's obligation at a point is the body's triple with the invariant and the
  core's debts passed through untouched.
-/
import proofs.«120686_j44890998178156_1_alg».proof.Proof.KData
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input buffer -/

/-- Input window 0's current staging buffer holds its block at every point, for any proof data whose array is the
    entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (all positions, fetched once: its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the rows' labels as a column). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (all labels as a row, fetched once: its block index never moves). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output block -/

theorem cover0_4 (p0 : rO.shape.Idx → Elt F .i32) (y : S128x8192.Idx) :
    ∃ pc ∈ ([⟨rO, p0⟩] : List (View.Piece (Elt F) S128x8192 .i32)), y ∈ pc.1.set :=
  View.cover_of_tiled [⟨rO, p0⟩] S128x8192.size (by rfl) y

/-! ## The body's triple -/

set_option maxHeartbeats 1000000 in
/-- The kernel body on whole staging memrefs, the four inputs' at read contents "x0 … x3" and the output's at
    anything, runs to the continuation holding the inputs' as they were and the output's at "out0_4" of the inputs':
    four whole loads, a whole load of the output whose value is dropped, and one whole store. -/
theorem sound_kernel0 (c : Dev nD) (E : Set ℕ) (i : grid0.Coords)
    (arg1 : Memref sig .tc .vmem S128x3 .f32) (harg1 : arg1.IsWhole) (arg2 : Memref sig .tc .vmem S8192x3 .f32) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x8192 .i32) (harg5 : arg5.IsWhole)
    (x0 : Vec F S128x3 .f32) (x1 : Vec F S8192x3 .f32) (x2 : Vec F S128x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 i x0 x1 x2 x3)) -∗ K ⟨⟩))
      ⊢ wp frame (wpE (defs₀ (F := F)) Variants.none c none) E
          (cc0__mask_kernel i arg1 harg1 arg2 harg2 arg3 harg3 arg4 harg4 arg5 harg5) K := by
  simp only [cc0__mask_kernel_eq_skeleton]; unfold cc0__mask_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

variable (q : Fin cfg0.W → PosShare TreeShare)

/-! ## What the body finds, for this proof data -/

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d

/-! ## The body obligation, at a generic point -/

/-- What the body is called with at point "t": the invariant, the core's debts, and each window's current staging
    buffer, whole, at what the pipeline left in it. -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d))
    ∗ (∃ d, owns (c : Thread nD τ) (st0_4 t) fullShare ((dat0 V q c).before 4 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t)
    ∗ owns (c : Thread nD τ) (st0_4 t) fullShare ((dat0 V q c).after 4 t))

/-- The body at any point: the inputs' buffers hold their blocks, so the body's triple applies; the invariant and the
    core's debts pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3]
  rw [show (dat0 V q c).Φ t.succ = (dat0 V q c).Φ t.castSucc from rfl,
    show (dat0 V q c).owesAt () t.succ = (dat0 V q c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end Cert.Kernel.Hand

end
-- ==== Proof.KFold.lean ====
/-
  The contents of the TensorCore's buffers at each boundary of the kernel's program, as a fold from the launch memory.

  The program is: two reshapes of the labels (a column and a row), the mask region, then the host's compaction of the
  mask. `W0` is the launch memory, `W1` the contents after the two reshapes (what the region is entered with). The
  region changes one buffer only, the mask: `W2` is `W1` with the mask at what the pipeline's write-backs leave
  (the positions are read through two windows and the labels through two more; none is written). The compaction is
  printed as a sequence of stretches of host operations, one per function called; `T0 … T26` are the contents after
  each, and `Wn` the contents at the return.
-/
import proofs.«120686_j44890998178156_1_alg».proof.Proof.KData

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

/-- The shares at which the input arrays are held: the positions are handed to two windows, which hold the two halves
    of the array's full share; every other array is held whole. -/
def qs : Fin cfg0.W → PosShare TreeShare := fun w => match w with
  | ⟨0, _⟩ => fullShare.left
  | ⟨1, _⟩ => fullShare.right
  | ⟨2, _⟩ => fullShare
  | ⟨3, _⟩ => fullShare
  | ⟨4, _⟩ => fullShare

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two reshapes of the labels: the region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At the region's exit: the mask at what the write-backs leave, every other buffer as entered. -/
def W2 (c : Dev nD) : Valuation τ sig (Elt F) :=
  Function.update (W1 m ρ c) (Proc.devRef .tc main_v2) ((dat0 (V1 m ρ) qs c).arrAt 4 cfg0.N)

theorem W2_out (c : Dev nD) : W2 m ρ c (Proc.devRef .tc main_v2) = (dat0 (V1 m ρ) qs c).arrAt 4 cfg0.N := by
  unfold W2; exact Function.update_self ..

theorem W2_of_ne (c : Dev nD) (b : Ref sig .tc) (hb : b ≠ main_v2) :
    W2 m ρ c (Proc.devRef .tc b) = W1 m ρ c (Proc.devRef .tc b) := by
  unfold W2; exact Function.update_of_ne (StableHlo.devRef_ne_of_ne hb) ..

/-- The same read at the TensorCore's references. -/
abbrev V2 : (c : Dev nD) → (b : Ref sig .tc) → Buf (Elt F) ((c : Thread nD τ).loc b) := fun c b => W2 m ρ c b

/-! The contents after each stretch of the compaction. -/
abbrev T0 : Dev nD → Valuation τ sig (Elt F) := fun c => StableHlo.after hostOps1 (W2 m ρ c)
abbrev T1 : Dev nD → Valuation τ sig (Elt F) := fun c => StableHlo.after hostOps1_1 (T0 m ρ c)
abbrev T2 : Dev nD → Valuation τ sig (Elt F) := fun c => StableHlo.after hostOps1_2 (T1 m ρ c)
abbrev T3 : Dev nD → Valuation τ sig (Elt F) := fun c => StableHlo.after hostOps1_3 (T2 m ρ c)
abbrev T4 : Dev nD → Valuation τ sig (Elt F) := fun c => StableHlo.after hostOps1_4 (T3 m ρ c)
abbrev T5 : Dev nD → Valuation τ sig (Elt F) := fun c => StableHlo.after hostOps1_5 (T4 m ρ c)
abbrev T6 : Dev nD → Valuation τ sig (Elt F) := fun c => StableHlo.after hostOps1_6 (T5 m ρ c)
abbrev T7 : Dev nD → Valuation τ sig (Elt F) := fun c => StableHlo.after hostOps1_7 (T6 m ρ c)
abbrev T8 : Dev nD → Valuation τ sig (Elt F) := fun c => StableHlo.after hostOps1_8 (T7 m ρ c)
abbrev T9 : Dev nD → Valuation τ sig (Elt F) := fun c => StableHlo.after hostOps1_9 (T8 m ρ c)
abbrev T10 : Dev nD → Valuation τ sig (Elt F) := fun c => StableHlo.after hostOps1_10 (T9 m ρ c)
abbrev T11 : Dev nD → Valuation τ sig (Elt F) := fun c => StableHlo.after hostOps1_11 (T10 m ρ c)
abbrev T12 : Dev nD → Valuation τ sig (Elt F) := fun c => StableHlo.after hostOps1_12 (T11 m ρ c)
abbrev T13 : Dev nD → Valuation τ sig (Elt F) := fun c => StableHlo.after hostOps1_13 (T12 m ρ c)
abbrev T14 : Dev nD → Valuation τ sig (Elt F) := fun c => StableHlo.after hostOps1_14 (T13 m ρ c)
abbrev T15 : Dev nD → Valuation τ sig (Elt F) := fun c => StableHlo.after hostOps1_15 (T14 m ρ c)
abbrev T16 : Dev nD → Valuation τ sig (Elt F) := fun c => StableHlo.after hostOps1_16 (T15 m ρ c)
abbrev T17 : Dev nD → Valuation τ sig (Elt F) := fun c => StableHlo.after hostOps1_17 (T16 m ρ c)
abbrev T18 : Dev nD → Valuation τ sig (Elt F) := fun c => StableHlo.after hostOps1_18 (T17 m ρ c)
abbrev T19 : Dev nD → Valuation τ sig (Elt F) := fun c => StableHlo.after hostOps1_19 (T18 m ρ c)
abbrev T20 : Dev nD → Valuation τ sig (Elt F) := fun c => StableHlo.after hostOps1_20 (T19 m ρ c)
abbrev T21 : Dev nD → Valuation τ sig (Elt F) := fun c => StableHlo.after hostOps1_21 (T20 m ρ c)
abbrev T22 : Dev nD → Valuation τ sig (Elt F) := fun c => StableHlo.after hostOps1_22 (T21 m ρ c)
abbrev T23 : Dev nD → Valuation τ sig (Elt F) := fun c => StableHlo.after hostOps1_23 (T22 m ρ c)
abbrev T24 : Dev nD → Valuation τ sig (Elt F) := fun c => StableHlo.after hostOps1_24 (T23 m ρ c)
abbrev T25 : Dev nD → Valuation τ sig (Elt F) := fun c => StableHlo.after hostOps1_25 (T24 m ρ c)
abbrev T26 : Dev nD → Valuation τ sig (Elt F) := fun c => StableHlo.after hostOps1_26 (T25 m ρ c)
/-- The contents at the return. -/
abbrev Wn : Dev nD → Valuation τ sig (Elt F) := T26 m ρ

end Cert.Kernel.Hand

end
-- ==== Proof.KRun.lean ====
/-
  The kernel's program runs: from any launch memory, every weakly fair execution of it terminates, faults nowhere, and ends
  with every unscoped buffer of the TensorCore at the fold `Wn` of the program's operations over the launch memory.

  The program is a stretch of host operations (two reshapes of the labels), the mask region, and twenty-seven stretches
  of host operations (the compaction). Each stretch is a segment that takes the buffers from one boundary's contents to
  the next; the region is a segment whose entry sorts the four arrays its five windows read and write out of the
  TensorCore's buffers and whose exit puts them back with the mask at what the write-backs leave.

  The positions are handed to the region TWICE (a block of rows, and the whole array): the two windows hold the two
  halves of that array's full share, split at the entry and joined again at the exit (both windows only read, so the
  halves come back at the contents they went in with). The other three arrays are held whole.
-/
import proofs.«120686_j44890998178156_1_alg».proof.Proof.KBody
import proofs.«120686_j44890998178156_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

/-! ## One array under two windows: the shares split at the entry and joined at the exit -/

section Shares

variable (V : (c : Dev nD) → (b : Ref sig .tc) → Buf (Elt F) ((c : Thread nD τ).loc b))

/-- The four buffers behind the five windows' arrays, each whole at the full share, are the pipeline's arrays at the
    shares `qs`: the positions' full share is its two halves. -/
theorem arrays_of_arrBufs (c : Dev nD) :
    (Pipeline.arrBufs (Ix := Unit) (Name := ℕ) (U := UR sig nD τ) (Lvl := ℕ) spec0 c (V c) : sProp 𝕄)
      ⊢ (dat0 V qs c).arrays (dat0 V qs c).A := by
  unfold Pipeline.arrBufs Dat.arrays
  rw [bigSep_eq_bigSepL_of_eq [main_arg0, main_v0, main_v1, main_v2] (by decide) (by decide), bigSep_W0]
  simp only [bigSepL_cons_cons, bigSepL_singleton]
  have hs0 : (dat0 V qs c).share 0 = fullShare.left := rfl
  have hs1 : (dat0 V qs c).share 1 = fullShare.right := rfl
  have hs2 : (dat0 V qs c).share 2 = fullShare := rfl
  have hs3 : (dat0 V qs c).share 3 = fullShare := rfl
  have hs4 : (dat0 V qs c).share 4 = fullShare := rfl
  rw [hs0, hs1, hs2, hs3, hs4, A_eq0, A_eq0, A_eq0, A_eq0, A_eq0,
    (Memref.isWhole_whole main_arg0).set_eq_univ, (Memref.isWhole_whole main_v0).set_eq_univ,
    (Memref.isWhole_whole main_v1).set_eq_univ, (Memref.isWhole_whole main_v2).set_eq_univ]
  show iprop(_ ∗ _ ∗ _ ∗ _) ⊢ _
  iintro ⟨Ha, Hb, Hc, Hd⟩
  have hsp : (((c.tc : Thread nD τ).loc main_arg0) ↦{fullShare} V c main_arg0 : sProp 𝕄)
      ⊢ iprop((((c.tc : Thread nD τ).loc main_arg0) ↦{fullShare.left} V c main_arg0) ∗ (((c.tc : Thread nD τ).loc main_arg0) ↦{fullShare.right} V c main_arg0)) :=
    (pointsTo_share (PosShare.mem_left_op_right fullShare)).1
  ihave Hs := hsp $$ Ha
  icases Hs with ⟨Ha1, Ha2⟩
  isplitl [Ha1]; · iexact Ha1
  isplitl [Ha2]; · iexact Ha2
  isplitl [Hb]; · iexact Hb
  isplitl [Hc]; · iexact Hc
  iexact Hd

/-- ENTRY: a core's unscoped buffers at `V` are the pipeline's arrays at their entry contents and the unscoped rest. -/
theorem arrays_of_unscopedBufs_shared (c : Dev nD) :
    (unscopedBufs c (V c) : sProp 𝕄)
      ⊢ iprop((dat0 V qs c).arrays (dat0 V qs c).A ∗ Pipeline.unscopedRest (Ix := Unit) (Name := ℕ) (U := UR sig nD τ) (Lvl := ℕ) spec0 c (V c)) := by
  rw [Pipeline.unscopedBufs_split₀ cfgs 0 winFacts₀0.arr_unscoped c (V c)]
  exact sep_mono (arrays_of_arrBufs V c) .rfl

/-- The pipeline's arrays at contents `G` — the two windows on the positions holding the same contents — are the four
    buffers behind them whole at the full share, at any `V'` that has them there: the two halves join. -/
theorem arrBufs_of_arrays (c : Dev nD) (V' : (b : Ref sig .tc) → Buf (Elt F) ((c : Thread nD τ).loc b))
    (G : (w : Fin cfg0.W) → Buf (Elt F) ((cfg0.win w).arr.view.loc (c.tc : Thread nD τ)))
    (h0 : G 0 = V' main_arg0) (h1 : G 1 = V' main_arg0) (h2 : G 2 = V' main_v0) (h3 : G 3 = V' main_v1) (h4 : G 4 = V' main_v2) :
    (dat0 V qs c).arrays G
      ⊢ (Pipeline.arrBufs (Ix := Unit) (Name := ℕ) (U := UR sig nD τ) (Lvl := ℕ) spec0 c V' : sProp 𝕄) := by
  unfold Pipeline.arrBufs Dat.arrays
  rw [bigSep_eq_bigSepL_of_eq [main_arg0, main_v0, main_v1, main_v2] (by decide) (by decide), bigSep_W0]
  simp only [bigSepL_cons_cons, bigSepL_singleton]
  have hs0 : (dat0 V qs c).share 0 = fullShare.left := rfl
  have hs1 : (dat0 V qs c).share 1 = fullShare.right := rfl
  have hs2 : (dat0 V qs c).share 2 = fullShare := rfl
  have hs3 : (dat0 V qs c).share 3 = fullShare := rfl
  have hs4 : (dat0 V qs c).share 4 = fullShare := rfl
  rw [hs0, hs1, hs2, hs3, hs4, h0, h1, h2, h3, h4,
    (Memref.isWhole_whole main_arg0).set_eq_univ, (Memref.isWhole_whole main_v0).set_eq_univ,
    (Memref.isWhole_whole main_v1).set_eq_univ, (Memref.isWhole_whole main_v2).set_eq_univ]
  show _ ⊢ iprop(_ ∗ _ ∗ _ ∗ _)
  iintro ⟨H0, H1, H2, H3, H4⟩
  have hjn : iprop((((c.tc : Thread nD τ).loc main_arg0) ↦{fullShare.left} V' main_arg0) ∗ (((c.tc : Thread nD τ).loc main_arg0) ↦{fullShare.right} V' main_arg0))
      ⊢ (((c.tc : Thread nD τ).loc main_arg0) ↦{fullShare} V' main_arg0 : sProp 𝕄) :=
    (pointsTo_share (PosShare.mem_left_op_right fullShare)).2
  isplitl [H0 H1]
  · iapply hjn
    isplitl [H0]; · iexact H0
    iexact H1
  isplitl [H2]; · iexact H2
  isplitl [H3]; · iexact H3
  iexact H4

/-- EXIT: the arrays at `G` and the unscoped rest at `V` are the core's unscoped buffers at any `V'` that has the arrays
    at `G` and agrees with `V` off them. -/
theorem unscopedBufs_of_arrays_shared (c : Dev nD) (V' : (b : Ref sig .tc) → Buf (Elt F) ((c : Thread nD τ).loc b))
    (G : (w : Fin cfg0.W) → Buf (Elt F) ((cfg0.win w).arr.view.loc (c.tc : Thread nD τ)))
    (h0 : G 0 = V' main_arg0) (h1 : G 1 = V' main_arg0) (h2 : G 2 = V' main_v0) (h3 : G 3 = V' main_v1) (h4 : G 4 = V' main_v2)
    (hrest : ∀ b, b ∉ Finset.univ.image (Pipeline.arrRef spec0) → V' b = V c b) :
    iprop((dat0 V qs c).arrays G ∗ Pipeline.unscopedRest (Ix := Unit) (Name := ℕ) (U := UR sig nD τ) (Lvl := ℕ) spec0 c (V c))
      ⊢ (unscopedBufs c V' : sProp 𝕄) := by
  rw [Pipeline.unscopedBufs_split₀ cfgs 0 winFacts₀0.arr_unscoped c V']
  refine sep_mono (arrBufs_of_arrays V c V' G h0 h1 h2 h3 h4) (Entails.of_eq ?_)
  unfold Pipeline.unscopedRest
  exact bigSep_congr fun b hb => by rw [hrest b (Finset.mem_sdiff.mp hb).2]

end Shares

variable (m : (ℓ : Loc nD τ sig) → Buf (Elt F) ℓ) (ρ : Dev nD → PrngReg)

/-! ## The region's exit contents -/

/-- The inputs are never written: after all the points each input array holds what the region found. -/
theorem arrAt_in0 (c : Dev nD) (w : Fin cfg0.W) (hw : (cfg0.win w).isOut = false) :
    (dat0 (V1 m ρ) qs c).arrAt w cfg0.N = V1 m ρ c (Pipeline.arrRef spec0 w) :=
  ((dat0 (V1 m ρ) qs c).arrAt_in w hw _).trans (A_eq0 (V1 m ρ) qs c w)

theorem hG0 (c : Dev nD) : (dat0 (V1 m ρ) qs c).arrAt 0 cfg0.N = V2 m ρ c main_arg0 :=
  (arrAt_in0 m ρ c 0 rfl).trans (W2_of_ne m ρ c main_arg0 (by decide)).symm
theorem hG1 (c : Dev nD) : (dat0 (V1 m ρ) qs c).arrAt 1 cfg0.N = V2 m ρ c main_arg0 :=
  (arrAt_in0 m ρ c 1 rfl).trans (W2_of_ne m ρ c main_arg0 (by decide)).symm
theorem hG2 (c : Dev nD) : (dat0 (V1 m ρ) qs c).arrAt 2 cfg0.N = V2 m ρ c main_v0 :=
  (arrAt_in0 m ρ c 2 rfl).trans (W2_of_ne m ρ c main_v0 (by decide)).symm
theorem hG3 (c : Dev nD) : (dat0 (V1 m ρ) qs c).arrAt 3 cfg0.N = V2 m ρ c main_v1 :=
  (arrAt_in0 m ρ c 3 rfl).trans (W2_of_ne m ρ c main_v1 (by decide)).symm
theorem hG4 (c : Dev nD) : (dat0 (V1 m ρ) qs c).arrAt 4 cfg0.N = V2 m ρ c main_v2 :=
  (W2_out m ρ c).symm
theorem hrest0 (c : Dev nD) : ∀ b, b ∉ Finset.univ.image (Pipeline.arrRef spec0) → V2 m ρ c b = V1 m ρ c b :=
  fun b hb => W2_of_ne m ρ c b fun e => hb (e ▸ (by decide : main_v2 ∈ Finset.univ.image (Pipeline.arrRef spec0)))

/-! ## The proof data family and the thread state -/

abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) qs c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor
theorem hostOps1_24_fresh : (hostOps1_24 : List (HloOp τ sig (Elt F))).Forall fun op => op.fresh = ∅ := by
  simp only [List.Forall]; repeat' constructor
theorem hostOps1_25_fresh : (hostOps1_25 : List (HloOp τ sig (Elt F))).Forall fun op => op.fresh = ∅ := by
  simp only [List.Forall]; repeat' constructor
theorem hostOps1_26_fresh : (hostOps1_26 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Wn m ρ c) ∗ ∃ r, prngReg c r)

/-! ## The region as a segment -/

set_option backward.isDefEq.respectTransparency.types false in
/-- The mask region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) qs c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscopedBufs_shared (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (unscopedBufs c (V2 m ρ c) : sProp 𝕄) :=
      unscopedBufs_of_arrays_shared (V1 m ρ) c (V2 m ρ c) ((dat0 (V1 m ρ) qs c).arrAt · cfg0.N)
        (hG0 m ρ c) (hG1 m ρ c) (hG2 m ρ c) (hG3 m ρ c) (hG4 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (T0 m ρ)),
    .host (hseg hostOps1_2 hostOps1_2_sub hostOps1_2_fresh (T1 m ρ)),
    .host (hseg hostOps1_3 hostOps1_3_sub hostOps1_3_fresh (T2 m ρ)),
    .host (hseg hostOps1_4 hostOps1_4_sub hostOps1_4_fresh (T3 m ρ)),
    .host (hseg hostOps1_5 hostOps1_5_sub hostOps1_5_fresh (T4 m ρ)),
    .host (hseg hostOps1_6 hostOps1_6_sub hostOps1_6_fresh (T5 m ρ)),
    .host (hseg hostOps1_7 hostOps1_7_sub hostOps1_7_fresh (T6 m ρ)),
    .host (hseg hostOps1_8 hostOps1_8_sub hostOps1_8_fresh (T7 m ρ)),
    .host (hseg hostOps1_9 hostOps1_9_sub hostOps1_9_fresh (T8 m ρ)),
    .host (hseg hostOps1_10 hostOps1_10_sub hostOps1_10_fresh (T9 m ρ)),
    .host (hseg hostOps1_11 hostOps1_11_sub hostOps1_11_fresh (T10 m ρ)),
    .host (hseg hostOps1_12 hostOps1_12_sub hostOps1_12_fresh (T11 m ρ)),
    .host (hseg hostOps1_13 hostOps1_13_sub hostOps1_13_fresh (T12 m ρ)),
    .host (hseg hostOps1_14 hostOps1_14_sub hostOps1_14_fresh (T13 m ρ)),
    .host (hseg hostOps1_15 hostOps1_15_sub hostOps1_15_fresh (T14 m ρ)),
    .host (hseg hostOps1_16 hostOps1_16_sub hostOps1_16_fresh (T15 m ρ)),
    .host (hseg hostOps1_17 hostOps1_17_sub hostOps1_17_fresh (T16 m ρ)),
    .host (hseg hostOps1_18 hostOps1_18_sub hostOps1_18_fresh (T17 m ρ)),
    .host (hseg hostOps1_19 hostOps1_19_sub hostOps1_19_fresh (T18 m ρ)),
    .host (hseg hostOps1_20 hostOps1_20_sub hostOps1_20_fresh (T19 m ρ)),
    .host (hseg hostOps1_21 hostOps1_21_sub hostOps1_21_fresh (T20 m ρ)),
    .host (hseg hostOps1_22 hostOps1_22_sub hostOps1_22_fresh (T21 m ρ)),
    .host (hseg hostOps1_23 hostOps1_23_sub hostOps1_23_fresh (T22 m ρ)),
    .host (hseg hostOps1_24 hostOps1_24_sub hostOps1_24_fresh (T23 m ρ)),
    .host (hseg hostOps1_25 hostOps1_25_sub hostOps1_25_fresh (T24 m ρ)),
    .host (hseg hostOps1_26 hostOps1_26_sub hostOps1_26_fresh (T25 m ρ)) ]

/-- The program IS the run of its segments. -/
theorem main_run (c : Dev nD) : main (F := F) c = Pipeline.Seg.run (segs m ρ) := (main_chain c).trans (by chain_rfl)

set_option backward.isDefEq.respectTransparency.types false in
/-- THE RUN: every weakly fair execution of the program on the TensorCores terminates, nothing faulting, and every
    final state has each unscoped buffer of each TensorCore at the fold `Wn`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wn m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(_ ∗ _ ∗ _) ⊢ iprop((_ ∗ _) ∗ _)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn m ρ c b)
    (hfin := fun c s' => by
      iintro ⟨⟨Hh, -⟩, HSI⟩
      unfold StableHlo.held
      imodintro
      iapply (pointsTo_read_all (Pipeline.ucRefs τ sig) (fun b => (((c : Thread nD τ)).1, b)) (Wn m ρ c) s')
      isplitl [Hh] <;> iassumption)
    (hQ := fun s h c => h c)

end Cert.Kernel.Hand

end
-- ==== Proof.KRead.lean ====
/-
  What the kernel's program leaves in its buffers at the return, read through the fold of its host operations.

  The arguments end as launched: no host operation writes an argument's buffer, and the region writes the mask only,
  so the fold at an argument's buffer walks back, stretch by stretch, to the launch memory.

  The three results are functions of the mask the region leaves and of the positions. After the region the host
  flattens the mask to bits, counts its ones, and lists the positions of its ones in increasing order: the running
  count of ones is scattered as a histogram (one added at each running-count value), whose own running count, floor
  divided and reduced, is the position of the k-th one in slot k; slots past the number of ones are set to zero. From
  the positions it reads the row and the column of each pair (floor division and remainder by 8192), gathers the two
  points, and returns the pair index, the distance and the difference vector, masked past the number of pairs kept.
  Each stretch of operations is evaluated once, from any contents before it; the stretches are then chained from the
  region's exit, a value read some stretches after it is written being unchanged in between.
-/
import proofs.«120686_j44890998178156_1_alg».proof.Proof.KFold

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

variable (m : (ℓ : Loc nD τ sig) → Buf (Elt F) ℓ) (ρ : Dev nD → PrngReg)

/-! ## The arguments end as launched -/

/-- A buffer that no operation of a stretch writes holds after the stretch what it held before: each operation
    writes its one result buffer, a reference different from the one read. -/
local macro "kept_by " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem Wn_main_arg0 (c : Dev nD) : Wn m ρ c (Proc.devRef .tc main_arg0) = m ((c : Thread nD τ).loc main_arg0) :=
  calc Wn m ρ c (Proc.devRef .tc main_arg0)
    _ = T25 m ρ c (Proc.devRef .tc main_arg0) := by kept_by hostOps1_26
    _ = T24 m ρ c (Proc.devRef .tc main_arg0) := by kept_by hostOps1_25
    _ = T23 m ρ c (Proc.devRef .tc main_arg0) := by kept_by hostOps1_24
    _ = T22 m ρ c (Proc.devRef .tc main_arg0) := by kept_by hostOps1_23
    _ = T21 m ρ c (Proc.devRef .tc main_arg0) := by kept_by hostOps1_22
    _ = T20 m ρ c (Proc.devRef .tc main_arg0) := by kept_by hostOps1_21
    _ = T19 m ρ c (Proc.devRef .tc main_arg0) := by kept_by hostOps1_20
    _ = T18 m ρ c (Proc.devRef .tc main_arg0) := by kept_by hostOps1_19
    _ = T17 m ρ c (Proc.devRef .tc main_arg0) := by kept_by hostOps1_18
    _ = T16 m ρ c (Proc.devRef .tc main_arg0) := by kept_by hostOps1_17
    _ = T15 m ρ c (Proc.devRef .tc main_arg0) := by kept_by hostOps1_16
    _ = T14 m ρ c (Proc.devRef .tc main_arg0) := by kept_by hostOps1_15
    _ = T13 m ρ c (Proc.devRef .tc main_arg0) := by kept_by hostOps1_14
    _ = T12 m ρ c (Proc.devRef .tc main_arg0) := by kept_by hostOps1_13
    _ = T11 m ρ c (Proc.devRef .tc main_arg0) := by kept_by hostOps1_12
    _ = T10 m ρ c (Proc.devRef .tc main_arg0) := by kept_by hostOps1_11
    _ = T9 m ρ c (Proc.devRef .tc main_arg0) := by kept_by hostOps1_10
    _ = T8 m ρ c (Proc.devRef .tc main_arg0) := by kept_by hostOps1_9
    _ = T7 m ρ c (Proc.devRef .tc main_arg0) := by kept_by hostOps1_8
    _ = T6 m ρ c (Proc.devRef .tc main_arg0) := by kept_by hostOps1_7
    _ = T5 m ρ c (Proc.devRef .tc main_arg0) := by kept_by hostOps1_6
    _ = T4 m ρ c (Proc.devRef .tc main_arg0) := by kept_by hostOps1_5
    _ = T3 m ρ c (Proc.devRef .tc main_arg0) := by kept_by hostOps1_4
    _ = T2 m ρ c (Proc.devRef .tc main_arg0) := by kept_by hostOps1_3
    _ = T1 m ρ c (Proc.devRef .tc main_arg0) := by kept_by hostOps1_2
    _ = T0 m ρ c (Proc.devRef .tc main_arg0) := by kept_by hostOps1_1
    _ = W2 m ρ c (Proc.devRef .tc main_arg0) := by kept_by hostOps1
    _ = W1 m ρ c (Proc.devRef .tc main_arg0) := W2_of_ne m ρ c main_arg0 (by decide)
    _ = W0 m ρ c (Proc.devRef .tc main_arg0) := by kept_by hostOps0
    _ = m ((c : Thread nD τ).loc main_arg0) := rfl

theorem Wn_main_arg1 (c : Dev nD) : Wn m ρ c (Proc.devRef .tc main_arg1) = m ((c : Thread nD τ).loc main_arg1) :=
  calc Wn m ρ c (Proc.devRef .tc main_arg1)
    _ = T25 m ρ c (Proc.devRef .tc main_arg1) := by kept_by hostOps1_26
    _ = T24 m ρ c (Proc.devRef .tc main_arg1) := by kept_by hostOps1_25
    _ = T23 m ρ c (Proc.devRef .tc main_arg1) := by kept_by hostOps1_24
    _ = T22 m ρ c (Proc.devRef .tc main_arg1) := by kept_by hostOps1_23
    _ = T21 m ρ c (Proc.devRef .tc main_arg1) := by kept_by hostOps1_22
    _ = T20 m ρ c (Proc.devRef .tc main_arg1) := by kept_by hostOps1_21
    _ = T19 m ρ c (Proc.devRef .tc main_arg1) := by kept_by hostOps1_20
    _ = T18 m ρ c (Proc.devRef .tc main_arg1) := by kept_by hostOps1_19
    _ = T17 m ρ c (Proc.devRef .tc main_arg1) := by kept_by hostOps1_18
    _ = T16 m ρ c (Proc.devRef .tc main_arg1) := by kept_by hostOps1_17
    _ = T15 m ρ c (Proc.devRef .tc main_arg1) := by kept_by hostOps1_16
    _ = T14 m ρ c (Proc.devRef .tc main_arg1) := by kept_by hostOps1_15
    _ = T13 m ρ c (Proc.devRef .tc main_arg1) := by kept_by hostOps1_14
    _ = T12 m ρ c (Proc.devRef .tc main_arg1) := by kept_by hostOps1_13
    _ = T11 m ρ c (Proc.devRef .tc main_arg1) := by kept_by hostOps1_12
    _ = T10 m ρ c (Proc.devRef .tc main_arg1) := by kept_by hostOps1_11
    _ = T9 m ρ c (Proc.devRef .tc main_arg1) := by kept_by hostOps1_10
    _ = T8 m ρ c (Proc.devRef .tc main_arg1) := by kept_by hostOps1_9
    _ = T7 m ρ c (Proc.devRef .tc main_arg1) := by kept_by hostOps1_8
    _ = T6 m ρ c (Proc.devRef .tc main_arg1) := by kept_by hostOps1_7
    _ = T5 m ρ c (Proc.devRef .tc main_arg1) := by kept_by hostOps1_6
    _ = T4 m ρ c (Proc.devRef .tc main_arg1) := by kept_by hostOps1_5
    _ = T3 m ρ c (Proc.devRef .tc main_arg1) := by kept_by hostOps1_4
    _ = T2 m ρ c (Proc.devRef .tc main_arg1) := by kept_by hostOps1_3
    _ = T1 m ρ c (Proc.devRef .tc main_arg1) := by kept_by hostOps1_2
    _ = T0 m ρ c (Proc.devRef .tc main_arg1) := by kept_by hostOps1_1
    _ = W2 m ρ c (Proc.devRef .tc main_arg1) := by kept_by hostOps1
    _ = W1 m ρ c (Proc.devRef .tc main_arg1) := W2_of_ne m ρ c main_arg1 (by decide)
    _ = W0 m ρ c (Proc.devRef .tc main_arg1) := by kept_by hostOps0
    _ = m ((c : Thread nD τ).loc main_arg1) := rfl

/-! ## The compaction as functions

The host's compaction of the mask, operation by operation, as functions of the values read: the flat mask as bits,
the number of its ones, the sorted positions of its ones (a running count, the histogram of the running count by a
scatter-add, its running count, and the floor division and remainder that read a position off it), and the three
results gathered at those positions. The floor division, the remainder and the selects between a vector and a
constant are the functions the program calls; they are kept as functions here. -/

/-- The flat mask as bits: a word of the mask is set when it is not zero. -/
def kFlat (mask : IVec S8192x8192 32) : IVec S67108864 1 :=
  cmpi .ne (shapeCast S67108864 mask shapeCasts_S8192x8192_S67108864)
    (broadcastInDim S67108864 ![] bcast_S_S67108864 (constantI S_ 32 0#32))

/-- The number of ones of the flat mask. -/
def nzCnt (f : IVec S67108864 1) : IVec S_ 32 :=
  Host.reduce IntOp.addi (extui 32 f natLt_1_32) (constantI S_ 32 0#32) reducesTo_S67108864_S_d0 h_S_

/-- The running count of ones. -/
def cumsumF (f : IVec S67108864 1) : IVec S67108864 32 :=
  Host.reduceWindow IntOp.addi ![67108864] ![1] ![67108863] ![0] (extui 32 f natLt_1_32)
    (broadcastInDim S_ ![] bcast_S_S_ (constantI S_ 32 0#32))
    reduceWindows_S67108864_S67108864_w67108864s1p67108863_0 h_S_

/-- A vector bounded below by a constant. -/
def clipF (x : IVec S67108864 32) (lo : IVec S_ 32) : IVec S67108864 32 :=
  maxsi (broadcastInDim S67108864 ![] bcast_S_S67108864 lo) x

/-- The histogram of the clipped running count over "z": one added at each value (negative values wrapped). -/
def histF (cl : IVec S67108864 32) (z : IVec S524288 32) : IVec S524288 32 :=
  Host.scatter scatter_S524288_S67108864x1_S67108864_n_0_0_1 IntOp.addi z
    (broadcastInDim S67108864x1 ![0] bcast_S67108864_S67108864x1_0
      (select (cmpi .slt cl (broadcastInDim S67108864 ![] bcast_S_S67108864 (constantI S_ 32 0#32)))
        (addi cl (broadcastInDim S67108864 ![] bcast_S_S67108864 (constantI S_ 32 524288#32))) cl))
    (broadcastInDim S67108864 ![] bcast_S_S67108864 (constantI S_ 32 1#32))

/-- The running count of a vector of 524288 words. -/
def cumsum1F (x : IVec S524288 32) : IVec S524288 32 :=
  Host.reduceWindow IntOp.addi ![524288] ![1] ![524287] ![0] x
    (broadcastInDim S_ ![] bcast_S_S_ (constantI S_ 32 0#32))
    reduceWindows_S524288_S524288_w524288s1p524287_0 h_S_

/-- Floor division of a vector by a constant: the truncated quotient, less one where the signs differ and the
    remainder is not zero. -/
def floorDivide (x : IVec S524288 32) (d : IVec S_ 32) : IVec S524288 32 :=
  select
    (andi (cmpi .ne (signi x) (broadcastInDim S524288 ![] bcast_S_S524288 (signi d)))
      (cmpi .ne (Host.remsi x (broadcastInDim S524288 ![] bcast_S_S524288 d))
        (broadcastInDim S524288 ![] bcast_S_S524288 (constantI S_ 32 0#32))))
    (subi (Host.divsi x (broadcastInDim S524288 ![] bcast_S_S524288 d))
      (broadcastInDim S524288 ![] bcast_S_S524288 (constantI S_ 32 1#32)))
    (Host.divsi x (broadcastInDim S524288 ![] bcast_S_S524288 d))

/-- The divisor the remainder uses: one in place of zero. -/
def divisorF (d : IVec S_ 32) : IVec S_ 32 :=
  select (cmpi .eq d (constantI S_ 32 0#32)) (constantI S_ 32 1#32) d

/-- The remainder of a vector by a constant with the divisor's sign: the truncated remainder, plus the divisor
    where it is not zero and its sign differs from the divisor's. -/
def remainderF (x : IVec S524288 32) (d : IVec S_ 32) : IVec S524288 32 :=
  select
    (andi
      (cmpi .ne
        (cmpi .slt (Host.remsi x (broadcastInDim S524288 ![] bcast_S_S524288 (divisorF d)))
          (broadcastInDim S524288 ![] bcast_S_S524288 (constantI S_ 32 0#32)))
        (broadcastInDim S524288 ![] bcast_S_S524288 (cmpi .slt (divisorF d) (constantI S_ 32 0#32))))
      (cmpi .ne (Host.remsi x (broadcastInDim S524288 ![] bcast_S_S524288 (divisorF d)))
        (broadcastInDim S524288 ![] bcast_S_S524288 (constantI S_ 32 0#32))))
    (addi (Host.remsi x (broadcastInDim S524288 ![] bcast_S_S524288 (divisorF d)))
      (broadcastInDim S524288 ![] bcast_S_S524288 (divisorF d)))
    (Host.remsi x (broadcastInDim S524288 ![] bcast_S_S524288 (divisorF d)))

/-- A constant where the condition holds, the vector elsewhere. -/
def where4 (c : IVec S524288 1) (a : IVec S_ 32) (b : IVec S524288 32) : IVec S524288 32 :=
  select c (broadcastInDim S524288 ![] bcast_S_S524288 a) b

/-- The histogram of the running count of ones. -/
def nzHist (f : IVec S67108864 1) : IVec S524288 32 :=
  histF (clipF (cumsumF f) (constantI S_ 32 0#32)) (broadcastInDim S524288 ![] bcast_S_S524288 (constantI S_ 32 0#32))

/-- The positions read off the histogram's running count. -/
def nzPos (f : IVec S67108864 1) : IVec S524288 32 :=
  remainderF (floorDivide (cumsum1F (nzHist f)) (constantI S_ 32 1#32)) (constantI S_ 32 67108864#32)

/-- The slots at or past the number of ones. -/
def nzPast (f : IVec S67108864 1) : IVec S524288 1 :=
  cmpi .sge (iotaInDim S524288 32 0) (broadcastInDim S524288 ![] bcast_S_S524288 (nzCnt f))

/-- The positions of the ones of the flat mask in increasing order, zero in the slots past their number. -/
def nzIdx (f : IVec S67108864 1) : IVec S524288 32 :=
  where4 (nzPast f) (constantI S_ 32 0#32) (nzPos f)

/-- The slots below the number of pairs kept: the number of ones, at most 524288. -/
def validF (cnt : IVec S_ 32) : IVec S524288 1 :=
  cmpi .slt (iotaInDim S524288 32 0)
    (broadcastInDim S524288 ![] bcast_S_S524288 (minsi cnt (constantI S_ 32 524288#32)))

/-- The row of each position: the position floor-divided by 8192. -/
def rowI (idx : IVec S524288 32) : IVec S524288 32 := floorDivide idx (constantI S_ 32 8192#32)
/-- The column of each position: its remainder by 8192. -/
def colI (idx : IVec S524288 32) : IVec S524288 32 := remainderF idx (constantI S_ 32 8192#32)

/-- The vector where the condition holds, a constant elsewhere. -/
def where8 (c : IVec S524288 1) (a : IVec S524288 32) (b : IVec S_ 32) : IVec S524288 32 :=
  select c a (broadcastInDim S524288 ![] bcast_S_S524288 b)
/-- The same of floats. -/
def where7 (c : IVec S524288 1) (a : FVec F S524288 .f32) (b : FVec F S_ .f32) : FVec F S524288 .f32 :=
  select c a (broadcastInDim S524288 ![] bcast_S_S524288 b)
/-- The same of rows of three floats, the condition one bit per row. -/
def where6 (c : IVec S524288x1 1) (a : FVec F S524288x3 .f32) (b : FVec F S_ .f32) : FVec F S524288x3 .f32 :=
  select (broadcastInDim S524288x3 ![0, 1] bcast_S524288x1_S524288x3_0_1 c) a
    (broadcastInDim S524288x3 ![] bcast_S_S524288x3 b)

/-- The pair index: the rows of the positions over their columns, minus one in the slots past the number kept. -/
def outIdx (cnt : IVec S_ 32) (idx : IVec S524288 32) : IVec S2x524288 32 :=
  concatenate S2x524288 0
    [⟨S1x524288, broadcastInDim S1x524288 ![1] bcast_S524288_S1x524288_1
        (where8 (validF cnt) (rowI idx) (constantI S_ 32 4294967295#32))⟩,
     ⟨S1x524288, broadcastInDim S1x524288 ![1] bcast_S524288_S1x524288_1
        (where8 (validF cnt) (colI idx) (constantI S_ 32 4294967295#32))⟩]
    concatenates_S1x524288_S1x524288_S2x524288_d0

/-- The rows of the positions at a vector of row numbers (negative numbers wrapped). -/
def rowsAt (pos : FVec F S8192x3 .f32) (x : IVec S524288 32) : FVec F S524288x3 .f32 :=
  Host.gather gather_S8192x3_S524288x1_S524288x3_1_0_n_n_0_1_13 pos
    (broadcastInDim S524288x1 ![0] bcast_S524288_S524288x1_0
      (select (cmpi .slt x (broadcastInDim S524288 ![] bcast_S_S524288 (constantI S_ 32 0#32)))
        (addi x (broadcastInDim S524288 ![] bcast_S_S524288 (constantI S_ 32 8192#32))) x))

/-- The difference vector of each pair: the row point minus the column point. -/
def pairDiff (idx : IVec S524288 32) (pos : FVec F S8192x3 .f32) : FVec F S524288x3 .f32 :=
  subf (rowsAt pos (rowI idx)) (rowsAt pos (colI idx))

/-- The squared length of each pair's difference vector. -/
def pairSq (idx : IVec S524288 32) (pos : FVec F S8192x3 .f32) : FVec F S524288 .f32 :=
  Host.reduceAdd (mulf (pairDiff idx pos) (pairDiff idx pos)) (constant S_ .f32 0x00000000#32)
    reducesTo_S524288x3_S524288_d1 h_S_

/-- The difference vectors, zero in the slots past the number kept. -/
def kOutVec (cnt : IVec S_ 32) (idx : IVec S524288 32) (pos : FVec F S8192x3 .f32) : FVec F S524288x3 .f32 :=
  where6 (broadcastInDim S524288x1 ![0] bcast_S524288_S524288x1_0 (validF cnt)) (pairDiff idx pos)
    (constant S_ .f32 0x00000000#32)

/-- The distances: the square root of the squared length (of one in the slots past the number kept), zero in those
    slots. -/
def kOutW (cnt : IVec S_ 32) (idx : IVec S524288 32) (pos : FVec F S8192x3 .f32) : FVec F S524288 .f32 :=
  where7 (validF cnt)
    (Host.sqrt (where7 (validF cnt) (pairSq idx pos) (constant S_ .f32 0x3F800000#32)))
    (constant S_ .f32 0x00000000#32)

/-! ## Each stretch, evaluated

What a stretch of host operations leaves in the buffers read later, from any contents "V" before it: the fold
unrolled, each operation's result read at its own buffer and passed over at the others, in one pass. A called
function's operations move their values to the buffers' own types and back, which is the identity. The
reductions, the scatter and the gather are kept folded: the equations never look inside them. -/

/-- Contents moved to a buffer's own type and back are the contents. -/
theorem ofBuf_toBuf {T : BufTy} (x : StableHlo.TRef sig T) (v : T.Contents (Elt F)) : x.ofBuf (x.toBuf v) = v := by
  simp only [StableHlo.TRef.ofBuf, StableHlo.TRef.toBuf, cast_cast, cast_eq]

section Stretches

open Idealize.ShloMosaic.StableHlo

attribute [local irreducible] Host.reduce Host.reduceWindow Host.scatter Host.gather Host.reduceAdd concatenate

theorem s0_v5 (V : Valuation τ sig (Elt F)) :
    StableHlo.after hostOps1 V (Proc.devRef .tc main_v5) = kFlat (V (Proc.devRef .tc main_v2)) := by
  simp only [hostOps1]
  after_results_simp
  all_goals (try simp only [ofBuf_toBuf])
  all_goals rfl
theorem s0_v7 (V : Valuation τ sig (Elt F)) :
    StableHlo.after hostOps1 V (Proc.devRef .tc main_v7) = nzCnt (kFlat (V (Proc.devRef .tc main_v2))) := by
  simp only [hostOps1]
  after_results_simp
  all_goals (try simp only [ofBuf_toBuf])
  all_goals rfl
theorem s1_v8 (V : Valuation τ sig (Elt F)) :
    StableHlo.after hostOps1_1 V (Proc.devRef .tc main_v8) = cumsumF (V (Proc.devRef .tc main_v5)) := by
  simp only [hostOps1_1]
  after_results_simp
  all_goals (try simp only [ofBuf_toBuf])
  all_goals rfl
theorem s2_v9 (V : Valuation τ sig (Elt F)) :
    StableHlo.after hostOps1_2 V (Proc.devRef .tc main_v9) = broadcastInDim S524288 ![] bcast_S_S524288 (constantI S_ 32 0#32) := by
  simp only [hostOps1_2]
  after_results_simp
  all_goals (try simp only [ofBuf_toBuf])
  all_goals rfl
theorem s2_c_2 (V : Valuation τ sig (Elt F)) :
    StableHlo.after hostOps1_2 V (Proc.devRef .tc main_c_2) = constantI S_ 32 0#32 := by
  simp only [hostOps1_2]
  after_results_simp
  all_goals (try simp only [ofBuf_toBuf])
  all_goals rfl
theorem s3_v10 (V : Valuation τ sig (Elt F)) :
    StableHlo.after hostOps1_3 V (Proc.devRef .tc main_v10) = clipF (V (Proc.devRef .tc main_v8)) (V (Proc.devRef .tc main_c_2)) := by
  simp only [hostOps1_3]
  after_results_simp
  all_goals (try simp only [ofBuf_toBuf])
  all_goals rfl
theorem s4_v18 (V : Valuation τ sig (Elt F)) :
    StableHlo.after hostOps1_4 V (Proc.devRef .tc main_v18) = histF (V (Proc.devRef .tc main_v10)) (V (Proc.devRef .tc main_v9)) := by
  simp only [hostOps1_4]
  after_results_simp
  all_goals (try simp only [ofBuf_toBuf])
  all_goals rfl
theorem s5_v19 (V : Valuation τ sig (Elt F)) :
    StableHlo.after hostOps1_5 V (Proc.devRef .tc main_v19) = cumsum1F (V (Proc.devRef .tc main_v18)) := by
  simp only [hostOps1_5]
  after_results_simp
  all_goals (try simp only [ofBuf_toBuf])
  all_goals rfl
theorem s6_c_6 (V : Valuation τ sig (Elt F)) :
    StableHlo.after hostOps1_6 V (Proc.devRef .tc main_c_6) = constantI S_ 32 1#32 := by
  simp only [hostOps1_6]
  after_results_simp
  all_goals (try simp only [ofBuf_toBuf])
  all_goals rfl
theorem s7_v20 (V : Valuation τ sig (Elt F)) :
    StableHlo.after hostOps1_7 V (Proc.devRef .tc main_v20) = floorDivide (V (Proc.devRef .tc main_v19)) (V (Proc.devRef .tc main_c_6)) := by
  simp only [hostOps1_7]
  after_results_simp
  all_goals (try simp only [ofBuf_toBuf])
  all_goals rfl
theorem s8_c_7 (V : Valuation τ sig (Elt F)) :
    StableHlo.after hostOps1_8 V (Proc.devRef .tc main_c_7) = constantI S_ 32 67108864#32 := by
  simp only [hostOps1_8]
  after_results_simp
  all_goals (try simp only [ofBuf_toBuf])
  all_goals rfl
theorem s9_v21 (V : Valuation τ sig (Elt F)) :
    StableHlo.after hostOps1_9 V (Proc.devRef .tc main_v21) = remainderF (V (Proc.devRef .tc main_v20)) (V (Proc.devRef .tc main_c_7)) := by
  simp only [hostOps1_9]
  after_results_simp
  all_goals (try simp only [ofBuf_toBuf])
  all_goals rfl
theorem s10_v26 (V : Valuation τ sig (Elt F)) :
    StableHlo.after hostOps1_10 V (Proc.devRef .tc main_v26) = nzPast (V (Proc.devRef .tc main_v5)) := by
  simp only [hostOps1_10]
  after_results_simp
  all_goals (try simp only [ofBuf_toBuf])
  all_goals rfl
theorem s10_c_9 (V : Valuation τ sig (Elt F)) :
    StableHlo.after hostOps1_10 V (Proc.devRef .tc main_c_9) = constantI S_ 32 0#32 := by
  simp only [hostOps1_10]
  after_results_simp
  all_goals (try simp only [ofBuf_toBuf])
  all_goals rfl
theorem s11_v27 (V : Valuation τ sig (Elt F)) :
    StableHlo.after hostOps1_11 V (Proc.devRef .tc main_v27) = where4 (V (Proc.devRef .tc main_v26)) (V (Proc.devRef .tc main_c_9)) (V (Proc.devRef .tc main_v21)) := by
  simp only [hostOps1_11]
  after_results_simp
  all_goals (try simp only [ofBuf_toBuf])
  all_goals rfl
theorem s12_v31 (V : Valuation τ sig (Elt F)) :
    StableHlo.after hostOps1_12 V (Proc.devRef .tc main_v31) = validF (V (Proc.devRef .tc main_v7)) := by
  simp only [hostOps1_12]
  after_results_simp
  all_goals (try simp only [ofBuf_toBuf])
  all_goals rfl
theorem s12_c_11 (V : Valuation τ sig (Elt F)) :
    StableHlo.after hostOps1_12 V (Proc.devRef .tc main_c_11) = constantI S_ 32 8192#32 := by
  simp only [hostOps1_12]
  after_results_simp
  all_goals (try simp only [ofBuf_toBuf])
  all_goals rfl
theorem s13_v32 (V : Valuation τ sig (Elt F)) :
    StableHlo.after hostOps1_13 V (Proc.devRef .tc main_v32) = floorDivide (V (Proc.devRef .tc main_v27)) (V (Proc.devRef .tc main_c_11)) := by
  simp only [hostOps1_13]
  after_results_simp
  all_goals (try simp only [ofBuf_toBuf])
  all_goals rfl
theorem s14_c_12 (V : Valuation τ sig (Elt F)) :
    StableHlo.after hostOps1_14 V (Proc.devRef .tc main_c_12) = constantI S_ 32 8192#32 := by
  simp only [hostOps1_14]
  after_results_simp
  all_goals (try simp only [ofBuf_toBuf])
  all_goals rfl
theorem s15_v33 (V : Valuation τ sig (Elt F)) :
    StableHlo.after hostOps1_15 V (Proc.devRef .tc main_v33) = remainderF (V (Proc.devRef .tc main_v27)) (V (Proc.devRef .tc main_c_12)) := by
  simp only [hostOps1_15]
  after_results_simp
  all_goals (try simp only [ofBuf_toBuf])
  all_goals rfl
theorem s16_v48 (V : Valuation τ sig (Elt F)) :
    StableHlo.after hostOps1_16 V (Proc.devRef .tc main_v48) = subf (rowsAt (V (Proc.devRef .tc main_arg0)) (V (Proc.devRef .tc main_v32))) (rowsAt (V (Proc.devRef .tc main_arg0)) (V (Proc.devRef .tc main_v33))) := by
  simp only [hostOps1_16]
  after_results_simp
  all_goals (try simp only [ofBuf_toBuf])
  all_goals rfl
theorem s16_v50 (V : Valuation τ sig (Elt F)) :
    StableHlo.after hostOps1_16 V (Proc.devRef .tc main_v50) = Host.reduceAdd (mulf (subf (rowsAt (V (Proc.devRef .tc main_arg0)) (V (Proc.devRef .tc main_v32))) (rowsAt (V (Proc.devRef .tc main_arg0)) (V (Proc.devRef .tc main_v33)))) (subf (rowsAt (V (Proc.devRef .tc main_arg0)) (V (Proc.devRef .tc main_v32))) (rowsAt (V (Proc.devRef .tc main_arg0)) (V (Proc.devRef .tc main_v33))))) (constant S_ .f32 0x00000000#32) reducesTo_S524288x3_S524288_d1 h_S_ := by
  simp only [hostOps1_16]
  after_results_simp
  all_goals (try simp only [ofBuf_toBuf])
  all_goals rfl
theorem s16_v51 (V : Valuation τ sig (Elt F)) :
    StableHlo.after hostOps1_16 V (Proc.devRef .tc main_v51) = broadcastInDim S524288x1 ![0] bcast_S524288_S524288x1_0 (V (Proc.devRef .tc main_v31)) := by
  simp only [hostOps1_16]
  after_results_simp
  all_goals (try simp only [ofBuf_toBuf])
  all_goals rfl
theorem s16_cst_17 (V : Valuation τ sig (Elt F)) :
    StableHlo.after hostOps1_16 V (Proc.devRef .tc main_cst_17) = constant S_ .f32 0x00000000#32 := by
  simp only [hostOps1_16]
  after_results_simp
  all_goals (try simp only [ofBuf_toBuf])
  all_goals rfl
theorem s17_v52 (V : Valuation τ sig (Elt F)) :
    StableHlo.after hostOps1_17 V (Proc.devRef .tc main_v52) = where6 (V (Proc.devRef .tc main_v51)) (V (Proc.devRef .tc main_v48)) (V (Proc.devRef .tc main_cst_17)) := by
  simp only [hostOps1_17]
  after_results_simp
  all_goals (try simp only [ofBuf_toBuf])
  all_goals rfl
theorem s18_cst_18 (V : Valuation τ sig (Elt F)) :
    StableHlo.after hostOps1_18 V (Proc.devRef .tc main_cst_18) = constant S_ .f32 0x3F800000#32 := by
  simp only [hostOps1_18]
  after_results_simp
  all_goals (try simp only [ofBuf_toBuf])
  all_goals rfl
theorem s19_v53 (V : Valuation τ sig (Elt F)) :
    StableHlo.after hostOps1_19 V (Proc.devRef .tc main_v53) = where7 (V (Proc.devRef .tc main_v31)) (V (Proc.devRef .tc main_v50)) (V (Proc.devRef .tc main_cst_18)) := by
  simp only [hostOps1_19]
  after_results_simp
  all_goals (try simp only [ofBuf_toBuf])
  all_goals rfl
theorem s20_v54 (V : Valuation τ sig (Elt F)) :
    StableHlo.after hostOps1_20 V (Proc.devRef .tc main_v54) = Host.sqrt (V (Proc.devRef .tc main_v53)) := by
  simp only [hostOps1_20]
  after_results_simp
  all_goals (try simp only [ofBuf_toBuf])
  all_goals rfl
theorem s20_cst_19 (V : Valuation τ sig (Elt F)) :
    StableHlo.after hostOps1_20 V (Proc.devRef .tc main_cst_19) = constant S_ .f32 0x00000000#32 := by
  simp only [hostOps1_20]
  after_results_simp
  all_goals (try simp only [ofBuf_toBuf])
  all_goals rfl
theorem s21_v55 (V : Valuation τ sig (Elt F)) :
    StableHlo.after hostOps1_21 V (Proc.devRef .tc main_v55) = where7 (V (Proc.devRef .tc main_v31)) (V (Proc.devRef .tc main_v54)) (V (Proc.devRef .tc main_cst_19)) := by
  simp only [hostOps1_21]
  after_results_simp
  all_goals (try simp only [ofBuf_toBuf])
  all_goals rfl
theorem s22_c_20 (V : Valuation τ sig (Elt F)) :
    StableHlo.after hostOps1_22 V (Proc.devRef .tc main_c_20) = constantI S_ 32 4294967295#32 := by
  simp only [hostOps1_22]
  after_results_simp
  all_goals (try simp only [ofBuf_toBuf])
  all_goals rfl
theorem s23_v56 (V : Valuation τ sig (Elt F)) :
    StableHlo.after hostOps1_23 V (Proc.devRef .tc main_v56) = where8 (V (Proc.devRef .tc main_v31)) (V (Proc.devRef .tc main_v32)) (V (Proc.devRef .tc main_c_20)) := by
  simp only [hostOps1_23]
  after_results_simp
  all_goals (try simp only [ofBuf_toBuf])
  all_goals rfl
theorem s24_c_21 (V : Valuation τ sig (Elt F)) :
    StableHlo.after hostOps1_24 V (Proc.devRef .tc main_c_21) = constantI S_ 32 4294967295#32 := by
  simp only [hostOps1_24]
  after_results_simp
  all_goals (try simp only [ofBuf_toBuf])
  all_goals rfl
theorem s25_v57 (V : Valuation τ sig (Elt F)) :
    StableHlo.after hostOps1_25 V (Proc.devRef .tc main_v57) = where8 (V (Proc.devRef .tc main_v31)) (V (Proc.devRef .tc main_v33)) (V (Proc.devRef .tc main_c_21)) := by
  simp only [hostOps1_25]
  after_results_simp
  all_goals (try simp only [ofBuf_toBuf])
  all_goals rfl
theorem s26_v60 (V : Valuation τ sig (Elt F)) :
    StableHlo.after hostOps1_26 V (Proc.devRef .tc main_v60) = concatenate S2x524288 0 [⟨S1x524288, broadcastInDim S1x524288 ![1] bcast_S524288_S1x524288_1 (V (Proc.devRef .tc main_v56))⟩, ⟨S1x524288, broadcastInDim S1x524288 ![1] bcast_S524288_S1x524288_1 (V (Proc.devRef .tc main_v57))⟩] concatenates_S1x524288_S1x524288_S2x524288_d0 := by
  simp only [hostOps1_26]
  after_results_simp
  all_goals (try simp only [ofBuf_toBuf])
  all_goals rfl

end Stretches

/-! ## What the later stretches leave alone

A buffer written in one stretch and read some stretches later holds there what it held when written: none of the
stretches between writes it. -/

theorem K9_v5 (c : Dev nD) : T9 m ρ c (Proc.devRef .tc main_v5) = T0 m ρ c (Proc.devRef .tc main_v5) :=
  calc T9 m ρ c (Proc.devRef .tc main_v5)
    _ = T8 m ρ c (Proc.devRef .tc main_v5) := by kept_by hostOps1_9
    _ = T7 m ρ c (Proc.devRef .tc main_v5) := by kept_by hostOps1_8
    _ = T6 m ρ c (Proc.devRef .tc main_v5) := by kept_by hostOps1_7
    _ = T5 m ρ c (Proc.devRef .tc main_v5) := by kept_by hostOps1_6
    _ = T4 m ρ c (Proc.devRef .tc main_v5) := by kept_by hostOps1_5
    _ = T3 m ρ c (Proc.devRef .tc main_v5) := by kept_by hostOps1_4
    _ = T2 m ρ c (Proc.devRef .tc main_v5) := by kept_by hostOps1_3
    _ = T1 m ρ c (Proc.devRef .tc main_v5) := by kept_by hostOps1_2
    _ = T0 m ρ c (Proc.devRef .tc main_v5) := by kept_by hostOps1_1
theorem K11_v7 (c : Dev nD) : T11 m ρ c (Proc.devRef .tc main_v7) = T0 m ρ c (Proc.devRef .tc main_v7) :=
  calc T11 m ρ c (Proc.devRef .tc main_v7)
    _ = T10 m ρ c (Proc.devRef .tc main_v7) := by kept_by hostOps1_11
    _ = T9 m ρ c (Proc.devRef .tc main_v7) := by kept_by hostOps1_10
    _ = T8 m ρ c (Proc.devRef .tc main_v7) := by kept_by hostOps1_9
    _ = T7 m ρ c (Proc.devRef .tc main_v7) := by kept_by hostOps1_8
    _ = T6 m ρ c (Proc.devRef .tc main_v7) := by kept_by hostOps1_7
    _ = T5 m ρ c (Proc.devRef .tc main_v7) := by kept_by hostOps1_6
    _ = T4 m ρ c (Proc.devRef .tc main_v7) := by kept_by hostOps1_5
    _ = T3 m ρ c (Proc.devRef .tc main_v7) := by kept_by hostOps1_4
    _ = T2 m ρ c (Proc.devRef .tc main_v7) := by kept_by hostOps1_3
    _ = T1 m ρ c (Proc.devRef .tc main_v7) := by kept_by hostOps1_2
    _ = T0 m ρ c (Proc.devRef .tc main_v7) := by kept_by hostOps1_1
theorem K2_v8 (c : Dev nD) : T2 m ρ c (Proc.devRef .tc main_v8) = T1 m ρ c (Proc.devRef .tc main_v8) :=
  calc T2 m ρ c (Proc.devRef .tc main_v8)
    _ = T1 m ρ c (Proc.devRef .tc main_v8) := by kept_by hostOps1_2
theorem K3_v9 (c : Dev nD) : T3 m ρ c (Proc.devRef .tc main_v9) = T2 m ρ c (Proc.devRef .tc main_v9) :=
  calc T3 m ρ c (Proc.devRef .tc main_v9)
    _ = T2 m ρ c (Proc.devRef .tc main_v9) := by kept_by hostOps1_3
theorem K6_v19 (c : Dev nD) : T6 m ρ c (Proc.devRef .tc main_v19) = T5 m ρ c (Proc.devRef .tc main_v19) :=
  calc T6 m ρ c (Proc.devRef .tc main_v19)
    _ = T5 m ρ c (Proc.devRef .tc main_v19) := by kept_by hostOps1_6
theorem K8_v20 (c : Dev nD) : T8 m ρ c (Proc.devRef .tc main_v20) = T7 m ρ c (Proc.devRef .tc main_v20) :=
  calc T8 m ρ c (Proc.devRef .tc main_v20)
    _ = T7 m ρ c (Proc.devRef .tc main_v20) := by kept_by hostOps1_8
theorem K10_v21 (c : Dev nD) : T10 m ρ c (Proc.devRef .tc main_v21) = T9 m ρ c (Proc.devRef .tc main_v21) :=
  calc T10 m ρ c (Proc.devRef .tc main_v21)
    _ = T9 m ρ c (Proc.devRef .tc main_v21) := by kept_by hostOps1_10
theorem K12_v27 (c : Dev nD) : T12 m ρ c (Proc.devRef .tc main_v27) = T11 m ρ c (Proc.devRef .tc main_v27) :=
  calc T12 m ρ c (Proc.devRef .tc main_v27)
    _ = T11 m ρ c (Proc.devRef .tc main_v27) := by kept_by hostOps1_12
theorem K14_v27 (c : Dev nD) : T14 m ρ c (Proc.devRef .tc main_v27) = T11 m ρ c (Proc.devRef .tc main_v27) :=
  calc T14 m ρ c (Proc.devRef .tc main_v27)
    _ = T13 m ρ c (Proc.devRef .tc main_v27) := by kept_by hostOps1_14
    _ = T12 m ρ c (Proc.devRef .tc main_v27) := by kept_by hostOps1_13
    _ = T11 m ρ c (Proc.devRef .tc main_v27) := K12_v27 m ρ c
theorem K15_v31 (c : Dev nD) : T15 m ρ c (Proc.devRef .tc main_v31) = T12 m ρ c (Proc.devRef .tc main_v31) :=
  calc T15 m ρ c (Proc.devRef .tc main_v31)
    _ = T14 m ρ c (Proc.devRef .tc main_v31) := by kept_by hostOps1_15
    _ = T13 m ρ c (Proc.devRef .tc main_v31) := by kept_by hostOps1_14
    _ = T12 m ρ c (Proc.devRef .tc main_v31) := by kept_by hostOps1_13
theorem K18_v31 (c : Dev nD) : T18 m ρ c (Proc.devRef .tc main_v31) = T12 m ρ c (Proc.devRef .tc main_v31) :=
  calc T18 m ρ c (Proc.devRef .tc main_v31)
    _ = T17 m ρ c (Proc.devRef .tc main_v31) := by kept_by hostOps1_18
    _ = T16 m ρ c (Proc.devRef .tc main_v31) := by kept_by hostOps1_17
    _ = T15 m ρ c (Proc.devRef .tc main_v31) := by kept_by hostOps1_16
    _ = T12 m ρ c (Proc.devRef .tc main_v31) := K15_v31 m ρ c
theorem K20_v31 (c : Dev nD) : T20 m ρ c (Proc.devRef .tc main_v31) = T12 m ρ c (Proc.devRef .tc main_v31) :=
  calc T20 m ρ c (Proc.devRef .tc main_v31)
    _ = T19 m ρ c (Proc.devRef .tc main_v31) := by kept_by hostOps1_20
    _ = T18 m ρ c (Proc.devRef .tc main_v31) := by kept_by hostOps1_19
    _ = T12 m ρ c (Proc.devRef .tc main_v31) := K18_v31 m ρ c
theorem K22_v31 (c : Dev nD) : T22 m ρ c (Proc.devRef .tc main_v31) = T12 m ρ c (Proc.devRef .tc main_v31) :=
  calc T22 m ρ c (Proc.devRef .tc main_v31)
    _ = T21 m ρ c (Proc.devRef .tc main_v31) := by kept_by hostOps1_22
    _ = T20 m ρ c (Proc.devRef .tc main_v31) := by kept_by hostOps1_21
    _ = T12 m ρ c (Proc.devRef .tc main_v31) := K20_v31 m ρ c
theorem K24_v31 (c : Dev nD) : T24 m ρ c (Proc.devRef .tc main_v31) = T12 m ρ c (Proc.devRef .tc main_v31) :=
  calc T24 m ρ c (Proc.devRef .tc main_v31)
    _ = T23 m ρ c (Proc.devRef .tc main_v31) := by kept_by hostOps1_24
    _ = T22 m ρ c (Proc.devRef .tc main_v31) := by kept_by hostOps1_23
    _ = T12 m ρ c (Proc.devRef .tc main_v31) := K22_v31 m ρ c
theorem K15_v32 (c : Dev nD) : T15 m ρ c (Proc.devRef .tc main_v32) = T13 m ρ c (Proc.devRef .tc main_v32) :=
  calc T15 m ρ c (Proc.devRef .tc main_v32)
    _ = T14 m ρ c (Proc.devRef .tc main_v32) := by kept_by hostOps1_15
    _ = T13 m ρ c (Proc.devRef .tc main_v32) := by kept_by hostOps1_14
theorem K22_v32 (c : Dev nD) : T22 m ρ c (Proc.devRef .tc main_v32) = T13 m ρ c (Proc.devRef .tc main_v32) :=
  calc T22 m ρ c (Proc.devRef .tc main_v32)
    _ = T21 m ρ c (Proc.devRef .tc main_v32) := by kept_by hostOps1_22
    _ = T20 m ρ c (Proc.devRef .tc main_v32) := by kept_by hostOps1_21
    _ = T19 m ρ c (Proc.devRef .tc main_v32) := by kept_by hostOps1_20
    _ = T18 m ρ c (Proc.devRef .tc main_v32) := by kept_by hostOps1_19
    _ = T17 m ρ c (Proc.devRef .tc main_v32) := by kept_by hostOps1_18
    _ = T16 m ρ c (Proc.devRef .tc main_v32) := by kept_by hostOps1_17
    _ = T15 m ρ c (Proc.devRef .tc main_v32) := by kept_by hostOps1_16
    _ = T13 m ρ c (Proc.devRef .tc main_v32) := K15_v32 m ρ c
theorem K24_v33 (c : Dev nD) : T24 m ρ c (Proc.devRef .tc main_v33) = T15 m ρ c (Proc.devRef .tc main_v33) :=
  calc T24 m ρ c (Proc.devRef .tc main_v33)
    _ = T23 m ρ c (Proc.devRef .tc main_v33) := by kept_by hostOps1_24
    _ = T22 m ρ c (Proc.devRef .tc main_v33) := by kept_by hostOps1_23
    _ = T21 m ρ c (Proc.devRef .tc main_v33) := by kept_by hostOps1_22
    _ = T20 m ρ c (Proc.devRef .tc main_v33) := by kept_by hostOps1_21
    _ = T19 m ρ c (Proc.devRef .tc main_v33) := by kept_by hostOps1_20
    _ = T18 m ρ c (Proc.devRef .tc main_v33) := by kept_by hostOps1_19
    _ = T17 m ρ c (Proc.devRef .tc main_v33) := by kept_by hostOps1_18
    _ = T16 m ρ c (Proc.devRef .tc main_v33) := by kept_by hostOps1_17
    _ = T15 m ρ c (Proc.devRef .tc main_v33) := by kept_by hostOps1_16
theorem K18_v50 (c : Dev nD) : T18 m ρ c (Proc.devRef .tc main_v50) = T16 m ρ c (Proc.devRef .tc main_v50) :=
  calc T18 m ρ c (Proc.devRef .tc main_v50)
    _ = T17 m ρ c (Proc.devRef .tc main_v50) := by kept_by hostOps1_18
    _ = T16 m ρ c (Proc.devRef .tc main_v50) := by kept_by hostOps1_17
theorem K26_v52 (c : Dev nD) : Wn m ρ c (Proc.devRef .tc main_v52) = T17 m ρ c (Proc.devRef .tc main_v52) :=
  calc Wn m ρ c (Proc.devRef .tc main_v52)
    _ = T25 m ρ c (Proc.devRef .tc main_v52) := by kept_by hostOps1_26
    _ = T24 m ρ c (Proc.devRef .tc main_v52) := by kept_by hostOps1_25
    _ = T23 m ρ c (Proc.devRef .tc main_v52) := by kept_by hostOps1_24
    _ = T22 m ρ c (Proc.devRef .tc main_v52) := by kept_by hostOps1_23
    _ = T21 m ρ c (Proc.devRef .tc main_v52) := by kept_by hostOps1_22
    _ = T20 m ρ c (Proc.devRef .tc main_v52) := by kept_by hostOps1_21
    _ = T19 m ρ c (Proc.devRef .tc main_v52) := by kept_by hostOps1_20
    _ = T18 m ρ c (Proc.devRef .tc main_v52) := by kept_by hostOps1_19
    _ = T17 m ρ c (Proc.devRef .tc main_v52) := by kept_by hostOps1_18
theorem K26_v55 (c : Dev nD) : Wn m ρ c (Proc.devRef .tc main_v55) = T21 m ρ c (Proc.devRef .tc main_v55) :=
  calc Wn m ρ c (Proc.devRef .tc main_v55)
    _ = T25 m ρ c (Proc.devRef .tc main_v55) := by kept_by hostOps1_26
    _ = T24 m ρ c (Proc.devRef .tc main_v55) := by kept_by hostOps1_25
    _ = T23 m ρ c (Proc.devRef .tc main_v55) := by kept_by hostOps1_24
    _ = T22 m ρ c (Proc.devRef .tc main_v55) := by kept_by hostOps1_23
    _ = T21 m ρ c (Proc.devRef .tc main_v55) := by kept_by hostOps1_22
theorem K25_v56 (c : Dev nD) : T25 m ρ c (Proc.devRef .tc main_v56) = T23 m ρ c (Proc.devRef .tc main_v56) :=
  calc T25 m ρ c (Proc.devRef .tc main_v56)
    _ = T24 m ρ c (Proc.devRef .tc main_v56) := by kept_by hostOps1_25
    _ = T23 m ρ c (Proc.devRef .tc main_v56) := by kept_by hostOps1_24
/-- The positions, read where the gathers read them, are the launch contents. -/
theorem K15_arg0 (c : Dev nD) : T15 m ρ c (Proc.devRef .tc main_arg0) = W0 m ρ c (Proc.devRef .tc main_arg0) :=
  calc T15 m ρ c (Proc.devRef .tc main_arg0)
    _ = T14 m ρ c (Proc.devRef .tc main_arg0) := by kept_by hostOps1_15
    _ = T13 m ρ c (Proc.devRef .tc main_arg0) := by kept_by hostOps1_14
    _ = T12 m ρ c (Proc.devRef .tc main_arg0) := by kept_by hostOps1_13
    _ = T11 m ρ c (Proc.devRef .tc main_arg0) := by kept_by hostOps1_12
    _ = T10 m ρ c (Proc.devRef .tc main_arg0) := by kept_by hostOps1_11
    _ = T9 m ρ c (Proc.devRef .tc main_arg0) := by kept_by hostOps1_10
    _ = T8 m ρ c (Proc.devRef .tc main_arg0) := by kept_by hostOps1_9
    _ = T7 m ρ c (Proc.devRef .tc main_arg0) := by kept_by hostOps1_8
    _ = T6 m ρ c (Proc.devRef .tc main_arg0) := by kept_by hostOps1_7
    _ = T5 m ρ c (Proc.devRef .tc main_arg0) := by kept_by hostOps1_6
    _ = T4 m ρ c (Proc.devRef .tc main_arg0) := by kept_by hostOps1_5
    _ = T3 m ρ c (Proc.devRef .tc main_arg0) := by kept_by hostOps1_4
    _ = T2 m ρ c (Proc.devRef .tc main_arg0) := by kept_by hostOps1_3
    _ = T1 m ρ c (Proc.devRef .tc main_arg0) := by kept_by hostOps1_2
    _ = T0 m ρ c (Proc.devRef .tc main_arg0) := by kept_by hostOps1_1
    _ = W2 m ρ c (Proc.devRef .tc main_arg0) := by kept_by hostOps1
    _ = W1 m ρ c (Proc.devRef .tc main_arg0) := W2_of_ne m ρ c main_arg0 (by decide)
    _ = W0 m ρ c (Proc.devRef .tc main_arg0) := by kept_by hostOps0

/-! ## The fold read at each value

Stretch by stretch from the region's exit: each value read later, as a function of the mask the region leaves and
of the positions. -/

theorem R0_v5 (c : Dev nD) : T0 m ρ c (Proc.devRef .tc main_v5) = kFlat (W2 m ρ c (Proc.devRef .tc main_v2)) :=
  s0_v5 (W2 m ρ c)
theorem R0_v7 (c : Dev nD) : T0 m ρ c (Proc.devRef .tc main_v7) = nzCnt (kFlat (W2 m ρ c (Proc.devRef .tc main_v2))) :=
  s0_v7 (W2 m ρ c)
theorem R1_v8 (c : Dev nD) : T1 m ρ c (Proc.devRef .tc main_v8) = cumsumF (kFlat (W2 m ρ c (Proc.devRef .tc main_v2))) :=
  (s1_v8 (T0 m ρ c)).trans (by rw [R0_v5 m ρ c])
theorem R2_v9 (c : Dev nD) : T2 m ρ c (Proc.devRef .tc main_v9) = broadcastInDim S524288 ![] bcast_S_S524288 (constantI S_ 32 0#32) :=
  s2_v9 (T1 m ρ c)
theorem R2_c_2 (c : Dev nD) : T2 m ρ c (Proc.devRef .tc main_c_2) = constantI S_ 32 0#32 :=
  s2_c_2 (T1 m ρ c)
theorem R3_v10 (c : Dev nD) : T3 m ρ c (Proc.devRef .tc main_v10) = clipF (cumsumF (kFlat (W2 m ρ c (Proc.devRef .tc main_v2)))) (constantI S_ 32 0#32) :=
  (s3_v10 (T2 m ρ c)).trans (by rw [K2_v8 m ρ c, R1_v8 m ρ c, R2_c_2 m ρ c])
theorem R4_v18 (c : Dev nD) : T4 m ρ c (Proc.devRef .tc main_v18) = nzHist (kFlat (W2 m ρ c (Proc.devRef .tc main_v2))) :=
  (s4_v18 (T3 m ρ c)).trans (by rw [R3_v10 m ρ c, K3_v9 m ρ c, R2_v9 m ρ c] <;> rfl)
theorem R5_v19 (c : Dev nD) : T5 m ρ c (Proc.devRef .tc main_v19) = cumsum1F (nzHist (kFlat (W2 m ρ c (Proc.devRef .tc main_v2)))) :=
  (s5_v19 (T4 m ρ c)).trans (by rw [R4_v18 m ρ c])
theorem R6_c_6 (c : Dev nD) : T6 m ρ c (Proc.devRef .tc main_c_6) = constantI S_ 32 1#32 :=
  s6_c_6 (T5 m ρ c)
theorem R7_v20 (c : Dev nD) : T7 m ρ c (Proc.devRef .tc main_v20) = floorDivide (cumsum1F (nzHist (kFlat (W2 m ρ c (Proc.devRef .tc main_v2))))) (constantI S_ 32 1#32) :=
  (s7_v20 (T6 m ρ c)).trans (by rw [K6_v19 m ρ c, R5_v19 m ρ c, R6_c_6 m ρ c])
theorem R8_c_7 (c : Dev nD) : T8 m ρ c (Proc.devRef .tc main_c_7) = constantI S_ 32 67108864#32 :=
  s8_c_7 (T7 m ρ c)
theorem R9_v21 (c : Dev nD) : T9 m ρ c (Proc.devRef .tc main_v21) = nzPos (kFlat (W2 m ρ c (Proc.devRef .tc main_v2))) :=
  (s9_v21 (T8 m ρ c)).trans (by rw [K8_v20 m ρ c, R7_v20 m ρ c, R8_c_7 m ρ c] <;> rfl)
theorem R10_v26 (c : Dev nD) : T10 m ρ c (Proc.devRef .tc main_v26) = nzPast (kFlat (W2 m ρ c (Proc.devRef .tc main_v2))) :=
  (s10_v26 (T9 m ρ c)).trans (by rw [K9_v5 m ρ c, R0_v5 m ρ c])
theorem R10_c_9 (c : Dev nD) : T10 m ρ c (Proc.devRef .tc main_c_9) = constantI S_ 32 0#32 :=
  s10_c_9 (T9 m ρ c)
theorem R11_v27 (c : Dev nD) : T11 m ρ c (Proc.devRef .tc main_v27) = nzIdx (kFlat (W2 m ρ c (Proc.devRef .tc main_v2))) :=
  (s11_v27 (T10 m ρ c)).trans (by rw [R10_v26 m ρ c, R10_c_9 m ρ c, K10_v21 m ρ c, R9_v21 m ρ c] <;> rfl)
theorem R12_v31 (c : Dev nD) : T12 m ρ c (Proc.devRef .tc main_v31) = validF (nzCnt (kFlat (W2 m ρ c (Proc.devRef .tc main_v2)))) :=
  (s12_v31 (T11 m ρ c)).trans (by rw [K11_v7 m ρ c, R0_v7 m ρ c])
theorem R12_c_11 (c : Dev nD) : T12 m ρ c (Proc.devRef .tc main_c_11) = constantI S_ 32 8192#32 :=
  s12_c_11 (T11 m ρ c)
theorem R13_v32 (c : Dev nD) : T13 m ρ c (Proc.devRef .tc main_v32) = rowI (nzIdx (kFlat (W2 m ρ c (Proc.devRef .tc main_v2)))) :=
  (s13_v32 (T12 m ρ c)).trans (by rw [K12_v27 m ρ c, R11_v27 m ρ c, R12_c_11 m ρ c] <;> rfl)
theorem R14_c_12 (c : Dev nD) : T14 m ρ c (Proc.devRef .tc main_c_12) = constantI S_ 32 8192#32 :=
  s14_c_12 (T13 m ρ c)
theorem R15_v33 (c : Dev nD) : T15 m ρ c (Proc.devRef .tc main_v33) = colI (nzIdx (kFlat (W2 m ρ c (Proc.devRef .tc main_v2)))) :=
  (s15_v33 (T14 m ρ c)).trans (by rw [K14_v27 m ρ c, R11_v27 m ρ c, R14_c_12 m ρ c] <;> rfl)
theorem R16_v48 (c : Dev nD) : T16 m ρ c (Proc.devRef .tc main_v48) = pairDiff (nzIdx (kFlat (W2 m ρ c (Proc.devRef .tc main_v2)))) (W0 m ρ c (Proc.devRef .tc main_arg0)) :=
  (s16_v48 (T15 m ρ c)).trans (by rw [K15_arg0 m ρ c, K15_v32 m ρ c, R13_v32 m ρ c, R15_v33 m ρ c] <;> rfl)
theorem R16_v50 (c : Dev nD) : T16 m ρ c (Proc.devRef .tc main_v50) = pairSq (nzIdx (kFlat (W2 m ρ c (Proc.devRef .tc main_v2)))) (W0 m ρ c (Proc.devRef .tc main_arg0)) :=
  (s16_v50 (T15 m ρ c)).trans (by rw [K15_arg0 m ρ c, K15_v32 m ρ c, R13_v32 m ρ c, R15_v33 m ρ c] <;> rfl)
theorem R16_v51 (c : Dev nD) : T16 m ρ c (Proc.devRef .tc main_v51) = broadcastInDim S524288x1 ![0] bcast_S524288_S524288x1_0 (validF (nzCnt (kFlat (W2 m ρ c (Proc.devRef .tc main_v2))))) :=
  (s16_v51 (T15 m ρ c)).trans (by rw [K15_v31 m ρ c, R12_v31 m ρ c])
theorem R16_cst_17 (c : Dev nD) : T16 m ρ c (Proc.devRef .tc main_cst_17) = constant S_ .f32 0x00000000#32 :=
  s16_cst_17 (T15 m ρ c)
theorem R17_v52 (c : Dev nD) : T17 m ρ c (Proc.devRef .tc main_v52) = kOutVec (nzCnt (kFlat (W2 m ρ c (Proc.devRef .tc main_v2)))) (nzIdx (kFlat (W2 m ρ c (Proc.devRef .tc main_v2)))) (W0 m ρ c (Proc.devRef .tc main_arg0)) :=
  (s17_v52 (T16 m ρ c)).trans (by rw [R16_v51 m ρ c, R16_v48 m ρ c, R16_cst_17 m ρ c] <;> rfl)
theorem R18_cst_18 (c : Dev nD) : T18 m ρ c (Proc.devRef .tc main_cst_18) = constant S_ .f32 0x3F800000#32 :=
  s18_cst_18 (T17 m ρ c)
theorem R19_v53 (c : Dev nD) : T19 m ρ c (Proc.devRef .tc main_v53) = where7 (validF (nzCnt (kFlat (W2 m ρ c (Proc.devRef .tc main_v2))))) (pairSq (nzIdx (kFlat (W2 m ρ c (Proc.devRef .tc main_v2)))) (W0 m ρ c (Proc.devRef .tc main_arg0))) (constant S_ .f32 0x3F800000#32) :=
  (s19_v53 (T18 m ρ c)).trans (by rw [K18_v31 m ρ c, R12_v31 m ρ c, K18_v50 m ρ c, R16_v50 m ρ c, R18_cst_18 m ρ c])
theorem R20_v54 (c : Dev nD) : T20 m ρ c (Proc.devRef .tc main_v54) = Host.sqrt (where7 (validF (nzCnt (kFlat (W2 m ρ c (Proc.devRef .tc main_v2))))) (pairSq (nzIdx (kFlat (W2 m ρ c (Proc.devRef .tc main_v2)))) (W0 m ρ c (Proc.devRef .tc main_arg0))) (constant S_ .f32 0x3F800000#32)) :=
  (s20_v54 (T19 m ρ c)).trans (by rw [R19_v53 m ρ c])
theorem R20_cst_19 (c : Dev nD) : T20 m ρ c (Proc.devRef .tc main_cst_19) = constant S_ .f32 0x00000000#32 :=
  s20_cst_19 (T19 m ρ c)
theorem R21_v55 (c : Dev nD) : T21 m ρ c (Proc.devRef .tc main_v55) = kOutW (nzCnt (kFlat (W2 m ρ c (Proc.devRef .tc main_v2)))) (nzIdx (kFlat (W2 m ρ c (Proc.devRef .tc main_v2)))) (W0 m ρ c (Proc.devRef .tc main_arg0)) :=
  (s21_v55 (T20 m ρ c)).trans (by rw [K20_v31 m ρ c, R12_v31 m ρ c, R20_v54 m ρ c, R20_cst_19 m ρ c] <;> rfl)
theorem R22_c_20 (c : Dev nD) : T22 m ρ c (Proc.devRef .tc main_c_20) = constantI S_ 32 4294967295#32 :=
  s22_c_20 (T21 m ρ c)
theorem R23_v56 (c : Dev nD) : T23 m ρ c (Proc.devRef .tc main_v56) = where8 (validF (nzCnt (kFlat (W2 m ρ c (Proc.devRef .tc main_v2))))) (rowI (nzIdx (kFlat (W2 m ρ c (Proc.devRef .tc main_v2))))) (constantI S_ 32 4294967295#32) :=
  (s23_v56 (T22 m ρ c)).trans (by rw [K22_v31 m ρ c, R12_v31 m ρ c, K22_v32 m ρ c, R13_v32 m ρ c, R22_c_20 m ρ c])
theorem R24_c_21 (c : Dev nD) : T24 m ρ c (Proc.devRef .tc main_c_21) = constantI S_ 32 4294967295#32 :=
  s24_c_21 (T23 m ρ c)
theorem R25_v57 (c : Dev nD) : T25 m ρ c (Proc.devRef .tc main_v57) = where8 (validF (nzCnt (kFlat (W2 m ρ c (Proc.devRef .tc main_v2))))) (colI (nzIdx (kFlat (W2 m ρ c (Proc.devRef .tc main_v2))))) (constantI S_ 32 4294967295#32) :=
  (s25_v57 (T24 m ρ c)).trans (by rw [K24_v31 m ρ c, R12_v31 m ρ c, K24_v33 m ρ c, R15_v33 m ρ c, R24_c_21 m ρ c])

/-! ## The three results -/

/-- The pair index at the return: the rows over the columns of the sorted positions of the mask's ones. -/
theorem Wn_main_v60 (c : Dev nD) : Wn m ρ c (Proc.devRef .tc main_v60) = outIdx (nzCnt (kFlat (W2 m ρ c (Proc.devRef .tc main_v2)))) (nzIdx (kFlat (W2 m ρ c (Proc.devRef .tc main_v2)))) :=
  (s26_v60 (T25 m ρ c)).trans (by rw [K25_v56 m ρ c, R23_v56 m ρ c, R25_v57 m ρ c] <;> rfl)

/-- The distances at the return. -/
theorem Wn_main_v55 (c : Dev nD) : Wn m ρ c (Proc.devRef .tc main_v55) = kOutW (nzCnt (kFlat (W2 m ρ c (Proc.devRef .tc main_v2)))) (nzIdx (kFlat (W2 m ρ c (Proc.devRef .tc main_v2)))) (W0 m ρ c (Proc.devRef .tc main_arg0)) :=
  (K26_v55 m ρ c).trans (R21_v55 m ρ c)

/-- The difference vectors at the return. -/
theorem Wn_main_v52 (c : Dev nD) : Wn m ρ c (Proc.devRef .tc main_v52) = kOutVec (nzCnt (kFlat (W2 m ρ c (Proc.devRef .tc main_v2)))) (nzIdx (kFlat (W2 m ρ c (Proc.devRef .tc main_v2)))) (W0 m ρ c (Proc.devRef .tc main_arg0)) :=
  (K26_v52 m ρ c).trans (R17_v52 m ρ c)

end Cert.Kernel.Hand

end
-- ==== Proof.KIData.lean ====
/-
  The data of the mask kernel's pipeline, stated once for the modules that prove things about it.

  The kernel is launched on a grid of 64 points. At point `t` it is handed rows `128 t … 128 t + 127` of the positions
  (window 0), all 8192 positions (window 1, the same array again), the same 128 rows of the batch labels as a column
  (window 2) and all labels as a row (window 3), and writes a block of 128 × 8192 words (window 4): word `(r, j)` is 1
  when row `128 t + r` and column `j` carry the same label, are different points, and lie at a squared distance in
  `[0, 25)`, else 0. `iblk0` is a window's block of its array as the region finds it, `out0_4` the output block as a
  function of the four input blocks and the point, and `dat0` the pipeline's proof data over them: each input's
  staging buffer keeps its block, the output's holds `out0_4`. The shares `q` at which the input arrays are held are a
  parameter: the two windows on the positions hold one array between them.
-/
import proofs.«120686_j44890998178156_1_alg».proof.Proof.Gen.KernelIdeal.Skeleton
import proofs.«120686_j44890998178156_1_alg».proof.Proof.Gen.KernelIdeal.Points
import proofs.«120686_j44890998178156_1_alg».proof.Proof.KILaunch
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of each staging buffer: the body loads and stores nothing smaller. -/
abbrev rP : Rect S128x3 := Rect.unit (s := S128x3) ![0, 0] S128x3.size inb_S128x3_S128x3_0_0
abbrev rQ : Rect S8192x3 := Rect.unit (s := S8192x3) ![0, 0] S8192x3.size inb_S8192x3_S8192x3_0_0
abbrev rB : Rect S128x1 := Rect.unit (s := S128x1) ![0, 0] S128x1.size inb_S128x1_S128x1_0_0
abbrev rC : Rect S1x8192 := Rect.unit (s := S1x8192) ![0, 0] S1x8192.size inb_S1x8192_S1x8192_0_0
abbrev rO : Rect S128x8192 := Rect.unit (s := S128x8192) ![0, 0] S128x8192.size inb_S128x8192_S128x8192_0_0

/-- The output block after the body at grid coordinates `i`, from the four input blocks: its one store, of the
    conjunction of the three tests widened to a word. -/
def out0_4 (i : grid0.Coords) (x0 : Vec F S128x3 .f32) (x1 : Vec F S8192x3 .f32) (x2 : Vec F S128x1 .i32) (x3 : Vec F S1x8192 .i32) :
    Vec F S128x8192 .i32 :=
  View.canon [⟨rO, k0_pay1 (k0_pay2 (View.ld x2 rB) (View.ld x3 rC)) (k0_pay3 i) (k0_pay4 (View.ld x0 rP) (View.ld x1 rQ))⟩]

/-- The pipeline's proof data on core `c`: the arrays as the region finds them; after the body at point `t` each
    input's buffer at its block and the output's at `out0_4` of the input blocks; the invariant the scoped rest and
    the generator register, untouched; nothing owed; the input arrays held at the shares `q`. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (grid0.coords t) (iblk0 V c 0 t) (iblk0 V c 1 t) (iblk0 V c 2 t) (iblk0 V c 3 t)
  Φ _ := Pipeline.ΦA spec0 c
  q := q
  owed _ := 0

variable (q : Fin cfg0.W → PosShare TreeShare)

theorem A_eq0 (c : Dev nD) (w : Fin cfg0.W) : (dat0 V q c).A w = V c (Pipeline.arrRef spec0 w) := by
  dsimp only [dat0]

theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) :
    (dat0 V q c).after 4 t = out0_4 (grid0.coords t) (iblk0 V c 0 t) (iblk0 V c 1 t) (iblk0 V c 2 t) (iblk0 V c 3 t) := by
  dsimp only [dat0]

end Cert.KernelIdeal.Hand

end
-- ==== Proof.KIBody.lean ====
/-
  The mask kernel's body obligation.

  At a grid point the body is handed five staging buffers: rows of the positions (128 × 3), all positions (8192 × 3),
  the same rows of the labels as a column (128 × 1), all labels as a row (1 × 8192), and the output block
  (128 × 8192). It loads the four inputs whole, loads the output whole (the value read is not used), and stores one
  whole block of words: the conjunction of the three tests (same label, different point, squared distance in
  [0, 25)) widened to a word. So each input buffer is left as it was found, and the output buffer is left at
  "out0_4" of what the four inputs read — a single store covering the whole block, whatever the block held before.

  Each input buffer holds its window's block at every point, fetched there or not: a window fetched at the first
  point only has a block index that never moves, so the block it was given at the first point is the block of every
  later point. With that, the library's obligation at a point is the body's triple with the invariant and the
  core's debts passed through untouched.
-/
import proofs.«120686_j44890998178156_1_alg».proof.Proof.KIData
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What the body finds in each input buffer -/

/-- Input window 0's current staging buffer holds its block at every point, for any proof data whose array is the
    entry contents' and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (all positions, fetched once: its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the rows' labels as a column). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (all labels as a row, fetched once: its block index never moves). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The one store covers the output block -/

theorem cover0_4 (p0 : rO.shape.Idx → Elt F .i32) (y : S128x8192.Idx) :
    ∃ pc ∈ ([⟨rO, p0⟩] : List (View.Piece (Elt F) S128x8192 .i32)), y ∈ pc.1.set :=
  View.cover_of_tiled [⟨rO, p0⟩] S128x8192.size (by rfl) y

/-! ## The body's triple -/

set_option maxHeartbeats 1000000 in
/-- The kernel body on whole staging memrefs, the four inputs' at read contents "x0 … x3" and the output's at
    anything, runs to the continuation holding the inputs' as they were and the output's at "out0_4" of the inputs':
    four whole loads, a whole load of the output whose value is dropped, and one whole store. -/
theorem sound_kernel0 (c : Dev nD) (E : Set ℕ) (i : grid0.Coords)
    (arg1 : Memref sig .tc .vmem S128x3 .f32) (harg1 : arg1.IsWhole) (arg2 : Memref sig .tc .vmem S8192x3 .f32) (harg2 : arg2.IsWhole)
    (arg3 : Memref sig .tc .vmem S128x1 .i32) (harg3 : arg3.IsWhole) (arg4 : Memref sig .tc .vmem S1x8192 .i32) (harg4 : arg4.IsWhole)
    (arg5 : Memref sig .tc .vmem S128x8192 .i32) (harg5 : arg5.IsWhole)
    (x0 : Vec F S128x3 .f32) (x1 : Vec F S8192x3 .f32) (x2 : Vec F S128x1 .i32) (x3 : Vec F S1x8192 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 i x0 x1 x2 x3)) -∗ K ⟨⟩))
      ⊢ wp frame (wpE (defs₀ (F := F)) Variants.none c none) E
          (cc0__mask_kernel i arg1 harg1 arg2 harg2 arg3 harg3 arg4 harg4 arg5 harg5) K := by
  simp only [cc0__mask_kernel_eq_skeleton]; unfold cc0__mask_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

variable (q : Fin cfg0.W → PosShare TreeShare)

/-! ## What the body finds, for this proof data -/

theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d

/-! ## The body obligation, at a generic point -/

/-- What the body is called with at point "t": the invariant, the core's debts, and each window's current staging
    buffer, whole, at what the pipeline left in it. -/
def bodyPre0 (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d))
    ∗ (∃ d, owns (c : Thread nD τ) (st0_4 t) fullShare ((dat0 V q c).before 4 t d)))

/-- and what it returns. -/
def bodyPost0 (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t)
    ∗ owns (c : Thread nD τ) (st0_4 t) fullShare ((dat0 V q c).after 4 t))

/-- The body at any point: the inputs' buffers hold their blocks, so the body's triple applies; the invariant and the
    core's debts pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3]
  rw [show (dat0 V q c).Φ t.succ = (dat0 V q c).Φ t.castSucc from rfl,
    show (dat0 V q c).owesAt () t.succ = (dat0 V q c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V q c) (defs₀ (F := F)) Variants.none () Set.univ := fun t => by
  rw [bigSep_W0, bigSep_W0]
  exact sound_body0 V q c t

end Cert.KernelIdeal.Hand

end
-- ==== Proof.KIFold.lean ====
/-
  The contents of the TensorCore's buffers at each boundary of the kernel's program, as a fold from the launch memory.

  The program is: two reshapes of the labels (a column and a row), the mask region, then the host's compaction of the
  mask. `W0` is the launch memory, `W1` the contents after the two reshapes (what the region is entered with). The
  region changes one buffer only, the mask: `W2` is `W1` with the mask at what the pipeline's write-backs leave
  (the positions are read through two windows and the labels through two more; none is written). The compaction is
  printed as a sequence of stretches of host operations, one per function called; `T0 … T26` are the contents after
  each, and `Wn` the contents at the return.
-/
import proofs.«120686_j44890998178156_1_alg».proof.Proof.KIData

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

/-- The shares at which the input arrays are held: the positions are handed to two windows, which hold the two halves
    of the array's full share; every other array is held whole. -/
def qs : Fin cfg0.W → PosShare TreeShare := fun w => match w with
  | ⟨0, _⟩ => fullShare.left
  | ⟨1, _⟩ => fullShare.right
  | ⟨2, _⟩ => fullShare
  | ⟨3, _⟩ => fullShare
  | ⟨4, _⟩ => fullShare

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the two reshapes of the labels: the region's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At the region's exit: the mask at what the write-backs leave, every other buffer as entered. -/
def W2 (c : Dev nD) : Valuation τ sig (Elt F) :=
  Function.update (W1 m ρ c) (Proc.devRef .tc main_v2) ((dat0 (V1 m ρ) qs c).arrAt 4 cfg0.N)

theorem W2_out (c : Dev nD) : W2 m ρ c (Proc.devRef .tc main_v2) = (dat0 (V1 m ρ) qs c).arrAt 4 cfg0.N := by
  unfold W2; exact Function.update_self ..

theorem W2_of_ne (c : Dev nD) (b : Ref sig .tc) (hb : b ≠ main_v2) :
    W2 m ρ c (Proc.devRef .tc b) = W1 m ρ c (Proc.devRef .tc b) := by
  unfold W2; exact Function.update_of_ne (StableHlo.devRef_ne_of_ne hb) ..

/-- The same read at the TensorCore's references. -/
abbrev V2 : (c : Dev nD) → (b : Ref sig .tc) → Buf (Elt F) ((c : Thread nD τ).loc b) := fun c b => W2 m ρ c b

/-! The contents after each stretch of the compaction. -/
abbrev T0 : Dev nD → Valuation τ sig (Elt F) := fun c => StableHlo.after hostOps1 (W2 m ρ c)
abbrev T1 : Dev nD → Valuation τ sig (Elt F) := fun c => StableHlo.after hostOps1_1 (T0 m ρ c)
abbrev T2 : Dev nD → Valuation τ sig (Elt F) := fun c => StableHlo.after hostOps1_2 (T1 m ρ c)
abbrev T3 : Dev nD → Valuation τ sig (Elt F) := fun c => StableHlo.after hostOps1_3 (T2 m ρ c)
abbrev T4 : Dev nD → Valuation τ sig (Elt F) := fun c => StableHlo.after hostOps1_4 (T3 m ρ c)
abbrev T5 : Dev nD → Valuation τ sig (Elt F) := fun c => StableHlo.after hostOps1_5 (T4 m ρ c)
abbrev T6 : Dev nD → Valuation τ sig (Elt F) := fun c => StableHlo.after hostOps1_6 (T5 m ρ c)
abbrev T7 : Dev nD → Valuation τ sig (Elt F) := fun c => StableHlo.after hostOps1_7 (T6 m ρ c)
abbrev T8 : Dev nD → Valuation τ sig (Elt F) := fun c => StableHlo.after hostOps1_8 (T7 m ρ c)
abbrev T9 : Dev nD → Valuation τ sig (Elt F) := fun c => StableHlo.after hostOps1_9 (T8 m ρ c)
abbrev T10 : Dev nD → Valuation τ sig (Elt F) := fun c => StableHlo.after hostOps1_10 (T9 m ρ c)
abbrev T11 : Dev nD → Valuation τ sig (Elt F) := fun c => StableHlo.after hostOps1_11 (T10 m ρ c)
abbrev T12 : Dev nD → Valuation τ sig (Elt F) := fun c => StableHlo.after hostOps1_12 (T11 m ρ c)
abbrev T13 : Dev nD → Valuation τ sig (Elt F) := fun c => StableHlo.after hostOps1_13 (T12 m ρ c)
abbrev T14 : Dev nD → Valuation τ sig (Elt F) := fun c => StableHlo.after hostOps1_14 (T13 m ρ c)
abbrev T15 : Dev nD → Valuation τ sig (Elt F) := fun c => StableHlo.after hostOps1_15 (T14 m ρ c)
abbrev T16 : Dev nD → Valuation τ sig (Elt F) := fun c => StableHlo.after hostOps1_16 (T15 m ρ c)
abbrev T17 : Dev nD → Valuation τ sig (Elt F) := fun c => StableHlo.after hostOps1_17 (T16 m ρ c)
abbrev T18 : Dev nD → Valuation τ sig (Elt F) := fun c => StableHlo.after hostOps1_18 (T17 m ρ c)
abbrev T19 : Dev nD → Valuation τ sig (Elt F) := fun c => StableHlo.after hostOps1_19 (T18 m ρ c)
abbrev T20 : Dev nD → Valuation τ sig (Elt F) := fun c => StableHlo.after hostOps1_20 (T19 m ρ c)
abbrev T21 : Dev nD → Valuation τ sig (Elt F) := fun c => StableHlo.after hostOps1_21 (T20 m ρ c)
abbrev T22 : Dev nD → Valuation τ sig (Elt F) := fun c => StableHlo.after hostOps1_22 (T21 m ρ c)
abbrev T23 : Dev nD → Valuation τ sig (Elt F) := fun c => StableHlo.after hostOps1_23 (T22 m ρ c)
abbrev T24 : Dev nD → Valuation τ sig (Elt F) := fun c => StableHlo.after hostOps1_24 (T23 m ρ c)
abbrev T25 : Dev nD → Valuation τ sig (Elt F) := fun c => StableHlo.after hostOps1_25 (T24 m ρ c)
abbrev T26 : Dev nD → Valuation τ sig (Elt F) := fun c => StableHlo.after hostOps1_26 (T25 m ρ c)
/-- The contents at the return. -/
abbrev Wn : Dev nD → Valuation τ sig (Elt F) := T26 m ρ

end Cert.KernelIdeal.Hand

end
-- ==== Proof.KIRun.lean ====
/-
  The kernel's program runs: from any launch memory, every weakly fair execution of it terminates, faults nowhere, and ends
  with every unscoped buffer of the TensorCore at the fold `Wn` of the program's operations over the launch memory.

  The program is a stretch of host operations (two reshapes of the labels), the mask region, and twenty-seven stretches
  of host operations (the compaction). Each stretch is a segment that takes the buffers from one boundary's contents to
  the next; the region is a segment whose entry sorts the four arrays its five windows read and write out of the
  TensorCore's buffers and whose exit puts them back with the mask at what the write-backs leave.

  The positions are handed to the region TWICE (a block of rows, and the whole array): the two windows hold the two
  halves of that array's full share, split at the entry and joined again at the exit (both windows only read, so the
  halves come back at the contents they went in with). The other three arrays are held whole.
-/
import proofs.«120686_j44890998178156_1_alg».proof.Proof.KIBody
import proofs.«120686_j44890998178156_1_alg».proof.Proof.KIFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

/-! ## One array under two windows: the shares split at the entry and joined at the exit -/

section Shares

variable (V : (c : Dev nD) → (b : Ref sig .tc) → Buf (Elt F) ((c : Thread nD τ).loc b))

/-- The four buffers behind the five windows' arrays, each whole at the full share, are the pipeline's arrays at the
    shares `qs`: the positions' full share is its two halves. -/
theorem arrays_of_arrBufs (c : Dev nD) :
    (Pipeline.arrBufs (Ix := Unit) (Name := ℕ) (U := UR sig nD τ) (Lvl := ℕ) spec0 c (V c) : sProp 𝕄)
      ⊢ (dat0 V qs c).arrays (dat0 V qs c).A := by
  unfold Pipeline.arrBufs Dat.arrays
  rw [bigSep_eq_bigSepL_of_eq [main_arg0, main_v0, main_v1, main_v2] (by decide) (by decide), bigSep_W0]
  simp only [bigSepL_cons_cons, bigSepL_singleton]
  have hs0 : (dat0 V qs c).share 0 = fullShare.left := rfl
  have hs1 : (dat0 V qs c).share 1 = fullShare.right := rfl
  have hs2 : (dat0 V qs c).share 2 = fullShare := rfl
  have hs3 : (dat0 V qs c).share 3 = fullShare := rfl
  have hs4 : (dat0 V qs c).share 4 = fullShare := rfl
  rw [hs0, hs1, hs2, hs3, hs4, A_eq0, A_eq0, A_eq0, A_eq0, A_eq0,
    (Memref.isWhole_whole main_arg0).set_eq_univ, (Memref.isWhole_whole main_v0).set_eq_univ,
    (Memref.isWhole_whole main_v1).set_eq_univ, (Memref.isWhole_whole main_v2).set_eq_univ]
  show iprop(_ ∗ _ ∗ _ ∗ _) ⊢ _
  iintro ⟨Ha, Hb, Hc, Hd⟩
  have hsp : (((c.tc : Thread nD τ).loc main_arg0) ↦{fullShare} V c main_arg0 : sProp 𝕄)
      ⊢ iprop((((c.tc : Thread nD τ).loc main_arg0) ↦{fullShare.left} V c main_arg0) ∗ (((c.tc : Thread nD τ).loc main_arg0) ↦{fullShare.right} V c main_arg0)) :=
    (pointsTo_share (PosShare.mem_left_op_right fullShare)).1
  ihave Hs := hsp $$ Ha
  icases Hs with ⟨Ha1, Ha2⟩
  isplitl [Ha1]; · iexact Ha1
  isplitl [Ha2]; · iexact Ha2
  isplitl [Hb]; · iexact Hb
  isplitl [Hc]; · iexact Hc
  iexact Hd

/-- ENTRY: a core's unscoped buffers at `V` are the pipeline's arrays at their entry contents and the unscoped rest. -/
theorem arrays_of_unscopedBufs_shared (c : Dev nD) :
    (unscopedBufs c (V c) : sProp 𝕄)
      ⊢ iprop((dat0 V qs c).arrays (dat0 V qs c).A ∗ Pipeline.unscopedRest (Ix := Unit) (Name := ℕ) (U := UR sig nD τ) (Lvl := ℕ) spec0 c (V c)) := by
  rw [Pipeline.unscopedBufs_split₀ cfgs 0 winFacts₀0.arr_unscoped c (V c)]
  exact sep_mono (arrays_of_arrBufs V c) .rfl

/-- The pipeline's arrays at contents `G` — the two windows on the positions holding the same contents — are the four
    buffers behind them whole at the full share, at any `V'` that has them there: the two halves join. -/
theorem arrBufs_of_arrays (c : Dev nD) (V' : (b : Ref sig .tc) → Buf (Elt F) ((c : Thread nD τ).loc b))
    (G : (w : Fin cfg0.W) → Buf (Elt F) ((cfg0.win w).arr.view.loc (c.tc : Thread nD τ)))
    (h0 : G 0 = V' main_arg0) (h1 : G 1 = V' main_arg0) (h2 : G 2 = V' main_v0) (h3 : G 3 = V' main_v1) (h4 : G 4 = V' main_v2) :
    (dat0 V qs c).arrays G
      ⊢ (Pipeline.arrBufs (Ix := Unit) (Name := ℕ) (U := UR sig nD τ) (Lvl := ℕ) spec0 c V' : sProp 𝕄) := by
  unfold Pipeline.arrBufs Dat.arrays
  rw [bigSep_eq_bigSepL_of_eq [main_arg0, main_v0, main_v1, main_v2] (by decide) (by decide), bigSep_W0]
  simp only [bigSepL_cons_cons, bigSepL_singleton]
  have hs0 : (dat0 V qs c).share 0 = fullShare.left := rfl
  have hs1 : (dat0 V qs c).share 1 = fullShare.right := rfl
  have hs2 : (dat0 V qs c).share 2 = fullShare := rfl
  have hs3 : (dat0 V qs c).share 3 = fullShare := rfl
  have hs4 : (dat0 V qs c).share 4 = fullShare := rfl
  rw [hs0, hs1, hs2, hs3, hs4, h0, h1, h2, h3, h4,
    (Memref.isWhole_whole main_arg0).set_eq_univ, (Memref.isWhole_whole main_v0).set_eq_univ,
    (Memref.isWhole_whole main_v1).set_eq_univ, (Memref.isWhole_whole main_v2).set_eq_univ]
  show _ ⊢ iprop(_ ∗ _ ∗ _ ∗ _)
  iintro ⟨H0, H1, H2, H3, H4⟩
  have hjn : iprop((((c.tc : Thread nD τ).loc main_arg0) ↦{fullShare.left} V' main_arg0) ∗ (((c.tc : Thread nD τ).loc main_arg0) ↦{fullShare.right} V' main_arg0))
      ⊢ (((c.tc : Thread nD τ).loc main_arg0) ↦{fullShare} V' main_arg0 : sProp 𝕄) :=
    (pointsTo_share (PosShare.mem_left_op_right fullShare)).2
  isplitl [H0 H1]
  · iapply hjn
    isplitl [H0]; · iexact H0
    iexact H1
  isplitl [H2]; · iexact H2
  isplitl [H3]; · iexact H3
  iexact H4

/-- EXIT: the arrays at `G` and the unscoped rest at `V` are the core's unscoped buffers at any `V'` that has the arrays
    at `G` and agrees with `V` off them. -/
theorem unscopedBufs_of_arrays_shared (c : Dev nD) (V' : (b : Ref sig .tc) → Buf (Elt F) ((c : Thread nD τ).loc b))
    (G : (w : Fin cfg0.W) → Buf (Elt F) ((cfg0.win w).arr.view.loc (c.tc : Thread nD τ)))
    (h0 : G 0 = V' main_arg0) (h1 : G 1 = V' main_arg0) (h2 : G 2 = V' main_v0) (h3 : G 3 = V' main_v1) (h4 : G 4 = V' main_v2)
    (hrest : ∀ b, b ∉ Finset.univ.image (Pipeline.arrRef spec0) → V' b = V c b) :
    iprop((dat0 V qs c).arrays G ∗ Pipeline.unscopedRest (Ix := Unit) (Name := ℕ) (U := UR sig nD τ) (Lvl := ℕ) spec0 c (V c))
      ⊢ (unscopedBufs c V' : sProp 𝕄) := by
  rw [Pipeline.unscopedBufs_split₀ cfgs 0 winFacts₀0.arr_unscoped c V']
  refine sep_mono (arrBufs_of_arrays V c V' G h0 h1 h2 h3 h4) (Entails.of_eq ?_)
  unfold Pipeline.unscopedRest
  exact bigSep_congr fun b hb => by rw [hrest b (Finset.mem_sdiff.mp hb).2]

end Shares

variable (m : (ℓ : Loc nD τ sig) → Buf (Elt F) ℓ) (ρ : Dev nD → PrngReg)

/-! ## The region's exit contents -/

/-- The inputs are never written: after all the points each input array holds what the region found. -/
theorem arrAt_in0 (c : Dev nD) (w : Fin cfg0.W) (hw : (cfg0.win w).isOut = false) :
    (dat0 (V1 m ρ) qs c).arrAt w cfg0.N = V1 m ρ c (Pipeline.arrRef spec0 w) :=
  ((dat0 (V1 m ρ) qs c).arrAt_in w hw _).trans (A_eq0 (V1 m ρ) qs c w)

theorem hG0 (c : Dev nD) : (dat0 (V1 m ρ) qs c).arrAt 0 cfg0.N = V2 m ρ c main_arg0 :=
  (arrAt_in0 m ρ c 0 rfl).trans (W2_of_ne m ρ c main_arg0 (by decide)).symm
theorem hG1 (c : Dev nD) : (dat0 (V1 m ρ) qs c).arrAt 1 cfg0.N = V2 m ρ c main_arg0 :=
  (arrAt_in0 m ρ c 1 rfl).trans (W2_of_ne m ρ c main_arg0 (by decide)).symm
theorem hG2 (c : Dev nD) : (dat0 (V1 m ρ) qs c).arrAt 2 cfg0.N = V2 m ρ c main_v0 :=
  (arrAt_in0 m ρ c 2 rfl).trans (W2_of_ne m ρ c main_v0 (by decide)).symm
theorem hG3 (c : Dev nD) : (dat0 (V1 m ρ) qs c).arrAt 3 cfg0.N = V2 m ρ c main_v1 :=
  (arrAt_in0 m ρ c 3 rfl).trans (W2_of_ne m ρ c main_v1 (by decide)).symm
theorem hG4 (c : Dev nD) : (dat0 (V1 m ρ) qs c).arrAt 4 cfg0.N = V2 m ρ c main_v2 :=
  (W2_out m ρ c).symm
theorem hrest0 (c : Dev nD) : ∀ b, b ∉ Finset.univ.image (Pipeline.arrRef spec0) → V2 m ρ c b = V1 m ρ c b :=
  fun b hb => W2_of_ne m ρ c b fun e => hb (e ▸ (by decide : main_v2 ∈ Finset.univ.image (Pipeline.arrRef spec0)))

/-! ## The proof data family and the thread state -/

abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) qs c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor
theorem hostOps1_18_fresh : (hostOps1_18 : List (HloOp τ sig (Elt F))).Forall fun op => op.fresh = ∅ := by
  simp only [List.Forall]; repeat' constructor
theorem hostOps1_19_fresh : (hostOps1_19 : List (HloOp τ sig (Elt F))).Forall fun op => op.fresh = ∅ := by
  simp only [List.Forall]; repeat' constructor
theorem hostOps1_20_fresh : (hostOps1_20 : List (HloOp τ sig (Elt F))).Forall fun op => op.fresh = ∅ := by
  simp only [List.Forall]; repeat' constructor
theorem hostOps1_21_fresh : (hostOps1_21 : List (HloOp τ sig (Elt F))).Forall fun op => op.fresh = ∅ := by
  simp only [List.Forall]; repeat' constructor
theorem hostOps1_22_fresh : (hostOps1_22 : List (HloOp τ sig (Elt F))).Forall fun op => op.fresh = ∅ := by
  simp only [List.Forall]; repeat' constructor
theorem hostOps1_23_fresh : (hostOps1_23 : List (HloOp τ sig (Elt F))).Forall fun op => op.fresh = ∅ := by
  simp only [List.Forall]; repeat' constructor
theorem hostOps1_24_fresh : (hostOps1_24 : List (HloOp τ sig (Elt F))).Forall fun op => op.fresh = ∅ := by
  simp only [List.Forall]; repeat' constructor
theorem hostOps1_25_fresh : (hostOps1_25 : List (HloOp τ sig (Elt F))).Forall fun op => op.fresh = ∅ := by
  simp only [List.Forall]; repeat' constructor
theorem hostOps1_26_fresh : (hostOps1_26 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Wn m ρ c) ∗ ∃ r, prngReg c r)

/-! ## The region as a segment -/

set_option backward.isDefEq.respectTransparency.types false in
/-- The mask region over the thread state: entered from every unscoped buffer at `W1`, left at `W2`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) qs c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := arrays_of_unscopedBufs_shared (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (unscopedBufs c (V2 m ρ c) : sProp 𝕄) :=
      unscopedBufs_of_arrays_shared (V1 m ρ) c (V2 m ρ c) ((dat0 (V1 m ρ) qs c).arrAt · cfg0.N)
        (hG0 m ρ c) (hG1 m ρ c) (hG2 m ρ c) (hG3 m ρ c) (hG4 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (T0 m ρ)),
    .host (hseg hostOps1_2 hostOps1_2_sub hostOps1_2_fresh (T1 m ρ)),
    .host (hseg hostOps1_3 hostOps1_3_sub hostOps1_3_fresh (T2 m ρ)),
    .host (hseg hostOps1_4 hostOps1_4_sub hostOps1_4_fresh (T3 m ρ)),
    .host (hseg hostOps1_5 hostOps1_5_sub hostOps1_5_fresh (T4 m ρ)),
    .host (hseg hostOps1_6 hostOps1_6_sub hostOps1_6_fresh (T5 m ρ)),
    .host (hseg hostOps1_7 hostOps1_7_sub hostOps1_7_fresh (T6 m ρ)),
    .host (hseg hostOps1_8 hostOps1_8_sub hostOps1_8_fresh (T7 m ρ)),
    .host (hseg hostOps1_9 hostOps1_9_sub hostOps1_9_fresh (T8 m ρ)),
    .host (hseg hostOps1_10 hostOps1_10_sub hostOps1_10_fresh (T9 m ρ)),
    .host (hseg hostOps1_11 hostOps1_11_sub hostOps1_11_fresh (T10 m ρ)),
    .host (hseg hostOps1_12 hostOps1_12_sub hostOps1_12_fresh (T11 m ρ)),
    .host (hseg hostOps1_13 hostOps1_13_sub hostOps1_13_fresh (T12 m ρ)),
    .host (hseg hostOps1_14 hostOps1_14_sub hostOps1_14_fresh (T13 m ρ)),
    .host (hseg hostOps1_15 hostOps1_15_sub hostOps1_15_fresh (T14 m ρ)),
    .host (hseg hostOps1_16 hostOps1_16_sub hostOps1_16_fresh (T15 m ρ)),
    .host (hseg hostOps1_17 hostOps1_17_sub hostOps1_17_fresh (T16 m ρ)),
    .host (hseg hostOps1_18 hostOps1_18_sub hostOps1_18_fresh (T17 m ρ)),
    .host (hseg hostOps1_19 hostOps1_19_sub hostOps1_19_fresh (T18 m ρ)),
    .host (hseg hostOps1_20 hostOps1_20_sub hostOps1_20_fresh (T19 m ρ)),
    .host (hseg hostOps1_21 hostOps1_21_sub hostOps1_21_fresh (T20 m ρ)),
    .host (hseg hostOps1_22 hostOps1_22_sub hostOps1_22_fresh (T21 m ρ)),
    .host (hseg hostOps1_23 hostOps1_23_sub hostOps1_23_fresh (T22 m ρ)),
    .host (hseg hostOps1_24 hostOps1_24_sub hostOps1_24_fresh (T23 m ρ)),
    .host (hseg hostOps1_25 hostOps1_25_sub hostOps1_25_fresh (T24 m ρ)),
    .host (hseg hostOps1_26 hostOps1_26_sub hostOps1_26_fresh (T25 m ρ)) ]

/-- The program IS the run of its segments. -/
theorem main_run (c : Dev nD) : main (F := F) c = Pipeline.Seg.run (segs m ρ) := (main_chain c).trans (by chain_rfl)

set_option backward.isDefEq.respectTransparency.types false in
/-- THE RUN: every weakly fair execution of the program on the TensorCores terminates, nothing faulting, and every
    final state has each unscoped buffer of each TensorCore at the fold `Wn`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = Wn m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(_ ∗ _ ∗ _) ⊢ iprop((_ ∗ _) ∗ _)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn m ρ c b)
    (hfin := fun c s' => by
      iintro ⟨⟨Hh, -⟩, HSI⟩
      unfold StableHlo.held
      imodintro
      iapply (pointsTo_read_all (Pipeline.ucRefs τ sig) (fun b => (((c : Thread nD τ)).1, b)) (Wn m ρ c) s')
      isplitl [Hh] <;> iassumption)
    (hQ := fun s h c => h c)

end Cert.KernelIdeal.Hand

end
-- ==== Proof.KIRead.lean ====
/-
  What the kernel's program leaves in its buffers at the return, read through the fold of its host operations.

  The arguments end as launched: no host operation writes an argument's buffer, and the region writes the mask only,
  so the fold at an argument's buffer walks back, stretch by stretch, to the launch memory.

  The three results are functions of the mask the region leaves and of the positions. After the region the host
  flattens the mask to bits, counts its ones, and lists the positions of its ones in increasing order: the running
  count of ones is scattered as a histogram (one added at each running-count value), whose own running count, floor
  divided and reduced, is the position of the k-th one in slot k; slots past the number of ones are set to zero. From
  the positions it reads the row and the column of each pair (floor division and remainder by 8192), gathers the two
  points, and returns the pair index, the distance and the difference vector, masked past the number of pairs kept.
  Each stretch of operations is evaluated once, from any contents before it; the stretches are then chained from the
  region's exit, a value read some stretches after it is written being unchanged in between.
-/
import proofs.«120686_j44890998178156_1_alg».proof.Proof.KIFold

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

variable (m : (ℓ : Loc nD τ sig) → Buf (Elt F) ℓ) (ρ : Dev nD → PrngReg)

/-! ## The arguments end as launched -/

/-- A buffer that no operation of a stretch writes holds after the stretch what it held before: each operation
    writes its one result buffer, a reference different from the one read. -/
local macro "kept_by " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

theorem Wn_main_arg0 (c : Dev nD) : Wn m ρ c (Proc.devRef .tc main_arg0) = m ((c : Thread nD τ).loc main_arg0) :=
  calc Wn m ρ c (Proc.devRef .tc main_arg0)
    _ = T25 m ρ c (Proc.devRef .tc main_arg0) := by kept_by hostOps1_26
    _ = T24 m ρ c (Proc.devRef .tc main_arg0) := by kept_by hostOps1_25
    _ = T23 m ρ c (Proc.devRef .tc main_arg0) := by kept_by hostOps1_24
    _ = T22 m ρ c (Proc.devRef .tc main_arg0) := by kept_by hostOps1_23
    _ = T21 m ρ c (Proc.devRef .tc main_arg0) := by kept_by hostOps1_22
    _ = T20 m ρ c (Proc.devRef .tc main_arg0) := by kept_by hostOps1_21
    _ = T19 m ρ c (Proc.devRef .tc main_arg0) := by kept_by hostOps1_20
    _ = T18 m ρ c (Proc.devRef .tc main_arg0) := by kept_by hostOps1_19
    _ = T17 m ρ c (Proc.devRef .tc main_arg0) := by kept_by hostOps1_18
    _ = T16 m ρ c (Proc.devRef .tc main_arg0) := by kept_by hostOps1_17
    _ = T15 m ρ c (Proc.devRef .tc main_arg0) := by kept_by hostOps1_16
    _ = T14 m ρ c (Proc.devRef .tc main_arg0) := by kept_by hostOps1_15
    _ = T13 m ρ c (Proc.devRef .tc main_arg0) := by kept_by hostOps1_14
    _ = T12 m ρ c (Proc.devRef .tc main_arg0) := by kept_by hostOps1_13
    _ = T11 m ρ c (Proc.devRef .tc main_arg0) := by kept_by hostOps1_12
    _ = T10 m ρ c (Proc.devRef .tc main_arg0) := by kept_by hostOps1_11
    _ = T9 m ρ c (Proc.devRef .tc main_arg0) := by kept_by hostOps1_10
    _ = T8 m ρ c (Proc.devRef .tc main_arg0) := by kept_by hostOps1_9
    _ = T7 m ρ c (Proc.devRef .tc main_arg0) := by kept_by hostOps1_8
    _ = T6 m ρ c (Proc.devRef .tc main_arg0) := by kept_by hostOps1_7
    _ = T5 m ρ c (Proc.devRef .tc main_arg0) := by kept_by hostOps1_6
    _ = T4 m ρ c (Proc.devRef .tc main_arg0) := by kept_by hostOps1_5
    _ = T3 m ρ c (Proc.devRef .tc main_arg0) := by kept_by hostOps1_4
    _ = T2 m ρ c (Proc.devRef .tc main_arg0) := by kept_by hostOps1_3
    _ = T1 m ρ c (Proc.devRef .tc main_arg0) := by kept_by hostOps1_2
    _ = T0 m ρ c (Proc.devRef .tc main_arg0) := by kept_by hostOps1_1
    _ = W2 m ρ c (Proc.devRef .tc main_arg0) := by kept_by hostOps1
    _ = W1 m ρ c (Proc.devRef .tc main_arg0) := W2_of_ne m ρ c main_arg0 (by decide)
    _ = W0 m ρ c (Proc.devRef .tc main_arg0) := by kept_by hostOps0
    _ = m ((c : Thread nD τ).loc main_arg0) := rfl

theorem Wn_main_arg1 (c : Dev nD) : Wn m ρ c (Proc.devRef .tc main_arg1) = m ((c : Thread nD τ).loc main_arg1) :=
  calc Wn m ρ c (Proc.devRef .tc main_arg1)
    _ = T25 m ρ c (Proc.devRef .tc main_arg1) := by kept_by hostOps1_26
    _ = T24 m ρ c (Proc.devRef .tc main_arg1) := by kept_by hostOps1_25
    _ = T23 m ρ c (Proc.devRef .tc main_arg1) := by kept_by hostOps1_24
    _ = T22 m ρ c (Proc.devRef .tc main_arg1) := by kept_by hostOps1_23
    _ = T21 m ρ c (Proc.devRef .tc main_arg1) := by kept_by hostOps1_22
    _ = T20 m ρ c (Proc.devRef .tc main_arg1) := by kept_by hostOps1_21
    _ = T19 m ρ c (Proc.devRef .tc main_arg1) := by kept_by hostOps1_20
    _ = T18 m ρ c (Proc.devRef .tc main_arg1) := by kept_by hostOps1_19
    _ = T17 m ρ c (Proc.devRef .tc main_arg1) := by kept_by hostOps1_18
    _ = T16 m ρ c (Proc.devRef .tc main_arg1) := by kept_by hostOps1_17
    _ = T15 m ρ c (Proc.devRef .tc main_arg1) := by kept_by hostOps1_16
    _ = T14 m ρ c (Proc.devRef .tc main_arg1) := by kept_by hostOps1_15
    _ = T13 m ρ c (Proc.devRef .tc main_arg1) := by kept_by hostOps1_14
    _ = T12 m ρ c (Proc.devRef .tc main_arg1) := by kept_by hostOps1_13
    _ = T11 m ρ c (Proc.devRef .tc main_arg1) := by kept_by hostOps1_12
    _ = T10 m ρ c (Proc.devRef .tc main_arg1) := by kept_by hostOps1_11
    _ = T9 m ρ c (Proc.devRef .tc main_arg1) := by kept_by hostOps1_10
    _ = T8 m ρ c (Proc.devRef .tc main_arg1) := by kept_by hostOps1_9
    _ = T7 m ρ c (Proc.devRef .tc main_arg1) := by kept_by hostOps1_8
    _ = T6 m ρ c (Proc.devRef .tc main_arg1) := by kept_by hostOps1_7
    _ = T5 m ρ c (Proc.devRef .tc main_arg1) := by kept_by hostOps1_6
    _ = T4 m ρ c (Proc.devRef .tc main_arg1) := by kept_by hostOps1_5
    _ = T3 m ρ c (Proc.devRef .tc main_arg1) := by kept_by hostOps1_4
    _ = T2 m ρ c (Proc.devRef .tc main_arg1) := by kept_by hostOps1_3
    _ = T1 m ρ c (Proc.devRef .tc main_arg1) := by kept_by hostOps1_2
    _ = T0 m ρ c (Proc.devRef .tc main_arg1) := by kept_by hostOps1_1
    _ = W2 m ρ c (Proc.devRef .tc main_arg1) := by kept_by hostOps1
    _ = W1 m ρ c (Proc.devRef .tc main_arg1) := W2_of_ne m ρ c main_arg1 (by decide)
    _ = W0 m ρ c (Proc.devRef .tc main_arg1) := by kept_by hostOps0
    _ = m ((c : Thread nD τ).loc main_arg1) := rfl

/-! ## The compaction as functions

The host's compaction of the mask, operation by operation, as functions of the values read: the flat mask as bits,
the number of its ones, the sorted positions of its ones (a running count, the histogram of the running count by a
scatter-add, its running count, and the floor division and remainder that read a position off it), and the three
results gathered at those positions. The floor division, the remainder and the selects between a vector and a
constant are the functions the program calls; they are kept as functions here. -/

/-- The flat mask as bits: a word of the mask is set when it is not zero. -/
def kFlat (mask : IVec S8192x8192 32) : IVec S67108864 1 :=
  cmpi .ne (shapeCast S67108864 mask shapeCasts_S8192x8192_S67108864)
    (broadcastInDim S67108864 ![] bcast_S_S67108864 (constantI S_ 32 0#32))

/-- The number of ones of the flat mask. -/
def nzCnt (f : IVec S67108864 1) : IVec S_ 32 :=
  Host.reduce IntOp.addi (extui 32 f natLt_1_32) (constantI S_ 32 0#32) reducesTo_S67108864_S_d0 h_S_

/-- The running count of ones. -/
def cumsumF (f : IVec S67108864 1) : IVec S67108864 32 :=
  Host.reduceWindow IntOp.addi ![67108864] ![1] ![67108863] ![0] (extui 32 f natLt_1_32)
    (broadcastInDim S_ ![] bcast_S_S_ (constantI S_ 32 0#32))
    reduceWindows_S67108864_S67108864_w67108864s1p67108863_0 h_S_

/-- A vector bounded below by a constant. -/
def clipF (x : IVec S67108864 32) (lo : IVec S_ 32) : IVec S67108864 32 :=
  maxsi (broadcastInDim S67108864 ![] bcast_S_S67108864 lo) x

/-- The histogram of the clipped running count over "z": one added at each value (negative values wrapped). -/
def histF (cl : IVec S67108864 32) (z : IVec S524288 32) : IVec S524288 32 :=
  Host.scatter scatter_S524288_S67108864x1_S67108864_n_0_0_1 IntOp.addi z
    (broadcastInDim S67108864x1 ![0] bcast_S67108864_S67108864x1_0
      (select (cmpi .slt cl (broadcastInDim S67108864 ![] bcast_S_S67108864 (constantI S_ 32 0#32)))
        (addi cl (broadcastInDim S67108864 ![] bcast_S_S67108864 (constantI S_ 32 524288#32))) cl))
    (broadcastInDim S67108864 ![] bcast_S_S67108864 (constantI S_ 32 1#32))

/-- The running count of a vector of 524288 words. -/
def cumsum1F (x : IVec S524288 32) : IVec S524288 32 :=
  Host.reduceWindow IntOp.addi ![524288] ![1] ![524287] ![0] x
    (broadcastInDim S_ ![] bcast_S_S_ (constantI S_ 32 0#32))
    reduceWindows_S524288_S524288_w524288s1p524287_0 h_S_

/-- Floor division of a vector by a constant: the truncated quotient, less one where the signs differ and the
    remainder is not zero. -/
def floorDivide (x : IVec S524288 32) (d : IVec S_ 32) : IVec S524288 32 :=
  select
    (andi (cmpi .ne (signi x) (broadcastInDim S524288 ![] bcast_S_S524288 (signi d)))
      (cmpi .ne (Host.remsi x (broadcastInDim S524288 ![] bcast_S_S524288 d))
        (broadcastInDim S524288 ![] bcast_S_S524288 (constantI S_ 32 0#32))))
    (subi (Host.divsi x (broadcastInDim S524288 ![] bcast_S_S524288 d))
      (broadcastInDim S524288 ![] bcast_S_S524288 (constantI S_ 32 1#32)))
    (Host.divsi x (broadcastInDim S524288 ![] bcast_S_S524288 d))

/-- The divisor the remainder uses: one in place of zero. -/
def divisorF (d : IVec S_ 32) : IVec S_ 32 :=
  select (cmpi .eq d (constantI S_ 32 0#32)) (constantI S_ 32 1#32) d

/-- The remainder of a vector by a constant with the divisor's sign: the truncated remainder, plus the divisor
    where it is not zero and its sign differs from the divisor's. -/
def remainderF (x : IVec S524288 32) (d : IVec S_ 32) : IVec S524288 32 :=
  select
    (andi
      (cmpi .ne
        (cmpi .slt (Host.remsi x (broadcastInDim S524288 ![] bcast_S_S524288 (divisorF d)))
          (broadcastInDim S524288 ![] bcast_S_S524288 (constantI S_ 32 0#32)))
        (broadcastInDim S524288 ![] bcast_S_S524288 (cmpi .slt (divisorF d) (constantI S_ 32 0#32))))
      (cmpi .ne (Host.remsi x (broadcastInDim S524288 ![] bcast_S_S524288 (divisorF d)))
        (broadcastInDim S524288 ![] bcast_S_S524288 (constantI S_ 32 0#32))))
    (addi (Host.remsi x (broadcastInDim S524288 ![] bcast_S_S524288 (divisorF d)))
      (broadcastInDim S524288 ![] bcast_S_S524288 (divisorF d)))
    (Host.remsi x (broadcastInDim S524288 ![] bcast_S_S524288 (divisorF d)))

/-- A constant where the condition holds, the vector elsewhere. -/
def where4 (c : IVec S524288 1) (a : IVec S_ 32) (b : IVec S524288 32) : IVec S524288 32 :=
  select c (broadcastInDim S524288 ![] bcast_S_S524288 a) b

/-- The histogram of the running count of ones. -/
def nzHist (f : IVec S67108864 1) : IVec S524288 32 :=
  histF (clipF (cumsumF f) (constantI S_ 32 0#32)) (broadcastInDim S524288 ![] bcast_S_S524288 (constantI S_ 32 0#32))

/-- The positions read off the histogram's running count. -/
def nzPos (f : IVec S67108864 1) : IVec S524288 32 :=
  remainderF (floorDivide (cumsum1F (nzHist f)) (constantI S_ 32 1#32)) (constantI S_ 32 67108864#32)

/-- The slots at or past the number of ones. -/
def nzPast (f : IVec S67108864 1) : IVec S524288 1 :=
  cmpi .sge (iotaInDim S524288 32 0) (broadcastInDim S524288 ![] bcast_S_S524288 (nzCnt f))

/-- The positions of the ones of the flat mask in increasing order, zero in the slots past their number. -/
def nzIdx (f : IVec S67108864 1) : IVec S524288 32 :=
  where4 (nzPast f) (constantI S_ 32 0#32) (nzPos f)

/-- The slots below the number of pairs kept: the number of ones, at most 524288. -/
def validF (cnt : IVec S_ 32) : IVec S524288 1 :=
  cmpi .slt (iotaInDim S524288 32 0)
    (broadcastInDim S524288 ![] bcast_S_S524288 (minsi cnt (constantI S_ 32 524288#32)))

/-- The row of each position: the position floor-divided by 8192. -/
def rowI (idx : IVec S524288 32) : IVec S524288 32 := floorDivide idx (constantI S_ 32 8192#32)
/-- The column of each position: its remainder by 8192. -/
def colI (idx : IVec S524288 32) : IVec S524288 32 := remainderF idx (constantI S_ 32 8192#32)

/-- The vector where the condition holds, a constant elsewhere. -/
def where8 (c : IVec S524288 1) (a : IVec S524288 32) (b : IVec S_ 32) : IVec S524288 32 :=
  select c a (broadcastInDim S524288 ![] bcast_S_S524288 b)
/-- The same of floats. -/
def where7 (c : IVec S524288 1) (a : FVec F S524288 .f32) (b : FVec F S_ .f32) : FVec F S524288 .f32 :=
  select c a (broadcastInDim S524288 ![] bcast_S_S524288 b)
/-- The same of rows of three floats, the condition one bit per row. -/
def where6 (c : IVec S524288x1 1) (a : FVec F S524288x3 .f32) (b : FVec F S_ .f32) : FVec F S524288x3 .f32 :=
  select (broadcastInDim S524288x3 ![0, 1] bcast_S524288x1_S524288x3_0_1 c) a
    (broadcastInDim S524288x3 ![] bcast_S_S524288x3 b)

/-- The pair index: the rows of the positions over their columns, minus one in the slots past the number kept. -/
def outIdx (cnt : IVec S_ 32) (idx : IVec S524288 32) : IVec S2x524288 32 :=
  concatenate S2x524288 0
    [⟨S1x524288, broadcastInDim S1x524288 ![1] bcast_S524288_S1x524288_1
        (where8 (validF cnt) (rowI idx) (constantI S_ 32 4294967295#32))⟩,
     ⟨S1x524288, broadcastInDim S1x524288 ![1] bcast_S524288_S1x524288_1
        (where8 (validF cnt) (colI idx) (constantI S_ 32 4294967295#32))⟩]
    concatenates_S1x524288_S1x524288_S2x524288_d0

/-- The rows of the positions at a vector of row numbers (negative numbers wrapped). -/
def rowsAt (pos : FVec F S8192x3 .f32) (x : IVec S524288 32) : FVec F S524288x3 .f32 :=
  Host.gather gather_S8192x3_S524288x1_S524288x3_1_0_n_n_0_1_13 pos
    (broadcastInDim S524288x1 ![0] bcast_S524288_S524288x1_0
      (select (cmpi .slt x (broadcastInDim S524288 ![] bcast_S_S524288 (constantI S_ 32 0#32)))
        (addi x (broadcastInDim S524288 ![] bcast_S_S524288 (constantI S_ 32 8192#32))) x))

/-- The difference vector of each pair: the row point minus the column point. -/
def pairDiff (idx : IVec S524288 32) (pos : FVec F S8192x3 .f32) : FVec F S524288x3 .f32 :=
  subf (rowsAt pos (rowI idx)) (rowsAt pos (colI idx))

/-- The squared length of each pair's difference vector. -/
def pairSq (idx : IVec S524288 32) (pos : FVec F S8192x3 .f32) : FVec F S524288 .f32 :=
  Host.reduceAdd (mulf (pairDiff idx pos) (pairDiff idx pos)) (constant S_ .f32 0x00000000#32)
    reducesTo_S524288x3_S524288_d1 h_S_

/-- The difference vectors, zero in the slots past the number kept. -/
def kOutVec (cnt : IVec S_ 32) (idx : IVec S524288 32) (pos : FVec F S8192x3 .f32) : FVec F S524288x3 .f32 :=
  where6 (broadcastInDim S524288x1 ![0] bcast_S524288_S524288x1_0 (validF cnt)) (pairDiff idx pos)
    (constant S_ .f32 0x00000000#32)

/-- The distances: the square root of the squared length (of one in the slots past the number kept), zero in those
    slots. -/
def kOutW (cnt : IVec S_ 32) (idx : IVec S524288 32) (pos : FVec F S8192x3 .f32) : FVec F S524288 .f32 :=
  where7 (validF cnt)
    (Host.sqrt (where7 (validF cnt) (pairSq idx pos) (constant S_ .f32 0x3F800000#32)))
    (constant S_ .f32 0x00000000#32)

/-! ## Each stretch, evaluated

What a stretch of host operations leaves in the buffers read later, from any contents "V" before it: the fold
unrolled, each operation's result read at its own buffer and passed over at the others, in one pass. A called
function's operations move their values to the buffers' own types and back, which is the identity. The
reductions, the scatter and the gather are kept folded: the equations never look inside them. -/

/-- Contents moved to a buffer's own type and back are the contents. -/
theorem ofBuf_toBuf {T : BufTy} (x : StableHlo.TRef sig T) (v : T.Contents (Elt F)) : x.ofBuf (x.toBuf v) = v := by
  simp only [StableHlo.TRef.ofBuf, StableHlo.TRef.toBuf, cast_cast, cast_eq]

section Stretches

open Idealize.ShloMosaic.StableHlo

attribute [local irreducible] Host.reduce Host.reduceWindow Host.scatter Host.gather Host.reduceAdd concatenate

theorem s0_v5 (V : Valuation τ sig (Elt F)) :
    StableHlo.after hostOps1 V (Proc.devRef .tc main_v5) = kFlat (V (Proc.devRef .tc main_v2)) := by
  simp only [hostOps1]
  after_results_simp
  all_goals (try simp only [ofBuf_toBuf])
  all_goals rfl
theorem s0_v7 (V : Valuation τ sig (Elt F)) :
    StableHlo.after hostOps1 V (Proc.devRef .tc main_v7) = nzCnt (kFlat (V (Proc.devRef .tc main_v2))) := by
  simp only [hostOps1]
  after_results_simp
  all_goals (try simp only [ofBuf_toBuf])
  all_goals rfl
theorem s1_v8 (V : Valuation τ sig (Elt F)) :
    StableHlo.after hostOps1_1 V (Proc.devRef .tc main_v8) = cumsumF (V (Proc.devRef .tc main_v5)) := by
  simp only [hostOps1_1]
  after_results_simp
  all_goals (try simp only [ofBuf_toBuf])
  all_goals rfl
theorem s2_v9 (V : Valuation τ sig (Elt F)) :
    StableHlo.after hostOps1_2 V (Proc.devRef .tc main_v9) = broadcastInDim S524288 ![] bcast_S_S524288 (constantI S_ 32 0#32) := by
  simp only [hostOps1_2]
  after_results_simp
  all_goals (try simp only [ofBuf_toBuf])
  all_goals rfl
theorem s2_c_2 (V : Valuation τ sig (Elt F)) :
    StableHlo.after hostOps1_2 V (Proc.devRef .tc main_c_2) = constantI S_ 32 0#32 := by
  simp only [hostOps1_2]
  after_results_simp
  all_goals (try simp only [ofBuf_toBuf])
  all_goals rfl
theorem s3_v10 (V : Valuation τ sig (Elt F)) :
    StableHlo.after hostOps1_3 V (Proc.devRef .tc main_v10) = clipF (V (Proc.devRef .tc main_v8)) (V (Proc.devRef .tc main_c_2)) := by
  simp only [hostOps1_3]
  after_results_simp
  all_goals (try simp only [ofBuf_toBuf])
  all_goals rfl
theorem s4_v18 (V : Valuation τ sig (Elt F)) :
    StableHlo.after hostOps1_4 V (Proc.devRef .tc main_v18) = histF (V (Proc.devRef .tc main_v10)) (V (Proc.devRef .tc main_v9)) := by
  simp only [hostOps1_4]
  after_results_simp
  all_goals (try simp only [ofBuf_toBuf])
  all_goals rfl
theorem s5_v19 (V : Valuation τ sig (Elt F)) :
    StableHlo.after hostOps1_5 V (Proc.devRef .tc main_v19) = cumsum1F (V (Proc.devRef .tc main_v18)) := by
  simp only [hostOps1_5]
  after_results_simp
  all_goals (try simp only [ofBuf_toBuf])
  all_goals rfl
theorem s6_c_6 (V : Valuation τ sig (Elt F)) :
    StableHlo.after hostOps1_6 V (Proc.devRef .tc main_c_6) = constantI S_ 32 1#32 := by
  simp only [hostOps1_6]
  after_results_simp
  all_goals (try simp only [ofBuf_toBuf])
  all_goals rfl
theorem s7_v20 (V : Valuation τ sig (Elt F)) :
    StableHlo.after hostOps1_7 V (Proc.devRef .tc main_v20) = floorDivide (V (Proc.devRef .tc main_v19)) (V (Proc.devRef .tc main_c_6)) := by
  simp only [hostOps1_7]
  after_results_simp
  all_goals (try simp only [ofBuf_toBuf])
  all_goals rfl
theorem s8_c_7 (V : Valuation τ sig (Elt F)) :
    StableHlo.after hostOps1_8 V (Proc.devRef .tc main_c_7) = constantI S_ 32 67108864#32 := by
  simp only [hostOps1_8]
  after_results_simp
  all_goals (try simp only [ofBuf_toBuf])
  all_goals rfl
theorem s9_v21 (V : Valuation τ sig (Elt F)) :
    StableHlo.after hostOps1_9 V (Proc.devRef .tc main_v21) = remainderF (V (Proc.devRef .tc main_v20)) (V (Proc.devRef .tc main_c_7)) := by
  simp only [hostOps1_9]
  after_results_simp
  all_goals (try simp only [ofBuf_toBuf])
  all_goals rfl
theorem s10_v26 (V : Valuation τ sig (Elt F)) :
    StableHlo.after hostOps1_10 V (Proc.devRef .tc main_v26) = nzPast (V (Proc.devRef .tc main_v5)) := by
  simp only [hostOps1_10]
  after_results_simp
  all_goals (try simp only [ofBuf_toBuf])
  all_goals rfl
theorem s10_c_9 (V : Valuation τ sig (Elt F)) :
    StableHlo.after hostOps1_10 V (Proc.devRef .tc main_c_9) = constantI S_ 32 0#32 := by
  simp only [hostOps1_10]
  after_results_simp
  all_goals (try simp only [ofBuf_toBuf])
  all_goals rfl
theorem s11_v27 (V : Valuation τ sig (Elt F)) :
    StableHlo.after hostOps1_11 V (Proc.devRef .tc main_v27) = where4 (V (Proc.devRef .tc main_v26)) (V (Proc.devRef .tc main_c_9)) (V (Proc.devRef .tc main_v21)) := by
  simp only [hostOps1_11]
  after_results_simp
  all_goals (try simp only [ofBuf_toBuf])
  all_goals rfl
theorem s12_v31 (V : Valuation τ sig (Elt F)) :
    StableHlo.after hostOps1_12 V (Proc.devRef .tc main_v31) = validF (V (Proc.devRef .tc main_v7)) := by
  simp only [hostOps1_12]
  after_results_simp
  all_goals (try simp only [ofBuf_toBuf])
  all_goals rfl
theorem s12_c_11 (V : Valuation τ sig (Elt F)) :
    StableHlo.after hostOps1_12 V (Proc.devRef .tc main_c_11) = constantI S_ 32 8192#32 := by
  simp only [hostOps1_12]
  after_results_simp
  all_goals (try simp only [ofBuf_toBuf])
  all_goals rfl
theorem s13_v32 (V : Valuation τ sig (Elt F)) :
    StableHlo.after hostOps1_13 V (Proc.devRef .tc main_v32) = floorDivide (V (Proc.devRef .tc main_v27)) (V (Proc.devRef .tc main_c_11)) := by
  simp only [hostOps1_13]
  after_results_simp
  all_goals (try simp only [ofBuf_toBuf])
  all_goals rfl
theorem s14_c_12 (V : Valuation τ sig (Elt F)) :
    StableHlo.after hostOps1_14 V (Proc.devRef .tc main_c_12) = constantI S_ 32 8192#32 := by
  simp only [hostOps1_14]
  after_results_simp
  all_goals (try simp only [ofBuf_toBuf])
  all_goals rfl
theorem s15_v33 (V : Valuation τ sig (Elt F)) :
    StableHlo.after hostOps1_15 V (Proc.devRef .tc main_v33) = remainderF (V (Proc.devRef .tc main_v27)) (V (Proc.devRef .tc main_c_12)) := by
  simp only [hostOps1_15]
  after_results_simp
  all_goals (try simp only [ofBuf_toBuf])
  all_goals rfl
theorem s16_v48 (V : Valuation τ sig (Elt F)) :
    StableHlo.after hostOps1_16 V (Proc.devRef .tc main_v48) = subf (rowsAt (V (Proc.devRef .tc main_arg0)) (V (Proc.devRef .tc main_v32))) (rowsAt (V (Proc.devRef .tc main_arg0)) (V (Proc.devRef .tc main_v33))) := by
  simp only [hostOps1_16]
  after_results_simp
  all_goals (try simp only [ofBuf_toBuf])
  all_goals rfl
theorem s16_v50 (V : Valuation τ sig (Elt F)) :
    StableHlo.after hostOps1_16 V (Proc.devRef .tc main_v50) = Host.reduceAdd (mulf (subf (rowsAt (V (Proc.devRef .tc main_arg0)) (V (Proc.devRef .tc main_v32))) (rowsAt (V (Proc.devRef .tc main_arg0)) (V (Proc.devRef .tc main_v33)))) (subf (rowsAt (V (Proc.devRef .tc main_arg0)) (V (Proc.devRef .tc main_v32))) (rowsAt (V (Proc.devRef .tc main_arg0)) (V (Proc.devRef .tc main_v33))))) (constant S_ .f32 0x00000000#32) reducesTo_S524288x3_S524288_d1 h_S_ := by
  simp only [hostOps1_16]
  after_results_simp
  all_goals (try simp only [ofBuf_toBuf])
  all_goals rfl
theorem s16_v51 (V : Valuation τ sig (Elt F)) :
    StableHlo.after hostOps1_16 V (Proc.devRef .tc main_v51) = broadcastInDim S524288x1 ![0] bcast_S524288_S524288x1_0 (V (Proc.devRef .tc main_v31)) := by
  simp only [hostOps1_16]
  after_results_simp
  all_goals (try simp only [ofBuf_toBuf])
  all_goals rfl
theorem s16_cst_17 (V : Valuation τ sig (Elt F)) :
    StableHlo.after hostOps1_16 V (Proc.devRef .tc main_cst_17) = constant S_ .f32 0x00000000#32 := by
  simp only [hostOps1_16]
  after_results_simp
  all_goals (try simp only [ofBuf_toBuf])
  all_goals rfl
theorem s17_v52 (V : Valuation τ sig (Elt F)) :
    StableHlo.after hostOps1_17 V (Proc.devRef .tc main_v52) = where6 (V (Proc.devRef .tc main_v51)) (V (Proc.devRef .tc main_v48)) (V (Proc.devRef .tc main_cst_17)) := by
  simp only [hostOps1_17]
  after_results_simp
  all_goals (try simp only [ofBuf_toBuf])
  all_goals rfl
theorem s18_cst_18 (V : Valuation τ sig (Elt F)) :
    StableHlo.after hostOps1_18 V (Proc.devRef .tc main_cst_18) = constant S_ .f32 0x3F800000#32 := by
  simp only [hostOps1_18]
  after_results_simp
  all_goals (try simp only [ofBuf_toBuf])
  all_goals rfl
theorem s19_v53 (V : Valuation τ sig (Elt F)) :
    StableHlo.after hostOps1_19 V (Proc.devRef .tc main_v53) = where7 (V (Proc.devRef .tc main_v31)) (V (Proc.devRef .tc main_v50)) (V (Proc.devRef .tc main_cst_18)) := by
  simp only [hostOps1_19]
  after_results_simp
  all_goals (try simp only [ofBuf_toBuf])
  all_goals rfl
theorem s20_v54 (V : Valuation τ sig (Elt F)) :
    StableHlo.after hostOps1_20 V (Proc.devRef .tc main_v54) = Host.sqrt (V (Proc.devRef .tc main_v53)) := by
  simp only [hostOps1_20]
  after_results_simp
  all_goals (try simp only [ofBuf_toBuf])
  all_goals rfl
theorem s20_cst_19 (V : Valuation τ sig (Elt F)) :
    StableHlo.after hostOps1_20 V (Proc.devRef .tc main_cst_19) = constant S_ .f32 0x00000000#32 := by
  simp only [hostOps1_20]
  after_results_simp
  all_goals (try simp only [ofBuf_toBuf])
  all_goals rfl
theorem s21_v55 (V : Valuation τ sig (Elt F)) :
    StableHlo.after hostOps1_21 V (Proc.devRef .tc main_v55) = where7 (V (Proc.devRef .tc main_v31)) (V (Proc.devRef .tc main_v54)) (V (Proc.devRef .tc main_cst_19)) := by
  simp only [hostOps1_21]
  after_results_simp
  all_goals (try simp only [ofBuf_toBuf])
  all_goals rfl
theorem s22_c_20 (V : Valuation τ sig (Elt F)) :
    StableHlo.after hostOps1_22 V (Proc.devRef .tc main_c_20) = constantI S_ 32 4294967295#32 := by
  simp only [hostOps1_22]
  after_results_simp
  all_goals (try simp only [ofBuf_toBuf])
  all_goals rfl
theorem s23_v56 (V : Valuation τ sig (Elt F)) :
    StableHlo.after hostOps1_23 V (Proc.devRef .tc main_v56) = where8 (V (Proc.devRef .tc main_v31)) (V (Proc.devRef .tc main_v32)) (V (Proc.devRef .tc main_c_20)) := by
  simp only [hostOps1_23]
  after_results_simp
  all_goals (try simp only [ofBuf_toBuf])
  all_goals rfl
theorem s24_c_21 (V : Valuation τ sig (Elt F)) :
    StableHlo.after hostOps1_24 V (Proc.devRef .tc main_c_21) = constantI S_ 32 4294967295#32 := by
  simp only [hostOps1_24]
  after_results_simp
  all_goals (try simp only [ofBuf_toBuf])
  all_goals rfl
theorem s25_v57 (V : Valuation τ sig (Elt F)) :
    StableHlo.after hostOps1_25 V (Proc.devRef .tc main_v57) = where8 (V (Proc.devRef .tc main_v31)) (V (Proc.devRef .tc main_v33)) (V (Proc.devRef .tc main_c_21)) := by
  simp only [hostOps1_25]
  after_results_simp
  all_goals (try simp only [ofBuf_toBuf])
  all_goals rfl
theorem s26_v60 (V : Valuation τ sig (Elt F)) :
    StableHlo.after hostOps1_26 V (Proc.devRef .tc main_v60) = concatenate S2x524288 0 [⟨S1x524288, broadcastInDim S1x524288 ![1] bcast_S524288_S1x524288_1 (V (Proc.devRef .tc main_v56))⟩, ⟨S1x524288, broadcastInDim S1x524288 ![1] bcast_S524288_S1x524288_1 (V (Proc.devRef .tc main_v57))⟩] concatenates_S1x524288_S1x524288_S2x524288_d0 := by
  simp only [hostOps1_26]
  after_results_simp
  all_goals (try simp only [ofBuf_toBuf])
  all_goals rfl

end Stretches

/-! ## What the later stretches leave alone

A buffer written in one stretch and read some stretches later holds there what it held when written: none of the
stretches between writes it. -/

theorem K9_v5 (c : Dev nD) : T9 m ρ c (Proc.devRef .tc main_v5) = T0 m ρ c (Proc.devRef .tc main_v5) :=
  calc T9 m ρ c (Proc.devRef .tc main_v5)
    _ = T8 m ρ c (Proc.devRef .tc main_v5) := by kept_by hostOps1_9
    _ = T7 m ρ c (Proc.devRef .tc main_v5) := by kept_by hostOps1_8
    _ = T6 m ρ c (Proc.devRef .tc main_v5) := by kept_by hostOps1_7
    _ = T5 m ρ c (Proc.devRef .tc main_v5) := by kept_by hostOps1_6
    _ = T4 m ρ c (Proc.devRef .tc main_v5) := by kept_by hostOps1_5
    _ = T3 m ρ c (Proc.devRef .tc main_v5) := by kept_by hostOps1_4
    _ = T2 m ρ c (Proc.devRef .tc main_v5) := by kept_by hostOps1_3
    _ = T1 m ρ c (Proc.devRef .tc main_v5) := by kept_by hostOps1_2
    _ = T0 m ρ c (Proc.devRef .tc main_v5) := by kept_by hostOps1_1
theorem K11_v7 (c : Dev nD) : T11 m ρ c (Proc.devRef .tc main_v7) = T0 m ρ c (Proc.devRef .tc main_v7) :=
  calc T11 m ρ c (Proc.devRef .tc main_v7)
    _ = T10 m ρ c (Proc.devRef .tc main_v7) := by kept_by hostOps1_11
    _ = T9 m ρ c (Proc.devRef .tc main_v7) := by kept_by hostOps1_10
    _ = T8 m ρ c (Proc.devRef .tc main_v7) := by kept_by hostOps1_9
    _ = T7 m ρ c (Proc.devRef .tc main_v7) := by kept_by hostOps1_8
    _ = T6 m ρ c (Proc.devRef .tc main_v7) := by kept_by hostOps1_7
    _ = T5 m ρ c (Proc.devRef .tc main_v7) := by kept_by hostOps1_6
    _ = T4 m ρ c (Proc.devRef .tc main_v7) := by kept_by hostOps1_5
    _ = T3 m ρ c (Proc.devRef .tc main_v7) := by kept_by hostOps1_4
    _ = T2 m ρ c (Proc.devRef .tc main_v7) := by kept_by hostOps1_3
    _ = T1 m ρ c (Proc.devRef .tc main_v7) := by kept_by hostOps1_2
    _ = T0 m ρ c (Proc.devRef .tc main_v7) := by kept_by hostOps1_1
theorem K2_v8 (c : Dev nD) : T2 m ρ c (Proc.devRef .tc main_v8) = T1 m ρ c (Proc.devRef .tc main_v8) :=
  calc T2 m ρ c (Proc.devRef .tc main_v8)
    _ = T1 m ρ c (Proc.devRef .tc main_v8) := by kept_by hostOps1_2
theorem K3_v9 (c : Dev nD) : T3 m ρ c (Proc.devRef .tc main_v9) = T2 m ρ c (Proc.devRef .tc main_v9) :=
  calc T3 m ρ c (Proc.devRef .tc main_v9)
    _ = T2 m ρ c (Proc.devRef .tc main_v9) := by kept_by hostOps1_3
theorem K6_v19 (c : Dev nD) : T6 m ρ c (Proc.devRef .tc main_v19) = T5 m ρ c (Proc.devRef .tc main_v19) :=
  calc T6 m ρ c (Proc.devRef .tc main_v19)
    _ = T5 m ρ c (Proc.devRef .tc main_v19) := by kept_by hostOps1_6
theorem K8_v20 (c : Dev nD) : T8 m ρ c (Proc.devRef .tc main_v20) = T7 m ρ c (Proc.devRef .tc main_v20) :=
  calc T8 m ρ c (Proc.devRef .tc main_v20)
    _ = T7 m ρ c (Proc.devRef .tc main_v20) := by kept_by hostOps1_8
theorem K10_v21 (c : Dev nD) : T10 m ρ c (Proc.devRef .tc main_v21) = T9 m ρ c (Proc.devRef .tc main_v21) :=
  calc T10 m ρ c (Proc.devRef .tc main_v21)
    _ = T9 m ρ c (Proc.devRef .tc main_v21) := by kept_by hostOps1_10
theorem K12_v27 (c : Dev nD) : T12 m ρ c (Proc.devRef .tc main_v27) = T11 m ρ c (Proc.devRef .tc main_v27) :=
  calc T12 m ρ c (Proc.devRef .tc main_v27)
    _ = T11 m ρ c (Proc.devRef .tc main_v27) := by kept_by hostOps1_12
theorem K14_v27 (c : Dev nD) : T14 m ρ c (Proc.devRef .tc main_v27) = T11 m ρ c (Proc.devRef .tc main_v27) :=
  calc T14 m ρ c (Proc.devRef .tc main_v27)
    _ = T13 m ρ c (Proc.devRef .tc main_v27) := by kept_by hostOps1_14
    _ = T12 m ρ c (Proc.devRef .tc main_v27) := by kept_by hostOps1_13
    _ = T11 m ρ c (Proc.devRef .tc main_v27) := K12_v27 m ρ c
theorem K15_v31 (c : Dev nD) : T15 m ρ c (Proc.devRef .tc main_v31) = T12 m ρ c (Proc.devRef .tc main_v31) :=
  calc T15 m ρ c (Proc.devRef .tc main_v31)
    _ = T14 m ρ c (Proc.devRef .tc main_v31) := by kept_by hostOps1_15
    _ = T13 m ρ c (Proc.devRef .tc main_v31) := by kept_by hostOps1_14
    _ = T12 m ρ c (Proc.devRef .tc main_v31) := by kept_by hostOps1_13
theorem K18_v31 (c : Dev nD) : T18 m ρ c (Proc.devRef .tc main_v31) = T12 m ρ c (Proc.devRef .tc main_v31) :=
  calc T18 m ρ c (Proc.devRef .tc main_v31)
    _ = T17 m ρ c (Proc.devRef .tc main_v31) := by kept_by hostOps1_18
    _ = T16 m ρ c (Proc.devRef .tc main_v31) := by kept_by hostOps1_17
    _ = T15 m ρ c (Proc.devRef .tc main_v31) := by kept_by hostOps1_16
    _ = T12 m ρ c (Proc.devRef .tc main_v31) := K15_v31 m ρ c
theorem K20_v31 (c : Dev nD) : T20 m ρ c (Proc.devRef .tc main_v31) = T12 m ρ c (Proc.devRef .tc main_v31) :=
  calc T20 m ρ c (Proc.devRef .tc main_v31)
    _ = T19 m ρ c (Proc.devRef .tc main_v31) := by kept_by hostOps1_20
    _ = T18 m ρ c (Proc.devRef .tc main_v31) := by kept_by hostOps1_19
    _ = T12 m ρ c (Proc.devRef .tc main_v31) := K18_v31 m ρ c
theorem K22_v31 (c : Dev nD) : T22 m ρ c (Proc.devRef .tc main_v31) = T12 m ρ c (Proc.devRef .tc main_v31) :=
  calc T22 m ρ c (Proc.devRef .tc main_v31)
    _ = T21 m ρ c (Proc.devRef .tc main_v31) := by kept_by hostOps1_22
    _ = T20 m ρ c (Proc.devRef .tc main_v31) := by kept_by hostOps1_21
    _ = T12 m ρ c (Proc.devRef .tc main_v31) := K20_v31 m ρ c
theorem K24_v31 (c : Dev nD) : T24 m ρ c (Proc.devRef .tc main_v31) = T12 m ρ c (Proc.devRef .tc main_v31) :=
  calc T24 m ρ c (Proc.devRef .tc main_v31)
    _ = T23 m ρ c (Proc.devRef .tc main_v31) := by kept_by hostOps1_24
    _ = T22 m ρ c (Proc.devRef .tc main_v31) := by kept_by hostOps1_23
    _ = T12 m ρ c (Proc.devRef .tc main_v31) := K22_v31 m ρ c
theorem K15_v32 (c : Dev nD) : T15 m ρ c (Proc.devRef .tc main_v32) = T13 m ρ c (Proc.devRef .tc main_v32) :=
  calc T15 m ρ c (Proc.devRef .tc main_v32)
    _ = T14 m ρ c (Proc.devRef .tc main_v32) := by kept_by hostOps1_15
    _ = T13 m ρ c (Proc.devRef .tc main_v32) := by kept_by hostOps1_14
theorem K22_v32 (c : Dev nD) : T22 m ρ c (Proc.devRef .tc main_v32) = T13 m ρ c (Proc.devRef .tc main_v32) :=
  calc T22 m ρ c (Proc.devRef .tc main_v32)
    _ = T21 m ρ c (Proc.devRef .tc main_v32) := by kept_by hostOps1_22
    _ = T20 m ρ c (Proc.devRef .tc main_v32) := by kept_by hostOps1_21
    _ = T19 m ρ c (Proc.devRef .tc main_v32) := by kept_by hostOps1_20
    _ = T18 m ρ c (Proc.devRef .tc main_v32) := by kept_by hostOps1_19
    _ = T17 m ρ c (Proc.devRef .tc main_v32) := by kept_by hostOps1_18
    _ = T16 m ρ c (Proc.devRef .tc main_v32) := by kept_by hostOps1_17
    _ = T15 m ρ c (Proc.devRef .tc main_v32) := by kept_by hostOps1_16
    _ = T13 m ρ c (Proc.devRef .tc main_v32) := K15_v32 m ρ c
theorem K24_v33 (c : Dev nD) : T24 m ρ c (Proc.devRef .tc main_v33) = T15 m ρ c (Proc.devRef .tc main_v33) :=
  calc T24 m ρ c (Proc.devRef .tc main_v33)
    _ = T23 m ρ c (Proc.devRef .tc main_v33) := by kept_by hostOps1_24
    _ = T22 m ρ c (Proc.devRef .tc main_v33) := by kept_by hostOps1_23
    _ = T21 m ρ c (Proc.devRef .tc main_v33) := by kept_by hostOps1_22
    _ = T20 m ρ c (Proc.devRef .tc main_v33) := by kept_by hostOps1_21
    _ = T19 m ρ c (Proc.devRef .tc main_v33) := by kept_by hostOps1_20
    _ = T18 m ρ c (Proc.devRef .tc main_v33) := by kept_by hostOps1_19
    _ = T17 m ρ c (Proc.devRef .tc main_v33) := by kept_by hostOps1_18
    _ = T16 m ρ c (Proc.devRef .tc main_v33) := by kept_by hostOps1_17
    _ = T15 m ρ c (Proc.devRef .tc main_v33) := by kept_by hostOps1_16
theorem K18_v50 (c : Dev nD) : T18 m ρ c (Proc.devRef .tc main_v50) = T16 m ρ c (Proc.devRef .tc main_v50) :=
  calc T18 m ρ c (Proc.devRef .tc main_v50)
    _ = T17 m ρ c (Proc.devRef .tc main_v50) := by kept_by hostOps1_18
    _ = T16 m ρ c (Proc.devRef .tc main_v50) := by kept_by hostOps1_17
theorem K26_v52 (c : Dev nD) : Wn m ρ c (Proc.devRef .tc main_v52) = T17 m ρ c (Proc.devRef .tc main_v52) :=
  calc Wn m ρ c (Proc.devRef .tc main_v52)
    _ = T25 m ρ c (Proc.devRef .tc main_v52) := by kept_by hostOps1_26
    _ = T24 m ρ c (Proc.devRef .tc main_v52) := by kept_by hostOps1_25
    _ = T23 m ρ c (Proc.devRef .tc main_v52) := by kept_by hostOps1_24
    _ = T22 m ρ c (Proc.devRef .tc main_v52) := by kept_by hostOps1_23
    _ = T21 m ρ c (Proc.devRef .tc main_v52) := by kept_by hostOps1_22
    _ = T20 m ρ c (Proc.devRef .tc main_v52) := by kept_by hostOps1_21
    _ = T19 m ρ c (Proc.devRef .tc main_v52) := by kept_by hostOps1_20
    _ = T18 m ρ c (Proc.devRef .tc main_v52) := by kept_by hostOps1_19
    _ = T17 m ρ c (Proc.devRef .tc main_v52) := by kept_by hostOps1_18
theorem K26_v55 (c : Dev nD) : Wn m ρ c (Proc.devRef .tc main_v55) = T21 m ρ c (Proc.devRef .tc main_v55) :=
  calc Wn m ρ c (Proc.devRef .tc main_v55)
    _ = T25 m ρ c (Proc.devRef .tc main_v55) := by kept_by hostOps1_26
    _ = T24 m ρ c (Proc.devRef .tc main_v55) := by kept_by hostOps1_25
    _ = T23 m ρ c (Proc.devRef .tc main_v55) := by kept_by hostOps1_24
    _ = T22 m ρ c (Proc.devRef .tc main_v55) := by kept_by hostOps1_23
    _ = T21 m ρ c (Proc.devRef .tc main_v55) := by kept_by hostOps1_22
theorem K25_v56 (c : Dev nD) : T25 m ρ c (Proc.devRef .tc main_v56) = T23 m ρ c (Proc.devRef .tc main_v56) :=
  calc T25 m ρ c (Proc.devRef .tc main_v56)
    _ = T24 m ρ c (Proc.devRef .tc main_v56) := by kept_by hostOps1_25
    _ = T23 m ρ c (Proc.devRef .tc main_v56) := by kept_by hostOps1_24
/-- The positions, read where the gathers read them, are the launch contents. -/
theorem K15_arg0 (c : Dev nD) : T15 m ρ c (Proc.devRef .tc main_arg0) = W0 m ρ c (Proc.devRef .tc main_arg0) :=
  calc T15 m ρ c (Proc.devRef .tc main_arg0)
    _ = T14 m ρ c (Proc.devRef .tc main_arg0) := by kept_by hostOps1_15
    _ = T13 m ρ c (Proc.devRef .tc main_arg0) := by kept_by hostOps1_14
    _ = T12 m ρ c (Proc.devRef .tc main_arg0) := by kept_by hostOps1_13
    _ = T11 m ρ c (Proc.devRef .tc main_arg0) := by kept_by hostOps1_12
    _ = T10 m ρ c (Proc.devRef .tc main_arg0) := by kept_by hostOps1_11
    _ = T9 m ρ c (Proc.devRef .tc main_arg0) := by kept_by hostOps1_10
    _ = T8 m ρ c (Proc.devRef .tc main_arg0) := by kept_by hostOps1_9
    _ = T7 m ρ c (Proc.devRef .tc main_arg0) := by kept_by hostOps1_8
    _ = T6 m ρ c (Proc.devRef .tc main_arg0) := by kept_by hostOps1_7
    _ = T5 m ρ c (Proc.devRef .tc main_arg0) := by kept_by hostOps1_6
    _ = T4 m ρ c (Proc.devRef .tc main_arg0) := by kept_by hostOps1_5
    _ = T3 m ρ c (Proc.devRef .tc main_arg0) := by kept_by hostOps1_4
    _ = T2 m ρ c (Proc.devRef .tc main_arg0) := by kept_by hostOps1_3
    _ = T1 m ρ c (Proc.devRef .tc main_arg0) := by kept_by hostOps1_2
    _ = T0 m ρ c (Proc.devRef .tc main_arg0) := by kept_by hostOps1_1
    _ = W2 m ρ c (Proc.devRef .tc main_arg0) := by kept_by hostOps1
    _ = W1 m ρ c (Proc.devRef .tc main_arg0) := W2_of_ne m ρ c main_arg0 (by decide)
    _ = W0 m ρ c (Proc.devRef .tc main_arg0) := by kept_by hostOps0

/-! ## The fold read at each value

Stretch by stretch from the region's exit: each value read later, as a function of the mask the region leaves and
of the positions. -/

theorem R0_v5 (c : Dev nD) : T0 m ρ c (Proc.devRef .tc main_v5) = kFlat (W2 m ρ c (Proc.devRef .tc main_v2)) :=
  s0_v5 (W2 m ρ c)
theorem R0_v7 (c : Dev nD) : T0 m ρ c (Proc.devRef .tc main_v7) = nzCnt (kFlat (W2 m ρ c (Proc.devRef .tc main_v2))) :=
  s0_v7 (W2 m ρ c)
theorem R1_v8 (c : Dev nD) : T1 m ρ c (Proc.devRef .tc main_v8) = cumsumF (kFlat (W2 m ρ c (Proc.devRef .tc main_v2))) :=
  (s1_v8 (T0 m ρ c)).trans (by rw [R0_v5 m ρ c])
theorem R2_v9 (c : Dev nD) : T2 m ρ c (Proc.devRef .tc main_v9) = broadcastInDim S524288 ![] bcast_S_S524288 (constantI S_ 32 0#32) :=
  s2_v9 (T1 m ρ c)
theorem R2_c_2 (c : Dev nD) : T2 m ρ c (Proc.devRef .tc main_c_2) = constantI S_ 32 0#32 :=
  s2_c_2 (T1 m ρ c)
theorem R3_v10 (c : Dev nD) : T3 m ρ c (Proc.devRef .tc main_v10) = clipF (cumsumF (kFlat (W2 m ρ c (Proc.devRef .tc main_v2)))) (constantI S_ 32 0#32) :=
  (s3_v10 (T2 m ρ c)).trans (by rw [K2_v8 m ρ c, R1_v8 m ρ c, R2_c_2 m ρ c])
theorem R4_v18 (c : Dev nD) : T4 m ρ c (Proc.devRef .tc main_v18) = nzHist (kFlat (W2 m ρ c (Proc.devRef .tc main_v2))) :=
  (s4_v18 (T3 m ρ c)).trans (by rw [R3_v10 m ρ c, K3_v9 m ρ c, R2_v9 m ρ c] <;> rfl)
theorem R5_v19 (c : Dev nD) : T5 m ρ c (Proc.devRef .tc main_v19) = cumsum1F (nzHist (kFlat (W2 m ρ c (Proc.devRef .tc main_v2)))) :=
  (s5_v19 (T4 m ρ c)).trans (by rw [R4_v18 m ρ c])
theorem R6_c_6 (c : Dev nD) : T6 m ρ c (Proc.devRef .tc main_c_6) = constantI S_ 32 1#32 :=
  s6_c_6 (T5 m ρ c)
theorem R7_v20 (c : Dev nD) : T7 m ρ c (Proc.devRef .tc main_v20) = floorDivide (cumsum1F (nzHist (kFlat (W2 m ρ c (Proc.devRef .tc main_v2))))) (constantI S_ 32 1#32) :=
  (s7_v20 (T6 m ρ c)).trans (by rw [K6_v19 m ρ c, R5_v19 m ρ c, R6_c_6 m ρ c])
theorem R8_c_7 (c : Dev nD) : T8 m ρ c (Proc.devRef .tc main_c_7) = constantI S_ 32 67108864#32 :=
  s8_c_7 (T7 m ρ c)
theorem R9_v21 (c : Dev nD) : T9 m ρ c (Proc.devRef .tc main_v21) = nzPos (kFlat (W2 m ρ c (Proc.devRef .tc main_v2))) :=
  (s9_v21 (T8 m ρ c)).trans (by rw [K8_v20 m ρ c, R7_v20 m ρ c, R8_c_7 m ρ c] <;> rfl)
theorem R10_v26 (c : Dev nD) : T10 m ρ c (Proc.devRef .tc main_v26) = nzPast (kFlat (W2 m ρ c (Proc.devRef .tc main_v2))) :=
  (s10_v26 (T9 m ρ c)).trans (by rw [K9_v5 m ρ c, R0_v5 m ρ c])
theorem R10_c_9 (c : Dev nD) : T10 m ρ c (Proc.devRef .tc main_c_9) = constantI S_ 32 0#32 :=
  s10_c_9 (T9 m ρ c)
theorem R11_v27 (c : Dev nD) : T11 m ρ c (Proc.devRef .tc main_v27) = nzIdx (kFlat (W2 m ρ c (Proc.devRef .tc main_v2))) :=
  (s11_v27 (T10 m ρ c)).trans (by rw [R10_v26 m ρ c, R10_c_9 m ρ c, K10_v21 m ρ c, R9_v21 m ρ c] <;> rfl)
theorem R12_v31 (c : Dev nD) : T12 m ρ c (Proc.devRef .tc main_v31) = validF (nzCnt (kFlat (W2 m ρ c (Proc.devRef .tc main_v2)))) :=
  (s12_v31 (T11 m ρ c)).trans (by rw [K11_v7 m ρ c, R0_v7 m ρ c])
theorem R12_c_11 (c : Dev nD) : T12 m ρ c (Proc.devRef .tc main_c_11) = constantI S_ 32 8192#32 :=
  s12_c_11 (T11 m ρ c)
theorem R13_v32 (c : Dev nD) : T13 m ρ c (Proc.devRef .tc main_v32) = rowI (nzIdx (kFlat (W2 m ρ c (Proc.devRef .tc main_v2)))) :=
  (s13_v32 (T12 m ρ c)).trans (by rw [K12_v27 m ρ c, R11_v27 m ρ c, R12_c_11 m ρ c] <;> rfl)
theorem R14_c_12 (c : Dev nD) : T14 m ρ c (Proc.devRef .tc main_c_12) = constantI S_ 32 8192#32 :=
  s14_c_12 (T13 m ρ c)
theorem R15_v33 (c : Dev nD) : T15 m ρ c (Proc.devRef .tc main_v33) = colI (nzIdx (kFlat (W2 m ρ c (Proc.devRef .tc main_v2)))) :=
  (s15_v33 (T14 m ρ c)).trans (by rw [K14_v27 m ρ c, R11_v27 m ρ c, R14_c_12 m ρ c] <;> rfl)
theorem R16_v48 (c : Dev nD) : T16 m ρ c (Proc.devRef .tc main_v48) = pairDiff (nzIdx (kFlat (W2 m ρ c (Proc.devRef .tc main_v2)))) (W0 m ρ c (Proc.devRef .tc main_arg0)) :=
  (s16_v48 (T15 m ρ c)).trans (by rw [K15_arg0 m ρ c, K15_v32 m ρ c, R13_v32 m ρ c, R15_v33 m ρ c] <;> rfl)
theorem R16_v50 (c : Dev nD) : T16 m ρ c (Proc.devRef .tc main_v50) = pairSq (nzIdx (kFlat (W2 m ρ c (Proc.devRef .tc main_v2)))) (W0 m ρ c (Proc.devRef .tc main_arg0)) :=
  (s16_v50 (T15 m ρ c)).trans (by rw [K15_arg0 m ρ c, K15_v32 m ρ c, R13_v32 m ρ c, R15_v33 m ρ c] <;> rfl)
theorem R16_v51 (c : Dev nD) : T16 m ρ c (Proc.devRef .tc main_v51) = broadcastInDim S524288x1 ![0] bcast_S524288_S524288x1_0 (validF (nzCnt (kFlat (W2 m ρ c (Proc.devRef .tc main_v2))))) :=
  (s16_v51 (T15 m ρ c)).trans (by rw [K15_v31 m ρ c, R12_v31 m ρ c])
theorem R16_cst_17 (c : Dev nD) : T16 m ρ c (Proc.devRef .tc main_cst_17) = constant S_ .f32 0x00000000#32 :=
  s16_cst_17 (T15 m ρ c)
theorem R17_v52 (c : Dev nD) : T17 m ρ c (Proc.devRef .tc main_v52) = kOutVec (nzCnt (kFlat (W2 m ρ c (Proc.devRef .tc main_v2)))) (nzIdx (kFlat (W2 m ρ c (Proc.devRef .tc main_v2)))) (W0 m ρ c (Proc.devRef .tc main_arg0)) :=
  (s17_v52 (T16 m ρ c)).trans (by rw [R16_v51 m ρ c, R16_v48 m ρ c, R16_cst_17 m ρ c] <;> rfl)
theorem R18_cst_18 (c : Dev nD) : T18 m ρ c (Proc.devRef .tc main_cst_18) = constant S_ .f32 0x3F800000#32 :=
  s18_cst_18 (T17 m ρ c)
theorem R19_v53 (c : Dev nD) : T19 m ρ c (Proc.devRef .tc main_v53) = where7 (validF (nzCnt (kFlat (W2 m ρ c (Proc.devRef .tc main_v2))))) (pairSq (nzIdx (kFlat (W2 m ρ c (Proc.devRef .tc main_v2)))) (W0 m ρ c (Proc.devRef .tc main_arg0))) (constant S_ .f32 0x3F800000#32) :=
  (s19_v53 (T18 m ρ c)).trans (by rw [K18_v31 m ρ c, R12_v31 m ρ c, K18_v50 m ρ c, R16_v50 m ρ c, R18_cst_18 m ρ c])
theorem R20_v54 (c : Dev nD) : T20 m ρ c (Proc.devRef .tc main_v54) = Host.sqrt (where7 (validF (nzCnt (kFlat (W2 m ρ c (Proc.devRef .tc main_v2))))) (pairSq (nzIdx (kFlat (W2 m ρ c (Proc.devRef .tc main_v2)))) (W0 m ρ c (Proc.devRef .tc main_arg0))) (constant S_ .f32 0x3F800000#32)) :=
  (s20_v54 (T19 m ρ c)).trans (by rw [R19_v53 m ρ c])
theorem R20_cst_19 (c : Dev nD) : T20 m ρ c (Proc.devRef .tc main_cst_19) = constant S_ .f32 0x00000000#32 :=
  s20_cst_19 (T19 m ρ c)
theorem R21_v55 (c : Dev nD) : T21 m ρ c (Proc.devRef .tc main_v55) = kOutW (nzCnt (kFlat (W2 m ρ c (Proc.devRef .tc main_v2)))) (nzIdx (kFlat (W2 m ρ c (Proc.devRef .tc main_v2)))) (W0 m ρ c (Proc.devRef .tc main_arg0)) :=
  (s21_v55 (T20 m ρ c)).trans (by rw [K20_v31 m ρ c, R12_v31 m ρ c, R20_v54 m ρ c, R20_cst_19 m ρ c] <;> rfl)
theorem R22_c_20 (c : Dev nD) : T22 m ρ c (Proc.devRef .tc main_c_20) = constantI S_ 32 4294967295#32 :=
  s22_c_20 (T21 m ρ c)
theorem R23_v56 (c : Dev nD) : T23 m ρ c (Proc.devRef .tc main_v56) = where8 (validF (nzCnt (kFlat (W2 m ρ c (Proc.devRef .tc main_v2))))) (rowI (nzIdx (kFlat (W2 m ρ c (Proc.devRef .tc main_v2))))) (constantI S_ 32 4294967295#32) :=
  (s23_v56 (T22 m ρ c)).trans (by rw [K22_v31 m ρ c, R12_v31 m ρ c, K22_v32 m ρ c, R13_v32 m ρ c, R22_c_20 m ρ c])
theorem R24_c_21 (c : Dev nD) : T24 m ρ c (Proc.devRef .tc main_c_21) = constantI S_ 32 4294967295#32 :=
  s24_c_21 (T23 m ρ c)
theorem R25_v57 (c : Dev nD) : T25 m ρ c (Proc.devRef .tc main_v57) = where8 (validF (nzCnt (kFlat (W2 m ρ c (Proc.devRef .tc main_v2))))) (colI (nzIdx (kFlat (W2 m ρ c (Proc.devRef .tc main_v2))))) (constantI S_ 32 4294967295#32) :=
  (s25_v57 (T24 m ρ c)).trans (by rw [K24_v31 m ρ c, R12_v31 m ρ c, K24_v33 m ρ c, R15_v33 m ρ c, R24_c_21 m ρ c])

/-! ## The three results -/

/-- The pair index at the return: the rows over the columns of the sorted positions of the mask's ones. -/
theorem Wn_main_v60 (c : Dev nD) : Wn m ρ c (Proc.devRef .tc main_v60) = outIdx (nzCnt (kFlat (W2 m ρ c (Proc.devRef .tc main_v2)))) (nzIdx (kFlat (W2 m ρ c (Proc.devRef .tc main_v2)))) :=
  (s26_v60 (T25 m ρ c)).trans (by rw [K25_v56 m ρ c, R23_v56 m ρ c, R25_v57 m ρ c] <;> rfl)

/-- The distances at the return. -/
theorem Wn_main_v55 (c : Dev nD) : Wn m ρ c (Proc.devRef .tc main_v55) = kOutW (nzCnt (kFlat (W2 m ρ c (Proc.devRef .tc main_v2)))) (nzIdx (kFlat (W2 m ρ c (Proc.devRef .tc main_v2)))) (W0 m ρ c (Proc.devRef .tc main_arg0)) :=
  (K26_v55 m ρ c).trans (R21_v55 m ρ c)

/-- The difference vectors at the return. -/
theorem Wn_main_v52 (c : Dev nD) : Wn m ρ c (Proc.devRef .tc main_v52) = kOutVec (nzCnt (kFlat (W2 m ρ c (Proc.devRef .tc main_v2)))) (nzIdx (kFlat (W2 m ρ c (Proc.devRef .tc main_v2)))) (W0 m ρ c (Proc.devRef .tc main_arg0)) :=
  (K26_v52 m ρ c).trans (R17_v52 m ρ c)

end Cert.KernelIdeal.Hand

end
-- ==== Proof.LibGraphOps.lean ====
/-
  Table lookups and accumulating scatters along one index column, read at an index.

  `E` index words sit in a column `idx : [E, 1]`.
  * A lookup of rows of a table `[N, C]` (or of entries of a vector `[N]`) at those words returns, at `(e, c)`, the
    table's row `min (idx[e,0] read signed, negatives to 0) (N - 1)`, column `c`.
  * An accumulating scatter of updates `[E, C]` (or `[E]`) into `[N, C]` (or `[N]`) adds, at `(n, c)`, the updates
    `(k, c)` of exactly those `k` whose word reads `n` signed; over the extended reals the result is the operand's
    element plus that sum, written here as a sum over all `k` of "the update if the word reads `n`, else zero".
  Stated for every `N`, `E` and `C`.
-/
import Idealize.ShloMosaic.PureOps.Ideal
import Idealize.ShloMosaic.PureOps.Contract
import Idealize.ShloMosaic.Lib.ValueIdx

noncomputable section

namespace Cert.Bridge.GraphOps

open Idealize.ShloMosaic Idealize.ShloMosaic.ValueIdx
open scoped BigOperators

variable {N E C : ℕ}

/-- The vector scatter's dimension numbers: no window axis, the one operand axis inserted and indexed. -/
abbrev scatFlat (wf : ScatterDims.WF ⟨1, ![N]⟩ ⟨2, ![E, 1]⟩ ⟨1, ![E]⟩ [] [0] [0] 1) :
    ScatterDims ⟨1, ![N]⟩ ⟨2, ![E, 1]⟩ ⟨1, ![E]⟩ := ⟨[], [0], [0], 1, wf⟩

/-- The row scatter's dimension numbers: the column axis a window axis, the row axis inserted and indexed. -/
abbrev scatRows (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

/-- The vector lookup's dimension numbers. -/
abbrev gathFlat (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row lookup's dimension numbers: whole rows of width `C`. -/
abbrev gathRows (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-! ## A rank-1 index is its one coordinate -/

/-- A rank-1 index is its coordinate. -/
def idxEquiv1 {n : ℕ} : (⟨1, ![n]⟩ : Shape).Idx ≃ Fin n where
  toFun j := j 0
  invFun e := ix1 e
  left_inv j := (eq_ix1 j).symm
  right_inv _ := rfl

/-- … so a sum over rank-1 indices is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## Where an update starts and which window coordinate it carries -/

theorem scatFlat_start (wf) {w : ℕ} (e : Fin E) (idx : IVec ⟨2, ![E, 1]⟩ w) (a : Fin 1) :
    (scatFlat (N := N) (E := E) wf).start (ix1 e) idx a = (idx (ix2 e (0 : Fin 1))).toInt := by
  match a with
  | ⟨0, h0⟩ =>
    unfold ScatterDims.start
    rw [dif_pos (show (⟨0, h0⟩ : Fin 1) ∈ (scatFlat (N := N) (E := E) wf).scatterDimsToOperandDims from
      List.mem_singleton.2 rfl)]
    refine congrArg (fun k => (idx k).toInt) (funext fun b => ?_)
    match b with
    | ⟨0, _⟩ => exact Fin.ext rfl
    | ⟨1, _⟩ => exact Fin.ext rfl

theorem scatFlat_window (wf) (e : Fin E) (a : Fin 1) :
    (scatFlat (N := N) (E := E) wf).window (ix1 e) a = 0 := by
  match a with
  | ⟨0, _⟩ => rfl

theorem scatRows_start_0 (wf) {w : ℕ} (e : Fin E) (z : Fin C) (idx : IVec ⟨2, ![E, 1]⟩ w) :
    (scatRows (N := N) (E := E) (C := C) wf).start (ix2 e z) idx (0 : Fin 2) = (idx (ix2 e (0 : Fin 1))).toInt := by
  unfold ScatterDims.start
  rw [dif_pos (show (0 : Fin 2) ∈ (scatRows (N := N) (E := E) (C := C) wf).scatterDimsToOperandDims from
    List.mem_singleton.2 rfl)]
  refine congrArg (fun k => (idx k).toInt) (funext fun b => ?_)
  match b with
  | ⟨0, _⟩ => exact Fin.ext rfl
  | ⟨1, _⟩ => exact Fin.ext rfl

theorem scatRows_start_1 (wf) {w : ℕ} (e : Fin E) (z : Fin C) (idx : IVec ⟨2, ![E, 1]⟩ w) :
    (scatRows (N := N) (E := E) (C := C) wf).start (ix2 e z) idx (1 : Fin 2) = 0 := by
  unfold ScatterDims.start
  rw [dif_neg (show ¬ (1 : Fin 2) ∈ (scatRows (N := N) (E := E) (C := C) wf).scatterDimsToOperandDims from by
    intro h; exact Nat.one_ne_zero (congrArg Fin.val (List.mem_singleton.1 h)))]

theorem scatRows_window_0 (wf) (e : Fin E) (z : Fin C) :
    (scatRows (N := N) (E := E) (C := C) wf).window (ix2 e z) (0 : Fin 2) = 0 := rfl
theorem scatRows_window_1 (wf) (e : Fin E) (z : Fin C) :
    (scatRows (N := N) (E := E) (C := C) wf).window (ix2 e z) (1 : Fin 2) = z.val := rfl

/-! ## Where an update lands -/

/-- The vector scatter lands update `e` on place `n` exactly when its index word reads `n`. -/
theorem scatFlat_lands (wf) {w : ℕ} (e : Fin E) (idx : IVec ⟨2, ![E, 1]⟩ w) (n : Fin N) :
    (scatFlat (N := N) (E := E) wf).resultIdx? (ix1 e) idx = some (ix1 n)
      ↔ (idx (ix2 e (0 : Fin 1))).toInt = (n.val : ℤ) := by
  unfold ScatterDims.resultIdx?
  constructor
  · intro h
    split at h
    · have hv := congrArg Fin.val (congrFun (Option.some.inj h) (0 : Fin 1))
      have hv' : ((scatFlat (N := N) (E := E) wf).start (ix1 e) idx 0
          + ((scatFlat (N := N) (E := E) wf).window (ix1 e) 0 : ℤ)).toNat = n.val := hv
      rename_i hc
      have h0 := (hc (0 : Fin 1)).1
      rw [scatFlat_start, scatFlat_window] at hv' h0
      omega
    · exact absurd h (by simp)
  · intro h
    have hc : ∀ a, 0 ≤ (scatFlat (N := N) (E := E) wf).start (ix1 e) idx a
          + ((scatFlat (N := N) (E := E) wf).window (ix1 e) a : ℤ) ∧
        (scatFlat (N := N) (E := E) wf).start (ix1 e) idx a
          + ((scatFlat (N := N) (E := E) wf).window (ix1 e) a : ℤ) < ((⟨1, ![N]⟩ : Shape).size a : ℤ) := by
      intro a
      rw [scatFlat_start, scatFlat_window, h]
      match a with
      | ⟨0, _⟩ =>
        have := n.isLt
        show (0 : ℤ) ≤ (n.val : ℤ) + ((0 : ℕ) : ℤ) ∧ (n.val : ℤ) + ((0 : ℕ) : ℤ) < (N : ℤ)
        omega
    rw [dif_pos hc]
    refine congrArg some (funext fun a => Fin.ext ?_)
    match a with
    | ⟨0, _⟩ =>
      show ((scatFlat (N := N) (E := E) wf).start (ix1 e) idx 0
        + ((scatFlat (N := N) (E := E) wf).window (ix1 e) 0 : ℤ)).toNat = n.val
      rw [scatFlat_start, scatFlat_window, h]
      omega

/-- The row scatter lands update `(e, z)` on place `(n, c)` exactly when the index word reads `n` and `z = c`. -/
theorem scatRows_lands (wf) {w : ℕ} (e : Fin E) (z : Fin C) (idx : IVec ⟨2, ![E, 1]⟩ w) (n : Fin N) (c : Fin C) :
    (scatRows (N := N) (E := E) (C := C) wf).resultIdx? (ix2 e z) idx = some (ix2 n c)
      ↔ (idx (ix2 e (0 : Fin 1))).toInt = (n.val : ℤ) ∧ z = c := by
  unfold ScatterDims.resultIdx?
  constructor
  · intro h
    split at h
    · have hv0 := congrArg Fin.val (congrFun (Option.some.inj h) (0 : Fin 2))
      have hv1 := congrArg Fin.val (congrFun (Option.some.inj h) (1 : Fin 2))
      have hv0' : ((scatRows (N := N) (E := E) (C := C) wf).start (ix2 e z) idx 0
          + ((scatRows (N := N) (E := E) (C := C) wf).window (ix2 e z) 0 : ℤ)).toNat = n.val := hv0
      have hv1' : ((scatRows (N := N) (E := E) (C := C) wf).start (ix2 e z) idx 1
          + ((scatRows (N := N) (E := E) (C := C) wf).window (ix2 e z) 1 : ℤ)).toNat = c.val := hv1
      rename_i hc
      have h0 := (hc (0 : Fin 2)).1
      rw [scatRows_start_0, scatRows_window_0] at hv0' h0
      rw [scatRows_start_1, scatRows_window_1] at hv1'
      refine ⟨by omega, Fin.ext (by omega)⟩
    · exact absurd h (by simp)
  · rintro ⟨h, rfl⟩
    have hc : ∀ a, 0 ≤ (scatRows (N := N) (E := E) (C := C) wf).start (ix2 e z) idx a
          + ((scatRows (N := N) (E := E) (C := C) wf).window (ix2 e z) a : ℤ) ∧
        (scatRows (N := N) (E := E) (C := C) wf).start (ix2 e z) idx a
          + ((scatRows (N := N) (E := E) (C := C) wf).window (ix2 e z) a : ℤ)
          < ((⟨2, ![N, C]⟩ : Shape).size a : ℤ) := by
      intro a
      match a with
      | ⟨0, _⟩ =>
        show 0 ≤ (scatRows (N := N) (E := E) (C := C) wf).start (ix2 e z) idx 0
            + ((scatRows (N := N) (E := E) (C := C) wf).window (ix2 e z) 0 : ℤ) ∧
          (scatRows (N := N) (E := E) (C := C) wf).start (ix2 e z) idx 0
            + ((scatRows (N := N) (E := E) (C := C) wf).window (ix2 e z) 0 : ℤ) < (N : ℤ)
        rw [scatRows_start_0, scatRows_window_0, h]
        have := n.isLt
        omega
      | ⟨1, _⟩ =>
        show 0 ≤ (scatRows (N := N) (E := E) (C := C) wf).start (ix2 e z) idx 1
            + ((scatRows (N := N) (E := E) (C := C) wf).window (ix2 e z) 1 : ℤ) ∧
          (scatRows (N := N) (E := E) (C := C) wf).start (ix2 e z) idx 1
            + ((scatRows (N := N) (E := E) (C := C) wf).window (ix2 e z) 1 : ℤ) < (C : ℤ)
        rw [scatRows_start_1, scatRows_window_1]
        have := z.isLt
        omega
    rw [dif_pos hc]
    refine congrArg some (funext fun a => Fin.ext ?_)
    match a with
    | ⟨0, _⟩ =>
      show ((scatRows (N := N) (E := E) (C := C) wf).start (ix2 e z) idx 0
        + ((scatRows (N := N) (E := E) (C := C) wf).window (ix2 e z) 0 : ℤ)).toNat = n.val
      rw [scatRows_start_0, scatRows_window_0, h]
      omega
    | ⟨1, _⟩ =>
      show ((scatRows (N := N) (E := E) (C := C) wf).start (ix2 e z) idx 1
        + ((scatRows (N := N) (E := E) (C := C) wf).window (ix2 e z) 1 : ℤ)).toNat = z.val
      rw [scatRows_start_1, scatRows_window_1]
      omega

/-! ## The scatters read at an index -/

/-- The vector scatter at `n`: the operand's entry plus the updates of the words that read `n`. -/
theorem scatterAdd_flat_apply (wf) {w : ℕ} (x : (⟨1, ![N]⟩ : Shape).Idx → EReal) (idx : IVec ⟨2, ![E, 1]⟩ w)
    (upd : (⟨1, ![E]⟩ : Shape).Idx → EReal) (n : Fin N) :
    Ideal.hostScatterAdd (scatFlat (N := N) (E := E) wf) x idx upd (ix1 n)
      = x (ix1 n) + ∑ k : Fin E, if (idx (ix2 k (0 : Fin 1))).toInt = (n.val : ℤ) then upd (ix1 k) else 0 := by
  unfold Ideal.hostScatterAdd
  rw [Finset.sum_filter, sum_idx1]
  refine congrArg (x (ix1 n) + ·) (Finset.sum_congr rfl fun k _ => ?_)
  exact if_congr (scatFlat_lands wf k idx n) rfl rfl

/-- The row scatter at `(n, c)`: the operand's entry plus the updates `(k, c)` of the words that read `n`. -/
theorem scatterAdd_rows_apply (wf) {w : ℕ} (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (scatRows (N := N) (E := E) (C := C) wf) x idx upd (ix2 n c)
      = x (ix2 n c) + ∑ k : Fin E, if (idx (ix2 k (0 : Fin 1))).toInt = (n.val : ℤ) then upd (ix2 k c) else 0 := by
  unfold Ideal.hostScatterAdd
  rw [Finset.sum_filter, sum_idx2]
  refine congrArg (x (ix2 n c) + ·) (Finset.sum_congr rfl fun k _ => ?_)
  by_cases hk : (idx (ix2 k (0 : Fin 1))).toInt = (n.val : ℤ)
  · rw [if_pos hk]
    have : ∀ z : Fin C, (if (scatRows (N := N) (E := E) (C := C) wf).resultIdx? (ix2 k z) idx = some (ix2 n c)
        then upd (ix2 k z) else 0) = if z = c then upd (ix2 k z) else 0 := fun z =>
      if_congr ((scatRows_lands wf k z idx n c).trans (and_iff_right hk)) rfl rfl
    rw [Finset.sum_congr rfl fun z _ => this z, Finset.sum_ite_eq' Finset.univ c, if_pos (Finset.mem_univ c)]
  · rw [if_neg hk]
    refine Finset.sum_eq_zero fun z _ => ?_
    exact if_neg fun h => hk ((scatRows_lands wf k z idx n c).1 h).1

/-! ## The lookups read at an index -/

/-- The vector lookup at `e`: the entry at the word read signed and clamped into `0 … N-1`. -/
theorem gather_flat_apply {α : Type} (hN : 0 < N) (wf) {w : ℕ} (x : (⟨1, ![N]⟩ : Shape).Idx → α)
    (idx : IVec ⟨2, ![E, 1]⟩ w) (e : Fin E) :
    Host.gather (gathFlat (N := N) (E := E) wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gathFlat (N := N) (E := E) wf).start (ix1 e) idx 0 + (gathFlat (N := N) (E := E) wf).batchCoord (ix1 e) 0
    + (gathFlat (N := N) (E := E) wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat (N := N) (E := E) wf).startIndexMap from List.mem_singleton.mpr rfl)]
  have hsi : (gathFlat (N := N) (E := E) wf).siIdx (ix1 e)
      ⟨List.idxOf (0 : Fin 1) (gathFlat (N := N) (E := E) wf).startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The row lookup at `(e, c)`: column `c` of the row at the word read signed and clamped into `0 … N-1`. -/
theorem gather_rows_apply {α : Type} (hN : 0 < N) (wf) {w : ℕ} (x : (⟨2, ![N, C]⟩ : Shape).Idx → α)
    (idx : IVec ⟨2, ![E, 1]⟩ w) (e : Fin E) (c : Fin C) :
    Host.gather (gathRows (N := N) (E := E) (C := C) wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gathRows (N := N) (E := E) (C := C) wf).start (ix2 e c) idx 0
      + (gathRows (N := N) (E := E) (C := C) wf).batchCoord (ix2 e c) 0
      + (gathRows (N := N) (E := E) (C := C) wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows (N := N) (E := E) (C := C) wf).startIndexMap from
      List.mem_singleton.mpr rfl)]
    have hsi : (gathRows (N := N) (E := E) (C := C) wf).siIdx (ix2 e c)
        ⟨List.idxOf (0 : Fin 2) (gathRows (N := N) (E := E) (C := C) wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gathRows (N := N) (E := E) (C := C) wf).start (ix2 e c) idx 1
      + (gathRows (N := N) (E := E) (C := C) wf).batchCoord (ix2 e c) 1
      + (gathRows (N := N) (E := E) (C := C) wf).offCoord (ix2 e c) 1 = c.val
    rw [GatherDims.batchCoord_eq_zero _ _ _ List.not_mem_nil]
    have hs : (gathRows (N := N) (E := E) (C := C) wf).start (ix2 e c) idx 1 = 0 := by
      unfold GatherDims.start
      rw [dif_neg (show ¬ (1 : Fin 2) ∈ (gathRows (N := N) (E := E) (C := C) wf).startIndexMap from by
        intro h; exact Nat.one_ne_zero (congrArg Fin.val (List.mem_singleton.1 h)))]
    have ho : (gathRows (N := N) (E := E) (C := C) wf).offCoord (ix2 e c) 1 = c.val := rfl
    rw [hs, ho]
    omega

/-- A finite sum of reals, seen in the extended reals, is the sum of the terms seen there. -/
theorem coe_sum {ι : Type} (s : Finset ι) (f : ι → ℝ) : ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

end Cert.Bridge.GraphOps

end
-- ==== Proof.Tail.lean ====
/-
  The index arithmetic of the pair list and the bridge between the two programs' lookups.

  Both programs end by turning a flat position x in 0 … 8192² − 1 of the pair mask into the pair (i, j) = (x div 8192,
  x mod 8192) with floored division and remainder written through truncating ones and a sign fix.  One program then
  looks the rows i and j of the points up and subtracts; the other looks row x of the flattened table of all differences
  up.  The two agree because row 8192·i + j of the flattened table is the difference of rows i and j.
-/
import proofs.«120686_j44890998178156_1_alg».proof.KernelIdeal
import proofs.«120686_j44890998178156_1_alg».proof.ReferenceIdeal
import proofs.«120686_j44890998178156_1_alg».proof.Proof.LibGraphOps
import Idealize.ShloMosaic.Lib.Pipeline.Value
import Idealize.ShloMosaic.PureOps.Ideal.Laws

noncomputable section

namespace Cert.Tail

open Idealize.ShloMosaic Idealize.ShloMosaic.ValueIdx
open Cert.ReferenceIdeal (S_ S524288 S524288x1 S524288x3 S8192x3 S8192x1x3 S1x8192x3 S8192x8192x3 S8192x8192 S67108864 S67108864x3)

/-! ## One element -/

/-- The floored remainder of one word by one word, written as the programs write it: the truncating remainder by the
    divisor (1 in place of a zero divisor), the divisor added back when the remainder is not zero and its sign differs
    from the divisor's. -/
def remS (a d : BitVec 32) : BitVec 32 :=
  Scalar.select
    (IntOp.andi
      (IntOp.cmpi .ne
        (IntOp.cmpi .slt (IntOp.remsi .host a (Scalar.select (IntOp.cmpi .eq d 0#32) 1#32 d)) 0#32)
        (IntOp.cmpi .slt (Scalar.select (IntOp.cmpi .eq d 0#32) 1#32 d) 0#32))
      (IntOp.cmpi .ne (IntOp.remsi .host a (Scalar.select (IntOp.cmpi .eq d 0#32) 1#32 d)) 0#32))
    (IntOp.addi (IntOp.remsi .host a (Scalar.select (IntOp.cmpi .eq d 0#32) 1#32 d))
      (Scalar.select (IntOp.cmpi .eq d 0#32) 1#32 d))
    (IntOp.remsi .host a (Scalar.select (IntOp.cmpi .eq d 0#32) 1#32 d))

/-- The sign of one word: 0, −1 or 1. -/
def sgnS (a : BitVec 32) : BitVec 32 := if a = 0 then 0 else if a.msb then -1 else 1

/-- The floored quotient of one word by one word, written as the programs write it: the truncating quotient, less one
    when the signs differ and the truncating remainder is not zero. -/
def fdivS (a d : BitVec 32) : BitVec 32 :=
  Scalar.select
    (IntOp.andi (IntOp.cmpi .ne (sgnS a) (sgnS d)) (IntOp.cmpi .ne (IntOp.remsi .host a d) 0#32))
    (IntOp.subi (IntOp.divsi .host a d) 1#32)
    (IntOp.divsi .host a d)

/-- A negative index counted from the end: n is added to a word below zero. -/
def wrapS (n a : BitVec 32) : BitVec 32 := Scalar.select (IntOp.cmpi .slt a 0#32) (IntOp.addi a n) a

/-- For a positive divisor the remainder toward zero, lifted by the divisor when negative, is the floored remainder. -/
theorem emod_of_tmod (A D : Int) (hD : 0 < D) :
    A % D = if A.tmod D < 0 then A.tmod D + D else A.tmod D := by
  have h1 := Int.tmod_add_tdiv_mul A D
  have hlt := Int.tmod_lt_of_pos A hD
  have hgt := Int.lt_tmod_of_pos A hD
  have h2 : A % D = (A.tmod D) % D := by
    conv_lhs => rw [← h1]
    exact Int.add_mul_emod_self_right _ _ _
  rw [h2]
  split
  · rename_i hneg
    rw [← Int.add_emod_right]
    exact Int.emod_eq_of_lt (by omega) (by omega)
  · rename_i hnn
    exact Int.emod_eq_of_lt (by omega) (by omega)

theorem remsi_host_of_pos (a d : BitVec 32) (hd : 0 < d.toInt) : IntOp.remsi .host a d = a.srem d := by
  unfold IntOp.remsi
  refine if_neg ?_
  rintro (h | ⟨_, h⟩)
  · rw [h] at hd; exact absurd hd (by decide)
  · rw [h] at hd; exact absurd hd (by decide)

theorem divsi_host_of_pos (a d : BitVec 32) (hd : 0 < d.toInt) : IntOp.divsi .host a d = a.sdiv d := by
  unfold IntOp.divsi
  refine if_neg ?_
  rintro (h | ⟨_, h⟩)
  · rw [h] at hd; exact absurd hd (by decide)
  · rw [h] at hd; exact absurd hd (by decide)

theorem sel_eq_zero_of_pos (d : BitVec 32) (hd : 0 < d.toInt) :
    Scalar.select (IntOp.cmpi .eq d 0#32) 1#32 d = d := by
  have hne : d ≠ 0#32 := by rintro rfl; exact absurd hd (by decide)
  unfold Scalar.select IntOp.cmpi
  have : (d == 0#32) = false := by simpa using hne
  simp [this]

/-- The floored remainder by a positive word, as an integer. -/
theorem remS_toInt (a d : BitVec 32) (hd : 0 < d.toInt) : (remS a d).toInt = a.toInt % d.toInt := by
  unfold remS
  rw [sel_eq_zero_of_pos d hd, remsi_host_of_pos a d hd, emod_of_tmod _ _ hd, ← BitVec.toInt_srem]
  have hlt := Int.tmod_lt_of_pos a.toInt hd
  have hgt := Int.lt_tmod_of_pos a.toInt hd
  rw [← BitVec.toInt_srem] at hlt hgt
  have hdlt : d.toInt < 2 ^ 31 := BitVec.toInt_lt
  have hd0 : d.slt 0#32 = false := by
    rw [BitVec.slt_eq_decide]; simp; omega
  by_cases hneg : (a.srem d).toInt < 0
  · have h1 : (a.srem d).slt 0#32 = true := by
      rw [BitVec.slt_eq_decide]; simpa using hneg
    have h2 : ((a.srem d) != 0#32) = true := by
      simp; rintro h; rw [h] at hneg; exact absurd hneg (by decide)
    rw [if_pos hneg]
    unfold Scalar.select IntOp.cmpi IntOp.andi IntOp.addi
    simp only [h1, hd0, h2]
    rw [if_pos (by decide), BitVec.toInt_add]
    exact Int.bmod_eq_of_le (by omega) (by omega)
  · have h1 : (a.srem d).slt 0#32 = false := by
      rw [BitVec.slt_eq_decide]; simpa using hneg
    rw [if_neg hneg]
    unfold Scalar.select IntOp.cmpi IntOp.andi IntOp.addi
    simp only [h1, hd0]
    rw [if_neg (by simp)]

/-- The floored remainder by a positive word is below it. -/
theorem remS_toNat_lt (a d : BitVec 32) (hd : 0 < d.toInt) : (remS a d).toNat < d.toNat := by
  have h := remS_toInt a d hd
  have h0 : 0 ≤ a.toInt % d.toInt := Int.emod_nonneg _ (by omega)
  have h1 : a.toInt % d.toInt < d.toInt := Int.emod_lt_of_pos _ hd
  have hdlt : d.toInt < 2 ^ 31 := BitVec.toInt_lt
  rw [BitVec.toInt_eq_toNat_cond] at h
  have hd' := BitVec.toInt_eq_toNat_cond d
  have := (remS a d).isLt
  have := d.isLt
  split at h <;> split at hd' <;> omega

/-- A word below 2³¹ read as an integer is its value. -/
theorem toInt_of_lt (a : BitVec 32) (h : a.toNat < 2 ^ 31) : a.toInt = (a.toNat : Int) :=
  BitVec.toInt_eq_toNat_of_lt (by omega)

/-- The floored remainder of a word below 2³¹ by a positive word is the remainder of the values. -/
theorem remS_eq_ofNat (a d : BitVec 32) (ha : a.toNat < 2 ^ 31) (hd : 0 < d.toInt) :
    remS a d = BitVec.ofNat 32 (a.toNat % d.toNat) := by
  have hdlt : d.toInt < 2 ^ 31 := BitVec.toInt_lt
  have hd' : d.toInt = (d.toNat : Int) := by
    have := BitVec.toInt_eq_toNat_cond d
    split at this <;> omega
  apply BitVec.eq_of_toInt_eq
  rw [remS_toInt a d hd, toInt_of_lt a ha, hd', BitVec.toInt_ofNat']
  have hlt : a.toNat % d.toNat < d.toNat := Nat.mod_lt _ (by omega)
  rw [← Int.natCast_mod]
  exact (Int.bmod_eq_of_le (by omega) (by omega)).symm

/-- The floored quotient of a word below 2³¹ by a positive word is the quotient of the values. -/
theorem fdivS_eq_ofNat (a d : BitVec 32) (ha : a.toNat < 2 ^ 31) (hd : 0 < d.toInt) :
    fdivS a d = BitVec.ofNat 32 (a.toNat / d.toNat) := by
  have hdlt : d.toInt < 2 ^ 31 := BitVec.toInt_lt
  have hdn : d.toNat < 2 ^ 31 := by
    have := BitVec.toInt_eq_toNat_cond d
    split at this <;> omega
  have hamsb : a.msb = false := BitVec.msb_eq_false_iff_two_mul_lt.2 (by omega)
  have hdmsb : d.msb = false := BitVec.msb_eq_false_iff_two_mul_lt.2 (by omega)
  have hdne : d ≠ 0#32 := by rintro rfl; exact absurd hd (by decide)
  have hq : a.sdiv d = a / d := by rw [BitVec.sdiv_eq, hamsb, hdmsb]; rfl
  have hr : a.srem d = a % d := by rw [BitVec.srem_eq, hamsb, hdmsb]
  have hsd : sgnS d = 1 := by unfold sgnS; rw [if_neg (show ¬ d = 0 from hdne), hdmsb]; rfl
  unfold fdivS
  rw [divsi_host_of_pos a d hd, remsi_host_of_pos a d hd, hq, hr, hsd]
  have hfix : IntOp.andi (IntOp.cmpi .ne (sgnS a) 1) (IntOp.cmpi .ne (a % d) 0#32) = 0#1 := by
    by_cases ha0 : a = 0#32
    · subst ha0
      have : (0#32 % d) = 0#32 := by simp
      rw [this]; unfold IntOp.andi IntOp.cmpi; simp
    · have : sgnS a = 1 := by unfold sgnS; rw [if_neg (show ¬ a = 0 from ha0), hamsb]; rfl
      rw [this]; unfold IntOp.andi IntOp.cmpi; simp
  rw [hfix]
  unfold Scalar.select
  rw [if_neg (by decide)]
  apply BitVec.eq_of_toNat_eq
  rw [BitVec.toNat_udiv, BitVec.toNat_ofNat]
  have : a.toNat / d.toNat ≤ a.toNat := Nat.div_le_self _ _
  exact (Nat.mod_eq_of_lt (by omega)).symm

/-- A word below 2³¹ is not counted from the end. -/
theorem wrapS_of_lt (n a : BitVec 32) (ha : a.toNat < 2 ^ 31) : wrapS n a = a := by
  unfold wrapS Scalar.select IntOp.cmpi
  have : a.slt 0#32 = false := by
    rw [BitVec.slt_eq_decide, toInt_of_lt a ha]; simp
  rw [this]; rfl

/-- A word holding a value below n ≤ 2³¹, read signed and clamped into 0 … n − 1, is that value. -/
theorem clamp_ofNat (v n : Nat) (hv : v < n) (hn : n ≤ 2 ^ 31) :
    min (BitVec.ofNat 32 v).toInt.toNat (n - 1) = v := by
  have h1 : (BitVec.ofNat 32 v).toNat = v := by
    rw [BitVec.toNat_ofNat]; exact Nat.mod_eq_of_lt (by omega)
  rw [toInt_of_lt _ (by omega), h1, Int.toNat_natCast]
  omega

/-- A word below n ≤ 2³¹, read signed and clamped into 0 … n − 1, is its value. -/
theorem clamp_word (a : BitVec 32) (n : Nat) (ha : a.toNat < n) (hn : n ≤ 2 ^ 31) :
    min a.toInt.toNat (n - 1) = a.toNat := by
  rw [toInt_of_lt _ (by omega), Int.toNat_natCast]
  omega

theorem remS_8192 (a : BitVec 32) (ha : a.toNat < 67108864) :
    remS a 8192#32 = BitVec.ofNat 32 (a.toNat % 8192) :=
  remS_eq_ofNat a 8192#32 (by omega) (by decide)

theorem fdivS_8192 (a : BitVec 32) (ha : a.toNat < 67108864) :
    fdivS a 8192#32 = BitVec.ofNat 32 (a.toNat / 8192) :=
  fdivS_eq_ofNat a 8192#32 (by omega) (by decide)

theorem ofNat_toNat_of_lt (v : Nat) (hv : v < 2 ^ 31) : (BitVec.ofNat 32 v).toNat = v := by
  rw [BitVec.toNat_ofNat]; exact Nat.mod_eq_of_lt (by omega)

/-! ## The index vectors -/

section
variable [Cert.KernelIdeal.Facts] [Cert.ReferenceIdeal.Facts]
open Cert.ReferenceIdeal.Facts₀

/-- The floored remainder of an index vector by a scalar word: the composition of the program's operations. -/
def remFn (x : IVec S524288 32) (d : IVec S_ 32) : IVec S524288 32 :=
  select
    (andi
      (cmpi .ne
        (cmpi .slt
          (Host.remsi x (broadcastInDim S524288 ![] bcast_S_S524288
            (select (cmpi .eq (id d) (constantI S_ 32 0#32)) (constantI S_ 32 1#32) (id d))))
          (broadcastInDim S524288 ![] bcast_S_S524288 (constantI S_ 32 0#32)))
        (broadcastInDim S524288 ![] bcast_S_S524288
          (cmpi .slt (select (cmpi .eq (id d) (constantI S_ 32 0#32)) (constantI S_ 32 1#32) (id d))
            (constantI S_ 32 0#32))))
      (cmpi .ne
        (Host.remsi x (broadcastInDim S524288 ![] bcast_S_S524288
          (select (cmpi .eq (id d) (constantI S_ 32 0#32)) (constantI S_ 32 1#32) (id d))))
        (broadcastInDim S524288 ![] bcast_S_S524288 (constantI S_ 32 0#32))))
    (addi
      (Host.remsi x (broadcastInDim S524288 ![] bcast_S_S524288
        (select (cmpi .eq (id d) (constantI S_ 32 0#32)) (constantI S_ 32 1#32) (id d))))
      (broadcastInDim S524288 ![] bcast_S_S524288
        (select (cmpi .eq (id d) (constantI S_ 32 0#32)) (constantI S_ 32 1#32) (id d))))
    (Host.remsi x (broadcastInDim S524288 ![] bcast_S_S524288
      (select (cmpi .eq (id d) (constantI S_ 32 0#32)) (constantI S_ 32 1#32) (id d))))

/-- The floored quotient of an index vector by a scalar word: the composition of the program's operations. -/
def fdiv5Fn (x : IVec S524288 32) (d : IVec S_ 32) : IVec S524288 32 :=
  select
    (andi
      (cmpi .ne (signi x) (broadcastInDim S524288 ![] bcast_S_S524288 (signi (id d))))
      (cmpi .ne (Host.remsi x (broadcastInDim S524288 ![] bcast_S_S524288 (id d)))
        (broadcastInDim S524288 ![] bcast_S_S524288 (constantI S_ 32 0#32))))
    (subi (Host.divsi x (broadcastInDim S524288 ![] bcast_S_S524288 (id d)))
      (broadcastInDim S524288 ![] bcast_S_S524288 (constantI S_ 32 1#32)))
    (Host.divsi x (broadcastInDim S524288 ![] bcast_S_S524288 (id d)))

/-- The scalar s where b holds, else x: the composition of the program's operations. -/
def where4Fn (b : IVec S524288 1) (s : IVec S_ 32) (x : IVec S524288 32) : IVec S524288 32 :=
  select b (broadcastInDim S524288 ![] bcast_S_S524288 (id s)) x

/-- Negative words counted from the end n. -/
def wrapFn (n : BitVec 32) (x : IVec S524288 32) : IVec S524288 32 :=
  select (cmpi .slt x (broadcastInDim S524288 ![] bcast_S_S524288 (constantI S_ 32 0#32)))
    (addi x (broadcastInDim S524288 ![] bcast_S_S524288 (constantI S_ 32 n))) x

/-- An index vector as a column. -/
def col {w : Nat} (y : IVec S524288 w) : IVec S524288x1 w :=
  broadcastInDim S524288x1 ![0] bcast_S524288_S524288x1_0 y

theorem remFn_const_apply (x : IVec S524288 32) (D : BitVec 32) (p : S524288.Idx) :
    remFn x (constantI S_ 32 D) p = remS (x p) D := rfl

theorem fdiv5Fn_const_apply (x : IVec S524288 32) (D : BitVec 32) (p : S524288.Idx) :
    fdiv5Fn x (constantI S_ 32 D) p = fdivS (x p) D := rfl

theorem where4Fn_const_apply (b : IVec S524288 1) (D : BitVec 32) (x : IVec S524288 32) (p : S524288.Idx) :
    where4Fn b (constantI S_ 32 D) x p = Scalar.select (b p) D (x p) := rfl

theorem wrapFn_apply (n : BitVec 32) (x : IVec S524288 32) (p : S524288.Idx) :
    wrapFn n x p = wrapS n (x p) := rfl

/-! ### The ranges -/

/-- The floored remainder by 8192² lies in 0 … 8192² − 1, whatever the dividend. -/
theorem remFn_range (x : IVec S524288 32) (p : S524288.Idx) :
    ((remFn x (constantI S_ 32 67108864#32)) p).toNat < 67108864 := by
  rw [remFn_const_apply]
  exact remS_toNat_lt (x p) 67108864#32 (by decide)

/-- Replacing entries by zero keeps the range. -/
theorem where4Fn_range (b : IVec S524288 1) (y : IVec S524288 32) (hy : ∀ p, (y p).toNat < 67108864)
    (p : S524288.Idx) : ((where4Fn b (constantI S_ 32 0#32) y) p).toNat < 67108864 := by
  rw [where4Fn_const_apply]
  unfold Scalar.select
  split
  · decide
  · exact hy p

/-! ### Quotient and remainder -/

/-- The floored quotient by 8192 of a position below 8192² is the quotient of the values. -/
theorem fdiv5Fn_8192 (x : IVec S524288 32) (hx : ∀ p, (x p).toNat < 67108864) (p : S524288.Idx) :
    (fdiv5Fn x (constantI S_ 32 8192#32)) p = BitVec.ofNat 32 ((x p).toNat / 8192) := by
  rw [fdiv5Fn_const_apply]; exact fdivS_8192 (x p) (hx p)

/-- The floored remainder by 8192 of a position below 8192² is the remainder of the values. -/
theorem remFn_8192 (x : IVec S524288 32) (hx : ∀ p, (x p).toNat < 67108864) (p : S524288.Idx) :
    (remFn x (constantI S_ 32 8192#32)) p = BitVec.ofNat 32 ((x p).toNat % 8192) := by
  rw [remFn_const_apply]; exact remS_8192 (x p) (hx p)

/-- A position below 8192² is not counted from the end. -/
theorem wrapFn_pos (x : IVec S524288 32) (hx : ∀ p, (x p).toNat < 67108864) :
    wrapFn 67108864#32 x = x := by
  funext p; rw [wrapFn_apply]; exact wrapS_of_lt _ _ (by have := hx p; omega)

/-- Neither is its quotient by 8192 … -/
theorem wrapFn_fdiv (x : IVec S524288 32) (hx : ∀ p, (x p).toNat < 67108864) :
    wrapFn 8192#32 (fdiv5Fn x (constantI S_ 32 8192#32)) = fdiv5Fn x (constantI S_ 32 8192#32) := by
  funext p; rw [wrapFn_apply]
  refine wrapS_of_lt _ _ ?_
  rw [fdiv5Fn_8192 x hx p, ofNat_toNat_of_lt _ (by have := hx p; omega)]
  have := hx p; omega

/-- … nor its remainder. -/
theorem wrapFn_rem (x : IVec S524288 32) (hx : ∀ p, (x p).toNat < 67108864) :
    wrapFn 8192#32 (remFn x (constantI S_ 32 8192#32)) = remFn x (constantI S_ 32 8192#32) := by
  funext p; rw [wrapFn_apply]
  refine wrapS_of_lt _ _ ?_
  rw [remFn_8192 x hx p, ofNat_toNat_of_lt _ (by have := hx p; omega)]
  have := hx p; omega

end

/-! ## The tables and the lookups -/

section
variable [Cert.KernelIdeal.Facts] [Cert.ReferenceIdeal.Facts]
open Cert.ReferenceIdeal.Facts₀

/-- The table of the coordinate differences of every pair of points: entry (a, b, c) is pos(a, c) − pos(b, c). -/
def diffOf (pos : FVec Ideal S8192x3 .f32) : FVec Ideal S8192x8192x3 .f32 :=
  subf
    (broadcastInDim S8192x8192x3 ![0, 1, 2] bcast_S8192x1x3_S8192x8192x3_0_1_2
      (broadcastInDim S8192x1x3 ![0, 2] bcast_S8192x3_S8192x1x3_0_2 pos))
    (broadcastInDim S8192x8192x3 ![0, 1, 2] bcast_S1x8192x3_S8192x8192x3_0_1_2
      (broadcastInDim S1x8192x3 ![1, 2] bcast_S8192x3_S1x8192x3_1_2 pos))

/-- The table of the squared distances of every pair of points. -/
def d2Of (pos : FVec Ideal S8192x3 .f32) : FVec Ideal S8192x8192 .f32 :=
  Host.reduceAdd (F := Ideal) (mulf (diffOf pos) (diffOf pos)) (constant (F := Ideal) S_ .f32 0x00000000#32)
    reducesTo_S8192x8192x3_S8192x8192_d2 h_S_

/-- An entry of the table of differences. -/
theorem diffOf_apply (pos : FVec Ideal S8192x3 .f32) (a b : Fin 8192) (c : Fin 3) :
    diffOf pos (ix3 a b c) = pos (ix2 a c) - pos (ix2 b c) := by
  have h1 : broadcastInDim S8192x8192x3 ![0, 1, 2] bcast_S8192x1x3_S8192x8192x3_0_1_2
      (broadcastInDim S8192x1x3 ![0, 2] bcast_S8192x3_S8192x1x3_0_2 pos) (ix3 a b c) = pos (ix2 a c) :=
    (broadcastInDim_apply _ _ _ (ix3 a b c) (ix3 a (0 : Fin 1) c)
      (by intro k; match k with | ⟨0, _⟩ => rfl | ⟨1, _⟩ => rfl | ⟨2, _⟩ => rfl)).trans
    (broadcastInDim_apply _ _ pos (ix3 a (0 : Fin 1) c) (ix2 a c)
      (by intro k; match k with | ⟨0, _⟩ => rfl | ⟨1, _⟩ => rfl))
  have h2 : broadcastInDim S8192x8192x3 ![0, 1, 2] bcast_S1x8192x3_S8192x8192x3_0_1_2
      (broadcastInDim S1x8192x3 ![1, 2] bcast_S8192x3_S1x8192x3_1_2 pos) (ix3 a b c) = pos (ix2 b c) :=
    (broadcastInDim_apply _ _ _ (ix3 a b c) (ix3 (0 : Fin 1) b c)
      (by intro k; match k with | ⟨0, _⟩ => rfl | ⟨1, _⟩ => rfl | ⟨2, _⟩ => rfl)).trans
    (broadcastInDim_apply _ _ pos (ix3 (0 : Fin 1) b c) (ix2 b c)
      (by intro k; match k with | ⟨0, _⟩ => rfl | ⟨1, _⟩ => rfl))
  show _ - _ = _
  rw [h1, h2]

/-- Equal row numbers name the same row. -/
theorem row_congr {α : Type} {N C : Nat} (t : (⟨2, ![N, C]⟩ : Shape).Idx → α) {m n : Nat} (hm : m < N) (hn : n < N)
    (h : m = n) (c : Fin C) : t (ix2 ⟨m, hm⟩ c) = t (ix2 ⟨n, hn⟩ c) := by
  subst h; rfl

/-- Equal positions name the same entry. -/
theorem entry_congr {α : Type} {N : Nat} (t : (⟨1, ![N]⟩ : Shape).Idx → α) {m n : Nat} (hm : m < N) (hn : n < N)
    (h : m = n) : t (ix1 ⟨m, hm⟩) = t (ix1 ⟨n, hn⟩) := by
  subst h; rfl

/-- A column read at a row is the vector's entry. -/
theorem col_apply {w : Nat} (y : IVec S524288 w) (e : Fin 524288) : col y (ix2 e (0 : Fin 1)) = y (ix1 e) :=
  broadcastInDim_apply _ _ y (ix2 e (0 : Fin 1)) (ix1 e) (by intro k; match k with | ⟨0, _⟩ => rfl)

/-- The lookup of rows of the points: row e is the row at the index word read signed and clamped. -/
theorem kgather_apply (pos : FVec Ideal S8192x3 .f32) (idx : IVec S524288x1 32) (e : Fin 524288) (c : Fin 3) :
    Host.gather Cert.KernelIdeal.gather_S8192x3_S524288x1_S524288x3_1_0_n_n_0_1_13 pos idx (ix2 e c)
      = pos (ix2 ⟨min (idx (ix2 e (0 : Fin 1))).toInt.toNat (8192 - 1), by omega⟩ c) :=
  Cert.Bridge.GraphOps.gather_rows_apply (N := 8192) (E := 524288) (C := 3) (by decide)
    Cert.KernelIdeal.Facts₀.gather_S8192x3_S524288x1_S524288x3_1_0_n_n_0_1_13_wf pos idx e c

/-- The lookup of rows of a table with 8192² rows. -/
theorem rgather3_apply {α : Type} (t : S67108864x3.Idx → α) (idx : IVec S524288x1 32) (e : Fin 524288) (c : Fin 3) :
    Host.gather Cert.ReferenceIdeal.gather_S67108864x3_S524288x1_S524288x3_1_0_n_n_0_1_13 t idx (ix2 e c)
      = t (ix2 ⟨min (idx (ix2 e (0 : Fin 1))).toInt.toNat (67108864 - 1), by omega⟩ c) :=
  Cert.Bridge.GraphOps.gather_rows_apply (N := 67108864) (E := 524288) (C := 3) (by decide)
    gather_S67108864x3_S524288x1_S524288x3_1_0_n_n_0_1_13_wf t idx e c

/-- The lookup of entries of a vector with 8192² entries. -/
theorem rgather1_apply {α : Type} (t : S67108864.Idx → α) (idx : IVec S524288x1 32) (e : Fin 524288) :
    Host.gather Cert.ReferenceIdeal.gather_S67108864_S524288x1_S524288_n_0_n_n_0_1_1 t idx (ix1 e)
      = t (ix1 ⟨min (idx (ix2 e (0 : Fin 1))).toInt.toNat (67108864 - 1), by omega⟩) :=
  Cert.Bridge.GraphOps.gather_flat_apply (N := 67108864) (E := 524288) (by decide)
    gather_S67108864_S524288x1_S524288_n_0_n_n_0_1_1_wf t idx e

/-- The row the first lookup reads: the quotient. -/
theorem idx_i (x : IVec S524288 32) (hx : ∀ p, (x p).toNat < 67108864) (e : Fin 524288) :
    min ((col (wrapFn 8192#32 (fdiv5Fn x (constantI S_ 32 8192#32)))) (ix2 e (0 : Fin 1))).toInt.toNat (8192 - 1)
      = (x (ix1 e)).toNat / 8192 := by
  rw [col_apply, wrapFn_fdiv x hx, fdiv5Fn_8192 x hx]
  exact clamp_ofNat _ 8192 (by have := hx (ix1 e); omega) (by decide)

/-- The row the second lookup reads: the remainder. -/
theorem idx_j (x : IVec S524288 32) (hx : ∀ p, (x p).toNat < 67108864) (e : Fin 524288) :
    min ((col (wrapFn 8192#32 (remFn x (constantI S_ 32 8192#32)))) (ix2 e (0 : Fin 1))).toInt.toNat (8192 - 1)
      = (x (ix1 e)).toNat % 8192 := by
  rw [col_apply, wrapFn_rem x hx, remFn_8192 x hx]
  exact clamp_ofNat _ 8192 (by omega) (by decide)

/-- The row the flat lookup reads: the position itself. -/
theorem idx_x (x : IVec S524288 32) (hx : ∀ p, (x p).toNat < 67108864) (e : Fin 524288) :
    min ((col (wrapFn 67108864#32 x)) (ix2 e (0 : Fin 1))).toInt.toNat (67108864 - 1) = (x (ix1 e)).toNat := by
  rw [col_apply, wrapFn_pos x hx]
  exact clamp_word _ 67108864 (hx (ix1 e)) (by decide)

/-- Row X of the flattened table of differences is the difference of the rows X div 8192 and X mod 8192. -/
theorem table3_row (pos : FVec Ideal S8192x3 .f32) (X : Nat) (hX : X < 67108864) (c : Fin 3) :
    shapeCast S67108864x3 (diffOf pos) shapeCasts_S8192x8192x3_S67108864x3 (ix2 ⟨X, hX⟩ c)
      = pos (ix2 ⟨X / 8192, by omega⟩ c) - pos (ix2 ⟨X % 8192, by omega⟩ c) := by
  refine (shapeCast_apply (diffOf pos) _ _ (ix3 ⟨X / 8192, by omega⟩ ⟨X % 8192, by omega⟩ c) ?_).trans
    (diffOf_apply pos _ _ c)
  rw [Shape.rowMajor_val_three, Shape.rowMajor_val_two]
  show (X / 8192 * 8192 + X % 8192) * 3 + c.val = X * 3 + c.val
  omega

/-- The two looked-up rows, subtracted, at (e, c). -/
theorem sub_rows_apply (pos : FVec Ideal S8192x3 .f32) (x : IVec S524288 32) (hx : ∀ p, (x p).toNat < 67108864)
    (e : Fin 524288) (c : Fin 3) :
    subf
        (Host.gather Cert.KernelIdeal.gather_S8192x3_S524288x1_S524288x3_1_0_n_n_0_1_13 pos
          (col (wrapFn 8192#32 (fdiv5Fn x (constantI S_ 32 8192#32)))))
        (Host.gather Cert.KernelIdeal.gather_S8192x3_S524288x1_S524288x3_1_0_n_n_0_1_13 pos
          (col (wrapFn 8192#32 (remFn x (constantI S_ 32 8192#32))))) (ix2 e c)
      = pos (ix2 ⟨(x (ix1 e)).toNat / 8192, by have := hx (ix1 e); omega⟩ c)
        - pos (ix2 ⟨(x (ix1 e)).toNat % 8192, by omega⟩ c) := by
  show _ - _ = _
  rw [(kgather_apply pos _ e c).trans (row_congr pos _ _ (idx_i x hx e) c),
    (kgather_apply pos _ e c).trans (row_congr pos _ _ (idx_j x hx e) c)]

/-- The looked-up row of the flattened table of differences, at (e, c). -/
theorem flat_rows_apply (pos : FVec Ideal S8192x3 .f32) (x : IVec S524288 32) (hx : ∀ p, (x p).toNat < 67108864)
    (e : Fin 524288) (c : Fin 3) :
    Host.gather Cert.ReferenceIdeal.gather_S67108864x3_S524288x1_S524288x3_1_0_n_n_0_1_13
        (shapeCast S67108864x3 (diffOf pos) shapeCasts_S8192x8192x3_S67108864x3)
        (col (wrapFn 67108864#32 x)) (ix2 e c)
      = pos (ix2 ⟨(x (ix1 e)).toNat / 8192, by have := hx (ix1 e); omega⟩ c)
        - pos (ix2 ⟨(x (ix1 e)).toNat % 8192, by omega⟩ c) :=
  ((rgather3_apply _ _ e c).trans (row_congr _ _ (hx (ix1 e)) (idx_x x hx e) c)).trans
    (table3_row pos _ (hx (ix1 e)) c)

/-- The difference of the two looked-up rows of the points is the looked-up row of the flattened table of
    differences. -/
theorem sub_rows_eq_flat_rows (pos : FVec Ideal S8192x3 .f32) (x : IVec S524288 32)
    (hx : ∀ p, (x p).toNat < 67108864) :
    subf
        (Host.gather Cert.KernelIdeal.gather_S8192x3_S524288x1_S524288x3_1_0_n_n_0_1_13 pos
          (col (wrapFn 8192#32 (fdiv5Fn x (constantI S_ 32 8192#32)))))
        (Host.gather Cert.KernelIdeal.gather_S8192x3_S524288x1_S524288x3_1_0_n_n_0_1_13 pos
          (col (wrapFn 8192#32 (remFn x (constantI S_ 32 8192#32)))))
      = Host.gather Cert.ReferenceIdeal.gather_S67108864x3_S524288x1_S524288x3_1_0_n_n_0_1_13
          (shapeCast S67108864x3 (diffOf pos) shapeCasts_S8192x8192x3_S67108864x3)
          (col (wrapFn 67108864#32 x)) := by
  funext j
  rw [eq_ix2 j]
  exact (sub_rows_apply pos x hx (j 0) (j 1)).trans (flat_rows_apply pos x hx (j 0) (j 1)).symm

end

/-! ## The squared lengths -/

section
variable [Cert.KernelIdeal.Facts] [Cert.ReferenceIdeal.Facts]
open Cert.ReferenceIdeal.Facts₀

/-- Position X of the flattened table of squared distances is the entry (X div 8192, X mod 8192). -/
theorem table1_row (pos : FVec Ideal S8192x3 .f32) (X : Nat) (hX : X < 67108864) :
    shapeCast S67108864 (d2Of pos) shapeCasts_S8192x8192_S67108864 (ix1 ⟨X, hX⟩)
      = d2Of pos (ix2 ⟨X / 8192, by omega⟩ ⟨X % 8192, by omega⟩) := by
  refine shapeCast_apply (d2Of pos) _ _ (ix2 ⟨X / 8192, by omega⟩ ⟨X % 8192, by omega⟩) ?_
  rw [Shape.rowMajor_val_two, Shape.rowMajor_val_one]
  show X / 8192 * 8192 + X % 8192 = X
  omega

/-- The index over row e with last coordinate k. -/
theorem lift_rows (h : S524288x3.Reduces [1] S524288) (e : Fin 524288) (k : Fin 3) :
    h.lift (ix1 e) k = ix2 e k := by
  funext a
  refine Fin.ext ?_
  match a with
  | ⟨0, _⟩ => rfl
  | ⟨1, _⟩ => rfl

/-- The index over the pair (a, b) with last coordinate k. -/
theorem lift_pairs (h : S8192x8192x3.Reduces [2] S8192x8192) (a b : Fin 8192) (k : Fin 3) :
    h.lift (ix2 a b) k = ix3 a b k := by
  funext c
  refine Fin.ext ?_
  match c with
  | ⟨0, _⟩ => rfl
  | ⟨1, _⟩ => rfl
  | ⟨2, _⟩ => rfl

/-- One squared difference of the table. -/
theorem d2_term (pos : FVec Ideal S8192x3 .f32) (a b : Fin 8192) (k : Fin 3) (i : S8192x8192x3.Idx)
    (hi : i = ix3 a b k) :
    mulf (diffOf pos) (diffOf pos) i
      = (pos (ix2 a k) - pos (ix2 b k)) * (pos (ix2 a k) - pos (ix2 b k)) := by
  subst hi
  show diffOf pos (ix3 a b k) * diffOf pos (ix3 a b k) = _
  rw [diffOf_apply]

/-- An entry of the table of squared distances: the sum over the three coordinates of the squared differences. -/
theorem d2Of_apply (pos : FVec Ideal S8192x3 .f32) (a b : Fin 8192) :
    d2Of pos (ix2 a b)
      = Ideal.ofBits .f32 0x00000000#32
        + ∑ k : Fin 3, (pos (ix2 a k) - pos (ix2 b k)) * (pos (ix2 a k) - pos (ix2 b k)) := by
  have h : S8192x8192x3.Reduces [2] S8192x8192 := by decide
  refine (Ideal.hostReduceAdd_single reducesTo_S8192x8192x3_S8192x8192_d2 h (mulf (diffOf pos) (diffOf pos))
    (Ideal.ofBits .f32 0x00000000#32) (ix2 a b)).trans ?_
  exact congrArg (Ideal.ofBits .f32 0x00000000#32 + ·)
    (Finset.sum_congr rfl fun k _ => d2_term pos a b k _ (lift_pairs h a b k))

/-- The two looked-up rows of the points, subtracted. -/
def subRows (pos : FVec Ideal S8192x3 .f32) (x : IVec S524288 32) : FVec Ideal S524288x3 .f32 :=
  subf
    (Host.gather Cert.KernelIdeal.gather_S8192x3_S524288x1_S524288x3_1_0_n_n_0_1_13 pos
      (col (wrapFn 8192#32 (fdiv5Fn x (constantI S_ 32 8192#32)))))
    (Host.gather Cert.KernelIdeal.gather_S8192x3_S524288x1_S524288x3_1_0_n_n_0_1_13 pos
      (col (wrapFn 8192#32 (remFn x (constantI S_ 32 8192#32)))))

/-- One squared entry of the subtracted rows. -/
theorem sq_term (pos : FVec Ideal S8192x3 .f32) (x : IVec S524288 32) (hx : ∀ p, (x p).toNat < 67108864)
    (e : Fin 524288) (k : Fin 3) (i : S524288x3.Idx) (hi : i = ix2 e k) :
    mulf (subRows pos x) (subRows pos x) i
      = (pos (ix2 ⟨(x (ix1 e)).toNat / 8192, by have := hx (ix1 e); omega⟩ k)
          - pos (ix2 ⟨(x (ix1 e)).toNat % 8192, by omega⟩ k))
        * (pos (ix2 ⟨(x (ix1 e)).toNat / 8192, by have := hx (ix1 e); omega⟩ k)
          - pos (ix2 ⟨(x (ix1 e)).toNat % 8192, by omega⟩ k)) := by
  subst hi
  show subRows pos x (ix2 e k) * subRows pos x (ix2 e k) = _
  rw [show subRows pos x (ix2 e k) = _ from sub_rows_apply pos x hx e k]

/-- The sum of the squares of the subtracted rows, at e. -/
theorem sq_rows_apply (pos : FVec Ideal S8192x3 .f32) (x : IVec S524288 32) (hx : ∀ p, (x p).toNat < 67108864)
    (e : Fin 524288) :
    Host.reduceAdd (F := Ideal) (mulf (subRows pos x) (subRows pos x))
        (constant (F := Ideal) S_ .f32 0x00000000#32)
        Cert.KernelIdeal.Facts₀.reducesTo_S524288x3_S524288_d1 Cert.KernelIdeal.Facts₀.h_S_ (ix1 e)
      = Ideal.ofBits .f32 0x00000000#32
        + ∑ k : Fin 3,
          (pos (ix2 ⟨(x (ix1 e)).toNat / 8192, by have := hx (ix1 e); omega⟩ k)
            - pos (ix2 ⟨(x (ix1 e)).toNat % 8192, by omega⟩ k))
          * (pos (ix2 ⟨(x (ix1 e)).toNat / 8192, by have := hx (ix1 e); omega⟩ k)
            - pos (ix2 ⟨(x (ix1 e)).toNat % 8192, by omega⟩ k)) := by
  have h : S524288x3.Reduces [1] S524288 := by decide
  refine (Ideal.hostReduceAdd_single Cert.KernelIdeal.Facts₀.reducesTo_S524288x3_S524288_d1 h
    (mulf (subRows pos x) (subRows pos x)) (Ideal.ofBits .f32 0x00000000#32) (ix1 e)).trans ?_
  exact congrArg (Ideal.ofBits .f32 0x00000000#32 + ·)
    (Finset.sum_congr rfl fun k _ => sq_term pos x hx e k _ (lift_rows h e k))

/-- The looked-up entry of the flattened table of squared distances, at e. -/
theorem flat_d2_apply (pos : FVec Ideal S8192x3 .f32) (x : IVec S524288 32) (hx : ∀ p, (x p).toNat < 67108864)
    (e : Fin 524288) :
    Host.gather Cert.ReferenceIdeal.gather_S67108864_S524288x1_S524288_n_0_n_n_0_1_1
        (shapeCast S67108864 (d2Of pos) shapeCasts_S8192x8192_S67108864)
        (col (wrapFn 67108864#32 x)) (ix1 e)
      = Ideal.ofBits .f32 0x00000000#32
        + ∑ k : Fin 3,
          (pos (ix2 ⟨(x (ix1 e)).toNat / 8192, by have := hx (ix1 e); omega⟩ k)
            - pos (ix2 ⟨(x (ix1 e)).toNat % 8192, by omega⟩ k))
          * (pos (ix2 ⟨(x (ix1 e)).toNat / 8192, by have := hx (ix1 e); omega⟩ k)
            - pos (ix2 ⟨(x (ix1 e)).toNat % 8192, by omega⟩ k)) :=
  (((rgather1_apply _ _ e).trans (entry_congr _ _ (hx (ix1 e)) (idx_x x hx e))).trans
    (table1_row pos _ (hx (ix1 e)))).trans (d2Of_apply pos _ _)

/-- The sum over the three coordinates of the squares of the subtracted looked-up rows is the looked-up entry of the
    flattened table of squared distances. -/
theorem sq_rows_eq_flat_d2 (pos : FVec Ideal S8192x3 .f32) (x : IVec S524288 32)
    (hx : ∀ p, (x p).toNat < 67108864) :
    Host.reduceAdd (F := Ideal)
        (mulf
          (subf
            (Host.gather Cert.KernelIdeal.gather_S8192x3_S524288x1_S524288x3_1_0_n_n_0_1_13 pos
              (col (wrapFn 8192#32 (fdiv5Fn x (constantI S_ 32 8192#32)))))
            (Host.gather Cert.KernelIdeal.gather_S8192x3_S524288x1_S524288x3_1_0_n_n_0_1_13 pos
              (col (wrapFn 8192#32 (remFn x (constantI S_ 32 8192#32))))))
          (subf
            (Host.gather Cert.KernelIdeal.gather_S8192x3_S524288x1_S524288x3_1_0_n_n_0_1_13 pos
              (col (wrapFn 8192#32 (fdiv5Fn x (constantI S_ 32 8192#32)))))
            (Host.gather Cert.KernelIdeal.gather_S8192x3_S524288x1_S524288x3_1_0_n_n_0_1_13 pos
              (col (wrapFn 8192#32 (remFn x (constantI S_ 32 8192#32)))))))
        (constant (F := Ideal) S_ .f32 0x00000000#32)
        Cert.KernelIdeal.Facts₀.reducesTo_S524288x3_S524288_d1 Cert.KernelIdeal.Facts₀.h_S_
      = Host.gather Cert.ReferenceIdeal.gather_S67108864_S524288x1_S524288_n_0_n_n_0_1_1
          (shapeCast S67108864 (d2Of pos) shapeCasts_S8192x8192_S67108864)
          (col (wrapFn 67108864#32 x)) := by
  funext j
  obtain ⟨e, rfl⟩ : ∃ e : Fin 524288, j = ix1 e := ⟨j 0, eq_ix1 j⟩
  exact (sq_rows_apply pos x hx e).trans (flat_d2_apply pos x hx e).symm

end

end Cert.Tail

end
-- ==== Proof.TailOut.lean ====
/-
  The two programs' outputs as functions of the flat pair mask, and the two equations between them.

  Both programs list the set positions of the flat mask in the same way (a running count, a count of the entries at
  most each rank, a second running count, a floored quotient by 1 and a floored remainder by 8192², zero past the number
  of set positions) and split each listed position x into the pair (x div 8192, x mod 8192).  One program then looks up
  and subtracts rows of the points and sums squares; the other looks up rows of the tables of all differences and all
  squared distances.  Under the same masking of the entries past the count the two results are equal.
-/
import proofs.«120686_j44890998178156_1_alg».proof.Proof.Tail

noncomputable section

namespace Cert.Tail

open Idealize.ShloMosaic Idealize.ShloMosaic.ValueIdx
open Cert.ReferenceIdeal (S_ S524288 S524288x1 S524288x3 S8192x3 S8192x8192x3 S8192x8192 S67108864 S67108864x1
  S67108864x3 S1x524288 S2x524288)

section
variable [Cert.KernelIdeal.Facts] [Cert.ReferenceIdeal.Facts]
open Cert.ReferenceIdeal.Facts₀

/-! ## The list of set positions -/

/-- The number of set positions of the mask. -/
def nzCntT (f : IVec S67108864 1) : IVec S_ 32 :=
  Host.reduce IntOp.addi (extui 32 f natLt_1_32) (constantI S_ 32 0#32) reducesTo_S67108864_S_d0 h_S_

/-- The running count of set positions. -/
def cumsumT (f : IVec S67108864 1) : IVec S67108864 32 :=
  Host.reduceWindow IntOp.addi ![67108864] ![1] ![67108863] ![0] (extui 32 f natLt_1_32) (broadcastInDim S_ ![] bcast_S_S_ (constantI S_ 32 0#32)) reduceWindows_S67108864_S67108864_w67108864s1p67108863_0 h_S_

/-- The running count kept at or above zero. -/
def clipT (c : IVec S67108864 32) : IVec S67108864 32 :=
  maxsi (broadcastInDim S67108864 ![] bcast_S_S67108864 (id (constantI S_ 32 0#32))) c

/-- Negative ranks counted from the end 524288. -/
def wrapBigT (y : IVec S67108864 32) : IVec S67108864 32 :=
  select (cmpi .slt y (broadcastInDim S67108864 ![] bcast_S_S67108864 (constantI S_ 32 0#32))) (addi y (broadcastInDim S67108864 ![] bcast_S_S67108864 (constantI S_ 32 524288#32))) y

/-- How many positions have each rank: ones added into zeros at the ranks. -/
def binsT (y : IVec S67108864 32) : IVec S524288 32 :=
  Host.scatter Cert.ReferenceIdeal.scatter_S524288_S67108864x1_S67108864_n_0_0_1 IntOp.addi (broadcastInDim S524288 ![] bcast_S_S524288 (constantI S_ 32 0#32)) (broadcastInDim S67108864x1 ![0] bcast_S67108864_S67108864x1_0 y) (broadcastInDim S67108864 ![] bcast_S_S67108864 (constantI S_ 32 1#32))

/-- The running count of those numbers. -/
def cumsum1T (z : IVec S524288 32) : IVec S524288 32 :=
  Host.reduceWindow IntOp.addi ![524288] ![1] ![524287] ![0] z (broadcastInDim S_ ![] bcast_S_S_ (constantI S_ 32 0#32)) reduceWindows_S524288_S524288_w524288s1p524287_0 h_S_

/-- The floored quotient of an index vector by a scalar word, in the spelling used for the divisor 1: the composition
    of the program's operations. -/
def fdiv1Fn (x : IVec S524288 32) (d : IVec S_ 32) : IVec S524288 32 :=
  select (andi (cmpi .ne (signi x) (broadcastInDim S524288 ![] bcast_S_S524288 (signi d))) (cmpi .ne (Host.remsi x (broadcastInDim S524288 ![] bcast_S_S524288 d)) (broadcastInDim S524288 ![] bcast_S_S524288 (constantI S_ 32 0#32)))) (subi (Host.divsi x (broadcastInDim S524288 ![] bcast_S_S524288 d)) (broadcastInDim S524288 ![] bcast_S_S524288 (constantI S_ 32 1#32))) (Host.divsi x (broadcastInDim S524288 ![] bcast_S_S524288 d))

/-- The listed positions: position number p of the list is the flat position of the p-th set entry, zero from the
    number of set entries on. -/
def nzIdxT (f : IVec S67108864 1) : IVec S524288 32 :=
  where4Fn (cmpi .sge (iotaInDim S524288 32 0) (broadcastInDim S524288 ![] bcast_S_S524288 (nzCntT f)))
    (constantI S_ 32 0#32)
    (remFn (fdiv1Fn (cumsum1T (binsT (wrapBigT (clipT (cumsumT f))))) (constantI S_ 32 1#32))
      (constantI S_ 32 67108864#32))

/-- Which list entries are real: those before the smaller of the count and 524288. -/
def validT (cnt : IVec S_ 32) : IVec S524288 1 :=
  cmpi .slt (iotaInDim S524288 32 0) (broadcastInDim S524288 ![] bcast_S_S524288 (minsi cnt (constantI S_ 32 524288#32)))

/-! ## The masking by the real entries -/

/-- x where b holds, else the scalar word s. -/
def where8Fn (b : IVec S524288 1) (x : IVec S524288 32) (s : IVec S_ 32) : IVec S524288 32 :=
  select b x (broadcastInDim S524288 ![] bcast_S_S524288 (id s))

/-- x where b holds, else the scalar s. -/
def where7Fn (b : IVec S524288 1) (x : FVec Ideal S524288 .f32) (s : FVec Ideal S_ .f32) : FVec Ideal S524288 .f32 :=
  select b x (broadcastInDim S524288 ![] bcast_S_S524288 (id s))

/-- The rows of x where the column b holds, else the scalar s. -/
def where6Fn (b : IVec S524288x1 1) (x : FVec Ideal S524288x3 .f32) (s : FVec Ideal S_ .f32) :
    FVec Ideal S524288x3 .f32 :=
  select (broadcastInDim S524288x3 ![0, 1] bcast_S524288x1_S524288x3_0_1 b) x (broadcastInDim S524288x3 ![] bcast_S_S524288x3 (id s))

/-! ## The outputs -/

/-- The pairs (i, j) of the listed positions, −1 past the real entries. -/
def outIdxT (cnt : IVec S_ 32) (idx : IVec S524288 32) : IVec S2x524288 32 :=
  concatenate S2x524288 0
    [⟨S1x524288, broadcastInDim S1x524288 ![1] bcast_S524288_S1x524288_1
        (where8Fn (validT cnt) (fdiv5Fn idx (constantI S_ 32 8192#32)) (constantI S_ 32 4294967295#32))⟩,
     ⟨S1x524288, broadcastInDim S1x524288 ![1] bcast_S524288_S1x524288_1
        (where8Fn (validT cnt) (remFn idx (constantI S_ 32 8192#32)) (constantI S_ 32 4294967295#32))⟩]
    concatenates_S1x524288_S1x524288_S2x524288_d0

/-- The difference vectors read off a table D of all differences, zero past the real entries. -/
def rOutVec (cnt : IVec S_ 32) (idx : IVec S524288 32) (D : FVec Ideal S8192x8192x3 .f32) :
    FVec Ideal S524288x3 .f32 :=
  where6Fn (col (validT cnt))
    (Host.gather Cert.ReferenceIdeal.gather_S67108864x3_S524288x1_S524288x3_1_0_n_n_0_1_13
      (shapeCast S67108864x3 D shapeCasts_S8192x8192x3_S67108864x3) (col (wrapFn 67108864#32 idx)))
    (constant (F := Ideal) S_ .f32 0x00000000#32)

/-- The distances read off a table D2 of all squared distances: the root of the looked-up entry (of 1 past the real
    entries), zero past the real entries. -/
def rOutW (cnt : IVec S_ 32) (idx : IVec S524288 32) (D2 : FVec Ideal S8192x8192 .f32) : FVec Ideal S524288 .f32 :=
  where7Fn (validT cnt)
    (Host.sqrt (where7Fn (validT cnt)
      (Host.gather Cert.ReferenceIdeal.gather_S67108864_S524288x1_S524288_n_0_n_n_0_1_1
        (shapeCast S67108864 D2 shapeCasts_S8192x8192_S67108864) (col (wrapFn 67108864#32 idx)))
      (constant (F := Ideal) S_ .f32 0x3F800000#32)))
    (constant (F := Ideal) S_ .f32 0x00000000#32)

/-- The difference vectors from the looked-up rows of the points, zero past the real entries. -/
def kOutVec (cnt : IVec S_ 32) (idx : IVec S524288 32) (pos : FVec Ideal S8192x3 .f32) : FVec Ideal S524288x3 .f32 :=
  where6Fn (col (validT cnt))
    (subf
      (Host.gather Cert.KernelIdeal.gather_S8192x3_S524288x1_S524288x3_1_0_n_n_0_1_13 pos
        (col (wrapFn 8192#32 (fdiv5Fn idx (constantI S_ 32 8192#32)))))
      (Host.gather Cert.KernelIdeal.gather_S8192x3_S524288x1_S524288x3_1_0_n_n_0_1_13 pos
        (col (wrapFn 8192#32 (remFn idx (constantI S_ 32 8192#32))))))
    (constant (F := Ideal) S_ .f32 0x00000000#32)

/-- The distances from the looked-up rows of the points: the root of the sum of the squared differences (of 1 past the
    real entries), zero past the real entries. -/
def kOutW (cnt : IVec S_ 32) (idx : IVec S524288 32) (pos : FVec Ideal S8192x3 .f32) : FVec Ideal S524288 .f32 :=
  where7Fn (validT cnt)
    (Host.sqrt (where7Fn (validT cnt)
      (Host.reduceAdd (F := Ideal)
        (mulf
          (subf
            (Host.gather Cert.KernelIdeal.gather_S8192x3_S524288x1_S524288x3_1_0_n_n_0_1_13 pos
              (col (wrapFn 8192#32 (fdiv5Fn idx (constantI S_ 32 8192#32)))))
            (Host.gather Cert.KernelIdeal.gather_S8192x3_S524288x1_S524288x3_1_0_n_n_0_1_13 pos
              (col (wrapFn 8192#32 (remFn idx (constantI S_ 32 8192#32))))))
          (subf
            (Host.gather Cert.KernelIdeal.gather_S8192x3_S524288x1_S524288x3_1_0_n_n_0_1_13 pos
              (col (wrapFn 8192#32 (fdiv5Fn idx (constantI S_ 32 8192#32)))))
            (Host.gather Cert.KernelIdeal.gather_S8192x3_S524288x1_S524288x3_1_0_n_n_0_1_13 pos
              (col (wrapFn 8192#32 (remFn idx (constantI S_ 32 8192#32)))))))
        (constant (F := Ideal) S_ .f32 0x00000000#32)
        Cert.KernelIdeal.Facts₀.reducesTo_S524288x3_S524288_d1 Cert.KernelIdeal.Facts₀.h_S_)
      (constant (F := Ideal) S_ .f32 0x3F800000#32)))
    (constant (F := Ideal) S_ .f32 0x00000000#32)

/-! ## The two equations -/

/-- Every listed position lies in 0 … 8192² − 1. -/
theorem nzIdxT_range (f : IVec S67108864 1) (p : S524288.Idx) : ((nzIdxT f) p).toNat < 67108864 :=
  where4Fn_range _ _ (fun q => remFn_range _ q) p

/-- For positions in 0 … 8192² − 1 the two difference vectors agree. -/
theorem outVec_bridge_of_range (cnt : IVec S_ 32) (idx : IVec S524288 32) (pos : FVec Ideal S8192x3 .f32)
    (hx : ∀ p, (idx p).toNat < 67108864) : kOutVec cnt idx pos = rOutVec cnt idx (diffOf pos) :=
  congrArg (fun v => where6Fn (col (validT cnt)) v (constant (F := Ideal) S_ .f32 0x00000000#32))
    (sub_rows_eq_flat_rows pos idx hx)

/-- For positions in 0 … 8192² − 1 the two distances agree. -/
theorem outW_bridge_of_range (cnt : IVec S_ 32) (idx : IVec S524288 32) (pos : FVec Ideal S8192x3 .f32)
    (hx : ∀ p, (idx p).toNat < 67108864) : kOutW cnt idx pos = rOutW cnt idx (d2Of pos) :=
  congrArg (fun g => where7Fn (validT cnt)
      (Host.sqrt (where7Fn (validT cnt) g (constant (F := Ideal) S_ .f32 0x3F800000#32)))
      (constant (F := Ideal) S_ .f32 0x00000000#32))
    (sq_rows_eq_flat_d2 pos idx hx)

/-- The difference vectors of the two programs agree on the list of set positions of any mask. -/
theorem outVec_bridge (f : IVec S67108864 1) (pos : FVec Ideal S8192x3 .f32) :
    kOutVec (nzCntT f) (nzIdxT f) pos = rOutVec (nzCntT f) (nzIdxT f) (diffOf pos) :=
  outVec_bridge_of_range _ _ pos (nzIdxT_range f)

/-- The distances of the two programs agree on the list of set positions of any mask. -/
theorem outW_bridge (f : IVec S67108864 1) (pos : FVec Ideal S8192x3 .f32) :
    kOutW (nzCntT f) (nzIdxT f) pos = rOutW (nzCntT f) (nzIdxT f) (d2Of pos) :=
  outW_bridge_of_range _ _ pos (nzIdxT_range f)

end

end Cert.Tail

end
-- ==== Proof.KIValue.lean ====
/-
  What the mask kernel leaves in its output array, at the ideal instance, index by index.

  The region runs on 64 grid points. Point `t` is handed rows `128 t … 128 t + 127` of the positions and of the label
  column, all positions and the whole label row, and stores one block of 128 × 8192 words: word `(r, j)` is the
  conjunction, widened to 32 bits, of three one-bit tests — the label of row `128 t + r` equals the label of column `j`;
  the row's number `128 t + r` differs from `j` (compared as 32-bit words); the squared distance
  `(dx·dx + dy·dy) + dz·dz` between the two points is below 25 and at least 0.

  `keepWord pos bcol brow r j` is that word for the pair `(r, j)` of the whole arrays, `maskArr` the array of these words.
  The body's stored payload is read at an index through its layout operations (`pay1_apply` … `pay4_apply`,
  `out0_4_apply`), each block entry it reads is the array entry under it (`iblk0_0_apply` … `iblk0_3_apply`, from the
  index maps decided over the grid), so what point `t` writes back is block `t` of `maskArr` (`flushed4_eq`); row `R` of
  the array lies in the block of point `R / 128` (`cover4`), hence the array ends holding `maskArr` (`final4`). The input
  arrays are never written (`kept_in`). `keepWord_eq_ite` reads the word as 1 or 0 on the four conditions, with the test
  "row ≠ column" on the numbers themselves (`cmpi_ne_ofNat`: below 8192 two numbers differ as words exactly when they differ).
-/
import proofs.«120686_j44890998178156_1_alg».proof.Proof.KIData
import Idealize.ShloMosaic.Lib.Pipeline.Value
import Idealize.ShloMosaic.Lib.ValueIdx
import Idealize.ShloMosaic.Lib.ValueLayout
import Idealize.ShloMosaic.Lib.WordArith

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Idealize.ShloMosaic.ValueIdx
open Cert.KernelIdeal Cert.KernelIdeal.Gen Cert.KernelIdeal.GenP

section Layout
variable {α : Type}

/-- A column `[a, 1]` broadcast along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the column's entry `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Layout

section Words
variable {s : Shape} {w : Nat}
theorem ivec_andi_apply (x y : IVec s w) (i : s.Idx) : andi x y i = IntOp.andi (x i) (y i) := rfl
theorem ivec_addi_apply (x y : IVec s w) (i : s.Idx) : addi x y i = IntOp.addi (x i) (y i) := rfl
theorem ivec_cmpi_apply (p : CmpIPredicate) (x y : IVec s w) (i : s.Idx) : cmpi p x y i = IntOp.cmpi p (x i) (y i) := rfl
end Words

/-- The label test of the block: row `r`'s label against column `j`'s. -/
theorem pay2_apply (x2 : Vec Ideal S128x1 .i32) (x3 : Vec Ideal S1x8192 .i32) (r : Fin 128) (j : Fin 8192) :
    k0_pay2 x2 x3 (ix2 r j) = IntOp.cmpi .eq (x2 (ix2 r (0 : Fin 1))) (x3 (ix2 (0 : Fin 1) j)) := by
  unfold k0_pay2
  simp only [ivec_cmpi_apply]
  rw [broadcastTo_a1_ab_apply, broadcastTo_1b_ab_apply, shapeCast_self, shapeCast_self]

/-- The test "row ≠ column" of the block at grid coordinates `i`: the row's number `128 · i + r` against the column's, as words. -/
theorem pay3_apply (i : grid0.Coords) (r : Fin 128) (j : Fin 8192) :
    k0_pay3 i (ix2 r j)
      = IntOp.cmpi .ne (IntOp.addi (IntOp.muli (BitVec.ofNat 32 (i 0).val) 128#32) (BitVec.ofNat 32 r.val)) (BitVec.ofNat 32 j.val) := by
  unfold k0_pay3
  simp only [ivec_cmpi_apply]
  rw [broadcastTo_a1_ab_apply, broadcastTo_1b_ab_apply]
  simp only [ivec_addi_apply, broadcast_apply]
  rw [iota_single_apply, iota_single_apply]
  rfl

/-- The squared distance between row `r` of a block of positions and row `j` of all positions. -/
def d2blk (x0 : FVec Ideal S128x3 .f32) (x1 : FVec Ideal S8192x3 .f32) (r : Fin 128) (j : Fin 8192) : Ideal .f32 :=
  (x0 (ix2 r (0 : Fin 3)) - x1 (ix2 j (0 : Fin 3))) * (x0 (ix2 r (0 : Fin 3)) - x1 (ix2 j (0 : Fin 3)))
    + (x0 (ix2 r (1 : Fin 3)) - x1 (ix2 j (1 : Fin 3))) * (x0 (ix2 r (1 : Fin 3)) - x1 (ix2 j (1 : Fin 3)))
    + (x0 (ix2 r (2 : Fin 3)) - x1 (ix2 j (2 : Fin 3))) * (x0 (ix2 r (2 : Fin 3)) - x1 (ix2 j (2 : Fin 3)))

/-- A coordinate column of the block of positions, spread over the columns. -/
theorem blkcol_apply (x0 : FVec Ideal S128x3 .f32) (o : Nat) (k : Fin 3) (hk : k.val = o) (h : S128x3.Slices ![0, o] S128x1) (hb : S128x1.Broadcasts S128x8192)
    (r : Fin 128) (j : Fin 8192) :
    broadcastTo S128x8192 (extractStridedSlice S128x1 ![0, o] x0 h) hb (ix2 r j) = x0 (ix2 r k) := by
  rw [broadcastTo_a1_ab_apply]
  exact slice2_axis1_apply o x0 h r (0 : Fin 1) k (by rw [hk]; rfl)

/-- A coordinate column of all positions, laid out as a row and spread over the rows. -/
theorem allcol_apply (x1 : FVec Ideal S8192x3 .f32) (o : Nat) (k : Fin 3) (hk : k.val = o) (h : S8192x3.Slices ![0, o] S8192x1)
    (h1 : S8192x1.ShapeCasts S8192) (h2 : S8192.ShapeCasts S1x8192) (hb : S1x8192.Broadcasts S128x8192)
    (r : Fin 128) (j : Fin 8192) :
    broadcastTo S128x8192 (shapeCast S1x8192 (shapeCast S8192 (extractStridedSlice S8192x1 ![0, o] x1 h) h1) h2) hb (ix2 r j) = x1 (ix2 j k) := by
  rw [broadcastTo_1b_ab_apply, shapeCast_a_1a_apply, shapeCast_a1_a_apply]
  exact slice2_axis1_apply o x1 h j (0 : Fin 1) k (by rw [hk]; rfl)

/-- The distance test of the block at an index: the squared distance below 25 and at least 0. -/
theorem pay4_apply (x0 : Vec Ideal S128x3 .f32) (x1 : Vec Ideal S8192x3 .f32) (r : Fin 128) (j : Fin 8192) :
    k0_pay4 x0 x1 (ix2 r j)
      = IntOp.andi (FloatOps.cmpf (F := Ideal) .olt (d2blk x0 x1 r j) (Ideal.ofBits .f32 0x41C80000#32))
          (FloatOps.cmpf (F := Ideal) .oge (d2blk x0 x1 r j) (Ideal.ofBits .f32 0x00000000#32)) := by
  unfold k0_pay4
  simp only [ivec_andi_apply, cmpf_apply, addf_apply, mulf_apply, subf_apply, broadcast_apply]
  rw [blkcol_apply x0 0 0 rfl, blkcol_apply x0 1 1 rfl, blkcol_apply x0 2 2 rfl,
    allcol_apply x1 0 0 rfl, allcol_apply x1 1 1 rfl, allcol_apply x1 2 2 rfl]
  rfl

/-- The stored word of the block at an index: the conjunction of the three tests, widened to 32 bits. -/
theorem pay1_apply (a b c : IVec S128x8192 1) (y : S128x8192.Idx) :
    k0_pay1 a b c y = (IntOp.andi (IntOp.andi (a y) (b y)) (c y)).setWidth 32 := rfl

theorem off2_zero : (![0, 0] : Fin 2 → Nat) = fun _ => 0 := funext fun a => by fin_cases a <;> rfl

/-- The squared distance between points `r` and `j`, with the kernel's association: (dx·dx + dy·dy) + dz·dz. -/
def dist2 (pos : FVec Ideal S8192x3 .f32) (r j : Fin 8192) : Ideal .f32 :=
  (pos (ix2 r (0 : Fin 3)) - pos (ix2 j (0 : Fin 3))) * (pos (ix2 r (0 : Fin 3)) - pos (ix2 j (0 : Fin 3)))
    + (pos (ix2 r (1 : Fin 3)) - pos (ix2 j (1 : Fin 3))) * (pos (ix2 r (1 : Fin 3)) - pos (ix2 j (1 : Fin 3)))
    + (pos (ix2 r (2 : Fin 3)) - pos (ix2 j (2 : Fin 3))) * (pos (ix2 r (2 : Fin 3)) - pos (ix2 j (2 : Fin 3)))

/-- The mask word of the pair (`r`, `j`): 1 when the two points carry the same label, `r ≠ j` (compared as 32-bit words) and
    the squared distance is below 25 and at least 0; else 0. The conjunction of the one-bit tests, widened to 32 bits. -/
def keepWord (pos : FVec Ideal S8192x3 .f32) (bcol : IVec S8192x1 32) (brow : IVec S1x8192 32) (r j : Fin 8192) : BitVec 32 :=
  (IntOp.andi
    (IntOp.andi (IntOp.cmpi .eq (bcol (ix2 r (0 : Fin 1))) (brow (ix2 (0 : Fin 1) j)))
      (IntOp.cmpi .ne (BitVec.ofNat 32 r.val) (BitVec.ofNat 32 j.val)))
    (IntOp.andi (FloatOps.cmpf (F := Ideal) .olt (dist2 pos r j) (Ideal.ofBits .f32 0x41C80000#32))
      (FloatOps.cmpf (F := Ideal) .oge (dist2 pos r j) (Ideal.ofBits .f32 0x00000000#32)))).setWidth 32

/-- The whole mask, index by index. -/
def maskArr (pos : FVec Ideal S8192x3 .f32) (bcol : IVec S8192x1 32) (brow : IVec S1x8192 32) : S8192x8192.Idx → BitVec 32 :=
  fun e => keepWord pos bcol brow ⟨(e 0).val, idx2_lt0 e⟩ ⟨(e 1).val, idx2_lt1 e⟩

/-- The word the body stores at `(r, j)` of its block, from the four input blocks and the grid coordinates. -/
def blockWord (i : grid0.Coords) (x0 : FVec Ideal S128x3 .f32) (x1 : FVec Ideal S8192x3 .f32) (x2 : IVec S128x1 32) (x3 : IVec S1x8192 32)
    (r : Fin 128) (j : Fin 8192) : BitVec 32 :=
  (IntOp.andi
    (IntOp.andi (IntOp.cmpi .eq (x2 (ix2 r (0 : Fin 1))) (x3 (ix2 (0 : Fin 1) j)))
      (IntOp.cmpi .ne (IntOp.addi (IntOp.muli (BitVec.ofNat 32 (i 0).val) 128#32) (BitVec.ofNat 32 r.val)) (BitVec.ofNat 32 j.val)))
    (IntOp.andi (FloatOps.cmpf (F := Ideal) .olt (d2blk x0 x1 r j) (Ideal.ofBits .f32 0x41C80000#32))
      (FloatOps.cmpf (F := Ideal) .oge (d2blk x0 x1 r j) (Ideal.ofBits .f32 0x00000000#32)))).setWidth 32

/-- The output block after the body, index by index. -/
theorem out0_4_apply (i : grid0.Coords) (x0 : Vec Ideal S128x3 .f32) (x1 : Vec Ideal S8192x3 .f32) (x2 : Vec Ideal S128x1 .i32)
    (x3 : Vec Ideal S1x8192 .i32) (y : S128x8192.Idx) :
    out0_4 i x0 x1 x2 x3 y = blockWord i x0 x1 x2 x3 ⟨(y 0).val, idx2_lt0 y⟩ ⟨(y 1).val, idx2_lt1 y⟩ := by
  obtain ⟨r, j, rfl⟩ : ∃ (r : Fin 128) (j : Fin 8192), y = ix2 r j := ⟨y 0, y 1, eq_ix2 y⟩
  unfold out0_4
  rw [View.canon_unit_zero off2_zero]
  simp only [View.ld_unit_zero (S := S128x3) off2_zero, View.ld_unit_zero (S := S8192x3) off2_zero, View.ld_unit_zero (S := S128x1) off2_zero,
    View.ld_unit_zero (S := S1x8192) off2_zero]
  rw [pay1_apply, pay2_apply, pay3_apply, pay4_apply]
  rfl

/-- The block's word is the array's, once each block entry read is the array entry under it. -/
theorem blockWord_eq (i : grid0.Coords) (x0 : FVec Ideal S128x3 .f32) (x1 : FVec Ideal S8192x3 .f32) (x2 : IVec S128x1 32) (x3 : IVec S1x8192 32)
    (pos : FVec Ideal S8192x3 .f32) (bcol : IVec S8192x1 32) (brow : IVec S1x8192 32)
    (r : Fin 128) (j : Fin 8192) (R J : Fin 8192)
    (h0 : ∀ k : Fin 3, x0 (ix2 r k) = pos (ix2 R k)) (h1 : ∀ k : Fin 3, x1 (ix2 j k) = pos (ix2 J k))
    (h2 : x2 (ix2 r (0 : Fin 1)) = bcol (ix2 R (0 : Fin 1))) (h3 : x3 (ix2 (0 : Fin 1) j) = brow (ix2 (0 : Fin 1) J))
    (hR : R.val = (i 0).val * 128 + r.val) (hJ : J.val = j.val) :
    blockWord i x0 x1 x2 x3 r j = keepWord pos bcol brow R J := by
  have hw : IntOp.addi (IntOp.muli (BitVec.ofNat 32 (i 0).val) 128#32) (BitVec.ofNat 32 r.val) = BitVec.ofNat 32 R.val := by
    rw [hR]
    show BitVec.ofNat 32 (i 0).val * BitVec.ofNat 32 128 + BitVec.ofNat 32 r.val = _
    rw [← BitVec.ofNat_mul, ← BitVec.ofNat_add]
  unfold blockWord keepWord d2blk dist2
  rw [h0, h0, h0, h1, h1, h1, h2, h3, hw, hJ]

section AtPoint

-- the TensorCore's buffer contents when the region is entered
variable (V : (c : Dev nD) → (b : Ref sig .tc) → Buf (Elt Ideal) ((c : Thread nD τ).loc b))
variable (q : Fin cfg0.W → PosShare TreeShare)

/-- The printed index maps, decided over the 64 grid points: windows 0, 2 and 4 sit at block row `t`, windows 1 and 3 at
    block (0, 0), and the grid coordinate of point `t` is `t`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ ((grid0.coords t) 0).val = t.val ∧ t.val < 64 :=
  (by decide +kernel : ∀ t : Fin grid0.N, _)

/-- Every block row of the mask is some point's. -/
theorem idx_onto4 : ∀ q0 : Fin 64, ∃ t : Fin cfg0.N, win0_4.index t = ![q0.val, 0] :=
  (by decide +kernel : ∀ q0 : Fin 64, ∃ t : Fin grid0.N, win0_4.index t = ![q0.val, 0])

/-- Window 0's block at point `t` is rows `128 t … 128 t + 127` of the positions. -/
theorem iblk0_0_apply (c : Dev nD) (t : Fin cfg0.N) (x : S128x3.Idx) (k : S8192x3.Idx)
    (hk0 : (k 0).val = t.val * 128 + (x 0).val) (hk1 : (k 1).val = (x 1).val) :
    (iblk0 V c 0 t : Vec Ideal S128x3 .f32) x = (V c main_arg0 : S8192x3.Idx → Elt Ideal .f32) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 128 + 1 * (x 0).val = (k 0).val; omega
  | ⟨1, _⟩ => show win0_0.index t (1 : Fin 2) * 3 + 1 * (x 1).val = (k 1).val; omega

/-- Window 1's block at every point is all of the positions. -/
theorem iblk0_1_apply (c : Dev nD) (t : Fin cfg0.N) (x : S8192x3.Idx) (k : S8192x3.Idx)
    (hk0 : (k 0).val = (x 0).val) (hk1 : (k 1).val = (x 1).val) :
    (iblk0 V c 1 t : Vec Ideal S8192x3 .f32) x = (V c main_arg0 : S8192x3.Idx → Elt Ideal .f32) k := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 8192 + 1 * (x 0).val = (k 0).val; omega
  | ⟨1, _⟩ => show win0_1.index t (1 : Fin 2) * 3 + 1 * (x 1).val = (k 1).val; omega

/-- Window 2's block at point `t` is rows `128 t … 128 t + 127` of the label column. -/
theorem iblk0_2_apply (c : Dev nD) (t : Fin cfg0.N) (x : S128x1.Idx) (k : S8192x1.Idx)
    (hk0 : (k 0).val = t.val * 128 + (x 0).val) (hk1 : (k 1).val = (x 1).val) :
    (iblk0 V c 2 t : Vec Ideal S128x1 .i32) x = (V c main_v0 : S8192x1.Idx → Elt Ideal .i32) k := by
  obtain ⟨-, -, -, -, e0, e1, -⟩ := idx_facts0 t
  unfold iblk0
  rw [View.read_apply]
  show V c main_v0 _ = V c main_v0 _
  congr 1
  funext a
  apply Fin.ext
  match a with
  | ⟨0, _⟩ => show win0_2.index t (0 : Fin 2) * 128 + 1 * (x 0).val = (k 0).val; omega
  | ⟨1, _⟩ => show win0_2.index t (1 : Fin 2) * 1 + 1 * (x 1).val = (k 1).val; omega

/-- Window 3's block at every point is the whole label row. -/
theorem iblk0_3_apply (c : Dev nD) (t : Fin cfg0.N) (x : S1x8192.Idx) (k : S1x8192.Idx)
    (hk0 : (k 0).val = (x 0).val) (hk1 : (k 1).val = (x 1).val) :
    (iblk0 V c 3 t : Vec Ideal S1x8192 .i32) x = (V c main_v1 : S1x8192.Idx → Elt Ideal .i32) k := by
  obtain ⟨-, -, -, -, -, -, e0, e1, -⟩ := idx_facts0 t
  unfold iblk0
  rw [View.read_apply]
  show V c main_v1 _ = V c main_v1 _
  congr 1
  funext a
  apply Fin.ext
  match a with
  | ⟨0, _⟩ => show win0_3.index t (0 : Fin 2) * 1 + 1 * (x 0).val = (k 0).val; omega
  | ⟨1, _⟩ => show win0_3.index t (1 : Fin 2) * 8192 + 1 * (x 1).val = (k 1).val; omega

end AtPoint

section Final

variable (V : (c : Dev nD) → (b : Ref sig .tc) → Buf (Elt Ideal) ((c : Thread nD τ).loc b))
variable (q : Fin cfg0.W → PosShare TreeShare)

/-- WHAT POINT `t` WRITES BACK is block `t` of the mask of the arrays as the region finds them. -/
theorem flushed4_eq (c : Dev nD) (t : Fin cfg0.N) :
    (dat0 V q c).flushed 4 t
      = ((cfg0.win 4).blk t).view.read (Elt Ideal) (maskArr (V c main_arg0) (V c main_v0) (V c main_v1)) := by
  show (cfg0.win 4).cut (grid0.coords t) ((dat0 V q c).after 4 t) = _
  rw [after0_4]
  obtain ⟨-, -, -, -, -, -, -, -, e40, e41, eg, ht⟩ := idx_facts0 t
  funext y
  have hy0 : (y 0).val < 128 := (y 0).isLt
  have hy1 : (y 1).val < 8192 := (y 1).isLt
  have hE0 : ((((cfg0.win 4).blk t).view.emb y) 0).val = t.val * 128 + (y 0).val := by
    show win0_4.index t (0 : Fin 2) * 128 + 1 * (y 0).val = _
    omega
  have hE1 : ((((cfg0.win 4).blk t).view.emb y) 1).val = (y 1).val := by
    show win0_4.index t (1 : Fin 2) * 8192 + 1 * (y 1).val = _
    omega
  show out0_4 (grid0.coords t) (iblk0 V c 0 t) (iblk0 V c 1 t) (iblk0 V c 2 t) (iblk0 V c 3 t) ((cfg0.win 4).xinj (grid0.coords t) y)
      = maskArr (V c main_arg0) (V c main_v0) (V c main_v1) (((cfg0.win 4).blk t).view.emb y)
  refine (out0_4_apply (grid0.coords t) (iblk0 V c 0 t) (iblk0 V c 1 t) (iblk0 V c 2 t) (iblk0 V c 3 t) _).trans ?_
  unfold maskArr
  refine blockWord_eq (grid0.coords t) _ _ _ _ _ _ _ _ _ _ _ (fun k => ?_) (fun k => ?_) ?_ ?_ ?_ ?_
  · exact iblk0_0_apply V c t _ _ hE0 rfl
  · exact iblk0_1_apply V c t _ _ hE1 rfl
  · exact iblk0_2_apply V c t _ _ hE0 rfl
  · exact iblk0_3_apply V c t _ _ rfl hE1
  · show ((((cfg0.win 4).blk t).view.emb y) 0).val = ((grid0.coords t) 0).val * 128 + (y 0).val
    rw [hE0, eg]
  · exact hE1

/-- An index of the mask is in point `t`'s block iff each coordinate is in the block's range on its axis. -/
theorem mem_blk4 (t : Fin cfg0.N) (i : S8192x8192.Idx) :
    i ∈ ((cfg0.win 4).blk t).view.set ↔ ∀ a : Fin 2, win0_4.index t a * S128x8192.size a ≤ (i a).val ∧ (i a).val < win0_4.index t a * S128x8192.size a + S128x8192.size a := by
  show i ∈ ((View.whole main_v2).slice (win0_4.rect t)).set ↔ _
  rw [View.set_slice_whole, Rect.mem_set_unit]
  exact Iff.rfl

/-- Every index of the mask is in the block of the point that holds its row: row `R` is point `R / 128`'s. -/
theorem cover4 (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto4 ⟨(i 0).val / 128, by omega⟩
  have q0 : win0_4.index t (0 : Fin 2) = (i 0).val / 128 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 8192 ≤ (i 1).val ∧ (i 1).val < win0_4.index t (1 : Fin 2) * 8192 + 8192; omega

/-- THE MASK after the region: at every index the word of its pair. -/
theorem final4 (c : Dev nD) :
    (dat0 V q c).arrAt 4 cfg0.N = maskArr (V c main_arg0) (V c main_v0) (V c main_v1) :=
  (dat0 V q c).arrAt_eq_of_cover 4 (maskArr (V c main_arg0) (V c main_v0) (V c main_v1)) (fun t _ => flushed4_eq V q c t) cover4

end Final

section Inputs

variable {F : FTy → Type} [FloatOps F]
variable (V : (c : Dev nD) → (b : Ref sig .tc) → Buf (Elt F) ((c : Thread nD τ).loc b))
variable (q : Fin cfg0.W → PosShare TreeShare)

/-- The four input windows' arrays are never written: after the region each holds what the region found. -/
theorem kept_in (c : Dev nD) (w : Fin cfg0.W) (hw : w ≠ 4) : (dat0 V q c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨4, _⟩, h => exact absurd rfl h
  exact ((dat0 V q c).arrAt_in w hin cfg0.N).trans (A_eq0 V q c w)

end Inputs

section Reading

/-- Two numbers below 8192 differ as 32-bit words exactly when they differ. -/
theorem cmpi_ne_ofNat (r j : Fin 8192) :
    IntOp.cmpi .ne (BitVec.ofNat 32 r.val) (BitVec.ofNat 32 j.val) = BitVec.ofBool (decide (r.val ≠ j.val)) := by
  show BitVec.ofBool (BitVec.ofNat 32 r.val != BitVec.ofNat 32 j.val) = _
  congr 1
  have hr := r.isLt
  have hj := j.isLt
  rw [Bool.eq_iff_iff]
  simp only [bne_iff_ne, ne_eq, decide_eq_true_eq]
  constructor
  · intro h e; exact h (by rw [e])
  · intro h e
    apply h
    have := congrArg BitVec.toNat e
    rw [BitVec.toNat_ofNat, BitVec.toNat_ofNat, Nat.mod_eq_of_lt (by omega), Nat.mod_eq_of_lt (by omega)] at this
    exact this

/-- A one-bit word widened to 32 bits is 1 or 0. -/
theorem setWidth_ofBool (b : Bool) : (BitVec.ofBool b).setWidth 32 = if b = true then 1#32 else 0#32 := by
  cases b <;> rfl

/-- THE MASK WORD READ: 1 when the labels agree, the points differ and the squared distance lies in [0, 25), else 0. -/
theorem keepWord_eq_ite (pos : FVec Ideal S8192x3 .f32) (bcol : IVec S8192x1 32) (brow : IVec S1x8192 32) (r j : Fin 8192) :
    keepWord pos bcol brow r j
      = if bcol (ix2 r (0 : Fin 1)) = brow (ix2 (0 : Fin 1) j) ∧ r.val ≠ j.val
            ∧ dist2 pos r j < Ideal.ofBits .f32 0x41C80000#32 ∧ Ideal.ofBits .f32 0x00000000#32 ≤ dist2 pos r j
        then 1#32 else 0#32 := by
  unfold keepWord
  rw [cmpi_ne_ofNat]
  show (IntOp.andi (IntOp.andi (BitVec.ofBool (bcol (ix2 r (0 : Fin 1)) == brow (ix2 (0 : Fin 1) j))) (BitVec.ofBool (decide (r.val ≠ j.val))))
      (IntOp.andi (BitVec.ofBool (decide (dist2 pos r j < Ideal.ofBits .f32 0x41C80000#32)))
        (BitVec.ofBool (decide (Ideal.ofBits .f32 0x00000000#32 ≤ dist2 pos r j))))).setWidth 32 = _
  rw [WordArith.andi_ofBool, WordArith.andi_ofBool, WordArith.andi_ofBool, setWidth_ofBool]
  simp only [Bool.and_eq_true, decide_eq_true_eq, beq_iff_eq, and_assoc]

end Reading

end Cert.KernelIdeal.Hand

end
-- ==== Proof.MaskBridge.lean ====
/-
  The mask of the kernel's program and the mask of the reference, flattened, are one array of bits.

  The kernel's program reshapes the label vector into a column and a row, runs the region, which leaves in the
  8192 × 8192 mask array the word `keepWord` of every pair (1 or 0), then flattens the mask row by row and compares each
  word with zero. The reference computes on the host, for every pair, the label test, the test "not on the diagonal"
  (the complement of `iota₀ + 0 = iota₁`), and the two distance tests on the sum over the three coordinates of the squared
  differences, conjoins the four bits, and flattens.

  Here: what the region is entered with (`entry_pos`, `entry_col`, `entry_row`) and the mask at its exit as a function of
  the launched arrays (`mask_eq`); the two flattened arrays as literal compositions of the printed operations (`kFlatT`;
  `refFlatT` over `refDiff`, `refD2`, `refSame`, `refNotSelf`, `refMask`); each read at a flat index `e`, whose row is
  `e / 8192` and column `e mod 8192` (`flat_apply`). A one-bit word widened to 32 bits differs from zero exactly when it is
  1, so the kernel's side is the conjunction of its four bits (`kFlatT_mask_apply`); on the reference's side the sum from
  the zero word of the three squares is `0 + ((dx·dx + dy·dy) + dz·dz)`, the kernel's squared distance (`refD2_apply`), and
  the complement of the bit of an equality is the bit of the inequality (`refNotSelf_apply`). The two conjunctions differ
  in association only (`flat_bridge`).
-/
import proofs.«120686_j44890998178156_1_alg».proof.Proof.KIValue
import proofs.«120686_j44890998178156_1_alg».proof.Proof.KIFold
import proofs.«120686_j44890998178156_1_alg».proof.ReferenceIdeal
import Idealize.ShloMosaic.Lib.StableHlo.Run
import Idealize.ShloMosaic.Lib.IdealHost
import Idealize.ShloMosaic.PureOps.Ideal.Laws

set_option maxRecDepth 16384

noncomputable section

namespace Cert.Bridge

open Idealize.ShloMosaic Idealize.ShloMosaic.TcCoe
open Idealize.SL Idealize.SL.Sem
open Idealize.ShloMosaic.ValueIdx
open scoped BigOperators

variable [Cert.KernelIdeal.Facts] [Cert.ReferenceIdeal.Facts]

/-! ## The kernel program's side: the two label reshapes, and the flattened mask compared with zero -/

section KernelSide
open Cert.KernelIdeal Cert.KernelIdeal.Facts₀

/-- The label vector as a column: the first reshape before the region. -/
def colOf (b : IVec S8192 32) : IVec S8192x1 32 := shapeCast S8192x1 b shapeCasts_S8192_S8192x1

/-- The label vector as a row: the second reshape before the region. -/
def rowOf (b : IVec S8192 32) : IVec S1x8192 32 := shapeCast S1x8192 b shapeCasts_S8192_S1x8192

/-- The mask flattened row by row and compared with the zero word: the first three host operations after the region. -/
def kFlatT (M : S8192x8192.Idx → BitVec 32) : IVec S67108864 1 :=
  cmpi .ne (shapeCast S67108864 M shapeCasts_S8192x8192_S67108864)
    (broadcastInDim S67108864 ![] bcast_S_S67108864 (constantI S_ 32 0#32))

end KernelSide

/-! ## Reading the layout operations at an index -/

section Reading
variable {α : Type}

/-- The row of a flat index of an 8192 × 8192 array laid out row by row. -/
def rowIx (e : (⟨1, ![67108864]⟩ : Shape).Idx) : Fin 8192 := ⟨(e 0).val / 8192, by have : (e 0).val < 67108864 := (e 0).isLt; omega⟩
/-- The column of a flat index. -/
def colIx (e : (⟨1, ![67108864]⟩ : Shape).Idx) : Fin 8192 := ⟨(e 0).val % 8192, Nat.mod_lt _ (by decide)⟩

/-- An [8192, 8192] array flattened: entry `e` is the entry at row `e / 8192`, column `e mod 8192`. -/
theorem flat_apply (x : (⟨2, ![8192, 8192]⟩ : Shape).Idx → α)
    (h : (⟨2, ![8192, 8192]⟩ : Shape).ShapeCasts ⟨1, ![67108864]⟩) (e : (⟨1, ![67108864]⟩ : Shape).Idx) :
    shapeCast ⟨1, ![67108864]⟩ x h e = x (ix2 (rowIx e) (colIx e)) :=
  shapeCast_apply x h e _ (by
    rw [Shape.rowMajor_val_two, Shape.rowMajor_val_one]
    show (e 0).val / 8192 * 8192 + (e 0).val % 8192 = (e 0).val
    omega)

/-- A vector `[a]` cast to the column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

end Reading

section Words

/-- A one-bit word widened to 32 bits differs from zero exactly when it is 1. -/
theorem cmpi_ne_setWidth_zero (w : BitVec 1) : IntOp.cmpi .ne (w.setWidth 32) 0#32 = w := by
  rcases BitVec.eq_zero_or_eq_one w with h | h <;> subst h <;> decide

/-- The complement of the bit of an equality is the bit of the inequality. -/
theorem not_cmpi_eq (a b : BitVec 32) : ~~~(IntOp.cmpi .eq a b) = IntOp.cmpi .ne a b := by
  show ~~~(BitVec.ofBool (a == b)) = BitVec.ofBool (a != b)
  rw [bne]
  cases (a == b) <;> decide

end Words

section KernelRead
open Cert.KernelIdeal Cert.KernelIdeal.Hand

/-- The column of labels at row `i` is label `i`. -/
theorem colOf_apply (b : IVec S8192 32) (i : Fin 8192) (u : Fin 1) : colOf b (ix2 i u) = b (ix1 i) := by
  unfold colOf; exact shapeCast_a_a1_apply b _ i u

/-- The row of labels at column `j` is label `j`. -/
theorem rowOf_apply (b : IVec S8192 32) (u : Fin 1) (j : Fin 8192) : rowOf b (ix2 u j) = b (ix1 j) := by
  unfold rowOf; exact shapeCast_a_1a_apply b _ u j

/-- The kernel program's flattened test at a flat index: the mask word of its row and column differs from zero. -/
theorem kFlatT_apply (M : S8192x8192.Idx → BitVec 32) (e : S67108864.Idx) :
    kFlatT M e = IntOp.cmpi .ne (M (ix2 (rowIx e) (colIx e))) 0#32 := by
  unfold kFlatT
  show IntOp.cmpi .ne (shapeCast S67108864 M _ e) (broadcastInDim S67108864 ![] _ (constantI S_ 32 0#32) e) = _
  rw [flat_apply, broadcastInDim_scalar_apply]
  rfl

/-- On the mask of the kernel, that is the conjunction of the four one-bit tests of the pair. -/
theorem kFlatT_mask_apply (pos : FVec Ideal S8192x3 .f32) (batch : IVec S8192 32) (e : S67108864.Idx) :
    kFlatT (maskArr pos (colOf batch) (rowOf batch)) e
      = IntOp.andi
          (IntOp.andi (IntOp.cmpi .eq (batch (ix1 (rowIx e))) (batch (ix1 (colIx e))))
            (IntOp.cmpi .ne (BitVec.ofNat 32 (rowIx e).val) (BitVec.ofNat 32 (colIx e).val)))
          (IntOp.andi (FloatOps.cmpf (F := Ideal) .olt (dist2 pos (rowIx e) (colIx e)) (Ideal.ofBits .f32 0x41C80000#32))
            (FloatOps.cmpf (F := Ideal) .oge (dist2 pos (rowIx e) (colIx e)) (Ideal.ofBits .f32 0x00000000#32))) := by
  rw [kFlatT_apply]
  show IntOp.cmpi .ne (keepWord pos (colOf batch) (rowOf batch) (rowIx e) (colIx e)) 0#32 = _
  unfold keepWord
  rw [cmpi_ne_setWidth_zero, colOf_apply, rowOf_apply]

end KernelRead

/-! ## The reference's side: the mask on the host, flattened -/

section RefSide
open Cert.ReferenceIdeal Cert.ReferenceIdeal.Facts₀

/-- The differences of every pair of points, coordinate by coordinate: `pos[:, None, :] - pos[None, :, :]`. -/
def refDiff (pos : FVec Ideal S8192x3 .f32) : FVec Ideal S8192x8192x3 .f32 :=
  subf
    (broadcastInDim S8192x8192x3 ![0, 1, 2] bcast_S8192x1x3_S8192x8192x3_0_1_2
      (broadcastInDim S8192x1x3 ![0, 2] bcast_S8192x3_S8192x1x3_0_2 pos))
    (broadcastInDim S8192x8192x3 ![0, 1, 2] bcast_S1x8192x3_S8192x8192x3_0_1_2
      (broadcastInDim S1x8192x3 ![1, 2] bcast_S8192x3_S1x8192x3_1_2 pos))

/-- The squared distances: the squares of the differences summed over the coordinate axis, from the zero word. -/
def refD2 (pos : FVec Ideal S8192x3 .f32) : FVec Ideal S8192x8192 .f32 :=
  Host.reduceAdd (F := Ideal) (mulf (refDiff pos) (refDiff pos)) (constant (F := Ideal) S_ .f32 0x00000000#32)
    reducesTo_S8192x8192x3_S8192x8192_d2 h_S_

/-- The label test: `batch[:, None] == batch[None, :]`. -/
def refSame (batch : IVec S8192 32) : IVec S8192x8192 1 :=
  cmpi .eq
    (broadcastInDim S8192x8192 ![0, 1] bcast_S8192x1_S8192x8192_0_1 (broadcastInDim S8192x1 ![0] bcast_S8192_S8192x1_0 batch))
    (broadcastInDim S8192x8192 ![0, 1] bcast_S1x8192_S8192x8192_0_1 (broadcastInDim S1x8192 ![1] bcast_S8192_S1x8192_1 batch))

/-- The test "not on the diagonal": the complement of `iota₀ + 0 == iota₁`. -/
def refNotSelf : IVec S8192x8192 1 :=
  noti (cmpi .eq
    (addi (iotaInDim S8192x8192 32 0) (broadcastInDim S8192x8192 ![] bcast_S_S8192x8192 (constantI S_ 32 0#32)))
    (iotaInDim S8192x8192 32 1))

/-- The reference's mask: the four tests conjoined in its order. -/
def refMask (pos : FVec Ideal S8192x3 .f32) (batch : IVec S8192 32) : IVec S8192x8192 1 :=
  andi
    (andi (andi (refSame batch) refNotSelf)
      (cmpf .olt (refD2 pos) (broadcastInDim S8192x8192 ![] bcast_S_S8192x8192 (constant (F := Ideal) S_ .f32 0x41C80000#32))))
    (cmpf .oge (refD2 pos) (broadcastInDim S8192x8192 ![] bcast_S_S8192x8192 (constant (F := Ideal) S_ .f32 0x00000000#32)))

/-- The reference's mask flattened row by row. -/
def refFlatT (pos : FVec Ideal S8192x3 .f32) (batch : IVec S8192 32) : IVec S67108864 1 :=
  shapeCast S67108864 (refMask pos batch) shapeCasts_S8192x8192_S67108864

/-- The difference array at `(i, j, k)`: coordinate `k` of point `i` minus that of point `j`. -/
theorem refDiff_apply (pos : FVec Ideal S8192x3 .f32) (i j : Fin 8192) (k : Fin 3) :
    refDiff pos (ix3 i j k) = pos (ix2 i k) - pos (ix2 j k) := by
  unfold refDiff
  rw [subf_apply]
  congr 1
  · refine (broadcastInDim_apply _ _ _ (ix3 i j k) (ix3 i (0 : Fin 1) k) fun a => ?_).trans ?_
    · match a with
      | ⟨0, _⟩ => rfl
      | ⟨1, _⟩ => rfl
      | ⟨2, _⟩ => rfl
    · exact broadcastInDim_apply _ _ _ (ix3 i (0 : Fin 1) k) (ix2 i k) fun a => by
        match a with
        | ⟨0, _⟩ => rfl
        | ⟨1, _⟩ => rfl
  · refine (broadcastInDim_apply _ _ _ (ix3 i j k) (ix3 (0 : Fin 1) j k) fun a => ?_).trans ?_
    · match a with
      | ⟨0, _⟩ => rfl
      | ⟨1, _⟩ => rfl
      | ⟨2, _⟩ => rfl
    · exact broadcastInDim_apply _ _ _ (ix3 (0 : Fin 1) j k) (ix2 j k) fun a => by
        match a with
        | ⟨0, _⟩ => rfl
        | ⟨1, _⟩ => rfl

/-- The reference's squared distance is the kernel's: from zero, the three squares added in order. -/
theorem refD2_apply (pos : FVec Ideal S8192x3 .f32) (i j : Fin 8192) :
    refD2 pos (ix2 i j) = Cert.KernelIdeal.Hand.dist2 pos i j := by
  have hR : S8192x8192x3.Reduces [2] S8192x8192 := by decide
  have h3 : ∀ f : Fin 3 → EReal, ∑ k : Fin (S8192x8192x3.size 2), f k = f 0 + f 1 + f 2 := fun f => Fin.sum_univ_three f
  have hl : ∀ k : Fin 3, hR.lift (ix2 i j) k = ix3 i j k := fun k => funext fun a => by
    match a with
    | ⟨0, _⟩ => exact Fin.ext rfl
    | ⟨1, _⟩ => exact Fin.ext rfl
    | ⟨2, _⟩ => exact Fin.ext rfl
  have hsum : ∑ k : Fin (S8192x8192x3.size 2), mulf (refDiff pos) (refDiff pos) (hR.lift (ix2 i j) k)
      = mulf (refDiff pos) (refDiff pos) (ix3 i j (0 : Fin 3)) + mulf (refDiff pos) (refDiff pos) (ix3 i j (1 : Fin 3))
        + mulf (refDiff pos) (refDiff pos) (ix3 i j (2 : Fin 3)) := by
    refine (h3 fun k => mulf (refDiff pos) (refDiff pos) (hR.lift (ix2 i j) k)).trans ?_
    show mulf (refDiff pos) (refDiff pos) (hR.lift (ix2 i j) (0 : Fin 3)) + mulf (refDiff pos) (refDiff pos) (hR.lift (ix2 i j) (1 : Fin 3))
      + mulf (refDiff pos) (refDiff pos) (hR.lift (ix2 i j) (2 : Fin 3)) = _
    rw [hl, hl, hl]
  unfold refD2
  rw [hostReduceAdd_apply]
  refine (Ideal.hostReduceAdd_single _ hR _ _ (ix2 i j)).trans ?_
  refine (congrArg (fun s => _ + s) hsum).trans ?_
  simp only [mulf_apply, refDiff_apply, constant_apply]
  rw [Ideal.ofBits_zero_f32, zero_add]
  rfl

/-- The label test at `(i, j)`. -/
theorem refSame_apply (batch : IVec S8192 32) (i j : Fin 8192) :
    refSame batch (ix2 i j) = IntOp.cmpi .eq (batch (ix1 i)) (batch (ix1 j)) := by
  unfold refSame
  show IntOp.cmpi .eq _ _ = _
  congr 1
  · refine (broadcastInDim_apply _ _ _ (ix2 i j) (ix2 i (0 : Fin 1)) fun a => ?_).trans ?_
    · match a with
      | ⟨0, _⟩ => rfl
      | ⟨1, _⟩ => rfl
    · exact broadcastInDim_apply _ _ _ (ix2 i (0 : Fin 1)) (ix1 i) fun a => by
        match a with
        | ⟨0, _⟩ => rfl
  · refine (broadcastInDim_apply _ _ _ (ix2 i j) (ix2 (0 : Fin 1) j) fun a => ?_).trans ?_
    · match a with
      | ⟨0, _⟩ => rfl
      | ⟨1, _⟩ => rfl
    · exact broadcastInDim_apply _ _ _ (ix2 (0 : Fin 1) j) (ix1 j) fun a => by
        match a with
        | ⟨0, _⟩ => rfl

/-- The diagonal test at `(i, j)`: the two numbers differ as 32-bit words. -/
theorem refNotSelf_apply (i j : Fin 8192) :
    refNotSelf (ix2 i j) = IntOp.cmpi .ne (BitVec.ofNat 32 i.val) (BitVec.ofNat 32 j.val) := by
  unfold refNotSelf
  show ~~~(IntOp.cmpi .eq (IntOp.addi (BitVec.ofNat 32 i.val) (broadcastInDim S8192x8192 ![] _ (constantI S_ 32 0#32) (ix2 i j)))
      (BitVec.ofNat 32 j.val)) = _
  rw [broadcastInDim_scalar_apply, not_cmpi_eq]
  show IntOp.cmpi .ne (BitVec.ofNat 32 i.val + 0#32) _ = _
  rw [BitVec.add_zero]

/-- The reference's flattened mask at a flat index: the conjunction of the four one-bit tests of the pair, in its order. -/
theorem refFlatT_apply (pos : FVec Ideal S8192x3 .f32) (batch : IVec S8192 32) (e : S67108864.Idx) :
    refFlatT pos batch e
      = IntOp.andi
          (IntOp.andi
            (IntOp.andi (IntOp.cmpi .eq (batch (ix1 (rowIx e))) (batch (ix1 (colIx e))))
              (IntOp.cmpi .ne (BitVec.ofNat 32 (rowIx e).val) (BitVec.ofNat 32 (colIx e).val)))
            (FloatOps.cmpf (F := Ideal) .olt (Cert.KernelIdeal.Hand.dist2 pos (rowIx e) (colIx e)) (Ideal.ofBits .f32 0x41C80000#32)))
          (FloatOps.cmpf (F := Ideal) .oge (Cert.KernelIdeal.Hand.dist2 pos (rowIx e) (colIx e)) (Ideal.ofBits .f32 0x00000000#32)) := by
  unfold refFlatT
  rw [flat_apply]
  unfold refMask
  show IntOp.andi (IntOp.andi (IntOp.andi (refSame batch _) (refNotSelf _))
      (FloatOps.cmpf .olt (refD2 pos _) (broadcastInDim S8192x8192 ![] _ (constant (F := Ideal) S_ .f32 0x41C80000#32) _)))
      (FloatOps.cmpf .oge (refD2 pos _) (broadcastInDim S8192x8192 ![] _ (constant (F := Ideal) S_ .f32 0x00000000#32) _)) = _
  rw [refSame_apply, refNotSelf_apply, refD2_apply, broadcastInDim_scalar_apply, broadcastInDim_scalar_apply]
  rfl

end RefSide

/-! ## The bridge -/

/-- THE TWO FLATTENED MASKS AGREE: at every flat index both are the conjunction of the same four one-bit tests; the two
    programs only associate the conjunction differently. -/
theorem flat_bridge (pos : FVec Ideal Cert.KernelIdeal.S8192x3 .f32) (batch : IVec Cert.KernelIdeal.S8192 32) :
    kFlatT (Cert.KernelIdeal.Hand.maskArr pos (colOf batch) (rowOf batch)) = refFlatT pos batch := by
  funext e
  rw [kFlatT_mask_apply]
  refine Eq.trans ?_ (refFlatT_apply pos batch e).symm
  show (_ &&& _) &&& (_ &&& _) = ((_ &&& _) &&& _) &&& _
  rw [BitVec.and_assoc, BitVec.and_assoc, BitVec.and_assoc]

/-! ## What the region is entered with, and the mask at its exit -/

section Entry
open Cert.KernelIdeal Cert.KernelIdeal.Hand Cert.KernelIdeal.GenP

variable (m : (ℓ : Loc nD τ sig) → Buf (Elt Ideal) ℓ) (ρ : Dev nD → PrngReg)

/-- The positions are as launched: neither reshape writes them. -/
theorem entry_pos (c : Dev nD) : V1 m ρ c main_arg0 = m ((c : Thread nD τ).loc main_arg0) := by
  show StableHlo.after hostOps0 (W0 m ρ c) (Proc.devRef .tc main_arg0) = _
  after_results

/-- The label column is the launched labels, reshaped. -/
theorem entry_col (c : Dev nD) : V1 m ρ c main_v0 = colOf (m ((c : Thread nD τ).loc main_arg1)) := by
  show StableHlo.after hostOps0 (W0 m ρ c) (Proc.devRef .tc main_v0) = _
  after_results
  rfl

/-- The label row is the launched labels, reshaped. -/
theorem entry_row (c : Dev nD) : V1 m ρ c main_v1 = rowOf (m ((c : Thread nD τ).loc main_arg1)) := by
  show StableHlo.after hostOps0 (W0 m ρ c) (Proc.devRef .tc main_v1) = _
  after_results
  rfl

/-- THE MASK at the region's exit, as a function of the launched positions and labels. -/
theorem mask_eq (c : Dev nD) :
    W2 m ρ c (Proc.devRef .tc main_v2)
      = maskArr (m ((c : Thread nD τ).loc main_arg0)) (colOf (m ((c : Thread nD τ).loc main_arg1)))
          (rowOf (m ((c : Thread nD τ).loc main_arg1))) := by
  refine (W2_out m ρ c).trans ((final4 (V1 m ρ) qs c).trans ?_)
  rw [entry_pos, entry_col, entry_row]

end Entry

end Cert.Bridge

end
-- ==== Proof.KIReadTail.lean ====
/-
  The kernel program's three results at the return, restated over the stage functions shared with the reference's
  side.

  The compaction is the same sequence of operations in both programs, so its stages are named once, over the
  reference's shapes. The kernel's own spelling of a stage and the shared one are the same composition of the same
  operations — they differ in which of two equal shape names they mention, in an identity the called functions apply
  to a scalar argument, and in the proofs of side conditions — so each pair is equal by unfolding both sides. The
  three results then read: the pair index, the distances and the difference vectors as the shared functions of the
  flat mask the region leaves and of the positions.
-/
import proofs.«120686_j44890998178156_1_alg».proof.Proof.KIRead
import proofs.«120686_j44890998178156_1_alg».proof.Proof.TailOut
import proofs.«120686_j44890998178156_1_alg».proof.Proof.MaskBridge

set_option maxRecDepth 16384

noncomputable section

namespace Cert.KernelIdeal.Hand

open Idealize.ShloMosaic Idealize.ShloMosaic.TcCoe
open Idealize.SL Idealize.SL.Sem
open Cert.KernelIdeal Cert.KernelIdeal.Gen Cert.KernelIdeal.GenP

variable [Cert.KernelIdeal.Facts] [Cert.ReferenceIdeal.Facts]

/-! ## Stage by stage -/

section Stages

attribute [local irreducible] Host.reduce Host.reduceWindow Host.scatter Host.gather Host.reduceAdd concatenate

theorem kFlat_eq (M : IVec S8192x8192 32) : kFlat M = Cert.Bridge.kFlatT M := rfl
theorem nzCnt_eq (f : IVec S67108864 1) : nzCnt f = Cert.Tail.nzCntT f := rfl
theorem cumsumF_eq (f : IVec S67108864 1) : cumsumF f = Cert.Tail.cumsumT f := rfl
theorem clipF_eq (x : IVec S67108864 32) : clipF x (constantI S_ 32 0#32) = Cert.Tail.clipT x := rfl
theorem histF_eq (cl : IVec S67108864 32) :
    histF cl (broadcastInDim S524288 ![] bcast_S_S524288 (constantI S_ 32 0#32)) = Cert.Tail.binsT (Cert.Tail.wrapBigT cl) := rfl
theorem cumsum1F_eq (x : IVec S524288 32) : cumsum1F x = Cert.Tail.cumsum1T x := rfl
theorem floorDivide_eq1 (x : IVec S524288 32) (d : IVec S_ 32) : floorDivide x d = Cert.Tail.fdiv1Fn x d := rfl
theorem floorDivide_eq5 (x : IVec S524288 32) (d : IVec S_ 32) : floorDivide x d = Cert.Tail.fdiv5Fn x d := rfl
theorem remainderF_eq (x : IVec S524288 32) (d : IVec S_ 32) : remainderF x d = Cert.Tail.remFn x d := rfl
theorem where4_eq (c : IVec S524288 1) (a : IVec S_ 32) (b : IVec S524288 32) :
    where4 c a b = Cert.Tail.where4Fn c a b := rfl
theorem validF_eq (cnt : IVec S_ 32) : validF cnt = Cert.Tail.validT cnt := rfl
theorem where8_eq (c : IVec S524288 1) (a : IVec S524288 32) (b : IVec S_ 32) :
    where8 c a b = Cert.Tail.where8Fn c a b := rfl
theorem where7_eq (c : IVec S524288 1) (a : FVec Ideal S524288 .f32) (b : FVec Ideal S_ .f32) :
    where7 c a b = Cert.Tail.where7Fn c a b := rfl
theorem where6_eq (c : IVec S524288x1 1) (a : FVec Ideal S524288x3 .f32) (b : FVec Ideal S_ .f32) :
    where6 c a b = Cert.Tail.where6Fn c a b := rfl

/-- The sorted positions of the ones. -/
theorem nzIdx_eq (f : IVec S67108864 1) : nzIdx f = Cert.Tail.nzIdxT f := rfl

/-- The pair index. -/
theorem outIdx_eq (cnt : IVec S_ 32) (idx : IVec S524288 32) : outIdx cnt idx = Cert.Tail.outIdxT cnt idx := rfl

/-- The difference vectors. -/
theorem kOutVec_eq (cnt : IVec S_ 32) (idx : IVec S524288 32) (pos : FVec Ideal S8192x3 .f32) :
    kOutVec cnt idx pos = Cert.Tail.kOutVec cnt idx pos := rfl

/-- The distances. -/
theorem kOutW_eq (cnt : IVec S_ 32) (idx : IVec S524288 32) (pos : FVec Ideal S8192x3 .f32) :
    kOutW cnt idx pos = Cert.Tail.kOutW cnt idx pos := rfl

end Stages

/-! ## The three results -/

variable (m : (ℓ : Loc nD τ sig) → Buf (Elt Ideal) ℓ) (ρ : Dev nD → PrngReg)

theorem Wn_main_v60_tail (c : Dev nD) :
    Wn m ρ c (Proc.devRef .tc main_v60)
      = Cert.Tail.outIdxT (Cert.Tail.nzCntT (Cert.Bridge.kFlatT (W2 m ρ c (Proc.devRef .tc main_v2))))
          (Cert.Tail.nzIdxT (Cert.Bridge.kFlatT (W2 m ρ c (Proc.devRef .tc main_v2)))) :=
  (Wn_main_v60 m ρ c).trans (by rw [outIdx_eq, nzCnt_eq, nzIdx_eq, kFlat_eq])

theorem Wn_main_v55_tail (c : Dev nD) :
    Wn m ρ c (Proc.devRef .tc main_v55)
      = Cert.Tail.kOutW (Cert.Tail.nzCntT (Cert.Bridge.kFlatT (W2 m ρ c (Proc.devRef .tc main_v2))))
          (Cert.Tail.nzIdxT (Cert.Bridge.kFlatT (W2 m ρ c (Proc.devRef .tc main_v2))))
          (W0 m ρ c (Proc.devRef .tc main_arg0)) :=
  (Wn_main_v55 m ρ c).trans (by rw [kOutW_eq, nzCnt_eq, nzIdx_eq, kFlat_eq])

theorem Wn_main_v52_tail (c : Dev nD) :
    Wn m ρ c (Proc.devRef .tc main_v52)
      = Cert.Tail.kOutVec (Cert.Tail.nzCntT (Cert.Bridge.kFlatT (W2 m ρ c (Proc.devRef .tc main_v2))))
          (Cert.Tail.nzIdxT (Cert.Bridge.kFlatT (W2 m ρ c (Proc.devRef .tc main_v2))))
          (W0 m ρ c (Proc.devRef .tc main_arg0)) :=
  (Wn_main_v52 m ρ c).trans (by rw [kOutVec_eq, nzCnt_eq, nzIdx_eq, kFlat_eq])

end Cert.KernelIdeal.Hand

end
-- ==== Proof.RefRun.lean ====
/-
  The reference program's @main as a straight line of host operations, and its run.

  @main is printed in two windows (`main_part0`, `main_part1`) and calls thirteen module-local functions, five of
  which call a function themselves. A call means its callee's body on the call's buffers, so @main is one sequence
  of operations: each callee's operations are listed here at the call site, over the typed references of the call's
  buffer record, the callee's arguments being the caller's buffers. The sequence is cut in three consecutive pieces:

    * `opsMask` — the pairwise differences of the points (`main_v4`), their squared lengths (`main_v6`), the three
      tests (same label, distinct indices, squared distance in [0, 25)) and the flattened pair mask (`main_v25`);
    * `opsNz`   — the positions of the mask's ones in increasing order, at most 524288 of them: the number of ones
      (`main_v27`), the running count of ones, the count of positions at each running-count value (a scatter-add), its
      running count, the floor division and the remainder that turn it into positions, and the positions past the
      number of ones replaced by zero (`main_v47`);
    * `opsOut`  — the outputs gathered at those positions: the row and column of each position (`main_v79`), the
      distance (`main_v74`) and the difference vector (`main_v63`), each masked past the number of pairs.

  `ops` is their concatenation, `main_eq` says @main is `StableHlo.seq ops`, and `run_main` is the library's run of a
  straight line: every weakly fair execution terminates with each TensorCore buffer at the fold of the operations over
  the launch contents (`StableHlo.after ops`).
-/
import proofs.«120686_j44890998178156_1_alg».proof.Proof.Gen.ReferenceIdeal
import Idealize.ShloMosaic.Lib.StableHlo.Run

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The first piece: the thirty operations up to the flattened pair mask `main_v25` (no call among them). -/
abbrev opsMask : List (HloOp τ sig (Elt F)) :=
  [ StableHlo.unary main_arg0 main_v0 (broadcastInDim S8192x1x3 ![0, 2] bcast_S8192x3_S8192x1x3_0_2 : (⟨S8192x3, .f32⟩ : BufTy).Contents (Elt F) → (⟨S8192x1x3, .f32⟩ : BufTy).Contents (Elt F)),
    StableHlo.unary main_arg0 main_v1 (broadcastInDim S1x8192x3 ![1, 2] bcast_S8192x3_S1x8192x3_1_2 : (⟨S8192x3, .f32⟩ : BufTy).Contents (Elt F) → (⟨S1x8192x3, .f32⟩ : BufTy).Contents (Elt F)),
    StableHlo.unary main_v0 main_v2 (broadcastInDim S8192x8192x3 ![0, 1, 2] bcast_S8192x1x3_S8192x8192x3_0_1_2 : (⟨S8192x1x3, .f32⟩ : BufTy).Contents (Elt F) → (⟨S8192x8192x3, .f32⟩ : BufTy).Contents (Elt F)),
    StableHlo.unary main_v1 main_v3 (broadcastInDim S8192x8192x3 ![0, 1, 2] bcast_S1x8192x3_S8192x8192x3_0_1_2 : (⟨S1x8192x3, .f32⟩ : BufTy).Contents (Elt F) → (⟨S8192x8192x3, .f32⟩ : BufTy).Contents (Elt F)),
    StableHlo.binary main_v2 main_v3 main_v4 (subf : (⟨S8192x8192x3, .f32⟩ : BufTy).Contents (Elt F) → (⟨S8192x8192x3, .f32⟩ : BufTy).Contents (Elt F) → (⟨S8192x8192x3, .f32⟩ : BufTy).Contents (Elt F)),
    StableHlo.binary main_v4 main_v4 main_v5 (mulf : (⟨S8192x8192x3, .f32⟩ : BufTy).Contents (Elt F) → (⟨S8192x8192x3, .f32⟩ : BufTy).Contents (Elt F) → (⟨S8192x8192x3, .f32⟩ : BufTy).Contents (Elt F)),
    StableHlo.nullary main_cst (constant S_ .f32 0x00000000#32),
    StableHlo.binary main_v5 main_cst main_v6 ((fun x v => Host.reduceAdd x v reducesTo_S8192x8192x3_S8192x8192_d2 h_S_) : (⟨S8192x8192x3, .f32⟩ : BufTy).Contents (Elt F) → (⟨S_, .f32⟩ : BufTy).Contents (Elt F) → (⟨S8192x8192, .f32⟩ : BufTy).Contents (Elt F)),
    StableHlo.unary main_arg1 main_v7 (broadcastInDim S8192x1 ![0] bcast_S8192_S8192x1_0 : (⟨S8192, .i32⟩ : BufTy).Contents (Elt F) → (⟨S8192x1, .i32⟩ : BufTy).Contents (Elt F)),
    StableHlo.unary main_arg1 main_v8 (broadcastInDim S1x8192 ![1] bcast_S8192_S1x8192_1 : (⟨S8192, .i32⟩ : BufTy).Contents (Elt F) → (⟨S1x8192, .i32⟩ : BufTy).Contents (Elt F)),
    StableHlo.unary main_v7 main_v9 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v8 main_v10 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v9 main_v10 main_v11 (cmpi .eq : (⟨S8192x8192, .i32⟩ : BufTy).Contents (Elt F) → (⟨S8192x8192, .i32⟩ : BufTy).Contents (Elt F) → (⟨S8192x8192, .i1⟩ : BufTy).Contents (Elt F)),
    StableHlo.nullary main_v12 (iotaInDim S8192x8192 32 0),
    StableHlo.nullary main_v13 (iotaInDim S8192x8192 32 1),
    StableHlo.nullary main_c (constantI S_ 32 0#32),
    StableHlo.unary main_c main_v14 (broadcastInDim S8192x8192 ![] bcast_S_S8192x8192 : (⟨S_, .i32⟩ : BufTy).Contents (Elt F) → (⟨S8192x8192, .i32⟩ : BufTy).Contents (Elt F)),
    StableHlo.binary main_v12 main_v14 main_v15 (addi : (⟨S8192x8192, .i32⟩ : BufTy).Contents (Elt F) → (⟨S8192x8192, .i32⟩ : BufTy).Contents (Elt F) → (⟨S8192x8192, .i32⟩ : BufTy).Contents (Elt F)),
    StableHlo.binary main_v15 main_v13 main_v16 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v16 main_v17 (noti : (⟨S8192x8192, .i1⟩ : BufTy).Contents (Elt F) → (⟨S8192x8192, .i1⟩ : BufTy).Contents (Elt F)),
    StableHlo.binary main_v11 main_v17 main_v18 (andi : (⟨S8192x8192, .i1⟩ : BufTy).Contents (Elt F) → (⟨S8192x8192, .i1⟩ : BufTy).Contents (Elt F) → (⟨S8192x8192, .i1⟩ : BufTy).Contents (Elt F)),
    StableHlo.nullary main_cst_0 (constant S_ .f32 0x41C80000#32),
    StableHlo.unary main_cst_0 main_v19 (broadcastInDim S8192x8192 ![] bcast_S_S8192x8192 : (⟨S_, .f32⟩ : BufTy).Contents (Elt F) → (⟨S8192x8192, .f32⟩ : BufTy).Contents (Elt F)),
    StableHlo.binary main_v6 main_v19 main_v20 (cmpf .olt : (⟨S8192x8192, .f32⟩ : BufTy).Contents (Elt F) → (⟨S8192x8192, .f32⟩ : BufTy).Contents (Elt F) → (⟨S8192x8192, .i1⟩ : BufTy).Contents (Elt F)),
    StableHlo.binary main_v18 main_v20 main_v21 (andi : (⟨S8192x8192, .i1⟩ : BufTy).Contents (Elt F) → (⟨S8192x8192, .i1⟩ : BufTy).Contents (Elt F) → (⟨S8192x8192, .i1⟩ : BufTy).Contents (Elt F)),
    StableHlo.nullary main_cst_1 (constant S_ .f32 0x00000000#32),
    StableHlo.unary main_cst_1 main_v22 (broadcastInDim S8192x8192 ![] bcast_S_S8192x8192 : (⟨S_, .f32⟩ : BufTy).Contents (Elt F) → (⟨S8192x8192, .f32⟩ : BufTy).Contents (Elt F)),
    StableHlo.binary main_v6 main_v22 main_v23 (cmpf .oge : (⟨S8192x8192, .f32⟩ : BufTy).Contents (Elt F) → (⟨S8192x8192, .f32⟩ : BufTy).Contents (Elt F) → (⟨S8192x8192, .i1⟩ : BufTy).Contents (Elt F)),
    StableHlo.binary main_v21 main_v23 main_v24 (andi : (⟨S8192x8192, .i1⟩ : BufTy).Contents (Elt F) → (⟨S8192x8192, .i1⟩ : BufTy).Contents (Elt F) → (⟨S8192x8192, .i1⟩ : BufTy).Contents (Elt F)),
    StableHlo.reshape main_v24 main_v25 rfl shapeCasts_S8192x8192_S67108864 ]

/-- The second piece: from the mask to the sorted positions of its ones, `main_v47`. The calls, in order:
    `cumsum` (a conversion, then `cumsum_0`: a zero, its broadcast, the windowed sum), `clip` (three),
    `cumsum_1` (`cumsum_2`'s three), `floor_divide` (fifteen, then `_where`'s select), `remainder`
    (four, `_where_3`'s select, sixteen more), `_where_4` (three). -/
abbrev opsNz : List (HloOp τ sig (Elt F)) :=
  [ StableHlo.unary main_v25 main_v26 ((extui 32 · natLt_1_32) : (⟨S67108864, .i1⟩ : BufTy).Contents (Elt F) → (⟨S67108864, .i32⟩ : BufTy).Contents (Elt F)),
    StableHlo.nullary main_c_2 (constantI S_ 32 0#32),
    StableHlo.binary main_v26 main_c_2 main_v27 ((fun x v => Host.reduce IntOp.addi x v reducesTo_S67108864_S_d0 h_S_) : (⟨S67108864, .i32⟩ : BufTy).Contents (Elt F) → (⟨S_, .i32⟩ : BufTy).Contents (Elt F) → (⟨S_, .i32⟩ : BufTy).Contents (Elt F)),
    StableHlo.TRef.unary (.of main_v25 : StableHlo.TRef sig ⟨S67108864, .i1⟩) main_call0.v0 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v0 main_call0.call0.v0 main_call0.call0.v1 (fun x v => Host.reduceWindow IntOp.addi ![67108864] ![1] ![67108863] ![0] x v reduceWindows_S67108864_S67108864_w67108864s1p67108863_0 h_S_),
    StableHlo.nullary main_c_3 (constantI S_ 32 0#32),
    StableHlo.unary main_c_3 main_v29 (broadcastInDim S524288 ![] bcast_S_S524288 : (⟨S_, .i32⟩ : BufTy).Contents (Elt F) → (⟨S524288, .i32⟩ : BufTy).Contents (Elt F)),
    StableHlo.nullary main_c_4 (constantI S_ 32 0#32),
    StableHlo.TRef.unary (.of main_c_4 : StableHlo.TRef sig ⟨S_, .i32⟩) main_call1.v0 id,
    StableHlo.TRef.unary main_call1.v0 main_call1.v1 (broadcastInDim S67108864 ![] bcast_S_S67108864),
    StableHlo.TRef.binary main_call1.v1 (.of main_v28 : StableHlo.TRef sig ⟨S67108864, .i32⟩) main_call1.v2 maxsi,
    StableHlo.nullary main_c_5 (constantI S_ 32 0#32),
    StableHlo.unary main_c_5 main_v31 (broadcastInDim S67108864 ![] bcast_S_S67108864 : (⟨S_, .i32⟩ : BufTy).Contents (Elt F) → (⟨S67108864, .i32⟩ : BufTy).Contents (Elt F)),
    StableHlo.binary main_v30 main_v31 main_v32 (cmpi .slt : (⟨S67108864, .i32⟩ : BufTy).Contents (Elt F) → (⟨S67108864, .i32⟩ : BufTy).Contents (Elt F) → (⟨S67108864, .i1⟩ : BufTy).Contents (Elt F)),
    StableHlo.nullary main_c_6 (constantI S_ 32 524288#32),
    StableHlo.unary main_c_6 main_v33 (broadcastInDim S67108864 ![] bcast_S_S67108864 : (⟨S_, .i32⟩ : BufTy).Contents (Elt F) → (⟨S67108864, .i32⟩ : BufTy).Contents (Elt F)),
    StableHlo.binary main_v30 main_v33 main_v34 (addi : (⟨S67108864, .i32⟩ : BufTy).Contents (Elt F) → (⟨S67108864, .i32⟩ : BufTy).Contents (Elt F) → (⟨S67108864, .i32⟩ : BufTy).Contents (Elt F)),
    StableHlo.ternary main_v32 main_v34 main_v30 main_v35 (select : (⟨S67108864, .i1⟩ : BufTy).Contents (Elt F) → (⟨S67108864, .i32⟩ : BufTy).Contents (Elt F) → (⟨S67108864, .i32⟩ : BufTy).Contents (Elt F) → (⟨S67108864, .i32⟩ : BufTy).Contents (Elt F)),
    StableHlo.unary main_v35 main_v36 (broadcastInDim S67108864x1 ![0] bcast_S67108864_S67108864x1_0 : (⟨S67108864, .i32⟩ : BufTy).Contents (Elt F) → (⟨S67108864x1, .i32⟩ : BufTy).Contents (Elt F)),
    StableHlo.nullary main_c_7 (constantI S_ 32 1#32),
    StableHlo.unary main_c_7 main_v37 (broadcastInDim S67108864 ![] bcast_S_S67108864 : (⟨S_, .i32⟩ : BufTy).Contents (Elt F) → (⟨S67108864, .i32⟩ : BufTy).Contents (Elt F)),
    StableHlo.ternary main_v29 main_v36 main_v37 main_v38 ((fun x i u => Host.scatter scatter_S524288_S67108864x1_S67108864_n_0_0_1 IntOp.addi x i u) : (⟨S524288, .i32⟩ : BufTy).Contents (Elt F) → (⟨S67108864x1, .i32⟩ : BufTy).Contents (Elt F) → (⟨S67108864, .i32⟩ : BufTy).Contents (Elt F) → (⟨S524288, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v38 : StableHlo.TRef sig ⟨S524288, .i32⟩) main_call2.call0.v0 main_call2.call0.v1 (fun x v => Host.reduceWindow IntOp.addi ![524288] ![1] ![524287] ![0] x v reduceWindows_S524288_S524288_w524288s1p524287_0 h_S_),
    StableHlo.nullary main_c_8 (constantI S_ 32 1#32),
    StableHlo.TRef.unary (.of main_c_8 : StableHlo.TRef sig ⟨S_, .i32⟩) main_call3.v0 (broadcastInDim S524288 ![] bcast_S_S524288),
    StableHlo.TRef.binary (.of main_v39 : StableHlo.TRef sig ⟨S524288, .i32⟩) main_call3.v0 main_call3.v1 Host.divsi,
    StableHlo.TRef.unary (.of main_v39 : StableHlo.TRef sig ⟨S524288, .i32⟩) main_call3.v2 signi,
    StableHlo.TRef.unary (.of main_c_8 : StableHlo.TRef sig ⟨S_, .i32⟩) main_call3.v3 signi,
    StableHlo.TRef.unary main_call3.v3 main_call3.v4 (broadcastInDim S524288 ![] bcast_S_S524288),
    StableHlo.TRef.binary main_call3.v2 main_call3.v4 main_call3.v5 (cmpi .ne),
    StableHlo.TRef.unary (.of main_c_8 : StableHlo.TRef sig ⟨S_, .i32⟩) main_call3.v6 (broadcastInDim S524288 ![] bcast_S_S524288),
    StableHlo.TRef.binary (.of main_v39 : StableHlo.TRef sig ⟨S524288, .i32⟩) main_call3.v6 main_call3.v7 Host.remsi,
    StableHlo.TRef.nullary main_call3.c (constantI S_ 32 0#32),
    StableHlo.TRef.unary main_call3.c main_call3.v8 (broadcastInDim S524288 ![] bcast_S_S524288),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S524288 ![] bcast_S_S524288),
    StableHlo.TRef.binary main_call3.v1 main_call3.v11 main_call3.v12 subi,
    StableHlo.TRef.ternary main_call3.v10 main_call3.v12 main_call3.v1 main_call3.call0.v0 select,
    StableHlo.nullary main_c_9 (constantI S_ 32 67108864#32),
    StableHlo.TRef.unary (.of main_c_9 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S524288 ![] bcast_S_S524288),
    StableHlo.TRef.binary (.of main_v40 : StableHlo.TRef sig ⟨S524288, .i32⟩) main_call4.v3 main_call4.v4 Host.remsi,
    StableHlo.TRef.nullary main_call4.c_1 (constantI S_ 32 0#32),
    StableHlo.TRef.unary main_call4.c_1 main_call4.v5 (broadcastInDim S524288 ![] bcast_S_S524288),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S524288 ![] bcast_S_S524288),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S524288 ![] bcast_S_S524288),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S524288 ![] bcast_S_S524288),
    StableHlo.TRef.binary main_call4.v4 main_call4.v13 main_call4.v14 addi,
    StableHlo.TRef.ternary main_call4.v12 main_call4.v14 main_call4.v4 main_call4.v15 select,
    StableHlo.nullary main_v42 (iotaInDim S524288 32 0),
    StableHlo.unary main_v25 main_v43 ((extui 32 · natLt_1_32) : (⟨S67108864, .i1⟩ : BufTy).Contents (Elt F) → (⟨S67108864, .i32⟩ : BufTy).Contents (Elt F)),
    StableHlo.nullary main_c_10 (constantI S_ 32 0#32),
    StableHlo.binary main_v43 main_c_10 main_v44 ((fun x v => Host.reduce IntOp.addi x v reducesTo_S67108864_S_d0 h_S_) : (⟨S67108864, .i32⟩ : BufTy).Contents (Elt F) → (⟨S_, .i32⟩ : BufTy).Contents (Elt F) → (⟨S_, .i32⟩ : BufTy).Contents (Elt F)),
    StableHlo.unary main_v44 main_v45 (broadcastInDim S524288 ![] bcast_S_S524288 : (⟨S_, .i32⟩ : BufTy).Contents (Elt F) → (⟨S524288, .i32⟩ : BufTy).Contents (Elt F)),
    StableHlo.binary main_v42 main_v45 main_v46 (cmpi .sge : (⟨S524288, .i32⟩ : BufTy).Contents (Elt F) → (⟨S524288, .i32⟩ : BufTy).Contents (Elt F) → (⟨S524288, .i1⟩ : BufTy).Contents (Elt F)),
    StableHlo.nullary main_c_11 (constantI S_ 32 0#32),
    StableHlo.TRef.unary (.of main_c_11 : StableHlo.TRef sig ⟨S_, .i32⟩) main_call5.v0 id,
    StableHlo.TRef.unary main_call5.v0 main_call5.v1 (broadcastInDim S524288 ![] bcast_S_S524288),
    StableHlo.TRef.ternary (.of main_v46 : StableHlo.TRef sig ⟨S524288, .i1⟩) main_call5.v1 (.of main_v41 : StableHlo.TRef sig ⟨S524288, .i32⟩) main_call5.v2 select ]

/-- The third piece: the outputs. The calls, in order: `floor_divide_5` (sixteen, then `_where`'s select),
    `remainder` (twenty-one), `_where_6` (four), `_where_7` twice (three each), `_where_8` twice (three each). -/
abbrev opsOut : List (HloOp τ sig (Elt F)) :=
  [ StableHlo.nullary main_v48 (iotaInDim S524288 32 0),
    StableHlo.nullary main_c_12 (constantI S_ 32 524288#32),
    StableHlo.binary main_v27 main_c_12 main_v49 (minsi : (⟨S_, .i32⟩ : BufTy).Contents (Elt F) → (⟨S_, .i32⟩ : BufTy).Contents (Elt F) → (⟨S_, .i32⟩ : BufTy).Contents (Elt F)),
    StableHlo.unary main_v49 main_v50 (broadcastInDim S524288 ![] bcast_S_S524288 : (⟨S_, .i32⟩ : BufTy).Contents (Elt F) → (⟨S524288, .i32⟩ : BufTy).Contents (Elt F)),
    StableHlo.binary main_v48 main_v50 main_v51 (cmpi .slt : (⟨S524288, .i32⟩ : BufTy).Contents (Elt F) → (⟨S524288, .i32⟩ : BufTy).Contents (Elt F) → (⟨S524288, .i1⟩ : BufTy).Contents (Elt F)),
    StableHlo.nullary main_c_13 (constantI S_ 32 8192#32),
    StableHlo.TRef.unary (.of main_c_13 : StableHlo.TRef sig ⟨S_, .i32⟩) main_call6.v0 id,
    StableHlo.TRef.unary main_call6.v0 main_call6.v1 (broadcastInDim S524288 ![] bcast_S_S524288),
    StableHlo.TRef.binary (.of main_v47 : StableHlo.TRef sig ⟨S524288, .i32⟩) main_call6.v1 main_call6.v2 Host.divsi,
    StableHlo.TRef.unary (.of main_v47 : StableHlo.TRef sig ⟨S524288, .i32⟩) main_call6.v3 signi,
    StableHlo.TRef.unary main_call6.v0 main_call6.v4 signi,
    StableHlo.TRef.unary main_call6.v4 main_call6.v5 (broadcastInDim S524288 ![] bcast_S_S524288),
    StableHlo.TRef.binary main_call6.v3 main_call6.v5 main_call6.v6 (cmpi .ne),
    StableHlo.TRef.unary main_call6.v0 main_call6.v7 (broadcastInDim S524288 ![] bcast_S_S524288),
    StableHlo.TRef.binary (.of main_v47 : StableHlo.TRef sig ⟨S524288, .i32⟩) main_call6.v7 main_call6.v8 Host.remsi,
    StableHlo.TRef.nullary main_call6.c (constantI S_ 32 0#32),
    StableHlo.TRef.unary main_call6.c main_call6.v9 (broadcastInDim S524288 ![] bcast_S_S524288),
    StableHlo.TRef.binary main_call6.v8 main_call6.v9 main_call6.v10 (cmpi .ne),
    StableHlo.TRef.binary main_call6.v6 main_call6.v10 main_call6.v11 andi,
    StableHlo.TRef.nullary main_call6.c_0 (constantI S_ 32 1#32),
    StableHlo.TRef.unary main_call6.c_0 main_call6.v12 (broadcastInDim S524288 ![] bcast_S_S524288),
    StableHlo.TRef.binary main_call6.v2 main_call6.v12 main_call6.v13 subi,
    StableHlo.TRef.ternary main_call6.v11 main_call6.v13 main_call6.v2 main_call6.call0.v0 select,
    StableHlo.nullary main_c_14 (constantI S_ 32 8192#32),
    StableHlo.TRef.unary (.of main_c_14 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S524288 ![] bcast_S_S524288),
    StableHlo.TRef.binary (.of main_v47 : StableHlo.TRef sig ⟨S524288, .i32⟩) main_call7.v3 main_call7.v4 Host.remsi,
    StableHlo.TRef.nullary main_call7.c_1 (constantI S_ 32 0#32),
    StableHlo.TRef.unary main_call7.c_1 main_call7.v5 (broadcastInDim S524288 ![] bcast_S_S524288),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S524288 ![] bcast_S_S524288),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S524288 ![] bcast_S_S524288),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S524288 ![] bcast_S_S524288),
    StableHlo.TRef.binary main_call7.v4 main_call7.v13 main_call7.v14 addi,
    StableHlo.TRef.ternary main_call7.v12 main_call7.v14 main_call7.v4 main_call7.v15 select,
    StableHlo.unary main_v51 main_v54 (broadcastInDim S524288x1 ![0] bcast_S524288_S524288x1_0 : (⟨S524288, .i1⟩ : BufTy).Contents (Elt F) → (⟨S524288x1, .i1⟩ : BufTy).Contents (Elt F)),
    StableHlo.reshape main_v4 main_v55 rfl shapeCasts_S8192x8192x3_S67108864x3,
    StableHlo.nullary main_c_15 (constantI S_ 32 0#32),
    StableHlo.unary main_c_15 main_v56 (broadcastInDim S524288 ![] bcast_S_S524288 : (⟨S_, .i32⟩ : BufTy).Contents (Elt F) → (⟨S524288, .i32⟩ : BufTy).Contents (Elt F)),
    StableHlo.binary main_v47 main_v56 main_v57 (cmpi .slt : (⟨S524288, .i32⟩ : BufTy).Contents (Elt F) → (⟨S524288, .i32⟩ : BufTy).Contents (Elt F) → (⟨S524288, .i1⟩ : BufTy).Contents (Elt F)),
    StableHlo.nullary main_c_16 (constantI S_ 32 67108864#32),
    StableHlo.unary main_c_16 main_v58 (broadcastInDim S524288 ![] bcast_S_S524288 : (⟨S_, .i32⟩ : BufTy).Contents (Elt F) → (⟨S524288, .i32⟩ : BufTy).Contents (Elt F)),
    StableHlo.binary main_v47 main_v58 main_v59 (addi : (⟨S524288, .i32⟩ : BufTy).Contents (Elt F) → (⟨S524288, .i32⟩ : BufTy).Contents (Elt F) → (⟨S524288, .i32⟩ : BufTy).Contents (Elt F)),
    StableHlo.ternary main_v57 main_v59 main_v47 main_v60 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v60 main_v61 (broadcastInDim S524288x1 ![0] bcast_S524288_S524288x1_0 : (⟨S524288, .i32⟩ : BufTy).Contents (Elt F) → (⟨S524288x1, .i32⟩ : BufTy).Contents (Elt F)),
    StableHlo.binary main_v55 main_v61 main_v62 ((fun x i => Host.gather gather_S67108864x3_S524288x1_S524288x3_1_0_n_n_0_1_13 x i) : (⟨S67108864x3, .f32⟩ : BufTy).Contents (Elt F) → (⟨S524288x1, .i32⟩ : BufTy).Contents (Elt F) → (⟨S524288x3, .f32⟩ : BufTy).Contents (Elt F)),
    StableHlo.nullary main_cst_17 (constant S_ .f32 0x00000000#32),
    StableHlo.TRef.unary (.of main_cst_17 : StableHlo.TRef sig ⟨S_, .f32⟩) main_call8.v0 id,
    StableHlo.TRef.unary (.of main_v54 : StableHlo.TRef sig ⟨S524288x1, .i1⟩) main_call8.v1 (broadcastInDim S524288x3 ![0, 1] bcast_S524288x1_S524288x3_0_1),
    StableHlo.TRef.unary main_call8.v0 main_call8.v2 (broadcastInDim S524288x3 ![] bcast_S_S524288x3),
    StableHlo.TRef.ternary main_call8.v1 (.of main_v62 : StableHlo.TRef sig ⟨S524288x3, .f32⟩) main_call8.v2 main_call8.v3 select,
    StableHlo.reshape main_v6 main_v64 rfl shapeCasts_S8192x8192_S67108864,
    StableHlo.nullary main_c_18 (constantI S_ 32 0#32),
    StableHlo.unary main_c_18 main_v65 (broadcastInDim S524288 ![] bcast_S_S524288 : (⟨S_, .i32⟩ : BufTy).Contents (Elt F) → (⟨S524288, .i32⟩ : BufTy).Contents (Elt F)),
    StableHlo.binary main_v47 main_v65 main_v66 (cmpi .slt : (⟨S524288, .i32⟩ : BufTy).Contents (Elt F) → (⟨S524288, .i32⟩ : BufTy).Contents (Elt F) → (⟨S524288, .i1⟩ : BufTy).Contents (Elt F)),
    StableHlo.nullary main_c_19 (constantI S_ 32 67108864#32),
    StableHlo.unary main_c_19 main_v67 (broadcastInDim S524288 ![] bcast_S_S524288 : (⟨S_, .i32⟩ : BufTy).Contents (Elt F) → (⟨S524288, .i32⟩ : BufTy).Contents (Elt F)),
    StableHlo.binary main_v47 main_v67 main_v68 (addi : (⟨S524288, .i32⟩ : BufTy).Contents (Elt F) → (⟨S524288, .i32⟩ : BufTy).Contents (Elt F) → (⟨S524288, .i32⟩ : BufTy).Contents (Elt F)),
    StableHlo.ternary main_v66 main_v68 main_v47 main_v69 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v69 main_v70 (broadcastInDim S524288x1 ![0] bcast_S524288_S524288x1_0 : (⟨S524288, .i32⟩ : BufTy).Contents (Elt F) → (⟨S524288x1, .i32⟩ : BufTy).Contents (Elt F)),
    StableHlo.binary main_v64 main_v70 main_v71 ((fun x i => Host.gather gather_S67108864_S524288x1_S524288_n_0_n_n_0_1_1 x i) : (⟨S67108864, .f32⟩ : BufTy).Contents (Elt F) → (⟨S524288x1, .i32⟩ : BufTy).Contents (Elt F) → (⟨S524288, .f32⟩ : BufTy).Contents (Elt F)),
    StableHlo.nullary main_cst_20 (constant S_ .f32 0x3F800000#32),
    StableHlo.TRef.unary (.of main_cst_20 : StableHlo.TRef sig ⟨S_, .f32⟩) main_call9.v0 id,
    StableHlo.TRef.unary main_call9.v0 main_call9.v1 (broadcastInDim S524288 ![] bcast_S_S524288),
    StableHlo.TRef.ternary (.of main_v51 : StableHlo.TRef sig ⟨S524288, .i1⟩) (.of main_v71 : StableHlo.TRef sig ⟨S524288, .f32⟩) main_call9.v1 main_call9.v2 select,
    StableHlo.unary main_v72 main_v73 (Host.sqrt : (⟨S524288, .f32⟩ : BufTy).Contents (Elt F) → (⟨S524288, .f32⟩ : BufTy).Contents (Elt F)),
    StableHlo.nullary main_cst_21 (constant S_ .f32 0x00000000#32),
    StableHlo.TRef.unary (.of main_cst_21 : StableHlo.TRef sig ⟨S_, .f32⟩) main_call10.v0 id,
    StableHlo.TRef.unary main_call10.v0 main_call10.v1 (broadcastInDim S524288 ![] bcast_S_S524288),
    StableHlo.TRef.ternary (.of main_v51 : StableHlo.TRef sig ⟨S524288, .i1⟩) (.of main_v73 : StableHlo.TRef sig ⟨S524288, .f32⟩) main_call10.v1 main_call10.v2 select,
    StableHlo.nullary main_c_22 (constantI S_ 32 4294967295#32),
    StableHlo.TRef.unary (.of main_c_22 : StableHlo.TRef sig ⟨S_, .i32⟩) main_call11.v0 id,
    StableHlo.TRef.unary main_call11.v0 main_call11.v1 (broadcastInDim S524288 ![] bcast_S_S524288),
    StableHlo.TRef.ternary (.of main_v51 : StableHlo.TRef sig ⟨S524288, .i1⟩) (.of main_v52 : StableHlo.TRef sig ⟨S524288, .i32⟩) main_call11.v1 main_call11.v2 select,
    StableHlo.nullary main_c_23 (constantI S_ 32 4294967295#32),
    StableHlo.TRef.unary (.of main_c_23 : StableHlo.TRef sig ⟨S_, .i32⟩) main_call12.v0 id,
    StableHlo.TRef.unary main_call12.v0 main_call12.v1 (broadcastInDim S524288 ![] bcast_S_S524288),
    StableHlo.TRef.ternary (.of main_v51 : StableHlo.TRef sig ⟨S524288, .i1⟩) (.of main_v53 : StableHlo.TRef sig ⟨S524288, .i32⟩) main_call12.v1 main_call12.v2 select,
    StableHlo.unary main_v75 main_v77 (broadcastInDim S1x524288 ![1] bcast_S524288_S1x524288_1 : (⟨S524288, .i32⟩ : BufTy).Contents (Elt F) → (⟨S1x524288, .i32⟩ : BufTy).Contents (Elt F)),
    StableHlo.unary main_v76 main_v78 (broadcastInDim S1x524288 ![1] bcast_S524288_S1x524288_1 : (⟨S524288, .i32⟩ : BufTy).Contents (Elt F) → (⟨S1x524288, .i32⟩ : BufTy).Contents (Elt F)),
    StableHlo.binary main_v77 main_v78 main_v79 ((fun a b => concatenate S2x524288 0 [⟨S1x524288, a⟩, ⟨S1x524288, b⟩] concatenates_S1x524288_S1x524288_S2x524288_d0) : (⟨S1x524288, .i32⟩ : BufTy).Contents (Elt F) → (⟨S1x524288, .i32⟩ : BufTy).Contents (Elt F) → (⟨S2x524288, .i32⟩ : BufTy).Contents (Elt F)) ]

/-- @main's operations in program order. -/
abbrev ops : List (HloOp τ sig (Elt F)) := opsMask ++ opsNz ++ opsOut

set_option maxRecDepth 16384 in
set_option maxHeartbeats 4000000 in
/-- @main is that straight line: the two windows and the functions' definitions unfolded at their calls, both sides are
    one chain of operation steps once sequencing is reassociated. -/
theorem main_eq (c : Dev nD) : main (F := F) c = seq ops := by
  show main (F := F) c = seq (opsMask ++ opsNz ++ opsOut)
  rw [seq_append, seq_append]
  simp only [main, main_part0, main_part1, fn_cumsum_0.body, fn_cumsum.body, fn_clip.body, fn_cumsum_2.body, fn_cumsum_1.body, fn_where.body, fn_floor_divide.body, fn_where_3.body, fn_remainder.body, fn_where_4.body, fn_floor_divide_5.body, fn_where_6.body, fn_where_7.body, fn_where_8.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsMask_sub : (opsMask : List (HloOp τ sig (Elt F))).Forall fun op => op.bufs ⊆ tcRefs τ sig :=
  ⟨unary_bufs_sub .., unary_bufs_sub .., unary_bufs_sub .., unary_bufs_sub .., binary_bufs_sub .., binary_bufs_sub ..,
    nullary_bufs_sub .., binary_bufs_sub .., unary_bufs_sub .., unary_bufs_sub .., unary_bufs_sub .., unary_bufs_sub ..,
    binary_bufs_sub .., nullary_bufs_sub .., nullary_bufs_sub .., nullary_bufs_sub .., unary_bufs_sub .., binary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., binary_bufs_sub .., reshape_bufs_sub ..⟩

theorem opsNz_sub : (opsNz : List (HloOp τ sig (Elt F))).Forall fun op => op.bufs ⊆ tcRefs τ sig :=
  ⟨unary_bufs_sub .., nullary_bufs_sub .., binary_bufs_sub .., unary_bufs_sub .., nullary_bufs_sub .., unary_bufs_sub ..,
    binary_bufs_sub .., nullary_bufs_sub .., unary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., nullary_bufs_sub .., binary_bufs_sub .., unary_bufs_sub .., binary_bufs_sub ..,
    nullary_bufs_sub .., unary_bufs_sub .., unary_bufs_sub .., ternary_bufs_sub ..⟩

theorem opsOut_sub : (opsOut : List (HloOp τ sig (Elt F))).Forall fun op => op.bufs ⊆ tcRefs τ sig :=
  ⟨nullary_bufs_sub .., nullary_bufs_sub .., binary_bufs_sub .., unary_bufs_sub .., binary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., unary_bufs_sub ..,
    ternary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., nullary_bufs_sub .., unary_bufs_sub ..,
    unary_bufs_sub .., ternary_bufs_sub .., nullary_bufs_sub .., unary_bufs_sub .., unary_bufs_sub .., ternary_bufs_sub ..,
    nullary_bufs_sub .., unary_bufs_sub .., unary_bufs_sub .., ternary_bufs_sub .., unary_bufs_sub .., unary_bufs_sub ..,
    binary_bufs_sub ..⟩

/-- Every operation touches TensorCore references only. -/
theorem ops_sub : (ops : List (HloOp τ sig (Elt F))).Forall fun op => op.bufs ⊆ tcRefs τ sig := by
  refine List.forall_iff_forall_mem.mpr fun op h => ?_
  rcases List.mem_append.mp h with h | h
  · rcases List.mem_append.mp h with h | h
    · exact List.forall_iff_forall_mem.mp opsMask_sub op h
    · exact List.forall_iff_forall_mem.mp opsNz_sub op h
  · exact List.forall_iff_forall_mem.mp opsOut_sub op h

set_option maxRecDepth 16384 in
theorem opsMask_fresh : ∀ op ∈ (opsMask : List (HloOp τ sig (Elt F))), op.fresh = ∅ := by
  intro _ h; (repeat (cases h with | head => rfl | tail _ h => ?_)); exact nomatch h
set_option maxRecDepth 16384 in
theorem opsNz_fresh : ∀ op ∈ (opsNz : List (HloOp τ sig (Elt F))), op.fresh = ∅ := by
  intro _ h; (repeat (cases h with | head => rfl | tail _ h => ?_)); exact nomatch h
set_option maxRecDepth 16384 in
theorem opsOut_fresh : ∀ op ∈ (opsOut : List (HloOp τ sig (Elt F))), op.fresh = ∅ := by
  intro _ h; (repeat (cases h with | head => rfl | tail _ h => ?_)); exact nomatch h

/-- Every operation determines its results. -/
theorem ops_fresh : ∀ op ∈ (ops : List (HloOp τ sig (Elt F))), op.fresh = ∅ := by
  intro op h
  rcases List.mem_append.mp h with h | h
  · rcases List.mem_append.mp h with h | h
    · exact opsMask_fresh op h
    · exact opsNz_fresh op h
  · exact opsOut_fresh op h

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.RefRead.lean ====
/-
  What the reference program's buffers hold after each of the three pieces of its straight line (`opsMask`, `opsNz`,
  `opsOut` of the run module), read over an ARBITRARY valuation `W` of the buffers before the piece — so the three
  compose along `after_append`: the fold of a concatenation is the fold of its second part over the fold of its first.

  Each right-hand side is a pure term: the composition of the printed operations that lead to the buffer, written out,
  the functions the program calls (`cumsum`, `clip`, `floor_divide`, `remainder`, the `where`s) being small
  definitions of their own over their arguments' values. The equations hold by computation: the fold unrolled, each
  operation's result decides whether the buffer read is the one it writes, and the typed references' transports are the
  identity at literal references. The host's reductions, windowed sums, gathers, scatter, divisions and square root are
  kept folded meanwhile — their bodies are folds over the operand's elements, and no equation here looks inside them.
-/
import proofs.«120686_j44890998178156_1_alg».proof.Proof.RefRun

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- The fold of a concatenation: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The whole line's fold is the three pieces' folds, one over the other. -/
theorem after_ops (V : Valuation τ sig (Elt F)) : after ops V = after opsOut (after opsNz (after opsMask V)) := by
  show after (opsMask ++ opsNz ++ opsOut) V = _
  rw [after_append, after_append]

/-- The same at a buffer. -/
theorem after_append_apply (l₁ l₂ : List (HloOp τ sig (Elt F))) (V : Valuation τ sig (Elt F)) (b : DevRef τ sig) :
    after (l₁ ++ l₂) V b = after l₂ (after l₁ V) b := by
  rw [after_append]

/-- Contents moved to a buffer's own type and back are the contents. -/
theorem ofBuf_toBuf {T : BufTy} (x : StableHlo.TRef sig T) (v : T.Contents (Elt F)) : x.ofBuf (x.toBuf v) = v := by
  simp only [StableHlo.TRef.ofBuf, StableHlo.TRef.toBuf, cast_cast, cast_eq]

/-- A buffer that no operation of a line writes holds after the line what it held before: each operation writes its
    one result buffer, a reference different from the one read. -/
local macro "kept_by " ops:ident : tactic =>
  `(tactic| exact after_of_forall_not_mem _ _ (List.forall_iff_forall_mem.mp (by
      simp only [$ops:ident, List.Forall, nullary_writes, unary_writes, binary_writes, ternary_writes, quaternary_writes,
        reshape_writes, Finset.mem_singleton]
      repeat' apply And.intro
      all_goals exact devRef_ne_of_ne (by decide))))

/-! ## The functions the program calls, as functions of their arguments' values -/

/-- The running sum of a vector of 67108864 integers: element `k` is the sum of elements `0 … k` (the window of all earlier positions, padded with zeros on the left). -/
def cumsum0Fn (x : IVec S67108864 32) :=
  Host.reduceWindow IntOp.addi ![67108864] ![1] ![67108863] ![0] x (broadcastInDim S_ ![] bcast_S_S_ (constantI S_ 32 0#32)) reduceWindows_S67108864_S67108864_w67108864s1p67108863_0 h_S_

/-- The running count of a mask's ones: the mask widened to 32 bits, then its running sum. -/
def cumsumFn (m : IVec S67108864 1) :=
  cumsum0Fn (extui 32 m natLt_1_32)

/-- The larger of each element and a scalar lower bound. -/
def clipFn (x : IVec S67108864 32) (lo : IVec S_ 32) :=
  maxsi (broadcastInDim S67108864 ![] bcast_S_S67108864 (id lo)) x

/-- The running sum of a vector of 524288 integers. -/
def cumsum2Fn (x : IVec S524288 32) :=
  Host.reduceWindow IntOp.addi ![524288] ![1] ![524287] ![0] x (broadcastInDim S_ ![] bcast_S_S_ (constantI S_ 32 0#32)) reduceWindows_S524288_S524288_w524288s1p524287_0 h_S_

/-- The same running sum, under the name the program calls it by. -/
def cumsum1Fn (x : IVec S524288 32) :=
  cumsum2Fn x

/-- The element-wise choice between two vectors by a mask. -/
def whereFn (c : IVec S524288 1) (a : IVec S524288 32) (b : IVec S524288 32) :=
  select c a b

/-- The truncated quotient of each element by a scalar. -/
def fdivQ (x : IVec S524288 32) (d : IVec S_ 32) :=
  Host.divsi x (broadcastInDim S524288 ![] bcast_S_S524288 d)

/-- Floor division of each element by a scalar: the truncated quotient, less one where the signs differ and the remainder is not zero. -/
def fdivFn (x : IVec S524288 32) (d : IVec S_ 32) :=
  whereFn (andi (cmpi .ne (signi x) (broadcastInDim S524288 ![] bcast_S_S524288 (signi d))) (cmpi .ne (Host.remsi x (broadcastInDim S524288 ![] bcast_S_S524288 d)) (broadcastInDim S524288 ![] bcast_S_S524288 (constantI S_ 32 0#32)))) (subi (fdivQ x d) (broadcastInDim S524288 ![] bcast_S_S524288 (constantI S_ 32 1#32))) (fdivQ x d)

/-- The choice between two scalars by a one-bit scalar. -/
def where3Fn (c : IVec S_ 1) (a : IVec S_ 32) (b : IVec S_ 32) :=
  select c a b

/-- The divisor the remainder uses: one in place of zero. -/
def remDiv (d : IVec S_ 32) :=
  where3Fn (cmpi .eq (id d) (constantI S_ 32 0#32)) (constantI S_ 32 1#32) (id d)

/-- The truncated remainder of each element by that divisor. -/
def remRaw (x : IVec S524288 32) (d : IVec S_ 32) :=
  Host.remsi x (broadcastInDim S524288 ![] bcast_S_S524288 (remDiv d))

/-- The remainder with the divisor's sign: the truncated remainder, plus the divisor where it is not zero and its sign differs from the divisor's. -/
def remFn (x : IVec S524288 32) (d : IVec S_ 32) :=
  select (andi (cmpi .ne (cmpi .slt (remRaw x d) (broadcastInDim S524288 ![] bcast_S_S524288 (constantI S_ 32 0#32))) (broadcastInDim S524288 ![] bcast_S_S524288 (cmpi .slt (remDiv d) (constantI S_ 32 0#32)))) (cmpi .ne (remRaw x d) (broadcastInDim S524288 ![] bcast_S_S524288 (constantI S_ 32 0#32)))) (addi (remRaw x d) (broadcastInDim S524288 ![] bcast_S_S524288 (remDiv d))) (remRaw x d)

/-- The choice between a scalar and a vector's elements by a mask. -/
def where4Fn (c : IVec S524288 1) (a : IVec S_ 32) (b : IVec S524288 32) :=
  select c (broadcastInDim S524288 ![] bcast_S_S524288 (id a)) b

/-- The truncated quotient of each element by a scalar (the second floor division's). -/
def fdiv5Q (x : IVec S524288 32) (d : IVec S_ 32) :=
  Host.divsi x (broadcastInDim S524288 ![] bcast_S_S524288 (id d))

/-- Floor division of each element by a scalar, as the program's second instance spells it. -/
def fdiv5Fn (x : IVec S524288 32) (d : IVec S_ 32) :=
  whereFn (andi (cmpi .ne (signi x) (broadcastInDim S524288 ![] bcast_S_S524288 (signi (id d)))) (cmpi .ne (Host.remsi x (broadcastInDim S524288 ![] bcast_S_S524288 (id d))) (broadcastInDim S524288 ![] bcast_S_S524288 (constantI S_ 32 0#32)))) (subi (fdiv5Q x d) (broadcastInDim S524288 ![] bcast_S_S524288 (constantI S_ 32 1#32))) (fdiv5Q x d)

/-- Rows of three floats kept where a one-column mask is set, a scalar elsewhere. -/
def where6Fn (c : IVec S524288x1 1) (a : FVec F S524288x3 .f32) (z : FVec F S_ .f32) :=
  select (broadcastInDim S524288x3 ![0, 1] bcast_S524288x1_S524288x3_0_1 c) a (broadcastInDim S524288x3 ![] bcast_S_S524288x3 (id z))

/-- A float vector's elements kept where a mask is set, a scalar elsewhere. -/
def where7Fn (c : IVec S524288 1) (a : FVec F S524288 .f32) (z : FVec F S_ .f32) :=
  select c a (broadcastInDim S524288 ![] bcast_S_S524288 (id z))

/-- An integer vector's elements kept where a mask is set, a scalar elsewhere. -/
def where8Fn (c : IVec S524288 1) (a : IVec S524288 32) (z : IVec S_ 32) :=
  select c a (broadcastInDim S524288 ![] bcast_S_S524288 (id z))

/-! ## The first piece: the pair mask -/

/-- The difference vectors `pos i − pos j` of all pairs of points. -/
def refDiff (pos : FVec F S8192x3 .f32) : FVec F S8192x8192x3 .f32 :=
  subf (broadcastInDim S8192x8192x3 ![0, 1, 2] bcast_S8192x1x3_S8192x8192x3_0_1_2 (broadcastInDim S8192x1x3 ![0, 2] bcast_S8192x3_S8192x1x3_0_2 pos)) (broadcastInDim S8192x8192x3 ![0, 1, 2] bcast_S1x8192x3_S8192x8192x3_0_1_2 (broadcastInDim S1x8192x3 ![1, 2] bcast_S8192x3_S1x8192x3_1_2 pos))

/-- The squared distances of all pairs: the host's sum of the squared differences over the three coordinates, from zero. -/
def refD2 (pos : FVec F S8192x3 .f32) : FVec F S8192x8192 .f32 :=
  Host.reduceAdd (F := F) (mulf (refDiff pos) (refDiff pos)) (constant (F := F) S_ .f32 0x00000000#32) reducesTo_S8192x8192x3_S8192x8192_d2 h_S_

/-- The pair mask: same label, `i ≠ j` (the row index, plus zero, not equal to the column index), squared distance below 25 and at least 0. -/
def refMask (pos : FVec F S8192x3 .f32) (batch : IVec S8192 32) : IVec S8192x8192 1 :=
  andi (andi (andi (cmpi .eq (broadcastInDim S8192x8192 ![0, 1] bcast_S8192x1_S8192x8192_0_1 (broadcastInDim S8192x1 ![0] bcast_S8192_S8192x1_0 batch)) (broadcastInDim S8192x8192 ![0, 1] bcast_S1x8192_S8192x8192_0_1 (broadcastInDim S1x8192 ![1] bcast_S8192_S1x8192_1 batch))) (noti (cmpi .eq (addi (iotaInDim S8192x8192 32 0) (broadcastInDim S8192x8192 ![] bcast_S_S8192x8192 (constantI S_ 32 0#32))) (iotaInDim S8192x8192 32 1)))) (cmpf .olt (refD2 pos) (broadcastInDim S8192x8192 ![] bcast_S_S8192x8192 (constant (F := F) S_ .f32 0x41C80000#32)))) (cmpf .oge (refD2 pos) (broadcastInDim S8192x8192 ![] bcast_S_S8192x8192 (constant (F := F) S_ .f32 0x00000000#32)))

/-- The pair mask flattened in row-major order. -/
def refFlat (pos : FVec F S8192x3 .f32) (batch : IVec S8192 32) : IVec S67108864 1 :=
  shapeCast S67108864 (refMask pos batch) shapeCasts_S8192x8192_S67108864

/-! ### After the first piece -/

attribute [local irreducible] Host.reduce Host.reduceWindow Host.scatter Host.gather Host.reduceAdd Host.divsi Host.remsi Host.sqrt concatenate in
set_option maxRecDepth 16384 in
set_option maxHeartbeats 4000000 in
/-- After the first piece the flat mask's buffer holds `refFlat` of the two arguments. -/
theorem mask_v25 (W : Valuation τ sig (Elt F)) :
    after opsMask W (main_v25 : DevRef τ sig) = refFlat (W (main_arg0 : DevRef τ sig)) (W (main_arg1 : DevRef τ sig)) := by
  simp only [after_cons, after_nil]
  rfl

attribute [local irreducible] Host.reduce Host.reduceWindow Host.scatter Host.gather Host.reduceAdd Host.divsi Host.remsi Host.sqrt concatenate in
set_option maxRecDepth 16384 in
set_option maxHeartbeats 4000000 in
/-- After the first piece the differences' buffer holds `refDiff` of the points. -/
theorem mask_v4 (W : Valuation τ sig (Elt F)) :
    after opsMask W (main_v4 : DevRef τ sig) = refDiff (W (main_arg0 : DevRef τ sig)) := by
  simp only [after_cons, after_nil]
  rfl

attribute [local irreducible] Host.reduce Host.reduceWindow Host.scatter Host.gather Host.reduceAdd Host.divsi Host.remsi Host.sqrt concatenate in
set_option maxRecDepth 16384 in
set_option maxHeartbeats 4000000 in
/-- After the first piece the squared distances' buffer holds `refD2` of the points. -/
theorem mask_v6 (W : Valuation τ sig (Elt F)) :
    after opsMask W (main_v6 : DevRef τ sig) = refD2 (W (main_arg0 : DevRef τ sig)) := by
  simp only [after_cons, after_nil]
  rfl

set_option maxRecDepth 16384 in
theorem mask_arg0 (W : Valuation τ sig (Elt F)) :
    after opsMask W (main_arg0 : DevRef τ sig) = W (main_arg0 : DevRef τ sig) := by
  simp only [after_cons, after_nil]
  rfl

set_option maxRecDepth 16384 in
theorem mask_arg1 (W : Valuation τ sig (Elt F)) :
    after opsMask W (main_arg1 : DevRef τ sig) = W (main_arg1 : DevRef τ sig) := by
  simp only [after_cons, after_nil]
  rfl

/-! ## The second piece: the positions of the mask's ones

The seventy-six operations in twelve consecutive stretches — each call's operations a stretch of its own, @main's own
operations between two calls another —, each read on its own over an arbitrary valuation; the piece's buffers are then
the stretches' values composed, a buffer read some stretches after it is written being unchanged in between. -/

/-- The number of ones. -/
abbrev nz0 : List (HloOp τ sig (Elt F)) :=
  [ StableHlo.unary main_v25 main_v26 ((extui 32 · natLt_1_32) : (⟨S67108864, .i1⟩ : BufTy).Contents (Elt F) → (⟨S67108864, .i32⟩ : BufTy).Contents (Elt F)),
    StableHlo.nullary main_c_2 (constantI S_ 32 0#32),
    StableHlo.binary main_v26 main_c_2 main_v27 ((fun x v => Host.reduce IntOp.addi x v reducesTo_S67108864_S_d0 h_S_) : (⟨S67108864, .i32⟩ : BufTy).Contents (Elt F) → (⟨S_, .i32⟩ : BufTy).Contents (Elt F) → (⟨S_, .i32⟩ : BufTy).Contents (Elt F)) ]

/-- `cumsum`: the running count of ones. -/
abbrev nz1 : List (HloOp τ sig (Elt F)) :=
  [ StableHlo.TRef.unary (.of main_v25 : StableHlo.TRef sig ⟨S67108864, .i1⟩) main_call0.v0 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v0 main_call0.call0.v0 main_call0.call0.v1 (fun x v => Host.reduceWindow IntOp.addi ![67108864] ![1] ![67108863] ![0] x v reduceWindows_S67108864_S67108864_w67108864s1p67108863_0 h_S_) ]

/-- 524288 zeros and the clip's lower bound. -/
abbrev nz2 : List (HloOp τ sig (Elt F)) :=
  [ StableHlo.nullary main_c_3 (constantI S_ 32 0#32),
    StableHlo.unary main_c_3 main_v29 (broadcastInDim S524288 ![] bcast_S_S524288 : (⟨S_, .i32⟩ : BufTy).Contents (Elt F) → (⟨S524288, .i32⟩ : BufTy).Contents (Elt F)),
    StableHlo.nullary main_c_4 (constantI S_ 32 0#32) ]

/-- `clip`. -/
abbrev nz3 : List (HloOp τ sig (Elt F)) :=
  [ StableHlo.TRef.unary (.of main_c_4 : StableHlo.TRef sig ⟨S_, .i32⟩) main_call1.v0 id,
    StableHlo.TRef.unary main_call1.v0 main_call1.v1 (broadcastInDim S67108864 ![] bcast_S_S67108864),
    StableHlo.TRef.binary main_call1.v1 (.of main_v28 : StableHlo.TRef sig ⟨S67108864, .i32⟩) main_call1.v2 maxsi ]

/-- The counts per running-count value: the scatter-add. -/
abbrev nz4 : List (HloOp τ sig (Elt F)) :=
  [ StableHlo.nullary main_c_5 (constantI S_ 32 0#32),
    StableHlo.unary main_c_5 main_v31 (broadcastInDim S67108864 ![] bcast_S_S67108864 : (⟨S_, .i32⟩ : BufTy).Contents (Elt F) → (⟨S67108864, .i32⟩ : BufTy).Contents (Elt F)),
    StableHlo.binary main_v30 main_v31 main_v32 (cmpi .slt : (⟨S67108864, .i32⟩ : BufTy).Contents (Elt F) → (⟨S67108864, .i32⟩ : BufTy).Contents (Elt F) → (⟨S67108864, .i1⟩ : BufTy).Contents (Elt F)),
    StableHlo.nullary main_c_6 (constantI S_ 32 524288#32),
    StableHlo.unary main_c_6 main_v33 (broadcastInDim S67108864 ![] bcast_S_S67108864 : (⟨S_, .i32⟩ : BufTy).Contents (Elt F) → (⟨S67108864, .i32⟩ : BufTy).Contents (Elt F)),
    StableHlo.binary main_v30 main_v33 main_v34 (addi : (⟨S67108864, .i32⟩ : BufTy).Contents (Elt F) → (⟨S67108864, .i32⟩ : BufTy).Contents (Elt F) → (⟨S67108864, .i32⟩ : BufTy).Contents (Elt F)),
    StableHlo.ternary main_v32 main_v34 main_v30 main_v35 (select : (⟨S67108864, .i1⟩ : BufTy).Contents (Elt F) → (⟨S67108864, .i32⟩ : BufTy).Contents (Elt F) → (⟨S67108864, .i32⟩ : BufTy).Contents (Elt F) → (⟨S67108864, .i32⟩ : BufTy).Contents (Elt F)),
    StableHlo.unary main_v35 main_v36 (broadcastInDim S67108864x1 ![0] bcast_S67108864_S67108864x1_0 : (⟨S67108864, .i32⟩ : BufTy).Contents (Elt F) → (⟨S67108864x1, .i32⟩ : BufTy).Contents (Elt F)),
    StableHlo.nullary main_c_7 (constantI S_ 32 1#32),
    StableHlo.unary main_c_7 main_v37 (broadcastInDim S67108864 ![] bcast_S_S67108864 : (⟨S_, .i32⟩ : BufTy).Contents (Elt F) → (⟨S67108864, .i32⟩ : BufTy).Contents (Elt F)),
    StableHlo.ternary main_v29 main_v36 main_v37 main_v38 ((fun x i u => Host.scatter scatter_S524288_S67108864x1_S67108864_n_0_0_1 IntOp.addi x i u) : (⟨S524288, .i32⟩ : BufTy).Contents (Elt F) → (⟨S67108864x1, .i32⟩ : BufTy).Contents (Elt F) → (⟨S67108864, .i32⟩ : BufTy).Contents (Elt F) → (⟨S524288, .i32⟩ : BufTy).Contents (Elt F)) ]

/-- `cumsum_1`: their running sum. -/
abbrev nz5 : List (HloOp τ sig (Elt F)) :=
  [ StableHlo.TRef.nullary main_call2.call0.c (constantI S_ 32 0#32),
    StableHlo.TRef.unary main_call2.call0.c main_call2.call0.v0 (broadcastInDim S_ ![] bcast_S_S_),
    StableHlo.TRef.binary (.of main_v38 : StableHlo.TRef sig ⟨S524288, .i32⟩) main_call2.call0.v0 main_call2.call0.v1 (fun x v => Host.reduceWindow IntOp.addi ![524288] ![1] ![524287] ![0] x v reduceWindows_S524288_S524288_w524288s1p524287_0 h_S_) ]

/-- The divisor one. -/
abbrev nz6 : List (HloOp τ sig (Elt F)) :=
  [ StableHlo.nullary main_c_8 (constantI S_ 32 1#32) ]

/-- `floor_divide`. -/
abbrev nz7 : List (HloOp τ sig (Elt F)) :=
  [ StableHlo.TRef.unary (.of main_c_8 : StableHlo.TRef sig ⟨S_, .i32⟩) main_call3.v0 (broadcastInDim S524288 ![] bcast_S_S524288),
    StableHlo.TRef.binary (.of main_v39 : StableHlo.TRef sig ⟨S524288, .i32⟩) main_call3.v0 main_call3.v1 Host.divsi,
    StableHlo.TRef.unary (.of main_v39 : StableHlo.TRef sig ⟨S524288, .i32⟩) main_call3.v2 signi,
    StableHlo.TRef.unary (.of main_c_8 : StableHlo.TRef sig ⟨S_, .i32⟩) main_call3.v3 signi,
    StableHlo.TRef.unary main_call3.v3 main_call3.v4 (broadcastInDim S524288 ![] bcast_S_S524288),
    StableHlo.TRef.binary main_call3.v2 main_call3.v4 main_call3.v5 (cmpi .ne),
    StableHlo.TRef.unary (.of main_c_8 : StableHlo.TRef sig ⟨S_, .i32⟩) main_call3.v6 (broadcastInDim S524288 ![] bcast_S_S524288),
    StableHlo.TRef.binary (.of main_v39 : StableHlo.TRef sig ⟨S524288, .i32⟩) main_call3.v6 main_call3.v7 Host.remsi,
    StableHlo.TRef.nullary main_call3.c (constantI S_ 32 0#32),
    StableHlo.TRef.unary main_call3.c main_call3.v8 (broadcastInDim S524288 ![] bcast_S_S524288),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S524288 ![] bcast_S_S524288),
    StableHlo.TRef.binary main_call3.v1 main_call3.v11 main_call3.v12 subi,
    StableHlo.TRef.ternary main_call3.v10 main_call3.v12 main_call3.v1 main_call3.call0.v0 select ]

/-- The flat length. -/
abbrev nz8 : List (HloOp τ sig (Elt F)) :=
  [ StableHlo.nullary main_c_9 (constantI S_ 32 67108864#32) ]

/-- `remainder`. -/
abbrev nz9 : List (HloOp τ sig (Elt F)) :=
  [ StableHlo.TRef.unary (.of main_c_9 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S524288 ![] bcast_S_S524288),
    StableHlo.TRef.binary (.of main_v40 : StableHlo.TRef sig ⟨S524288, .i32⟩) main_call4.v3 main_call4.v4 Host.remsi,
    StableHlo.TRef.nullary main_call4.c_1 (constantI S_ 32 0#32),
    StableHlo.TRef.unary main_call4.c_1 main_call4.v5 (broadcastInDim S524288 ![] bcast_S_S524288),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S524288 ![] bcast_S_S524288),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S524288 ![] bcast_S_S524288),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S524288 ![] bcast_S_S524288),
    StableHlo.TRef.binary main_call4.v4 main_call4.v13 main_call4.v14 addi,
    StableHlo.TRef.ternary main_call4.v12 main_call4.v14 main_call4.v4 main_call4.v15 select ]

/-- The slots at or past the number of ones, and a zero. -/
abbrev nz10 : List (HloOp τ sig (Elt F)) :=
  [ StableHlo.nullary main_v42 (iotaInDim S524288 32 0),
    StableHlo.unary main_v25 main_v43 ((extui 32 · natLt_1_32) : (⟨S67108864, .i1⟩ : BufTy).Contents (Elt F) → (⟨S67108864, .i32⟩ : BufTy).Contents (Elt F)),
    StableHlo.nullary main_c_10 (constantI S_ 32 0#32),
    StableHlo.binary main_v43 main_c_10 main_v44 ((fun x v => Host.reduce IntOp.addi x v reducesTo_S67108864_S_d0 h_S_) : (⟨S67108864, .i32⟩ : BufTy).Contents (Elt F) → (⟨S_, .i32⟩ : BufTy).Contents (Elt F) → (⟨S_, .i32⟩ : BufTy).Contents (Elt F)),
    StableHlo.unary main_v44 main_v45 (broadcastInDim S524288 ![] bcast_S_S524288 : (⟨S_, .i32⟩ : BufTy).Contents (Elt F) → (⟨S524288, .i32⟩ : BufTy).Contents (Elt F)),
    StableHlo.binary main_v42 main_v45 main_v46 (cmpi .sge : (⟨S524288, .i32⟩ : BufTy).Contents (Elt F) → (⟨S524288, .i32⟩ : BufTy).Contents (Elt F) → (⟨S524288, .i1⟩ : BufTy).Contents (Elt F)),
    StableHlo.nullary main_c_11 (constantI S_ 32 0#32) ]

/-- `_where_4`: zero in those slots. -/
abbrev nz11 : List (HloOp τ sig (Elt F)) :=
  [ StableHlo.TRef.unary (.of main_c_11 : StableHlo.TRef sig ⟨S_, .i32⟩) main_call5.v0 id,
    StableHlo.TRef.unary main_call5.v0 main_call5.v1 (broadcastInDim S524288 ![] bcast_S_S524288),
    StableHlo.TRef.ternary (.of main_v46 : StableHlo.TRef sig ⟨S524288, .i1⟩) main_call5.v1 (.of main_v41 : StableHlo.TRef sig ⟨S524288, .i32⟩) main_call5.v2 select ]

/-- The second piece is its stretches in order. -/
theorem opsNz_split : (opsNz : List (HloOp τ sig (Elt F))) = nz0 ++ (nz1 ++ (nz2 ++ (nz3 ++ (nz4 ++ (nz5 ++ (nz6 ++ (nz7 ++ (nz8 ++ (nz9 ++ (nz10 ++ (nz11))))))))))) := rfl

/-- The number of ones of a flat mask: the host's integer sum of the mask widened to 32 bits, from zero. -/
def nzCnt (mask : IVec S67108864 1) : IVec S_ 32 :=
  Host.reduce IntOp.addi (extui 32 mask natLt_1_32) (constantI S_ 32 0#32) reducesTo_S67108864_S_d0 h_S_

/-- How many positions have each running-count value below 524288: a scatter-add of ones into the zeros at the clipped running counts (a negative count wrapped by 524288, one out of range dropped). -/
def nzBins (cum : IVec S67108864 32) (zeros : IVec S524288 32) : IVec S524288 32 :=
  Host.scatter scatter_S524288_S67108864x1_S67108864_n_0_0_1 IntOp.addi zeros (broadcastInDim S67108864x1 ![0] bcast_S67108864_S67108864x1_0 (select (cmpi .slt cum (broadcastInDim S67108864 ![] bcast_S_S67108864 (constantI S_ 32 0#32))) (addi cum (broadcastInDim S67108864 ![] bcast_S_S67108864 (constantI S_ 32 524288#32))) cum)) (broadcastInDim S67108864 ![] bcast_S_S67108864 (constantI S_ 32 1#32))

/-- The positions of the mask's ones in increasing order, zero from the number of ones on: the running count of ones clipped at zero, the counts per running-count value, their running sum floor-divided by one and reduced by the flat length, and zero in the slots at or past the number of ones. -/
def nzIdx (mask : IVec S67108864 1) : IVec S524288 32 :=
  where4Fn (cmpi .sge (iotaInDim S524288 32 0) (broadcastInDim S524288 ![] bcast_S_S524288 (nzCnt mask))) (constantI S_ 32 0#32) (remFn (fdivFn (cumsum1Fn (nzBins (clipFn (cumsumFn mask) (constantI S_ 32 0#32)) (broadcastInDim S524288 ![] bcast_S_S524288 (constantI S_ 32 0#32)))) (constantI S_ 32 1#32)) (constantI S_ 32 67108864#32))

attribute [local irreducible] Host.reduce Host.reduceWindow Host.scatter Host.gather Host.reduceAdd Host.divsi Host.remsi Host.sqrt concatenate in
theorem nz0_v27 (W : Valuation τ sig (Elt F)) :
    after nz0 W (main_v27 : DevRef τ sig) = nzCnt (W (main_v25 : DevRef τ sig)) := by
  simp only [nz0]
  after_results_simp
  all_goals (try simp only [ofBuf_toBuf])
  all_goals rfl

theorem nz0_keep_v25 (W : Valuation τ sig (Elt F)) :
    after nz0 W (main_v25 : DevRef τ sig) = W (main_v25 : DevRef τ sig) := by
  kept_by nz0

attribute [local irreducible] Host.reduce Host.reduceWindow Host.scatter Host.gather Host.reduceAdd Host.divsi Host.remsi Host.sqrt concatenate in
theorem nz1_v28 (W : Valuation τ sig (Elt F)) :
    after nz1 W (main_v28 : DevRef τ sig) = cumsumFn (W (main_v25 : DevRef τ sig)) := by
  simp only [nz1]
  after_results_simp
  all_goals (try simp only [ofBuf_toBuf])
  all_goals rfl

theorem nz1_keep_v27 (W : Valuation τ sig (Elt F)) :
    after nz1 W (main_v27 : DevRef τ sig) = W (main_v27 : DevRef τ sig) := by
  kept_by nz1

theorem nz1_keep_v25 (W : Valuation τ sig (Elt F)) :
    after nz1 W (main_v25 : DevRef τ sig) = W (main_v25 : DevRef τ sig) := by
  kept_by nz1

attribute [local irreducible] Host.reduce Host.reduceWindow Host.scatter Host.gather Host.reduceAdd Host.divsi Host.remsi Host.sqrt concatenate in
theorem nz2_v29 (W : Valuation τ sig (Elt F)) :
    after nz2 W (main_v29 : DevRef τ sig) = broadcastInDim S524288 ![] bcast_S_S524288 (constantI S_ 32 0#32) := by
  simp only [nz2]
  after_results_simp
  all_goals (try simp only [ofBuf_toBuf])
  all_goals rfl

attribute [local irreducible] Host.reduce Host.reduceWindow Host.scatter Host.gather Host.reduceAdd Host.divsi Host.remsi Host.sqrt concatenate in
theorem nz2_c_4 (W : Valuation τ sig (Elt F)) :
    after nz2 W (main_c_4 : DevRef τ sig) = constantI S_ 32 0#32 := by
  simp only [nz2]
  after_results_simp
  all_goals (try simp only [ofBuf_toBuf])
  all_goals rfl

theorem nz2_keep_v27 (W : Valuation τ sig (Elt F)) :
    after nz2 W (main_v27 : DevRef τ sig) = W (main_v27 : DevRef τ sig) := by
  kept_by nz2

theorem nz2_keep_v25 (W : Valuation τ sig (Elt F)) :
    after nz2 W (main_v25 : DevRef τ sig) = W (main_v25 : DevRef τ sig) := by
  kept_by nz2

theorem nz2_keep_v28 (W : Valuation τ sig (Elt F)) :
    after nz2 W (main_v28 : DevRef τ sig) = W (main_v28 : DevRef τ sig) := by
  kept_by nz2

attribute [local irreducible] Host.reduce Host.reduceWindow Host.scatter Host.gather Host.reduceAdd Host.divsi Host.remsi Host.sqrt concatenate in
theorem nz3_v30 (W : Valuation τ sig (Elt F)) :
    after nz3 W (main_v30 : DevRef τ sig) = clipFn (W (main_v28 : DevRef τ sig)) (W (main_c_4 : DevRef τ sig)) := by
  simp only [nz3]
  after_results_simp
  all_goals (try simp only [ofBuf_toBuf])
  all_goals rfl

theorem nz3_keep_v27 (W : Valuation τ sig (Elt F)) :
    after nz3 W (main_v27 : DevRef τ sig) = W (main_v27 : DevRef τ sig) := by
  kept_by nz3

theorem nz3_keep_v25 (W : Valuation τ sig (Elt F)) :
    after nz3 W (main_v25 : DevRef τ sig) = W (main_v25 : DevRef τ sig) := by
  kept_by nz3

theorem nz3_keep_v29 (W : Valuation τ sig (Elt F)) :
    after nz3 W (main_v29 : DevRef τ sig) = W (main_v29 : DevRef τ sig) := by
  kept_by nz3

attribute [local irreducible] Host.reduce Host.reduceWindow Host.scatter Host.gather Host.reduceAdd Host.divsi Host.remsi Host.sqrt concatenate in
theorem nz4_v38 (W : Valuation τ sig (Elt F)) :
    after nz4 W (main_v38 : DevRef τ sig) = nzBins (W (main_v30 : DevRef τ sig)) (W (main_v29 : DevRef τ sig)) := by
  simp only [nz4]
  after_results_simp
  all_goals (try simp only [ofBuf_toBuf])
  all_goals rfl

theorem nz4_keep_v27 (W : Valuation τ sig (Elt F)) :
    after nz4 W (main_v27 : DevRef τ sig) = W (main_v27 : DevRef τ sig) := by
  kept_by nz4

theorem nz4_keep_v25 (W : Valuation τ sig (Elt F)) :
    after nz4 W (main_v25 : DevRef τ sig) = W (main_v25 : DevRef τ sig) := by
  kept_by nz4

attribute [local irreducible] Host.reduce Host.reduceWindow Host.scatter Host.gather Host.reduceAdd Host.divsi Host.remsi Host.sqrt concatenate in
theorem nz5_v39 (W : Valuation τ sig (Elt F)) :
    after nz5 W (main_v39 : DevRef τ sig) = cumsum1Fn (W (main_v38 : DevRef τ sig)) := by
  simp only [nz5]
  after_results_simp
  all_goals (try simp only [ofBuf_toBuf])
  all_goals rfl

theorem nz5_keep_v27 (W : Valuation τ sig (Elt F)) :
    after nz5 W (main_v27 : DevRef τ sig) = W (main_v27 : DevRef τ sig) := by
  kept_by nz5

theorem nz5_keep_v25 (W : Valuation τ sig (Elt F)) :
    after nz5 W (main_v25 : DevRef τ sig) = W (main_v25 : DevRef τ sig) := by
  kept_by nz5

attribute [local irreducible] Host.reduce Host.reduceWindow Host.scatter Host.gather Host.reduceAdd Host.divsi Host.remsi Host.sqrt concatenate in
theorem nz6_c_8 (W : Valuation τ sig (Elt F)) :
    after nz6 W (main_c_8 : DevRef τ sig) = constantI S_ 32 1#32 := by
  simp only [nz6]
  after_results_simp
  all_goals (try simp only [ofBuf_toBuf])
  all_goals rfl

theorem nz6_keep_v27 (W : Valuation τ sig (Elt F)) :
    after nz6 W (main_v27 : DevRef τ sig) = W (main_v27 : DevRef τ sig) := by
  kept_by nz6

theorem nz6_keep_v25 (W : Valuation τ sig (Elt F)) :
    after nz6 W (main_v25 : DevRef τ sig) = W (main_v25 : DevRef τ sig) := by
  kept_by nz6

theorem nz6_keep_v39 (W : Valuation τ sig (Elt F)) :
    after nz6 W (main_v39 : DevRef τ sig) = W (main_v39 : DevRef τ sig) := by
  kept_by nz6

attribute [local irreducible] Host.reduce Host.reduceWindow Host.scatter Host.gather Host.reduceAdd Host.divsi Host.remsi Host.sqrt concatenate in
theorem nz7_v40 (W : Valuation τ sig (Elt F)) :
    after nz7 W (main_v40 : DevRef τ sig) = fdivFn (W (main_v39 : DevRef τ sig)) (W (main_c_8 : DevRef τ sig)) := by
  simp only [nz7]
  after_results_simp
  all_goals (try simp only [ofBuf_toBuf])
  all_goals rfl

theorem nz7_keep_v27 (W : Valuation τ sig (Elt F)) :
    after nz7 W (main_v27 : DevRef τ sig) = W (main_v27 : DevRef τ sig) := by
  kept_by nz7

theorem nz7_keep_v25 (W : Valuation τ sig (Elt F)) :
    after nz7 W (main_v25 : DevRef τ sig) = W (main_v25 : DevRef τ sig) := by
  kept_by nz7

attribute [local irreducible] Host.reduce Host.reduceWindow Host.scatter Host.gather Host.reduceAdd Host.divsi Host.remsi Host.sqrt concatenate in
theorem nz8_c_9 (W : Valuation τ sig (Elt F)) :
    after nz8 W (main_c_9 : DevRef τ sig) = constantI S_ 32 67108864#32 := by
  simp only [nz8]
  after_results_simp
  all_goals (try simp only [ofBuf_toBuf])
  all_goals rfl

theorem nz8_keep_v27 (W : Valuation τ sig (Elt F)) :
    after nz8 W (main_v27 : DevRef τ sig) = W (main_v27 : DevRef τ sig) := by
  kept_by nz8

theorem nz8_keep_v25 (W : Valuation τ sig (Elt F)) :
    after nz8 W (main_v25 : DevRef τ sig) = W (main_v25 : DevRef τ sig) := by
  kept_by nz8

theorem nz8_keep_v40 (W : Valuation τ sig (Elt F)) :
    after nz8 W (main_v40 : DevRef τ sig) = W (main_v40 : DevRef τ sig) := by
  kept_by nz8

attribute [local irreducible] Host.reduce Host.reduceWindow Host.scatter Host.gather Host.reduceAdd Host.divsi Host.remsi Host.sqrt concatenate in
theorem nz9_v41 (W : Valuation τ sig (Elt F)) :
    after nz9 W (main_v41 : DevRef τ sig) = remFn (W (main_v40 : DevRef τ sig)) (W (main_c_9 : DevRef τ sig)) := by
  simp only [nz9]
  after_results_simp
  all_goals (try simp only [ofBuf_toBuf])
  all_goals rfl

theorem nz9_keep_v27 (W : Valuation τ sig (Elt F)) :
    after nz9 W (main_v27 : DevRef τ sig) = W (main_v27 : DevRef τ sig) := by
  kept_by nz9

theorem nz9_keep_v25 (W : Valuation τ sig (Elt F)) :
    after nz9 W (main_v25 : DevRef τ sig) = W (main_v25 : DevRef τ sig) := by
  kept_by nz9

attribute [local irreducible] Host.reduce Host.reduceWindow Host.scatter Host.gather Host.reduceAdd Host.divsi Host.remsi Host.sqrt concatenate in
theorem nz10_v46 (W : Valuation τ sig (Elt F)) :
    after nz10 W (main_v46 : DevRef τ sig) = cmpi .sge (iotaInDim S524288 32 0) (broadcastInDim S524288 ![] bcast_S_S524288 (nzCnt (W (main_v25 : DevRef τ sig)))) := by
  simp only [nz10]
  after_results_simp
  all_goals (try simp only [ofBuf_toBuf])
  all_goals rfl

attribute [local irreducible] Host.reduce Host.reduceWindow Host.scatter Host.gather Host.reduceAdd Host.divsi Host.remsi Host.sqrt concatenate in
theorem nz10_c_11 (W : Valuation τ sig (Elt F)) :
    after nz10 W (main_c_11 : DevRef τ sig) = constantI S_ 32 0#32 := by
  simp only [nz10]
  after_results_simp
  all_goals (try simp only [ofBuf_toBuf])
  all_goals rfl

theorem nz10_keep_v27 (W : Valuation τ sig (Elt F)) :
    after nz10 W (main_v27 : DevRef τ sig) = W (main_v27 : DevRef τ sig) := by
  kept_by nz10

theorem nz10_keep_v41 (W : Valuation τ sig (Elt F)) :
    after nz10 W (main_v41 : DevRef τ sig) = W (main_v41 : DevRef τ sig) := by
  kept_by nz10

attribute [local irreducible] Host.reduce Host.reduceWindow Host.scatter Host.gather Host.reduceAdd Host.divsi Host.remsi Host.sqrt concatenate in
theorem nz11_v47 (W : Valuation τ sig (Elt F)) :
    after nz11 W (main_v47 : DevRef τ sig) = where4Fn (W (main_v46 : DevRef τ sig)) (W (main_c_11 : DevRef τ sig)) (W (main_v41 : DevRef τ sig)) := by
  simp only [nz11]
  after_results_simp
  all_goals (try simp only [ofBuf_toBuf])
  all_goals rfl

theorem nz11_keep_v27 (W : Valuation τ sig (Elt F)) :
    after nz11 W (main_v27 : DevRef τ sig) = W (main_v27 : DevRef τ sig) := by
  kept_by nz11

/-! ### After the second piece -/

/-- After the second piece the count's buffer holds the number of ones of the flat mask. -/
theorem nz_v27 (W : Valuation τ sig (Elt F)) :
    after opsNz W (main_v27 : DevRef τ sig) = nzCnt (W (main_v25 : DevRef τ sig)) := by
  rewrite [opsNz_split]
  iterate 11 rewrite [after_append_apply]
  rewrite [nz11_keep_v27, nz10_keep_v27, nz9_keep_v27, nz8_keep_v27, nz7_keep_v27, nz6_keep_v27,
    nz5_keep_v27, nz4_keep_v27, nz3_keep_v27, nz2_keep_v27, nz1_keep_v27, nz0_v27]
  rfl

/-- After the second piece the positions' buffer holds `nzIdx` of the flat mask. -/
theorem nz_v47 (W : Valuation τ sig (Elt F)) :
    after opsNz W (main_v47 : DevRef τ sig) = nzIdx (W (main_v25 : DevRef τ sig)) := by
  rewrite [opsNz_split]
  iterate 11 rewrite [after_append_apply]
  rewrite [nz11_v47, nz10_c_11, nz10_v46, nz10_keep_v41, nz9_keep_v25, nz9_v41,
    nz8_keep_v25, nz8_c_9, nz8_keep_v40, nz7_keep_v25, nz7_v40, nz6_keep_v25,
    nz6_c_8, nz6_keep_v39, nz5_keep_v25, nz5_v39, nz4_keep_v25, nz4_v38,
    nz3_keep_v25, nz3_v30, nz3_keep_v29, nz2_keep_v25, nz2_c_4, nz2_keep_v28,
    nz2_v29, nz1_keep_v25, nz1_v28, nz0_keep_v25]
  rfl

theorem nz_v4 (W : Valuation τ sig (Elt F)) :
    after opsNz W (main_v4 : DevRef τ sig) = W (main_v4 : DevRef τ sig) := by
  kept_by opsNz

theorem nz_v6 (W : Valuation τ sig (Elt F)) :
    after opsNz W (main_v6 : DevRef τ sig) = W (main_v6 : DevRef τ sig) := by
  kept_by opsNz

theorem nz_arg0 (W : Valuation τ sig (Elt F)) :
    after opsNz W (main_arg0 : DevRef τ sig) = W (main_arg0 : DevRef τ sig) := by
  kept_by opsNz

theorem nz_arg1 (W : Valuation τ sig (Elt F)) :
    after opsNz W (main_arg1 : DevRef τ sig) = W (main_arg1 : DevRef τ sig) := by
  kept_by opsNz

/-! ## The third piece: the outputs

The ninety-one operations in fifteen consecutive stretches, as above. -/

/-- Which slots hold a pair, and the row length. -/
abbrev out0 : List (HloOp τ sig (Elt F)) :=
  [ StableHlo.nullary main_v48 (iotaInDim S524288 32 0),
    StableHlo.nullary main_c_12 (constantI S_ 32 524288#32),
    StableHlo.binary main_v27 main_c_12 main_v49 (minsi : (⟨S_, .i32⟩ : BufTy).Contents (Elt F) → (⟨S_, .i32⟩ : BufTy).Contents (Elt F) → (⟨S_, .i32⟩ : BufTy).Contents (Elt F)),
    StableHlo.unary main_v49 main_v50 (broadcastInDim S524288 ![] bcast_S_S524288 : (⟨S_, .i32⟩ : BufTy).Contents (Elt F) → (⟨S524288, .i32⟩ : BufTy).Contents (Elt F)),
    StableHlo.binary main_v48 main_v50 main_v51 (cmpi .slt : (⟨S524288, .i32⟩ : BufTy).Contents (Elt F) → (⟨S524288, .i32⟩ : BufTy).Contents (Elt F) → (⟨S524288, .i1⟩ : BufTy).Contents (Elt F)),
    StableHlo.nullary main_c_13 (constantI S_ 32 8192#32) ]

/-- `floor_divide_5`: the rows. -/
abbrev out1 : List (HloOp τ sig (Elt F)) :=
  [ StableHlo.TRef.unary (.of main_c_13 : StableHlo.TRef sig ⟨S_, .i32⟩) main_call6.v0 id,
    StableHlo.TRef.unary main_call6.v0 main_call6.v1 (broadcastInDim S524288 ![] bcast_S_S524288),
    StableHlo.TRef.binary (.of main_v47 : StableHlo.TRef sig ⟨S524288, .i32⟩) main_call6.v1 main_call6.v2 Host.divsi,
    StableHlo.TRef.unary (.of main_v47 : StableHlo.TRef sig ⟨S524288, .i32⟩) main_call6.v3 signi,
    StableHlo.TRef.unary main_call6.v0 main_call6.v4 signi,
    StableHlo.TRef.unary main_call6.v4 main_call6.v5 (broadcastInDim S524288 ![] bcast_S_S524288),
    StableHlo.TRef.binary main_call6.v3 main_call6.v5 main_call6.v6 (cmpi .ne),
    StableHlo.TRef.unary main_call6.v0 main_call6.v7 (broadcastInDim S524288 ![] bcast_S_S524288),
    StableHlo.TRef.binary (.of main_v47 : StableHlo.TRef sig ⟨S524288, .i32⟩) main_call6.v7 main_call6.v8 Host.remsi,
    StableHlo.TRef.nullary main_call6.c (constantI S_ 32 0#32),
    StableHlo.TRef.unary main_call6.c main_call6.v9 (broadcastInDim S524288 ![] bcast_S_S524288),
    StableHlo.TRef.binary main_call6.v8 main_call6.v9 main_call6.v10 (cmpi .ne),
    StableHlo.TRef.binary main_call6.v6 main_call6.v10 main_call6.v11 andi,
    StableHlo.TRef.nullary main_call6.c_0 (constantI S_ 32 1#32),
    StableHlo.TRef.unary main_call6.c_0 main_call6.v12 (broadcastInDim S524288 ![] bcast_S_S524288),
    StableHlo.TRef.binary main_call6.v2 main_call6.v12 main_call6.v13 subi,
    StableHlo.TRef.ternary main_call6.v11 main_call6.v13 main_call6.v2 main_call6.call0.v0 select ]

/-- The row length again. -/
abbrev out2 : List (HloOp τ sig (Elt F)) :=
  [ StableHlo.nullary main_c_14 (constantI S_ 32 8192#32) ]

/-- `remainder`: the columns. -/
abbrev out3 : List (HloOp τ sig (Elt F)) :=
  [ StableHlo.TRef.unary (.of main_c_14 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S524288 ![] bcast_S_S524288),
    StableHlo.TRef.binary (.of main_v47 : StableHlo.TRef sig ⟨S524288, .i32⟩) main_call7.v3 main_call7.v4 Host.remsi,
    StableHlo.TRef.nullary main_call7.c_1 (constantI S_ 32 0#32),
    StableHlo.TRef.unary main_call7.c_1 main_call7.v5 (broadcastInDim S524288 ![] bcast_S_S524288),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S524288 ![] bcast_S_S524288),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S524288 ![] bcast_S_S524288),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S524288 ![] bcast_S_S524288),
    StableHlo.TRef.binary main_call7.v4 main_call7.v13 main_call7.v14 addi,
    StableHlo.TRef.ternary main_call7.v12 main_call7.v14 main_call7.v4 main_call7.v15 select ]

/-- The gathered difference vectors, the valid slots as a column, a zero. -/
abbrev out4 : List (HloOp τ sig (Elt F)) :=
  [ StableHlo.unary main_v51 main_v54 (broadcastInDim S524288x1 ![0] bcast_S524288_S524288x1_0 : (⟨S524288, .i1⟩ : BufTy).Contents (Elt F) → (⟨S524288x1, .i1⟩ : BufTy).Contents (Elt F)),
    StableHlo.reshape main_v4 main_v55 rfl shapeCasts_S8192x8192x3_S67108864x3,
    StableHlo.nullary main_c_15 (constantI S_ 32 0#32),
    StableHlo.unary main_c_15 main_v56 (broadcastInDim S524288 ![] bcast_S_S524288 : (⟨S_, .i32⟩ : BufTy).Contents (Elt F) → (⟨S524288, .i32⟩ : BufTy).Contents (Elt F)),
    StableHlo.binary main_v47 main_v56 main_v57 (cmpi .slt : (⟨S524288, .i32⟩ : BufTy).Contents (Elt F) → (⟨S524288, .i32⟩ : BufTy).Contents (Elt F) → (⟨S524288, .i1⟩ : BufTy).Contents (Elt F)),
    StableHlo.nullary main_c_16 (constantI S_ 32 67108864#32),
    StableHlo.unary main_c_16 main_v58 (broadcastInDim S524288 ![] bcast_S_S524288 : (⟨S_, .i32⟩ : BufTy).Contents (Elt F) → (⟨S524288, .i32⟩ : BufTy).Contents (Elt F)),
    StableHlo.binary main_v47 main_v58 main_v59 (addi : (⟨S524288, .i32⟩ : BufTy).Contents (Elt F) → (⟨S524288, .i32⟩ : BufTy).Contents (Elt F) → (⟨S524288, .i32⟩ : BufTy).Contents (Elt F)),
    StableHlo.ternary main_v57 main_v59 main_v47 main_v60 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v60 main_v61 (broadcastInDim S524288x1 ![0] bcast_S524288_S524288x1_0 : (⟨S524288, .i32⟩ : BufTy).Contents (Elt F) → (⟨S524288x1, .i32⟩ : BufTy).Contents (Elt F)),
    StableHlo.binary main_v55 main_v61 main_v62 ((fun x i => Host.gather gather_S67108864x3_S524288x1_S524288x3_1_0_n_n_0_1_13 x i) : (⟨S67108864x3, .f32⟩ : BufTy).Contents (Elt F) → (⟨S524288x1, .i32⟩ : BufTy).Contents (Elt F) → (⟨S524288x3, .f32⟩ : BufTy).Contents (Elt F)),
    StableHlo.nullary main_cst_17 (constant S_ .f32 0x00000000#32) ]

/-- `_where_6`. -/
abbrev out5 : List (HloOp τ sig (Elt F)) :=
  [ StableHlo.TRef.unary (.of main_cst_17 : StableHlo.TRef sig ⟨S_, .f32⟩) main_call8.v0 id,
    StableHlo.TRef.unary (.of main_v54 : StableHlo.TRef sig ⟨S524288x1, .i1⟩) main_call8.v1 (broadcastInDim S524288x3 ![0, 1] bcast_S524288x1_S524288x3_0_1),
    StableHlo.TRef.unary main_call8.v0 main_call8.v2 (broadcastInDim S524288x3 ![] bcast_S_S524288x3),
    StableHlo.TRef.ternary main_call8.v1 (.of main_v62 : StableHlo.TRef sig ⟨S524288x3, .f32⟩) main_call8.v2 main_call8.v3 select ]

/-- The gathered squared distances and a one. -/
abbrev out6 : List (HloOp τ sig (Elt F)) :=
  [ StableHlo.reshape main_v6 main_v64 rfl shapeCasts_S8192x8192_S67108864,
    StableHlo.nullary main_c_18 (constantI S_ 32 0#32),
    StableHlo.unary main_c_18 main_v65 (broadcastInDim S524288 ![] bcast_S_S524288 : (⟨S_, .i32⟩ : BufTy).Contents (Elt F) → (⟨S524288, .i32⟩ : BufTy).Contents (Elt F)),
    StableHlo.binary main_v47 main_v65 main_v66 (cmpi .slt : (⟨S524288, .i32⟩ : BufTy).Contents (Elt F) → (⟨S524288, .i32⟩ : BufTy).Contents (Elt F) → (⟨S524288, .i1⟩ : BufTy).Contents (Elt F)),
    StableHlo.nullary main_c_19 (constantI S_ 32 67108864#32),
    StableHlo.unary main_c_19 main_v67 (broadcastInDim S524288 ![] bcast_S_S524288 : (⟨S_, .i32⟩ : BufTy).Contents (Elt F) → (⟨S524288, .i32⟩ : BufTy).Contents (Elt F)),
    StableHlo.binary main_v47 main_v67 main_v68 (addi : (⟨S524288, .i32⟩ : BufTy).Contents (Elt F) → (⟨S524288, .i32⟩ : BufTy).Contents (Elt F) → (⟨S524288, .i32⟩ : BufTy).Contents (Elt F)),
    StableHlo.ternary main_v66 main_v68 main_v47 main_v69 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v69 main_v70 (broadcastInDim S524288x1 ![0] bcast_S524288_S524288x1_0 : (⟨S524288, .i32⟩ : BufTy).Contents (Elt F) → (⟨S524288x1, .i32⟩ : BufTy).Contents (Elt F)),
    StableHlo.binary main_v64 main_v70 main_v71 ((fun x i => Host.gather gather_S67108864_S524288x1_S524288_n_0_n_n_0_1_1 x i) : (⟨S67108864, .f32⟩ : BufTy).Contents (Elt F) → (⟨S524288x1, .i32⟩ : BufTy).Contents (Elt F) → (⟨S524288, .f32⟩ : BufTy).Contents (Elt F)),
    StableHlo.nullary main_cst_20 (constant S_ .f32 0x3F800000#32) ]

/-- `_where_7`: one in the slots that hold no pair. -/
abbrev out7 : List (HloOp τ sig (Elt F)) :=
  [ StableHlo.TRef.unary (.of main_cst_20 : StableHlo.TRef sig ⟨S_, .f32⟩) main_call9.v0 id,
    StableHlo.TRef.unary main_call9.v0 main_call9.v1 (broadcastInDim S524288 ![] bcast_S_S524288),
    StableHlo.TRef.ternary (.of main_v51 : StableHlo.TRef sig ⟨S524288, .i1⟩) (.of main_v71 : StableHlo.TRef sig ⟨S524288, .f32⟩) main_call9.v1 main_call9.v2 select ]

/-- The square root, and a zero. -/
abbrev out8 : List (HloOp τ sig (Elt F)) :=
  [ StableHlo.unary main_v72 main_v73 (Host.sqrt : (⟨S524288, .f32⟩ : BufTy).Contents (Elt F) → (⟨S524288, .f32⟩ : BufTy).Contents (Elt F)),
    StableHlo.nullary main_cst_21 (constant S_ .f32 0x00000000#32) ]

/-- `_where_7`: zero in the slots that hold no pair. -/
abbrev out9 : List (HloOp τ sig (Elt F)) :=
  [ StableHlo.TRef.unary (.of main_cst_21 : StableHlo.TRef sig ⟨S_, .f32⟩) main_call10.v0 id,
    StableHlo.TRef.unary main_call10.v0 main_call10.v1 (broadcastInDim S524288 ![] bcast_S_S524288),
    StableHlo.TRef.ternary (.of main_v51 : StableHlo.TRef sig ⟨S524288, .i1⟩) (.of main_v73 : StableHlo.TRef sig ⟨S524288, .f32⟩) main_call10.v1 main_call10.v2 select ]

/-- Minus one. -/
abbrev out10 : List (HloOp τ sig (Elt F)) :=
  [ StableHlo.nullary main_c_22 (constantI S_ 32 4294967295#32) ]

/-- `_where_8`: the rows masked. -/
abbrev out11 : List (HloOp τ sig (Elt F)) :=
  [ StableHlo.TRef.unary (.of main_c_22 : StableHlo.TRef sig ⟨S_, .i32⟩) main_call11.v0 id,
    StableHlo.TRef.unary main_call11.v0 main_call11.v1 (broadcastInDim S524288 ![] bcast_S_S524288),
    StableHlo.TRef.ternary (.of main_v51 : StableHlo.TRef sig ⟨S524288, .i1⟩) (.of main_v52 : StableHlo.TRef sig ⟨S524288, .i32⟩) main_call11.v1 main_call11.v2 select ]

/-- Minus one again. -/
abbrev out12 : List (HloOp τ sig (Elt F)) :=
  [ StableHlo.nullary main_c_23 (constantI S_ 32 4294967295#32) ]

/-- `_where_8`: the columns masked. -/
abbrev out13 : List (HloOp τ sig (Elt F)) :=
  [ StableHlo.TRef.unary (.of main_c_23 : StableHlo.TRef sig ⟨S_, .i32⟩) main_call12.v0 id,
    StableHlo.TRef.unary main_call12.v0 main_call12.v1 (broadcastInDim S524288 ![] bcast_S_S524288),
    StableHlo.TRef.ternary (.of main_v51 : StableHlo.TRef sig ⟨S524288, .i1⟩) (.of main_v53 : StableHlo.TRef sig ⟨S524288, .i32⟩) main_call12.v1 main_call12.v2 select ]

/-- The two rows concatenated. -/
abbrev out14 : List (HloOp τ sig (Elt F)) :=
  [ StableHlo.unary main_v75 main_v77 (broadcastInDim S1x524288 ![1] bcast_S524288_S1x524288_1 : (⟨S524288, .i32⟩ : BufTy).Contents (Elt F) → (⟨S1x524288, .i32⟩ : BufTy).Contents (Elt F)),
    StableHlo.unary main_v76 main_v78 (broadcastInDim S1x524288 ![1] bcast_S524288_S1x524288_1 : (⟨S524288, .i32⟩ : BufTy).Contents (Elt F) → (⟨S1x524288, .i32⟩ : BufTy).Contents (Elt F)),
    StableHlo.binary main_v77 main_v78 main_v79 ((fun a b => concatenate S2x524288 0 [⟨S1x524288, a⟩, ⟨S1x524288, b⟩] concatenates_S1x524288_S1x524288_S2x524288_d0) : (⟨S1x524288, .i32⟩ : BufTy).Contents (Elt F) → (⟨S1x524288, .i32⟩ : BufTy).Contents (Elt F) → (⟨S2x524288, .i32⟩ : BufTy).Contents (Elt F)) ]

/-- The third piece is its stretches in order. -/
theorem opsOut_split : (opsOut : List (HloOp τ sig (Elt F))) = out0 ++ (out1 ++ (out2 ++ (out3 ++ (out4 ++ (out5 ++ (out6 ++ (out7 ++ (out8 ++ (out9 ++ (out10 ++ (out11 ++ (out12 ++ (out13 ++ (out14)))))))))))))) := rfl

/-- Which of the 524288 output slots hold a pair: those below the smaller of the number of ones and 524288. -/
def outValid (cnt : IVec S_ 32) : IVec S524288 1 :=
  cmpi .slt (iotaInDim S524288 32 0) (broadcastInDim S524288 ![] bcast_S_S524288 (minsi cnt (constantI S_ 32 524288#32)))

/-- The rows of the flattened table of all differences at the flat positions (a negative position wrapped by the flat length). -/
def outRows (diff : FVec F S8192x8192x3 .f32) (idx : IVec S524288 32) : FVec F S524288x3 .f32 :=
  Host.gather gather_S67108864x3_S524288x1_S524288x3_1_0_n_n_0_1_13 (shapeCast S67108864x3 diff shapeCasts_S8192x8192x3_S67108864x3) (broadcastInDim S524288x1 ![0] bcast_S524288_S524288x1_0 (select (cmpi .slt idx (broadcastInDim S524288 ![] bcast_S_S524288 (constantI S_ 32 0#32))) (addi idx (broadcastInDim S524288 ![] bcast_S_S524288 (constantI S_ 32 67108864#32))) idx))

/-- The entries of the flattened table of all squared distances at the flat positions (a negative position wrapped by the flat length). -/
def outSq (d2 : FVec F S8192x8192 .f32) (idx : IVec S524288 32) : FVec F S524288 .f32 :=
  Host.gather gather_S67108864_S524288x1_S524288_n_0_n_n_0_1_1 (shapeCast S67108864 d2 shapeCasts_S8192x8192_S67108864) (broadcastInDim S524288x1 ![0] bcast_S524288_S524288x1_0 (select (cmpi .slt idx (broadcastInDim S524288 ![] bcast_S_S524288 (constantI S_ 32 0#32))) (addi idx (broadcastInDim S524288 ![] bcast_S_S524288 (constantI S_ 32 67108864#32))) idx))

/-- The first output from the number of ones and the positions: the rows (the positions floor-divided by 8192) over the columns (their remainders by 8192), `-1` in the slots that hold no pair. -/
def outIdx (cnt : IVec S_ 32) (idx : IVec S524288 32) : IVec S2x524288 32 :=
  concatenate S2x524288 0 [⟨S1x524288, (broadcastInDim S1x524288 ![1] bcast_S524288_S1x524288_1 (where8Fn (outValid cnt) (fdiv5Fn idx (constantI S_ 32 8192#32)) (constantI S_ 32 4294967295#32)))⟩, ⟨S1x524288, (broadcastInDim S1x524288 ![1] bcast_S524288_S1x524288_1 (where8Fn (outValid cnt) (remFn idx (constantI S_ 32 8192#32)) (constantI S_ 32 4294967295#32)))⟩] concatenates_S1x524288_S1x524288_S2x524288_d0

/-- The second output from the number of ones, the positions and the table of squared distances: the square root of the gathered squared distance — of one in the slots that hold no pair —, then zero in those slots. -/
def outW (cnt : IVec S_ 32) (idx : IVec S524288 32) (d2 : FVec F S8192x8192 .f32) : FVec F S524288 .f32 :=
  where7Fn (outValid cnt) (Host.sqrt (F := F) (where7Fn (outValid cnt) (outSq d2 idx) (constant (F := F) S_ .f32 0x3F800000#32))) (constant (F := F) S_ .f32 0x00000000#32)

/-- The third output from the number of ones, the positions and the table of differences: the gathered difference vectors, zero in the slots that hold no pair. -/
def outVec (cnt : IVec S_ 32) (idx : IVec S524288 32) (diff : FVec F S8192x8192x3 .f32) : FVec F S524288x3 .f32 :=
  where6Fn (broadcastInDim S524288x1 ![0] bcast_S524288_S524288x1_0 (outValid cnt)) (outRows diff idx) (constant (F := F) S_ .f32 0x00000000#32)

attribute [local irreducible] Host.reduce Host.reduceWindow Host.scatter Host.gather Host.reduceAdd Host.divsi Host.remsi Host.sqrt concatenate in
theorem out0_v51 (W : Valuation τ sig (Elt F)) :
    after out0 W (main_v51 : DevRef τ sig) = outValid (W (main_v27 : DevRef τ sig)) := by
  simp only [out0]
  after_results_simp
  all_goals (try simp only [ofBuf_toBuf])
  all_goals rfl

attribute [local irreducible] Host.reduce Host.reduceWindow Host.scatter Host.gather Host.reduceAdd Host.divsi Host.remsi Host.sqrt concatenate in
theorem out0_c_13 (W : Valuation τ sig (Elt F)) :
    after out0 W (main_c_13 : DevRef τ sig) = constantI S_ 32 8192#32 := by
  simp only [out0]
  after_results_simp
  all_goals (try simp only [ofBuf_toBuf])
  all_goals rfl

theorem out0_keep_v47 (W : Valuation τ sig (Elt F)) :
    after out0 W (main_v47 : DevRef τ sig) = W (main_v47 : DevRef τ sig) := by
  kept_by out0

theorem out0_keep_v6 (W : Valuation τ sig (Elt F)) :
    after out0 W (main_v6 : DevRef τ sig) = W (main_v6 : DevRef τ sig) := by
  kept_by out0

theorem out0_keep_v4 (W : Valuation τ sig (Elt F)) :
    after out0 W (main_v4 : DevRef τ sig) = W (main_v4 : DevRef τ sig) := by
  kept_by out0

attribute [local irreducible] Host.reduce Host.reduceWindow Host.scatter Host.gather Host.reduceAdd Host.divsi Host.remsi Host.sqrt concatenate in
theorem out1_v52 (W : Valuation τ sig (Elt F)) :
    after out1 W (main_v52 : DevRef τ sig) = fdiv5Fn (W (main_v47 : DevRef τ sig)) (W (main_c_13 : DevRef τ sig)) := by
  simp only [out1]
  after_results_simp
  all_goals (try simp only [ofBuf_toBuf])
  all_goals rfl

theorem out1_keep_v51 (W : Valuation τ sig (Elt F)) :
    after out1 W (main_v51 : DevRef τ sig) = W (main_v51 : DevRef τ sig) := by
  kept_by out1

theorem out1_keep_v47 (W : Valuation τ sig (Elt F)) :
    after out1 W (main_v47 : DevRef τ sig) = W (main_v47 : DevRef τ sig) := by
  kept_by out1

theorem out1_keep_v6 (W : Valuation τ sig (Elt F)) :
    after out1 W (main_v6 : DevRef τ sig) = W (main_v6 : DevRef τ sig) := by
  kept_by out1

theorem out1_keep_v4 (W : Valuation τ sig (Elt F)) :
    after out1 W (main_v4 : DevRef τ sig) = W (main_v4 : DevRef τ sig) := by
  kept_by out1

attribute [local irreducible] Host.reduce Host.reduceWindow Host.scatter Host.gather Host.reduceAdd Host.divsi Host.remsi Host.sqrt concatenate in
theorem out2_c_14 (W : Valuation τ sig (Elt F)) :
    after out2 W (main_c_14 : DevRef τ sig) = constantI S_ 32 8192#32 := by
  simp only [out2]
  after_results_simp
  all_goals (try simp only [ofBuf_toBuf])
  all_goals rfl

theorem out2_keep_v51 (W : Valuation τ sig (Elt F)) :
    after out2 W (main_v51 : DevRef τ sig) = W (main_v51 : DevRef τ sig) := by
  kept_by out2

theorem out2_keep_v52 (W : Valuation τ sig (Elt F)) :
    after out2 W (main_v52 : DevRef τ sig) = W (main_v52 : DevRef τ sig) := by
  kept_by out2

theorem out2_keep_v47 (W : Valuation τ sig (Elt F)) :
    after out2 W (main_v47 : DevRef τ sig) = W (main_v47 : DevRef τ sig) := by
  kept_by out2

theorem out2_keep_v6 (W : Valuation τ sig (Elt F)) :
    after out2 W (main_v6 : DevRef τ sig) = W (main_v6 : DevRef τ sig) := by
  kept_by out2

theorem out2_keep_v4 (W : Valuation τ sig (Elt F)) :
    after out2 W (main_v4 : DevRef τ sig) = W (main_v4 : DevRef τ sig) := by
  kept_by out2

attribute [local irreducible] Host.reduce Host.reduceWindow Host.scatter Host.gather Host.reduceAdd Host.divsi Host.remsi Host.sqrt concatenate in
theorem out3_v53 (W : Valuation τ sig (Elt F)) :
    after out3 W (main_v53 : DevRef τ sig) = remFn (W (main_v47 : DevRef τ sig)) (W (main_c_14 : DevRef τ sig)) := by
  simp only [out3]
  after_results_simp
  all_goals (try simp only [ofBuf_toBuf])
  all_goals rfl

theorem out3_keep_v51 (W : Valuation τ sig (Elt F)) :
    after out3 W (main_v51 : DevRef τ sig) = W (main_v51 : DevRef τ sig) := by
  kept_by out3

theorem out3_keep_v52 (W : Valuation τ sig (Elt F)) :
    after out3 W (main_v52 : DevRef τ sig) = W (main_v52 : DevRef τ sig) := by
  kept_by out3

theorem out3_keep_v6 (W : Valuation τ sig (Elt F)) :
    after out3 W (main_v6 : DevRef τ sig) = W (main_v6 : DevRef τ sig) := by
  kept_by out3

theorem out3_keep_v47 (W : Valuation τ sig (Elt F)) :
    after out3 W (main_v47 : DevRef τ sig) = W (main_v47 : DevRef τ sig) := by
  kept_by out3

theorem out3_keep_v4 (W : Valuation τ sig (Elt F)) :
    after out3 W (main_v4 : DevRef τ sig) = W (main_v4 : DevRef τ sig) := by
  kept_by out3

attribute [local irreducible] Host.reduce Host.reduceWindow Host.scatter Host.gather Host.reduceAdd Host.divsi Host.remsi Host.sqrt concatenate in
theorem out4_v54 (W : Valuation τ sig (Elt F)) :
    after out4 W (main_v54 : DevRef τ sig) = broadcastInDim S524288x1 ![0] bcast_S524288_S524288x1_0 (W (main_v51 : DevRef τ sig)) := by
  simp only [out4]
  after_results_simp
  all_goals (try simp only [ofBuf_toBuf])
  all_goals rfl

attribute [local irreducible] Host.reduce Host.reduceWindow Host.scatter Host.gather Host.reduceAdd Host.divsi Host.remsi Host.sqrt concatenate in
theorem out4_v62 (W : Valuation τ sig (Elt F)) :
    after out4 W (main_v62 : DevRef τ sig) = outRows (W (main_v4 : DevRef τ sig)) (W (main_v47 : DevRef τ sig)) := by
  simp only [out4]
  after_results_simp
  all_goals (try simp only [ofBuf_toBuf])
  all_goals rfl

attribute [local irreducible] Host.reduce Host.reduceWindow Host.scatter Host.gather Host.reduceAdd Host.divsi Host.remsi Host.sqrt concatenate in
theorem out4_cst_17 (W : Valuation τ sig (Elt F)) :
    after out4 W (main_cst_17 : DevRef τ sig) = constant (F := F) S_ .f32 0x00000000#32 := by
  simp only [out4]
  after_results_simp
  all_goals (try simp only [ofBuf_toBuf])
  all_goals rfl

theorem out4_keep_v51 (W : Valuation τ sig (Elt F)) :
    after out4 W (main_v51 : DevRef τ sig) = W (main_v51 : DevRef τ sig) := by
  kept_by out4

theorem out4_keep_v52 (W : Valuation τ sig (Elt F)) :
    after out4 W (main_v52 : DevRef τ sig) = W (main_v52 : DevRef τ sig) := by
  kept_by out4

theorem out4_keep_v53 (W : Valuation τ sig (Elt F)) :
    after out4 W (main_v53 : DevRef τ sig) = W (main_v53 : DevRef τ sig) := by
  kept_by out4

theorem out4_keep_v6 (W : Valuation τ sig (Elt F)) :
    after out4 W (main_v6 : DevRef τ sig) = W (main_v6 : DevRef τ sig) := by
  kept_by out4

theorem out4_keep_v47 (W : Valuation τ sig (Elt F)) :
    after out4 W (main_v47 : DevRef τ sig) = W (main_v47 : DevRef τ sig) := by
  kept_by out4

attribute [local irreducible] Host.reduce Host.reduceWindow Host.scatter Host.gather Host.reduceAdd Host.divsi Host.remsi Host.sqrt concatenate in
theorem out5_v63 (W : Valuation τ sig (Elt F)) :
    after out5 W (main_v63 : DevRef τ sig) = where6Fn (W (main_v54 : DevRef τ sig)) (W (main_v62 : DevRef τ sig)) (W (main_cst_17 : DevRef τ sig)) := by
  simp only [out5]
  after_results_simp
  all_goals (try simp only [ofBuf_toBuf])
  all_goals rfl

theorem out5_keep_v51 (W : Valuation τ sig (Elt F)) :
    after out5 W (main_v51 : DevRef τ sig) = W (main_v51 : DevRef τ sig) := by
  kept_by out5

theorem out5_keep_v52 (W : Valuation τ sig (Elt F)) :
    after out5 W (main_v52 : DevRef τ sig) = W (main_v52 : DevRef τ sig) := by
  kept_by out5

theorem out5_keep_v53 (W : Valuation τ sig (Elt F)) :
    after out5 W (main_v53 : DevRef τ sig) = W (main_v53 : DevRef τ sig) := by
  kept_by out5

theorem out5_keep_v6 (W : Valuation τ sig (Elt F)) :
    after out5 W (main_v6 : DevRef τ sig) = W (main_v6 : DevRef τ sig) := by
  kept_by out5

theorem out5_keep_v47 (W : Valuation τ sig (Elt F)) :
    after out5 W (main_v47 : DevRef τ sig) = W (main_v47 : DevRef τ sig) := by
  kept_by out5

attribute [local irreducible] Host.reduce Host.reduceWindow Host.scatter Host.gather Host.reduceAdd Host.divsi Host.remsi Host.sqrt concatenate in
theorem out6_v71 (W : Valuation τ sig (Elt F)) :
    after out6 W (main_v71 : DevRef τ sig) = outSq (W (main_v6 : DevRef τ sig)) (W (main_v47 : DevRef τ sig)) := by
  simp only [out6]
  after_results_simp
  all_goals (try simp only [ofBuf_toBuf])
  all_goals rfl

attribute [local irreducible] Host.reduce Host.reduceWindow Host.scatter Host.gather Host.reduceAdd Host.divsi Host.remsi Host.sqrt concatenate in
theorem out6_cst_20 (W : Valuation τ sig (Elt F)) :
    after out6 W (main_cst_20 : DevRef τ sig) = constant (F := F) S_ .f32 0x3F800000#32 := by
  simp only [out6]
  after_results_simp
  all_goals (try simp only [ofBuf_toBuf])
  all_goals rfl

theorem out6_keep_v51 (W : Valuation τ sig (Elt F)) :
    after out6 W (main_v51 : DevRef τ sig) = W (main_v51 : DevRef τ sig) := by
  kept_by out6

theorem out6_keep_v52 (W : Valuation τ sig (Elt F)) :
    after out6 W (main_v52 : DevRef τ sig) = W (main_v52 : DevRef τ sig) := by
  kept_by out6

theorem out6_keep_v53 (W : Valuation τ sig (Elt F)) :
    after out6 W (main_v53 : DevRef τ sig) = W (main_v53 : DevRef τ sig) := by
  kept_by out6

theorem out6_keep_v63 (W : Valuation τ sig (Elt F)) :
    after out6 W (main_v63 : DevRef τ sig) = W (main_v63 : DevRef τ sig) := by
  kept_by out6

attribute [local irreducible] Host.reduce Host.reduceWindow Host.scatter Host.gather Host.reduceAdd Host.divsi Host.remsi Host.sqrt concatenate in
theorem out7_v72 (W : Valuation τ sig (Elt F)) :
    after out7 W (main_v72 : DevRef τ sig) = where7Fn (W (main_v51 : DevRef τ sig)) (W (main_v71 : DevRef τ sig)) (W (main_cst_20 : DevRef τ sig)) := by
  simp only [out7]
  after_results_simp
  all_goals (try simp only [ofBuf_toBuf])
  all_goals rfl

theorem out7_keep_v51 (W : Valuation τ sig (Elt F)) :
    after out7 W (main_v51 : DevRef τ sig) = W (main_v51 : DevRef τ sig) := by
  kept_by out7

theorem out7_keep_v52 (W : Valuation τ sig (Elt F)) :
    after out7 W (main_v52 : DevRef τ sig) = W (main_v52 : DevRef τ sig) := by
  kept_by out7

theorem out7_keep_v53 (W : Valuation τ sig (Elt F)) :
    after out7 W (main_v53 : DevRef τ sig) = W (main_v53 : DevRef τ sig) := by
  kept_by out7

theorem out7_keep_v63 (W : Valuation τ sig (Elt F)) :
    after out7 W (main_v63 : DevRef τ sig) = W (main_v63 : DevRef τ sig) := by
  kept_by out7

attribute [local irreducible] Host.reduce Host.reduceWindow Host.scatter Host.gather Host.reduceAdd Host.divsi Host.remsi Host.sqrt concatenate in
theorem out8_v73 (W : Valuation τ sig (Elt F)) :
    after out8 W (main_v73 : DevRef τ sig) = Host.sqrt (F := F) (W (main_v72 : DevRef τ sig)) := by
  simp only [out8]
  after_results_simp
  all_goals (try simp only [ofBuf_toBuf])
  all_goals rfl

attribute [local irreducible] Host.reduce Host.reduceWindow Host.scatter Host.gather Host.reduceAdd Host.divsi Host.remsi Host.sqrt concatenate in
theorem out8_cst_21 (W : Valuation τ sig (Elt F)) :
    after out8 W (main_cst_21 : DevRef τ sig) = constant (F := F) S_ .f32 0x00000000#32 := by
  simp only [out8]
  after_results_simp
  all_goals (try simp only [ofBuf_toBuf])
  all_goals rfl

theorem out8_keep_v51 (W : Valuation τ sig (Elt F)) :
    after out8 W (main_v51 : DevRef τ sig) = W (main_v51 : DevRef τ sig) := by
  kept_by out8

theorem out8_keep_v52 (W : Valuation τ sig (Elt F)) :
    after out8 W (main_v52 : DevRef τ sig) = W (main_v52 : DevRef τ sig) := by
  kept_by out8

theorem out8_keep_v53 (W : Valuation τ sig (Elt F)) :
    after out8 W (main_v53 : DevRef τ sig) = W (main_v53 : DevRef τ sig) := by
  kept_by out8

theorem out8_keep_v63 (W : Valuation τ sig (Elt F)) :
    after out8 W (main_v63 : DevRef τ sig) = W (main_v63 : DevRef τ sig) := by
  kept_by out8

attribute [local irreducible] Host.reduce Host.reduceWindow Host.scatter Host.gather Host.reduceAdd Host.divsi Host.remsi Host.sqrt concatenate in
theorem out9_v74 (W : Valuation τ sig (Elt F)) :
    after out9 W (main_v74 : DevRef τ sig) = where7Fn (W (main_v51 : DevRef τ sig)) (W (main_v73 : DevRef τ sig)) (W (main_cst_21 : DevRef τ sig)) := by
  simp only [out9]
  after_results_simp
  all_goals (try simp only [ofBuf_toBuf])
  all_goals rfl

theorem out9_keep_v51 (W : Valuation τ sig (Elt F)) :
    after out9 W (main_v51 : DevRef τ sig) = W (main_v51 : DevRef τ sig) := by
  kept_by out9

theorem out9_keep_v52 (W : Valuation τ sig (Elt F)) :
    after out9 W (main_v52 : DevRef τ sig) = W (main_v52 : DevRef τ sig) := by
  kept_by out9

theorem out9_keep_v53 (W : Valuation τ sig (Elt F)) :
    after out9 W (main_v53 : DevRef τ sig) = W (main_v53 : DevRef τ sig) := by
  kept_by out9

theorem out9_keep_v63 (W : Valuation τ sig (Elt F)) :
    after out9 W (main_v63 : DevRef τ sig) = W (main_v63 : DevRef τ sig) := by
  kept_by out9

attribute [local irreducible] Host.reduce Host.reduceWindow Host.scatter Host.gather Host.reduceAdd Host.divsi Host.remsi Host.sqrt concatenate in
theorem out10_c_22 (W : Valuation τ sig (Elt F)) :
    after out10 W (main_c_22 : DevRef τ sig) = constantI S_ 32 4294967295#32 := by
  simp only [out10]
  after_results_simp
  all_goals (try simp only [ofBuf_toBuf])
  all_goals rfl

theorem out10_keep_v51 (W : Valuation τ sig (Elt F)) :
    after out10 W (main_v51 : DevRef τ sig) = W (main_v51 : DevRef τ sig) := by
  kept_by out10

theorem out10_keep_v52 (W : Valuation τ sig (Elt F)) :
    after out10 W (main_v52 : DevRef τ sig) = W (main_v52 : DevRef τ sig) := by
  kept_by out10

theorem out10_keep_v53 (W : Valuation τ sig (Elt F)) :
    after out10 W (main_v53 : DevRef τ sig) = W (main_v53 : DevRef τ sig) := by
  kept_by out10

theorem out10_keep_v74 (W : Valuation τ sig (Elt F)) :
    after out10 W (main_v74 : DevRef τ sig) = W (main_v74 : DevRef τ sig) := by
  kept_by out10

theorem out10_keep_v63 (W : Valuation τ sig (Elt F)) :
    after out10 W (main_v63 : DevRef τ sig) = W (main_v63 : DevRef τ sig) := by
  kept_by out10

attribute [local irreducible] Host.reduce Host.reduceWindow Host.scatter Host.gather Host.reduceAdd Host.divsi Host.remsi Host.sqrt concatenate in
theorem out11_v75 (W : Valuation τ sig (Elt F)) :
    after out11 W (main_v75 : DevRef τ sig) = where8Fn (W (main_v51 : DevRef τ sig)) (W (main_v52 : DevRef τ sig)) (W (main_c_22 : DevRef τ sig)) := by
  simp only [out11]
  after_results_simp
  all_goals (try simp only [ofBuf_toBuf])
  all_goals rfl

theorem out11_keep_v51 (W : Valuation τ sig (Elt F)) :
    after out11 W (main_v51 : DevRef τ sig) = W (main_v51 : DevRef τ sig) := by
  kept_by out11

theorem out11_keep_v53 (W : Valuation τ sig (Elt F)) :
    after out11 W (main_v53 : DevRef τ sig) = W (main_v53 : DevRef τ sig) := by
  kept_by out11

theorem out11_keep_v74 (W : Valuation τ sig (Elt F)) :
    after out11 W (main_v74 : DevRef τ sig) = W (main_v74 : DevRef τ sig) := by
  kept_by out11

theorem out11_keep_v63 (W : Valuation τ sig (Elt F)) :
    after out11 W (main_v63 : DevRef τ sig) = W (main_v63 : DevRef τ sig) := by
  kept_by out11

attribute [local irreducible] Host.reduce Host.reduceWindow Host.scatter Host.gather Host.reduceAdd Host.divsi Host.remsi Host.sqrt concatenate in
theorem out12_c_23 (W : Valuation τ sig (Elt F)) :
    after out12 W (main_c_23 : DevRef τ sig) = constantI S_ 32 4294967295#32 := by
  simp only [out12]
  after_results_simp
  all_goals (try simp only [ofBuf_toBuf])
  all_goals rfl

theorem out12_keep_v75 (W : Valuation τ sig (Elt F)) :
    after out12 W (main_v75 : DevRef τ sig) = W (main_v75 : DevRef τ sig) := by
  kept_by out12

theorem out12_keep_v51 (W : Valuation τ sig (Elt F)) :
    after out12 W (main_v51 : DevRef τ sig) = W (main_v51 : DevRef τ sig) := by
  kept_by out12

theorem out12_keep_v53 (W : Valuation τ sig (Elt F)) :
    after out12 W (main_v53 : DevRef τ sig) = W (main_v53 : DevRef τ sig) := by
  kept_by out12

theorem out12_keep_v74 (W : Valuation τ sig (Elt F)) :
    after out12 W (main_v74 : DevRef τ sig) = W (main_v74 : DevRef τ sig) := by
  kept_by out12

theorem out12_keep_v63 (W : Valuation τ sig (Elt F)) :
    after out12 W (main_v63 : DevRef τ sig) = W (main_v63 : DevRef τ sig) := by
  kept_by out12

attribute [local irreducible] Host.reduce Host.reduceWindow Host.scatter Host.gather Host.reduceAdd Host.divsi Host.remsi Host.sqrt concatenate in
theorem out13_v76 (W : Valuation τ sig (Elt F)) :
    after out13 W (main_v76 : DevRef τ sig) = where8Fn (W (main_v51 : DevRef τ sig)) (W (main_v53 : DevRef τ sig)) (W (main_c_23 : DevRef τ sig)) := by
  simp only [out13]
  after_results_simp
  all_goals (try simp only [ofBuf_toBuf])
  all_goals rfl

theorem out13_keep_v75 (W : Valuation τ sig (Elt F)) :
    after out13 W (main_v75 : DevRef τ sig) = W (main_v75 : DevRef τ sig) := by
  kept_by out13

theorem out13_keep_v74 (W : Valuation τ sig (Elt F)) :
    after out13 W (main_v74 : DevRef τ sig) = W (main_v74 : DevRef τ sig) := by
  kept_by out13

theorem out13_keep_v63 (W : Valuation τ sig (Elt F)) :
    after out13 W (main_v63 : DevRef τ sig) = W (main_v63 : DevRef τ sig) := by
  kept_by out13

attribute [local irreducible] Host.reduce Host.reduceWindow Host.scatter Host.gather Host.reduceAdd Host.divsi Host.remsi Host.sqrt concatenate in
theorem out14_v79 (W : Valuation τ sig (Elt F)) :
    after out14 W (main_v79 : DevRef τ sig) = concatenate S2x524288 0 [⟨S1x524288, (broadcastInDim S1x524288 ![1] bcast_S524288_S1x524288_1 (W (main_v75 : DevRef τ sig)))⟩, ⟨S1x524288, (broadcastInDim S1x524288 ![1] bcast_S524288_S1x524288_1 (W (main_v76 : DevRef τ sig)))⟩] concatenates_S1x524288_S1x524288_S2x524288_d0 := by
  simp only [out14]
  after_results_simp
  all_goals (try simp only [ofBuf_toBuf])
  all_goals rfl

theorem out14_keep_v74 (W : Valuation τ sig (Elt F)) :
    after out14 W (main_v74 : DevRef τ sig) = W (main_v74 : DevRef τ sig) := by
  kept_by out14

theorem out14_keep_v63 (W : Valuation τ sig (Elt F)) :
    after out14 W (main_v63 : DevRef τ sig) = W (main_v63 : DevRef τ sig) := by
  kept_by out14

/-! ### After the third piece -/

/-- After the third piece the first result's buffer holds `outIdx` of the count and the positions. -/
theorem out_v79 (W : Valuation τ sig (Elt F)) :
    after opsOut W (main_v79 : DevRef τ sig) = outIdx (W (main_v27 : DevRef τ sig)) (W (main_v47 : DevRef τ sig)) := by
  rewrite [opsOut_split]
  iterate 14 rewrite [after_append_apply]
  rewrite [out14_v79, out13_keep_v75, out13_v76, out12_keep_v75, out12_c_23, out12_keep_v51,
    out12_keep_v53, out11_v75, out11_keep_v51, out11_keep_v53, out10_c_22, out10_keep_v51,
    out10_keep_v52, out10_keep_v53, out9_keep_v51, out9_keep_v52, out9_keep_v53, out8_keep_v51,
    out8_keep_v52, out8_keep_v53, out7_keep_v51, out7_keep_v52, out7_keep_v53, out6_keep_v51,
    out6_keep_v52, out6_keep_v53, out5_keep_v51, out5_keep_v52, out5_keep_v53, out4_keep_v51,
    out4_keep_v52, out4_keep_v53, out3_keep_v51, out3_keep_v52, out3_v53, out2_keep_v51,
    out2_keep_v52, out2_c_14, out2_keep_v47, out1_keep_v51, out1_v52, out1_keep_v47,
    out0_v51, out0_c_13, out0_keep_v47]
  rfl

/-- After the third piece the second result's buffer holds `outW` of the count, the positions and the squared distances. -/
theorem out_v74 (W : Valuation τ sig (Elt F)) :
    after opsOut W (main_v74 : DevRef τ sig) = outW (W (main_v27 : DevRef τ sig)) (W (main_v47 : DevRef τ sig)) (W (main_v6 : DevRef τ sig)) := by
  rewrite [opsOut_split]
  iterate 14 rewrite [after_append_apply]
  rewrite [out14_keep_v74, out13_keep_v74, out12_keep_v74, out11_keep_v74, out10_keep_v74, out9_v74,
    out8_cst_21, out8_keep_v51, out8_v73, out7_keep_v51, out7_v72, out6_keep_v51,
    out6_cst_20, out6_v71, out5_keep_v51, out5_keep_v6, out5_keep_v47, out4_keep_v51,
    out4_keep_v6, out4_keep_v47, out3_keep_v51, out3_keep_v6, out3_keep_v47, out2_keep_v51,
    out2_keep_v6, out2_keep_v47, out1_keep_v51, out1_keep_v6, out1_keep_v47, out0_v51,
    out0_keep_v6, out0_keep_v47]
  rfl

/-- After the third piece the third result's buffer holds `outVec` of the count, the positions and the differences. -/
theorem out_v63 (W : Valuation τ sig (Elt F)) :
    after opsOut W (main_v63 : DevRef τ sig) = outVec (W (main_v27 : DevRef τ sig)) (W (main_v47 : DevRef τ sig)) (W (main_v4 : DevRef τ sig)) := by
  rewrite [opsOut_split]
  iterate 14 rewrite [after_append_apply]
  rewrite [out14_keep_v63, out13_keep_v63, out12_keep_v63, out11_keep_v63, out10_keep_v63, out9_keep_v63,
    out8_keep_v63, out7_keep_v63, out6_keep_v63, out5_v63, out4_cst_17, out4_v54,
    out4_v62, out3_keep_v51, out3_keep_v4, out3_keep_v47, out2_keep_v51, out2_keep_v4,
    out2_keep_v47, out1_keep_v51, out1_keep_v4, out1_keep_v47, out0_v51, out0_keep_v4,
    out0_keep_v47]
  rfl

theorem out_arg0 (W : Valuation τ sig (Elt F)) :
    after opsOut W (main_arg0 : DevRef τ sig) = W (main_arg0 : DevRef τ sig) := by
  kept_by opsOut

theorem out_arg1 (W : Valuation τ sig (Elt F)) :
    after opsOut W (main_arg1 : DevRef τ sig) = W (main_arg1 : DevRef τ sig) := by
  kept_by opsOut

/-! ## The whole line

The three pieces joined: the results and the arguments after @main's operations, from any contents `V` before them. -/

/-- The first result: the pairs' rows over their columns, from the flat pair mask of the two arguments. -/
theorem ops_v79 (V : Valuation τ sig (Elt F)) :
    after ops V (main_v79 : DevRef τ sig) = outIdx (nzCnt (refFlat (V (main_arg0 : DevRef τ sig)) (V (main_arg1 : DevRef τ sig)))) (nzIdx (refFlat (V (main_arg0 : DevRef τ sig)) (V (main_arg1 : DevRef τ sig)))) := by
  rewrite [after_ops, out_v79, nz_v27, nz_v47, mask_v25]
  rfl

/-- The second result: the pairs' distances, read off the table of squared distances. -/
theorem ops_v74 (V : Valuation τ sig (Elt F)) :
    after ops V (main_v74 : DevRef τ sig) = outW (nzCnt (refFlat (V (main_arg0 : DevRef τ sig)) (V (main_arg1 : DevRef τ sig)))) (nzIdx (refFlat (V (main_arg0 : DevRef τ sig)) (V (main_arg1 : DevRef τ sig)))) (refD2 (V (main_arg0 : DevRef τ sig))) := by
  rewrite [after_ops, out_v74, nz_v27, nz_v47, nz_v6, mask_v25, mask_v6]
  rfl

/-- The third result: the pairs' difference vectors, read off the table of differences. -/
theorem ops_v63 (V : Valuation τ sig (Elt F)) :
    after ops V (main_v63 : DevRef τ sig) = outVec (nzCnt (refFlat (V (main_arg0 : DevRef τ sig)) (V (main_arg1 : DevRef τ sig)))) (nzIdx (refFlat (V (main_arg0 : DevRef τ sig)) (V (main_arg1 : DevRef τ sig)))) (refDiff (V (main_arg0 : DevRef τ sig))) := by
  rewrite [after_ops, out_v63, nz_v27, nz_v47, nz_v4, mask_v25, mask_v4]
  rfl

/-- The arguments are unchanged. -/
theorem ops_arg0 (V : Valuation τ sig (Elt F)) : after ops V (main_arg0 : DevRef τ sig) = V (main_arg0 : DevRef τ sig) := by
  rewrite [after_ops, out_arg0, nz_arg0, mask_arg0]
  rfl

theorem ops_arg1 (V : Valuation τ sig (Elt F)) : after ops V (main_arg1 : DevRef τ sig) = V (main_arg1 : DevRef τ sig) := by
  rewrite [after_ops, out_arg1, nz_arg1, mask_arg1]
  rfl

/-! ## The run, read

The run of the straight line with each result buffer read: at the compiled mesh, for any float values, from any memory with
zero counters, every weakly fair execution of @main terminates; at its end the three results are the pure functions above of
the arguments' launch contents, and the arguments are unchanged. -/

theorem run_results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = outIdx (nzCnt (refFlat (m ((c.tc : Thread nD τ).loc main_arg0)) (m ((c.tc : Thread nD τ).loc main_arg1)))) (nzIdx (refFlat (m ((c.tc : Thread nD τ).loc main_arg0)) (m ((c.tc : Thread nD τ).loc main_arg1))))
      ∧ r.2.mem ((c.tc : Thread nD τ).loc main_v74) = outW (nzCnt (refFlat (m ((c.tc : Thread nD τ).loc main_arg0)) (m ((c.tc : Thread nD τ).loc main_arg1)))) (nzIdx (refFlat (m ((c.tc : Thread nD τ).loc main_arg0)) (m ((c.tc : Thread nD τ).loc main_arg1)))) (refD2 (m ((c.tc : Thread nD τ).loc main_arg0)))
      ∧ r.2.mem ((c.tc : Thread nD τ).loc main_v63) = outVec (nzCnt (refFlat (m ((c.tc : Thread nD τ).loc main_arg0)) (m ((c.tc : Thread nD τ).loc main_arg1)))) (nzIdx (refFlat (m ((c.tc : Thread nD τ).loc main_arg0)) (m ((c.tc : Thread nD τ).loc main_arg1)))) (refDiff (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v79).trans (ops_v79 (launchContents m c)), (h c main_v74).trans (ops_v74 (launchContents m c)),
        (h c main_v63).trans (ops_v63 (launchContents m c)), (h c main_arg0).trans (ops_arg0 (launchContents m c)),
        (h c main_arg1).trans (ops_arg1 (launchContents m c))⟩)
    (run_main m ρ)

end Cert.ReferenceIdeal.Hand

end
-- ==== Proof.RefReadTail.lean ====
/-
  The reference's outputs, as read off its run, in the terms of the bridge between the two programs.

  The run of the reference was read with its own spelling of the functions that make up the list of set positions and
  the three outputs.  Those functions are the same compositions as the ones the bridge is stated with; here each is
  identified with its counterpart and the reading of the run is restated in the bridge's terms.
-/
import proofs.«120686_j44890998178156_1_alg».proof.Proof.RefRead
import proofs.«120686_j44890998178156_1_alg».proof.Proof.TailOut
import proofs.«120686_j44890998178156_1_alg».proof.Proof.MaskBridge

noncomputable section

namespace Cert.Tail

open Cert.ReferenceIdeal Cert.ReferenceIdeal.Gen
open Idealize.ShloMosaic Idealize.ShloMosaic.TcCoe Idealize.SL.Sem Idealize.ShloMosaic.StableHlo
open Cert.ReferenceIdeal.Hand (ops)

section
variable [Cert.KernelIdeal.Facts] [Cert.ReferenceIdeal.Facts]

/-! ## The functions are the same -/

/-- The count of set positions. -/
theorem hand_nzCnt : Cert.ReferenceIdeal.Hand.nzCnt = nzCntT := rfl

/-- The list of set positions. -/
theorem hand_nzIdx : Cert.ReferenceIdeal.Hand.nzIdx = nzIdxT := rfl

/-- The pairs of the listed positions. -/
theorem hand_outIdx : Cert.ReferenceIdeal.Hand.outIdx = outIdxT := rfl

/-- The distances read off a table of squared distances. -/
theorem hand_outW : Cert.ReferenceIdeal.Hand.outW (F := Ideal) = rOutW := rfl

/-- The difference vectors read off a table of differences. -/
theorem hand_outVec : Cert.ReferenceIdeal.Hand.outVec (F := Ideal) = rOutVec := rfl

/-- The table of differences. -/
theorem hand_refDiff : Cert.ReferenceIdeal.Hand.refDiff (F := Ideal) = diffOf := rfl

/-- The table of squared distances. -/
theorem hand_refD2 : Cert.ReferenceIdeal.Hand.refD2 (F := Ideal) = d2Of := rfl

/-- The flat pair mask. -/
theorem hand_refFlat : Cert.ReferenceIdeal.Hand.refFlat (F := Ideal) = Cert.Bridge.refFlatT := rfl

/-- The table of differences, in the mask bridge's spelling. -/
theorem bridge_refDiff : Cert.Bridge.refDiff = diffOf := rfl

/-- The table of squared distances, in the mask bridge's spelling. -/
theorem bridge_refD2 : Cert.Bridge.refD2 = d2Of := rfl

/-! ## The reading of the run, restated -/

/-- After the reference's operations the first result holds the pairs of the listed set positions of the flat mask. -/
theorem ops_v79_tail (V : Valuation τ sig (Elt Ideal)) :
    after ops V (main_v79 : DevRef τ sig)
      = outIdxT
          (nzCntT (Cert.Bridge.refFlatT (V (main_arg0 : DevRef τ sig)) (V (main_arg1 : DevRef τ sig))))
          (nzIdxT (Cert.Bridge.refFlatT (V (main_arg0 : DevRef τ sig)) (V (main_arg1 : DevRef τ sig)))) :=
  Cert.ReferenceIdeal.Hand.ops_v79 V

/-- After the reference's operations the second result holds the distances read off the table of squared distances. -/
theorem ops_v74_tail (V : Valuation τ sig (Elt Ideal)) :
    after ops V (main_v74 : DevRef τ sig)
      = rOutW
          (nzCntT (Cert.Bridge.refFlatT (V (main_arg0 : DevRef τ sig)) (V (main_arg1 : DevRef τ sig))))
          (nzIdxT (Cert.Bridge.refFlatT (V (main_arg0 : DevRef τ sig)) (V (main_arg1 : DevRef τ sig))))
          (d2Of (V (main_arg0 : DevRef τ sig))) :=
  Cert.ReferenceIdeal.Hand.ops_v74 V

/-- After the reference's operations the third result holds the difference vectors read off the table of differences. -/
theorem ops_v63_tail (V : Valuation τ sig (Elt Ideal)) :
    after ops V (main_v63 : DevRef τ sig)
      = rOutVec
          (nzCntT (Cert.Bridge.refFlatT (V (main_arg0 : DevRef τ sig)) (V (main_arg1 : DevRef τ sig))))
          (nzIdxT (Cert.Bridge.refFlatT (V (main_arg0 : DevRef τ sig)) (V (main_arg1 : DevRef τ sig))))
          (diffOf (V (main_arg0 : DevRef τ sig))) :=
  Cert.ReferenceIdeal.Hand.ops_v63 V

/-- The run of the reference, read: every weakly fair execution from a memory with zero counters terminates, and at its
    end the three results are these functions of the arguments' launch contents, the arguments unchanged. -/
theorem run_results_tail (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v79)
          = outIdxT
              (nzCntT (Cert.Bridge.refFlatT (m ((c.tc : Thread nD τ).loc main_arg0)) (m ((c.tc : Thread nD τ).loc main_arg1))))
              (nzIdxT (Cert.Bridge.refFlatT (m ((c.tc : Thread nD τ).loc main_arg0)) (m ((c.tc : Thread nD τ).loc main_arg1))))
      ∧ r.2.mem ((c.tc : Thread nD τ).loc main_v74)
          = rOutW
              (nzCntT (Cert.Bridge.refFlatT (m ((c.tc : Thread nD τ).loc main_arg0)) (m ((c.tc : Thread nD τ).loc main_arg1))))
              (nzIdxT (Cert.Bridge.refFlatT (m ((c.tc : Thread nD τ).loc main_arg0)) (m ((c.tc : Thread nD τ).loc main_arg1))))
              (d2Of (m ((c.tc : Thread nD τ).loc main_arg0)))
      ∧ r.2.mem ((c.tc : Thread nD τ).loc main_v63)
          = rOutVec
              (nzCntT (Cert.Bridge.refFlatT (m ((c.tc : Thread nD τ).loc main_arg0)) (m ((c.tc : Thread nD τ).loc main_arg1))))
              (nzIdxT (Cert.Bridge.refFlatT (m ((c.tc : Thread nD τ).loc main_arg0)) (m ((c.tc : Thread nD τ).loc main_arg1))))
              (diffOf (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Hand.run_results (F := Ideal) m ρ

end

end Cert.Tail

end
-- ==== Proof.lean ====
/-
  The certificate of the neighbour search: a Pallas mask kernel followed by the host's compaction, against the reference
  that computes the mask on the host.

  Both programs take positions `pos : f32[8192, 3]` and labels `batch : i32[8192]`. A pair `(i, j)` is KEPT when the two
  points carry the same label, `i ≠ j`, and the squared distance `(x_i − x_j)² + (y_i − y_j)² + (z_i − z_j)²` lies in
  `[0, 25)`. The kernel's program computes the 8192 × 8192 mask of kept pairs in a region of 64 grid points (point `t`
  writes rows `128 t … 128 t + 127`), the reference computes it with whole-array host operations; both then flatten it,
  count it, compact the first 524288 kept pairs' flat indices in row-major order (a running sum, a histogram by
  scatter-add, a second running sum, a quotient and a remainder), split each index `e` into `(e / 8192, e % 8192)`, and
  return the index pairs, the pairs' distances and the pairs' difference vectors, padded where fewer pairs are kept.

  Why the results agree, as extended reals, with no use of the inputs' finiteness:
  * the two flat masks are the same vector of bits: at flat index `e = 8192 i + j` each is the conjunction of the same
    four tests, the kernel's sum `(dx² + dy²) + dz²` and the reference's `0 + dx² + dy² + dz²` being one extended real
    (addition there is commutative and associative with 0 neutral);
  * the compaction is one function of the flat mask in both programs, so the index pairs agree;
  * every compacted index is a remainder modulo 67108864 = 8192², so it lies in `[0, 8192²)`: its quotient and remainder by
    8192 are a row and a column in range, no negative-index wrap fires and no clamp binds, and the kernel's
    `pos[e / 8192] − pos[e % 8192]` is the reference's row `e` of the flattened differences `pos[i] − pos[j]`; likewise
    the kernel's sum of that row's squares is the reference's entry `e` of the flattened squared distances.

  The frames: each program is run as a whole — the kernel's as a stretch of host operations, the region, and the
  stretches of the compaction; the reference as one straight line of host operations — and its argument arrays are read
  back through the run unchanged. The idealized kernel is the kernel's own text read over the extended reals (no
  operation was rewritten), so nothing is owed for it.
-/
import proofs.«120686_j44890998178156_1_alg».proof.Defs
import proofs.«120686_j44890998178156_1_alg».proof.Proof.Gen.Kernel
import proofs.«120686_j44890998178156_1_alg».proof.Proof.Gen.KernelIdeal
import proofs.«120686_j44890998178156_1_alg».proof.Proof.Gen.ReferenceIdeal
import proofs.«120686_j44890998178156_1_alg».proof.Proof.Gen.Pre_finite_inputs
import proofs.«120686_j44890998178156_1_alg».proof.Proof.KRun
import proofs.«120686_j44890998178156_1_alg».proof.Proof.KRead
import proofs.«120686_j44890998178156_1_alg».proof.Proof.KIRun
import proofs.«120686_j44890998178156_1_alg».proof.Proof.KIReadTail
import proofs.«120686_j44890998178156_1_alg».proof.Proof.MaskBridge
import proofs.«120686_j44890998178156_1_alg».proof.Proof.TailOut
import proofs.«120686_j44890998178156_1_alg».proof.Proof.RefRead
import proofs.«120686_j44890998178156_1_alg».proof.Proof.RefReadTail
import Idealize.ShloMosaic.Adequacy
import Idealize.ShloMosaic.Init

set_option maxRecDepth 16384

noncomputable section

namespace Cert.Proof

open Idealize.ShloMosaic Idealize.ShloMosaic.TcCoe Idealize.SL.Sem

/-! ## The kernel's results, as functions of the launch memory's two arguments -/

section KernelSide

open Cert.KernelIdeal Cert.KernelIdeal.Hand

variable (m : (ℓ : Loc nD τ sig) → Buf (Elt Ideal) ℓ) (ρ : Dev nD → PrngReg)

/-- The positions and the labels a memory holds, and the flattened mask of kept pairs they determine. -/
abbrev posOf (c : Dev nD) : FVec Ideal S8192x3 .f32 := m ((c : Thread nD τ).loc main_arg0)
abbrev batchOf (c : Dev nD) : IVec S8192 32 := m ((c : Thread nD τ).loc main_arg1)
abbrev flatOf (c : Dev nD) : IVec Cert.ReferenceIdeal.S67108864 1 := Cert.Bridge.refFlatT (posOf m c) (batchOf m c)

/-- The index pairs: the compaction of the region's mask is the compaction of the reference's mask. -/
theorem k_idx (c : Dev nD) : Wn m ρ c (Proc.devRef .tc main_v60)
    = Cert.Tail.outIdxT (Cert.Tail.nzCntT (flatOf m c)) (Cert.Tail.nzIdxT (flatOf m c)) :=
  (Wn_main_v60_tail m ρ c).trans (by rw [Cert.Bridge.mask_eq m ρ c, Cert.Bridge.flat_bridge])

/-- The distances: the sum of squares of the gathered difference is the gathered squared distance. -/
theorem k_w (c : Dev nD) : Wn m ρ c (Proc.devRef .tc main_v55)
    = Cert.Tail.rOutW (Cert.Tail.nzCntT (flatOf m c)) (Cert.Tail.nzIdxT (flatOf m c)) (Cert.Tail.d2Of (posOf m c)) :=
  (Wn_main_v55_tail m ρ c).trans (by
    rw [Cert.Bridge.mask_eq m ρ c, Cert.Bridge.flat_bridge]
    exact Cert.Tail.outW_bridge (flatOf m c) (posOf m c))

/-- The difference vectors: the difference of the two gathered rows is the gathered row of the differences. -/
theorem k_vec (c : Dev nD) : Wn m ρ c (Proc.devRef .tc main_v52)
    = Cert.Tail.rOutVec (Cert.Tail.nzCntT (flatOf m c)) (Cert.Tail.nzIdxT (flatOf m c)) (Cert.Tail.diffOf (posOf m c)) :=
  (Wn_main_v52_tail m ρ c).trans (by
    rw [Cert.Bridge.mask_eq m ρ c, Cert.Bridge.flat_bridge]
    exact Cert.Tail.outVec_bridge (flatOf m c) (posOf m c))

end KernelSide

/-! ## The claims -/

/-- The kernel's program as printed runs and leaves its arguments as launched. -/
theorem frame_k : @Cert.frame_Kernel Cert.Kernel.Gen.facts Cert.Pre_finite_inputs.Gen.facts := fun m ρ _ =>
  (θ_run (Cert.Kernel.defs (F := Bits)) _ _).mono
    (fun r h c => ⟨(h c _ (Cert.Kernel.Hand.mem_uc Cert.Kernel.main_arg0 (by decide))).trans (Cert.Kernel.Hand.Wn_main_arg0 m ρ c),
      (h c _ (Cert.Kernel.Hand.mem_uc Cert.Kernel.main_arg1 (by decide))).trans (Cert.Kernel.Hand.Wn_main_arg1 m ρ c)⟩)
    (Cert.Kernel.Hand.run_main (F := Bits) m ρ)

/-- The same text over the extended reals runs and leaves its arguments as launched. -/
theorem frame_ki : @Cert.frame_KernelIdeal Cert.KernelIdeal.Gen.facts Cert.Pre_finite_inputs.Gen.facts := fun m ρ _ =>
  (θ_run (Cert.KernelIdeal.defs (F := Ideal)) _ _).mono
    (fun r h c => ⟨(h c _ (Cert.KernelIdeal.Hand.mem_uc Cert.KernelIdeal.main_arg0 (by decide))).trans (Cert.KernelIdeal.Hand.Wn_main_arg0 m ρ c),
      (h c _ (Cert.KernelIdeal.Hand.mem_uc Cert.KernelIdeal.main_arg1 (by decide))).trans (Cert.KernelIdeal.Hand.Wn_main_arg1 m ρ c)⟩)
    (Cert.KernelIdeal.Hand.run_main (F := Ideal) m ρ)

/-- The reference runs and leaves its arguments as launched. -/
theorem frame_ri : @Cert.frame_ReferenceIdeal Cert.ReferenceIdeal.Gen.facts Cert.Pre_finite_inputs.Gen.facts := fun m ρ _ =>
  (θ_run (Cert.ReferenceIdeal.defs (F := Ideal)) _ _).mono (fun r h c => ⟨(h c).2.2.2.1, (h c).2.2.2.2⟩)
    (Cert.ReferenceIdeal.Hand.run_results (F := Ideal) m ρ)

/-- From memories agreeing on the positions and the labels the two programs end with the same three results. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Tail.outIdxT (Cert.Tail.nzCntT (flatOf m c)) (Cert.Tail.nzIdxT (flatOf m c)),
    fun c => Cert.Tail.rOutW (Cert.Tail.nzCntT (flatOf m c)) (Cert.Tail.nzIdxT (flatOf m c)) (Cert.Tail.d2Of (posOf m c)),
    fun c => Cert.Tail.rOutVec (Cert.Tail.nzCntT (flatOf m c)) (Cert.Tail.nzIdxT (flatOf m c)) (Cert.Tail.diffOf (posOf m c)), ?_, ?_⟩
  · refine (θ_run (Cert.KernelIdeal.defs (F := Ideal)) _ _).mono (fun r h c => ⟨?_, ?_, ?_, ?_, ?_⟩)
      (Cert.KernelIdeal.Hand.run_main (F := Ideal) m ρ)
    · exact (h c _ (Cert.KernelIdeal.Hand.mem_uc Cert.KernelIdeal.main_v60 (by decide))).trans (k_idx m ρ c)
    · exact (h c _ (Cert.KernelIdeal.Hand.mem_uc Cert.KernelIdeal.main_v55 (by decide))).trans (k_w m ρ c)
    · exact (h c _ (Cert.KernelIdeal.Hand.mem_uc Cert.KernelIdeal.main_v52 (by decide))).trans (k_vec m ρ c)
    · exact (h c _ (Cert.KernelIdeal.Hand.mem_uc Cert.KernelIdeal.main_arg0 (by decide))).trans (Cert.KernelIdeal.Hand.Wn_main_arg0 m ρ c)
    · exact (h c _ (Cert.KernelIdeal.Hand.mem_uc Cert.KernelIdeal.main_arg1 (by decide))).trans (Cert.KernelIdeal.Hand.Wn_main_arg1 m ρ c)
  · refine (θ_run (Cert.ReferenceIdeal.defs (F := Ideal)) _ _).mono (fun r h c => ?_) (Cert.Tail.run_results_tail m' ρ')
    obtain ⟨h79, h74, h63, ha0, ha1⟩ := h c
    have e0 := (hagree c).1
    have e1 := (hagree c).2
    refine ⟨h79.trans ?_, h74.trans ?_, h63.trans ?_, ha0, ha1⟩
    · rw [e0, e1]
    · rw [e0, e1]
    · rw [e0, e1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
